-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x1024 : Shape := ⟨2, ![2048, 1024]⟩
abbrev S64x1024 : Shape := ⟨2, ![64, 1024]⟩
abbrev S16x64x64 : Shape := ⟨3, ![16, 64, 64]⟩
abbrev S16x64 : Shape := ⟨2, ![16, 64]⟩
abbrev S1024x1024 : Shape := ⟨2, ![1024, 1024]⟩
abbrev S1024 : Shape := ⟨1, ![1024]⟩
abbrev S_ : Shape := ⟨0, ![]⟩

class Facts : Prop where
  bcast_S_S2048x1024 : S_.BroadcastsInDim S2048x1024 (![] : Fin 0 → Fin S2048x1024.rank)
  reducesTo_S2048x1024_S_d0_1 : S2048x1024.ReducesTo [0, 1] S_
  h_S_ : 0 < S_.numel
  bcast_S_S64x1024 : S_.BroadcastsInDim S64x1024 (![] : Fin 0 → Fin S64x1024.rank)
  reducesTo_S64x1024_S_d0_1 : S64x1024.ReducesTo [0, 1] S_
  bcast_S_S16x64x64 : S_.BroadcastsInDim S16x64x64 (![] : Fin 0 → Fin S16x64x64.rank)
  reducesTo_S16x64x64_S_d0_1_2 : S16x64x64.ReducesTo [0, 1, 2] S_
  bcast_S_S16x64 : S_.BroadcastsInDim S16x64 (![] : Fin 0 → Fin S16x64.rank)
  reducesTo_S16x64_S_d0_1 : S16x64.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S1024 .f32) (main_arg12 : FVec F S1024 .f32) (main_arg13 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_v63 main_v67

def fn_part2 {F : FTy → Type} [FloatOps F] (main_arg7 : FVec F S16x64 .f32) (main_arg8 : FVec F S16x64x64 .f32) (main_arg9 : FVec F S16x64 .f32) (main_arg10 : FVec F S1024x1024 .f32) (main_arg11 : FVec F S1024 .f32) (main_arg12 : FVec F S1024 .f32) (main_arg13 : FVec F S1024 .f32) (main_v33 : IVec S_ 1) : IVec S_ 1 :=
  let main_v34 : FVec F S16x64 .f32 := Host.absf main_arg7
  let main_cst_12 : FVec F S_ .f32 := constant S_ .f32 0x7F800000#32
  let main_v35 : FVec F S16x64 .f32 := broadcastInDim S16x64 ![] bcast_S_S16x64 main_cst_12
  let main_v36 : IVec S16x64 1 := cmpf .olt main_v34 main_v35
  let main_c_13 : IVec S_ 1 := constantI S_ 1 1#1
  let main_v37 : IVec S_ 1 := (fun x v => Host.reduce IntOp.andi x v reducesTo_S16x64_S_d0_1 h_S_) main_v36 main_c_13
  let main_v38 : IVec S_ 1 := andi main_v33 main_v37
  let main_v39 : FVec F S16x64x64 .f32 := Host.absf main_arg8
  let main_cst_14 : FVec F S_ .f32 := constant S_ .f32 0x7F800000#32
  let main_v40 : FVec F S16x64x64 .f32 := broadcastInDim S16x64x64 ![] bcast_S_S16x64x64 main_cst_14
  let main_v41 : IVec S16x64x64 1 := cmpf .olt main_v39 main_v40
  let main_c_15 : IVec S_ 1 := constantI S_ 1 1#1
  let main_v42 : IVec S_ 1 := (fun x v => Host.reduce IntOp.andi x v reducesTo_S16x64x64_S_d0_1_2 h_S_) main_v41 main_c_15
  let main_v43 : IVec S_ 1 := andi main_v38 main_v42
  let main_v44 : FVec F S16x64 .f32 := Host.absf main_arg9
  let main_cst_16 : FVec F S_ .f32 := constant S_ .f32 0x7F800000#32
  let main_v45 : FVec F S16x64 .f32 := broadcastInDim S16x64 ![] bcast_S_S16x64 main_cst_16
  let main_v46 : IVec S16x64 1 := cmpf .olt main_v44 main_v45
  let main_c_17 : IVec S_ 1 := constantI S_ 1 1#1
  let main_v47 : IVec S_ 1 := (fun x v => Host.reduce IntOp.andi x v reducesTo_S16x64_S_d0_1 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_v48 main_v49 main_v50

def fn_part1 {F : FTy → Type} [FloatOps F] (main_arg4 : FVec F S16x64x64 .f32) (main_arg5 : FVec F S16x64 .f32) (main_arg6 : FVec F S16x64x64 .f32) (main_arg7 : FVec F S16x64 .f32) (main_arg8 : FVec F S16x64x64 .f32) (main_arg9 : FVec F S16x64 .f32) (main_arg10 : FVec F S1024x1024 .f32) (main_arg11 : FVec F S1024 .f32) (main_arg12 : FVec F S1024 .f32) (main_arg13 : FVec F S1024 .f32) (main_v13 : IVec S_ 1) (main_v16 : IVec S64x1024 1) : IVec S_ 1 :=
  let main_c_5 : IVec S_ 1 := constantI S_ 1 1#1
  let main_v17 : IVec S_ 1 := (fun x v => Host.reduce IntOp.andi x v reducesTo_S64x1024_S_d0_1 h_S_) main_v16 main_c_5
  let main_v18 : IVec S_ 1 := andi main_v13 main_v17
  let main_v19 : FVec F S16x64x64 .f32 := Host.absf main_arg4
  let main_cst_6 : FVec F S_ .f32 := constant S_ .f32 0x7F800000#32
  let main_v20 : FVec F S16x64x64 .f32 := broadcastInDim S16x64x64 ![] bcast_S_S16x64x64 main_cst_6
  let main_v21 : IVec S16x64x64 1 := cmpf .olt main_v19 main_v20
  let main_c_7 : IVec S_ 1 := constantI S_ 1 1#1
  let main_v22 : IVec S_ 1 := (fun x v => Host.reduce IntOp.andi x v reducesTo_S16x64x64_S_d0_1_2 h_S_) main_v21 main_c_7
  let main_v23 : IVec S_ 1 := andi main_v18 main_v22
  let main_v24 : FVec F S16x64 .f32 := Host.absf main_arg5
  let main_cst_8 : FVec F S_ .f32 := constant S_ .f32 0x7F800000#32
  let main_v25 : FVec F S16x64 .f32 := broadcastInDim S16x64 ![] bcast_S_S16x64 main_cst_8
  let main_v26 : IVec S16x64 1 := cmpf .olt main_v24 main_v25
  let main_c_9 : IVec S_ 1 := constantI S_ 1 1#1
  let main_v27 : IVec S_ 1 := (fun x v => Host.reduce IntOp.andi x v reducesTo_S16x64_S_d0_1 h_S_) main_v26 main_c_9
  let main_v28 : IVec S_ 1 := andi main_v23 main_v27
  let main_v29 : FVec F S16x64x64 .f32 := Host.absf main_arg6
  let main_cst_10 : FVec F S_ .f32 := constant S_ .f32 0x7F800000#32
  let main_v30 : FVec F S16x64x64 .f32 := broadcastInDim S16x64x64 ![] bcast_S_S16x64x64 main_cst_10
  let main_v31 : IVec S16x64x64 1 := cmpf .olt main_v29 main_v30
  let main_c_11 : IVec S_ 1 := constantI S_ 1 1#1
  let main_v32 : IVec S_ 1 := (fun x v => Host.reduce IntOp.andi x v reducesTo_S16x64x64_S_d0_1_2 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S2048x1024 .f32) (main_arg1 : FVec F S64x1024 .f32) (main_arg2 : FVec F S64x1024 .f32) (main_arg3 : FVec F S64x1024 .f32) (main_arg4 : FVec F S16x64x64 .f32) (main_arg5 : FVec F S16x64 .f32) (main_arg6 : FVec F S16x64x64 .f32) (main_arg7 : FVec F S16x64 .f32) (main_arg8 : FVec F S16x64x64 .f32) (main_arg9 : FVec F S16x64 .f32) (main_arg10 : FVec F S1024x1024 .f32) (main_arg11 : FVec F S1024 .f32) (main_arg12 : FVec F S1024 .f32) (main_arg13 : FVec F S1024 .f32) : IVec S_ 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_c : IVec S_ 1 := constantI S_ 1 1#1
  let main_v3 : IVec S_ 1 := (fun x v => Host.reduce IntOp.andi x v reducesTo_S2048x1024_S_d0_1 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  let main_v9 : FVec F S64x1024 .f32 := Host.absf main_arg2
  let main_cst_2 : FVec F S_ .f32 := constant S_ .f32 0x7F800000#32
  let main_v10 : FVec F S64x1024 .f32 := broadcastInDim S64x1024 ![] bcast_S_S64x1024 main_cst_2
  let main_v11 : IVec S64x1024 1 := cmpf .olt main_v9 main_v10
  let main_c_3 : IVec S_ 1 := constantI S_ 1 1#1
  let main_v12 : IVec S_ 1 := (fun x v => Host.reduce IntOp.andi x v reducesTo_S64x1024_S_d0_1 h_S_) main_v11 main_c_3
  let main_v13 : IVec S_ 1 := andi main_v8 main_v12
  let main_v14 : FVec F S64x1024 .f32 := Host.absf main_arg3
  let main_cst_4 : FVec F S_ .f32 := constant S_ .f32 0x7F800000#32
  let main_v15 : FVec F S64x1024 .f32 := broadcastInDim S64x1024 ![] bcast_S_S64x1024 main_cst_4
  let main_v16 : IVec S64x1024 1 := cmpf .olt main_v14 main_v15
  fn_part1 (F := F) main_arg4 main_arg5 main_arg6 main_arg7 main_arg8 main_arg9 main_arg10 main_arg11 main_arg12 main_arg13 main_v13 main_v16
-- ==== Kernel.lean ====
abbrev S2048x1024 : Shape := ⟨2, ![2048, 1024]⟩
abbrev S64x1024 : Shape := ⟨2, ![64, 1024]⟩
abbrev S16x64x64 : Shape := ⟨3, ![16, 64, 64]⟩
abbrev S16x64 : Shape := ⟨2, ![16, 64]⟩
abbrev S1024x1024 : Shape := ⟨2, ![1024, 1024]⟩
abbrev S1024 : Shape := ⟨1, ![1024]⟩
abbrev S16x1x64 : Shape := ⟨3, ![16, 1, 64]⟩
abbrev S2048x64 : Shape := ⟨2, ![2048, 64]⟩
abbrev S256x1024 : Shape := ⟨2, ![256, 1024]⟩
abbrev S256x64 : Shape := ⟨2, ![256, 64]⟩
abbrev S2x64x64 : Shape := ⟨3, ![2, 64, 64]⟩
abbrev S2x1x64 : Shape := ⟨3, ![2, 1, 64]⟩
abbrev S256x128 : Shape := ⟨2, ![256, 128]⟩
abbrev S2x2048x64 : Shape := ⟨3, ![2, 2048, 64]⟩
abbrev S1x64x64 : Shape := ⟨3, ![1, 64, 64]⟩
abbrev S64x64 : Shape := ⟨2, ![64, 64]⟩
abbrev S1x1x64 : Shape := ⟨3, ![1, 1, 64]⟩
abbrev S1x64 : Shape := ⟨2, ![1, 64]⟩
abbrev S1x2048x64 : Shape := ⟨3, ![1, 2048, 64]⟩
abbrev S256x2048 : Shape := ⟨2, ![256, 2048]⟩
abbrev S256 : Shape := ⟨1, ![256]⟩
abbrev S256x1 : Shape := ⟨2, ![256, 1]⟩
abbrev S1x1024 : Shape := ⟨2, ![1, 1024]⟩

abbrev nBuf : Space → Nat
  | .hbm => 22
  | .vmem => 40
  | .smem => 0
  | _ => 0

abbrev bufTy : (tb : Table) → Fin (tcTables nBuf tb) → BufTy
  | .hbm, ⟨0, _⟩ => ⟨S2048x1024, .f32⟩
  | .hbm, ⟨1, _⟩ => ⟨S64x1024, .f32⟩
  | .hbm, ⟨2, _⟩ => ⟨S64x1024, .f32⟩
  | .hbm, ⟨3, _⟩ => ⟨S64x1024, .f32⟩
  | .hbm, ⟨4, _⟩ => ⟨S16x64x64, .f32⟩
  | .hbm, ⟨5, _⟩ => ⟨S16x64, .f32⟩
  | .hbm, ⟨6, _⟩ => ⟨S16x64x64, .f32⟩
  | .hbm, ⟨7, _⟩ => ⟨S16x64, .f32⟩
  | .hbm, ⟨8, _⟩ => ⟨S16x64x64, .f32⟩
  | .hbm, ⟨9, _⟩ => ⟨S16x64, .f32⟩
  | .hbm, ⟨10, _⟩ => ⟨S1024x1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S16x1x64, .f32⟩
  | .hbm, ⟨15, _⟩ => ⟨S16x1x64, .f32⟩
  | .hbm, ⟨16, _⟩ => ⟨S16x1x64, .f32⟩
  | .hbm, ⟨17, _⟩ => ⟨S2048x64, .f32⟩
  | .hbm, ⟨18, _⟩ => ⟨S2048x64, .f32⟩
  | .hbm, ⟨19, _⟩ => ⟨S2048x64, .f32⟩
  | .hbm, ⟨20, _⟩ => ⟨S2048x1024, .f32⟩
  | .hbm, ⟨21, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S256x64, .f32⟩
  | .local _ .vmem, ⟨6, _⟩ => ⟨S256x64, .f32⟩
  | .local _ .vmem, ⟨7, _⟩ => ⟨S256x64, .f32⟩
  | .local _ .vmem, ⟨8, _⟩ => ⟨S256x64, .f32⟩
  | .local _ .vmem, ⟨9, _⟩ => ⟨S256x64, .f32⟩
  | .local _ .vmem, ⟨10, _⟩ => ⟨S256x64, .f32⟩
  | .local _ .vmem, ⟨11, _⟩ => ⟨S2048x64, .f32⟩
  | .local _ .vmem, ⟨12, _⟩ => ⟨S2048x64, .f32⟩
  | .local _ .vmem, ⟨13, _⟩ => ⟨S2048x64, .f32⟩
  | .local _ .vmem, ⟨14, _⟩ => ⟨S2x64x64, .f32⟩
  | .local _ .vmem, ⟨15, _⟩ => ⟨S2x64x64, .f32⟩
  | .local _ .vmem, ⟨16, _⟩ => ⟨S2x64x64, .f32⟩
  | .local _ .vmem, ⟨17, _⟩ => ⟨S2x64x64, .f32⟩
  | .local _ .vmem, ⟨18, _⟩ => ⟨S2x64x64, .f32⟩
  | .local _ .vmem, ⟨19, _⟩ => ⟨S2x64x64, .f32⟩
  | .local _ .vmem, ⟨20, _⟩ => ⟨S2x1x64, .f32⟩
  | .local _ .vmem, ⟨21, _⟩ => ⟨S2x1x64, .f32⟩
  | .local _ .vmem, ⟨22, _⟩ => ⟨S2x1x64, .f32⟩
  | .local _ .vmem, ⟨23, _⟩ => ⟨S2x1x64, .f32⟩
  | .local _ .vmem, ⟨24, _⟩ => ⟨S2x1x64, .f32⟩
  | .local _ .vmem, ⟨25, _⟩ => ⟨S2x1x64, .f32⟩
  | .local _ .vmem, ⟨26, _⟩ => ⟨S256x128, .f32⟩
  | .local _ .vmem, ⟨27, _⟩ => ⟨S256x128, .f32⟩
  | .local _ .vmem, ⟨28, _⟩ => ⟨S2x2048x64, .bf16⟩
  | .local _ .vmem, ⟨29, _⟩ => ⟨S2x2048x64, .bf16⟩
  | .local _ .vmem, ⟨30, _⟩ => ⟨S256x1024, .f32⟩
  | .local _ .vmem, ⟨31, _⟩ => ⟨S256x1024, .f32⟩
  | .local _ .vmem, ⟨32, _⟩ => ⟨S1024x1024, .f32⟩
  | .local _ .vmem, ⟨33, _⟩ => ⟨S1024, .f32⟩
  | .local _ .vmem, ⟨34, _⟩ => ⟨S1024, .f32⟩
  | .local _ .vmem, ⟨35, _⟩ => ⟨S1024, .f32⟩
  | .local _ .vmem, ⟨36, _⟩ => ⟨S256x1024, .f32⟩
  | .local _ .vmem, ⟨37, _⟩ => ⟨S256x1024, .f32⟩
  | .local _ .vmem, ⟨38, _⟩ => ⟨S256x1024, .f32⟩
  | .local _ .vmem, ⟨39, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3_0 : Ref sig .tc := ⟨.hbm, 17, rfl⟩
abbrev main_v3_1 : Ref sig .tc := ⟨.hbm, 18, rfl⟩
abbrev main_v3_2 : Ref sig .tc := ⟨.hbm, 19, rfl⟩
abbrev main_v4 : Ref sig .tc := ⟨.hbm, 20, rfl⟩
abbrev main_v5 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg6_1 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg8_1 : Ref sig .tc := ⟨.vmem, 25, rfl⟩
abbrev cc1_stg9_0 : Ref sig .tc := ⟨.vmem, 26, rfl⟩
abbrev cc1_stg9_1 : Ref sig .tc := ⟨.vmem, 27, rfl⟩
abbrev cc1_scratch0 : Ref sig .tc := ⟨.vmem, 28, rfl⟩
abbrev cc1_scratch1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg2_0 : Ref sig .tc := ⟨.vmem, 33, rfl⟩
abbrev cc2_stg3_0 : Ref sig .tc := ⟨.vmem, 34, rfl⟩
abbrev cc2_stg4_0 : Ref sig .tc := ⟨.vmem, 35, rfl⟩
abbrev cc2_stg5_0 : Ref sig .tc := ⟨.vmem, 36, rfl⟩
abbrev cc2_stg5_1 : Ref sig .tc := ⟨.vmem, 37, rfl⟩
abbrev cc2_stg6_0 : Ref sig .tc := ⟨.vmem, 38, rfl⟩
abbrev cc2_stg6_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem1_0 : DmaSem sig := 12
abbrev cc1_sem2_0 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc1_sem6_0 : DmaSem sig := 20
abbrev cc1_sem6_1 : DmaSem sig := 21
abbrev cc1_sem7_0 : DmaSem sig := 22
abbrev cc1_sem7_1 : DmaSem sig := 23
abbrev cc1_sem8_0 : DmaSem sig := 24
abbrev cc1_sem8_1 : DmaSem sig := 25
abbrev cc1_sem9_0 : DmaSem sig := 26
abbrev cc1_sem9_1 : DmaSem sig := 27
abbrev cc2_sem0_0 : DmaSem sig := 28
abbrev cc2_sem0_1 : DmaSem sig := 29
abbrev cc2_sem1_0 : DmaSem sig := 30
abbrev cc2_sem2_0 : DmaSem sig := 31
abbrev cc2_sem3_0 : DmaSem sig := 32
abbrev cc2_sem4_0 : DmaSem sig := 33
abbrev cc2_sem5_0 : DmaSem sig := 34
abbrev cc2_sem5_1 : DmaSem sig := 35
abbrev cc2_sem6_0 : DmaSem sig := 36
abbrev cc2_sem6_1 : DmaSem sig := 37

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![8, 8], ![false, false]⟩

def k1_mult1 (i : grid1.Coords) : BitVec 32 :=
  let arg1 : BitVec 32 := BitVec.ofNat 32 (i 1).val
  let c256_i32 : BitVec 32 := 256#32
  let v3 : BitVec 32 := Scalar.muli arg1 c256_i32
  v3
def k1_off1 (i : grid1.Coords) : Fin 2 → Nat :=
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  let c0 : Index := 0#32
  ![v5.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 1 → Memref sig .tc .vmem S2048x64 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S2048x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S2048x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S2x64x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S2x64x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S2x64x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S2x1x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S2x1x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S2x1x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S256x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S256x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S256x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  shapeCasts_S16x64_S16x1x64 : S16x64.ShapeCasts S16x1x64
  inb_S256x1024_S256x1024_0_0 : ∀ a, (![0, 0] : Fin 2 → Nat) a + S256x1024.size a ≤ S256x1024.size a
  h_S256x1024 : 0 < S256x1024.numel
  bitsLt_bf16_f32 : FTy.bits .bf16 < FTy.bits .f32
  inb_S64x1024_S64x1024_0_0 : ∀ a, (![0, 0] : Fin 2 → Nat) a + S64x1024.size a ≤ S64x1024.size a
  h_S64x1024 : 0 < S64x1024.numel
  inb_S256x64_S256x64_0_0 : ∀ a, (![0, 0] : Fin 2 → Nat) a + S256x64.size a ≤ S256x64.size a
  h_S256x64 : 0 < S256x64.numel
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  inb_S2x64x64_S2x64x64_0_0_0 : ∀ a, (![0, 0, 0] : Fin 3 → Nat) a + S2x64x64.size a ≤ S2x64x64.size a
  h_S2x64x64 : 0 < S2x64x64.numel
  slices_S2x64x64_o0_0_0_S1x64x64 : S2x64x64.Slices ![0, 0, 0] S1x64x64
  shapeCasts_S1x64x64_S64x64 : S1x64x64.ShapeCasts S64x64
  inb_S2x1x64_S1x1x64_0_0_0 : ∀ a, (![0, 0, 0] : Fin 3 → Nat) a + S1x1x64.size a ≤ S2x1x64.size a
  h_S1x1x64 : 0 < S1x1x64.numel
  shapeCasts_S1x1x64_S1x64 : S1x1x64.ShapeCasts S1x64
  broadcasts_S1x64_S2048x64 : S1x64.Broadcasts S2048x64
  inb_S2x2048x64_S1x2048x64_0_0_0 : ∀ a, (![0, 0, 0] : Fin 3 → Nat) a + S1x2048x64.size a ≤ S2x2048x64.size a
  h_S1x2048x64 : 0 < S1x2048x64.numel
  shapeCasts_S1x2048x64_S2048x64 : S1x2048x64.ShapeCasts S2048x64
  shapeCasts_S2048x64_S1x2048x64 : S2048x64.ShapeCasts S1x2048x64
  packedbf16_S2x2048x64_S1x2048x64_0_0_0 : (Rect.unit (s := S2x2048x64) ![0, 0, 0] S1x2048x64.size inb_S2x2048x64_S1x2048x64_0_0_0).PackedRows (EltTy.packing .bf16)
  slices_S2x64x64_o1_0_0_S1x64x64 : S2x64x64.Slices ![1, 0, 0] S1x64x64
  inb_S2x1x64_S1x1x64_1_0_0 : ∀ a, (![1, 0, 0] : Fin 3 → Nat) a + S1x1x64.size a ≤ S2x1x64.size a
  inb_S2x2048x64_S1x2048x64_1_0_0 : ∀ a, (![1, 0, 0] : Fin 3 → Nat) a + S1x2048x64.size a ≤ S2x2048x64.size a
  packedbf16_S2x2048x64_S1x2048x64_1_0_0 : (Rect.unit (s := S2x2048x64) ![1, 0, 0] S1x2048x64.size inb_S2x2048x64_S1x2048x64_1_0_0).PackedRows (EltTy.packing .bf16)
  shapeCasts_S256x64_S256x64 : S256x64.ShapeCasts S256x64
  broadcasts_S1x64_S256x64 : S1x64.Broadcasts S256x64
  reduces_S256x2048_S256 : S256x2048.Reduces [1] S256
  shapeCasts_S256_S256x1 : S256.ShapeCasts S256x1
  broadcasts_S256x1_S256x2048 : S256x1.Broadcasts S256x2048
  concatenates_S256x64_S256x64_S256x128_d1 : Shape.Concatenates [S256x64, S256x64] S256x128 1
  inb_S256x128_S256x128_0_0 : ∀ a, (![0, 0] : Fin 2 → Nat) a + S256x128.size a ≤ S256x128.size a
  h_S256x128 : 0 < S256x128.numel
  shapeCasts_S256x1024_S256x1024 : S256x1024.ShapeCasts S256x1024
  inb_S1024x1024_S1024x1024_0_0 : ∀ a, (![0, 0] : Fin 2 → Nat) a + S1024x1024.size a ≤ S1024x1024.size a
  h_S1024x1024 : 0 < S1024x1024.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  reduces_S256x1024_S256 : S256x1024.Reduces [1] S256
  broadcasts_S256x1_S256x1024 : S256x1.Broadcasts S256x1024
  dot_S256x1024_S64x1024_S256x64_1_1_0_0_n_n_wf : DotDims.WF S256x1024 S64x1024 S256x64 [1] [1] [0] [0] [] []
  dot_S2048x64_S64x64_S2048x64_1_1_0_0_n_n_wf : DotDims.WF S2048x64 S64x64 S2048x64 [1] [1] [0] [0] [] []
  dot_S256x64_S64x64_S256x64_1_1_0_0_n_n_wf : DotDims.WF S256x64 S64x64 S256x64 [1] [1] [0] [0] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  dot_S256x1024_S1024x1024_S256x1024_1_1_0_0_n_n_wf : DotDims.WF S256x1024 S1024x1024 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S2048x1024.size a
  hwx0_0 : ∀ i : grid0.Coords, EltTy.bits .f32 = 32 ∨ (Rect.block (s := S2048x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1024.size a ≤ S64x1024.size a
  hwx0_1 : ∀ i : grid0.Coords, EltTy.bits .f32 = 32 ∨ (Rect.block (s := S64x1024) S64x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1024.size a ≤ S64x1024.size a
  hwx0_2 : ∀ i : grid0.Coords, EltTy.bits .f32 = 32 ∨ (Rect.block (s := S64x1024) S64x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1024.size a ≤ S64x1024.size a
  hwx0_3 : ∀ i : grid0.Coords, EltTy.bits .f32 = 32 ∨ (Rect.block (s := S64x1024) S64x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x64.size a ≤ S2048x64.size a
  hwx0_4 : ∀ i : grid0.Coords, EltTy.bits .f32 = 32 ∨ (Rect.block (s := S2048x64) S256x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x64.size a ≤ S2048x64.size a
  hwx0_5 : ∀ i : grid0.Coords, EltTy.bits .f32 = 32 ∨ (Rect.block (s := S2048x64) S256x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x64.size a ≤ S2048x64.size a
  hwx0_6 : ∀ i : grid0.Coords, EltTy.bits .f32 = 32 ∨ (Rect.block (s := S2048x64) S256x64.size (cc0_transform_6 i) (hinb0_6 i)).WholeWords (EltTy.packing .f32)
  hrank1 : 0 < grid1.rank
  k1_mult1_dvd : ∀ i : grid1.Coords, 256 ∣ (k1_mult1 i).toNat
  k1_off1_inb : ∀ i : grid1.Coords, ∀ a, (k1_off1 i) a + S256x64.size a ≤ S2048x64.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S2048x64.size a ≤ S2048x64.size a
  hwx1_0 : ∀ i : grid1.Coords, EltTy.bits .f32 = 32 ∨ (Rect.block (s := S2048x64) S2048x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x64.size a ≤ S2048x64.size a
  hwx1_1 : ∀ i : grid1.Coords, EltTy.bits .f32 = 32 ∨ (Rect.block (s := S2048x64) S2048x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048x64.size a ≤ S2048x64.size a
  hwx1_2 : ∀ i : grid1.Coords, EltTy.bits .f32 = 32 ∨ (Rect.block (s := S2048x64) S2048x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2x64x64.size a ≤ S16x64x64.size a
  hwx1_3 : ∀ i : grid1.Coords, EltTy.bits .f32 = 32 ∨ (Rect.block (s := S16x64x64) S2x64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2x64x64.size a ≤ S16x64x64.size a
  hwx1_4 : ∀ i : grid1.Coords, EltTy.bits .f32 = 32 ∨ (Rect.block (s := S16x64x64) S2x64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2x64x64.size a ≤ S16x64x64.size a
  hwx1_5 : ∀ i : grid1.Coords, EltTy.bits .f32 = 32 ∨ (Rect.block (s := S16x64x64) S2x64x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2x1x64.size a ≤ S16x1x64.size a
  hwx1_6 : ∀ i : grid1.Coords, EltTy.bits .f32 = 32 ∨ (Rect.block (s := S16x1x64) S2x1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2x1x64.size a ≤ S16x1x64.size a
  hwx1_7 : ∀ i : grid1.Coords, EltTy.bits .f32 = 32 ∨ (Rect.block (s := S16x1x64) S2x1x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2x1x64.size a ≤ S16x1x64.size a
  hwx1_8 : ∀ i : grid1.Coords, EltTy.bits .f32 = 32 ∨ (Rect.block (s := S16x1x64) S2x1x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S256x128.size a ≤ S2048x1024.size a
  hwx1_9 : ∀ i : grid1.Coords, EltTy.bits .f32 = 32 ∨ (Rect.block (s := S2048x1024) S256x128.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x1024.size a ≤ S2048x1024.size a
  hwx2_0 : ∀ i : grid2.Coords, EltTy.bits .f32 = 32 ∨ (Rect.block (s := S2048x1024) S256x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S1024.size a
  hwx2_2 : ∀ i : grid2.Coords, EltTy.bits .f32 = 32 ∨ (Rect.block (s := S1024) S1024.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1024.size a ≤ S1024.size a
  hwx2_3 : ∀ i : grid2.Coords, EltTy.bits .f32 = 32 ∨ (Rect.block (s := S1024) S1024.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1024.size a ≤ S1024.size a
  hwx2_4 : ∀ i : grid2.Coords, EltTy.bits .f32 = 32 ∨ (Rect.block (s := S1024) S1024.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S256x1024.size a ≤ S2048x1024.size a
  hwx2_5 : ∀ i : grid2.Coords, EltTy.bits .f32 = 32 ∨ (Rect.block (s := S2048x1024) S256x1024.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S256x1024.size a ≤ S2048x1024.size a
  hwx2_6 : ∀ i : grid2.Coords, EltTy.bits .f32 = 32 ∨ (Rect.block (s := S2048x1024) S256x1024.size (cc2_transform_6 i) (hinb2_6 i)).WholeWords (EltTy.packing .f32)

variable [Facts₀]

def dot_S256x1024_S64x1024_S256x64_1_1_0_0_n_n : DotDims S256x1024 S64x1024 S256x64 where
  lhsContracting := [1]
  rhsContracting := [1]
  lhsNonContracting := [0]
  rhsNonContracting := [0]
  lhsBatch := []
  rhsBatch := []
  wf := dot_S256x1024_S64x1024_S256x64_1_1_0_0_n_n_wf
def dot_S2048x64_S64x64_S2048x64_1_1_0_0_n_n : DotDims S2048x64 S64x64 S2048x64 where
  lhsContracting := [1]
  rhsContracting := [1]
  lhsNonContracting := [0]
  rhsNonContracting := [0]
  lhsBatch := []
  rhsBatch := []
  wf := dot_S2048x64_S64x64_S2048x64_1_1_0_0_n_n_wf
def dot_S256x64_S64x64_S256x64_1_1_0_0_n_n : DotDims S256x64 S64x64 S256x64 where
  lhsContracting := [1]
  rhsContracting := [1]
  lhsNonContracting := [0]
  rhsNonContracting := [0]
  lhsBatch := []
  rhsBatch := []
  wf := dot_S256x64_S64x64_S256x64_1_1_0_0_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S64x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S256x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S256x64.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_2) S256x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v3_0) S2048x64.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v3_1) S2048x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v3_2) S2048x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S2x64x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S2x64x64.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S2x64x64.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v1) S2x1x64.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v0) S2x1x64.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v2) S2x1x64.size cc1_transform_8 reads1_8 false false 2 stage1_8 sem1_8
    hrank1 hreads1_8 hinb1_8 nbuf1_8 (Memref.isWhole_whole _) hwx1_8 hstage1_8

abbrev win1_9 : Pipeline.Window sig grid1 :=
  Pipeline.Window.ofSpec (Memref.whole main_v4) S256x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v4) S256x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg10) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg11) S1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg12) S1024.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg13) S1024.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg0) S256x1024.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_v5) S256x1024.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S2048x1024 : Shape := ⟨2, ![2048, 1024]⟩
abbrev S64x1024 : Shape := ⟨2, ![64, 1024]⟩
abbrev S16x64x64 : Shape := ⟨3, ![16, 64, 64]⟩
abbrev S16x64 : Shape := ⟨2, ![16, 64]⟩
abbrev S1024x1024 : Shape := ⟨2, ![1024, 1024]⟩
abbrev S1024 : Shape := ⟨1, ![1024]⟩
abbrev S1024x64 : Shape := ⟨2, ![1024, 64]⟩
abbrev S2048x64 : Shape := ⟨2, ![2048, 64]⟩
abbrev S16x64x2048 : Shape := ⟨3, ![16, 64, 2048]⟩
abbrev S16x2048x64 : Shape := ⟨3, ![16, 2048, 64]⟩
abbrev S16x1x64 : Shape := ⟨3, ![16, 1, 64]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩
abbrev S2048x16x64 : Shape := ⟨3, ![2048, 16, 64]⟩
abbrev S1x1024 : Shape := ⟨2, ![1, 1024]⟩
abbrev S2048 : Shape := ⟨1, ![2048]⟩
abbrev S2048x1 : Shape := ⟨2, ![2048, 1]⟩

abbrev nBuf : Space → Nat
  | .hbm => 91
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S64x1024, .f32⟩
  | .hbm, ⟨2, _⟩ => ⟨S64x1024, .f32⟩
  | .hbm, ⟨3, _⟩ => ⟨S64x1024, .f32⟩
  | .hbm, ⟨4, _⟩ => ⟨S16x64x64, .f32⟩
  | .hbm, ⟨5, _⟩ => ⟨S16x64, .f32⟩
  | .hbm, ⟨6, _⟩ => ⟨S16x64x64, .f32⟩
  | .hbm, ⟨7, _⟩ => ⟨S16x64, .f32⟩
  | .hbm, ⟨8, _⟩ => ⟨S16x64x64, .f32⟩
  | .hbm, ⟨9, _⟩ => ⟨S16x64, .f32⟩
  | .hbm, ⟨10, _⟩ => ⟨S1024x1024, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024x64, .f32⟩
  | .hbm, ⟨15, _⟩ => ⟨S2048x64, .f32⟩
  | .hbm, ⟨16, _⟩ => ⟨S1024x64, .f32⟩
  | .hbm, ⟨17, _⟩ => ⟨S2048x64, .f32⟩
  | .hbm, ⟨18, _⟩ => ⟨S1024x64, .f32⟩
  | .hbm, ⟨19, _⟩ => ⟨S2048x64, .f32⟩
  | .hbm, ⟨20, _⟩ => ⟨S16x64x2048, .f32⟩
  | .hbm, ⟨21, _⟩ => ⟨S16x2048x64, .f32⟩
  | .hbm, ⟨22, _⟩ => ⟨S16x1x64, .f32⟩
  | .hbm, ⟨23, _⟩ => ⟨S16x2048x64, .f32⟩
  | .hbm, ⟨24, _⟩ => ⟨S16x2048x64, .f32⟩
  | .hbm, ⟨25, _⟩ => ⟨S16x64x2048, .f32⟩
  | .hbm, ⟨26, _⟩ => ⟨S16x2048x64, .f32⟩
  | .hbm, ⟨27, _⟩ => ⟨S16x1x64, .f32⟩
  | .hbm, ⟨28, _⟩ => ⟨S16x2048x64, .f32⟩
  | .hbm, ⟨29, _⟩ => ⟨S16x2048x64, .f32⟩
  | .hbm, ⟨30, _⟩ => ⟨S16x64x2048, .f32⟩
  | .hbm, ⟨31, _⟩ => ⟨S16x2048x64, .f32⟩
  | .hbm, ⟨32, _⟩ => ⟨S16x1x64, .f32⟩
  | .hbm, ⟨33, _⟩ => ⟨S16x2048x64, .f32⟩
  | .hbm, ⟨34, _⟩ => ⟨S16x2048x64, .f32⟩
  | .hbm, ⟨35, _⟩ => ⟨S16x2048x2048, .f32⟩
  | .hbm, ⟨36, _⟩ => ⟨S_, .f32⟩
  | .hbm, ⟨37, _⟩ => ⟨S16x2048x2048, .f32⟩
  | .hbm, ⟨38, _⟩ => ⟨S16x2048x2048, .f32⟩
  | .hbm, ⟨39, _⟩ => ⟨S_, .f32⟩
  | .hbm, ⟨40, _⟩ => ⟨S16x2048, .f32⟩
  | .hbm, ⟨41, _⟩ => ⟨S_, .f32⟩
  | .hbm, ⟨42, _⟩ => ⟨S16x2048, .f32⟩
  | .hbm, ⟨43, _⟩ => ⟨S16x2048, .f32⟩
  | .hbm, ⟨44, _⟩ => ⟨S16x2048x1, .f32⟩
  | .hbm, ⟨45, _⟩ => ⟨S16x2048x2048, .f32⟩
  | .hbm, ⟨46, _⟩ => ⟨S16x2048x2048, .f32⟩
  | .hbm, ⟨47, _⟩ => ⟨S16x2048x2048, .f32⟩
  | .hbm, ⟨48, _⟩ => ⟨S_, .f32⟩
  | .hbm, ⟨49, _⟩ => ⟨S16x2048, .f32⟩
  | .hbm, ⟨50, _⟩ => ⟨S16x2048x1, .f32⟩
  | .hbm, ⟨51, _⟩ => ⟨S16x2048x2048, .f32⟩
  | .hbm, ⟨52, _⟩ => ⟨S16x2048x2048, .f32⟩
  | .hbm, ⟨53, _⟩ => ⟨S16x2048x64, .f32⟩
  | .hbm, ⟨54, _⟩ => ⟨S2048x16x64, .f32⟩
  | .hbm, ⟨55, _⟩ => ⟨S2048x1024, .f32⟩
  | .hbm, ⟨56, _⟩ => ⟨S1024x1024, .f32⟩
  | .hbm, ⟨57, _⟩ => ⟨S2048x1024, .f32⟩
  | .hbm, ⟨58, _⟩ => ⟨S1x1024, .f32⟩
  | .hbm, ⟨59, _⟩ => ⟨S2048x1024, .f32⟩
  | .hbm, ⟨60, _⟩ => ⟨S2048x1024, .f32⟩
  | .hbm, ⟨61, _⟩ => ⟨S2048x1024, .f32⟩
  | .hbm, ⟨62, _⟩ => ⟨S_, .f32⟩
  | .hbm, ⟨63, _⟩ => ⟨S2048, .f32⟩
  | .hbm, ⟨64, _⟩ => ⟨S2048x1, .f32⟩
  | .hbm, ⟨65, _⟩ => ⟨S_, .f32⟩
  | .hbm, ⟨66, _⟩ => ⟨S2048x1, .f32⟩
  | .hbm, ⟨67, _⟩ => ⟨S2048x1, .f32⟩
  | .hbm, ⟨68, _⟩ => ⟨S2048x1024, .f32⟩
  | .hbm, ⟨69, _⟩ => ⟨S2048x1024, .f32⟩
  | .hbm, ⟨70, _⟩ => ⟨S2048x1024, .f32⟩
  | .hbm, ⟨71, _⟩ => ⟨S_, .f32⟩
  | .hbm, ⟨72, _⟩ => ⟨S2048, .f32⟩
  | .hbm, ⟨73, _⟩ => ⟨S2048x1, .f32⟩
  | .hbm, ⟨74, _⟩ => ⟨S_, .f32⟩
  | .hbm, ⟨75, _⟩ => ⟨S2048x1, .f32⟩
  | .hbm, ⟨76, _⟩ => ⟨S2048x1, .f32⟩
  | .hbm, ⟨77, _⟩ => ⟨S2048x1024, .f32⟩
  | .hbm, ⟨78, _⟩ => ⟨S2048x1024, .f32⟩
  | .hbm, ⟨79, _⟩ => ⟨S_, .f32⟩
  | .hbm, ⟨80, _⟩ => ⟨S2048x1, .f32⟩
  | .hbm, ⟨81, _⟩ => ⟨S2048x1, .f32⟩
  | .hbm, ⟨82, _⟩ => ⟨S2048x1, .f32⟩
  | .hbm, ⟨83, _⟩ => ⟨S2048x1024, .f32⟩
  | .hbm, ⟨84, _⟩ => ⟨S2048x1024, .f32⟩
  | .hbm, ⟨85, _⟩ => ⟨S1x1024, .f32⟩
  | .hbm, ⟨86, _⟩ => ⟨S2048x1024, .f32⟩
  | .hbm, ⟨87, _⟩ => ⟨S2048x1024, .f32⟩
  | .hbm, ⟨88, _⟩ => ⟨S1x1024, .f32⟩
  | .hbm, ⟨89, _⟩ => ⟨S2048x1024, .f32⟩
  | .hbm, ⟨90, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst : Ref sig .tc := ⟨.hbm, 36, rfl⟩
abbrev main_v22 : Ref sig .tc := ⟨.hbm, 37, rfl⟩
abbrev main_v23 : Ref sig .tc := ⟨.hbm, 38, rfl⟩
abbrev main_cst_0 : Ref sig .tc := ⟨.hbm, 39, rfl⟩
abbrev main_v24 : Ref sig .tc := ⟨.hbm, 40, rfl⟩
abbrev main_cst_1 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_2 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_3 : Ref sig .tc := ⟨.hbm, 62, rfl⟩
abbrev main_v44 : Ref sig .tc := ⟨.hbm, 63, rfl⟩
abbrev main_v45 : Ref sig .tc := ⟨.hbm, 64, rfl⟩
abbrev main_cst_4 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_5 : Ref sig .tc := ⟨.hbm, 71, rfl⟩
abbrev main_v51 : Ref sig .tc := ⟨.hbm, 72, rfl⟩
abbrev main_v52 : Ref sig .tc := ⟨.hbm, 73, rfl⟩
abbrev main_cst_6 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_7 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩

abbrev nD : Nat := 1
abbrev τ : Topo := Topo.v7x

variable {F : FTy → Type} [FloatOps F]

class Facts₀ : Prop where
  transposes_S64x1024_S1024x64_1_0 : S64x1024.Transposes [1, 0] S1024x64
  transposes_S16x64x2048_S16x2048x64_0_2_1 : S16x64x2048.Transposes [0, 2, 1] S16x2048x64
  bcast_S16x64_S16x1x64_0_2 : S16x64.BroadcastsInDim S16x1x64 (![0, 2] : Fin 2 → Fin S16x1x64.rank)
  bcast_S16x1x64_S16x2048x64_0_1_2 : S16x1x64.BroadcastsInDim S16x2048x64 (![0, 1, 2] : Fin 3 → Fin S16x2048x64.rank)
  bcast_S_S16x2048x2048 : S_.BroadcastsInDim S16x2048x2048 (![] : Fin 0 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  transposes_S16x2048x64_S2048x16x64_1_0_2 : S16x2048x64.Transposes [1, 0, 2] S2048x16x64
  shapeCasts_S2048x16x64_S2048x1024 : S2048x16x64.ShapeCasts S2048x1024
  transposes_S1024x1024_S1024x1024_1_0 : S1024x1024.Transposes [1, 0] S1024x1024
  bcast_S1024_S1x1024_1 : S1024.BroadcastsInDim S1x1024 (![1] : Fin 1 → Fin S1x1024.rank)
  bcast_S1x1024_S2048x1024_0_1 : S1x1024.BroadcastsInDim S2048x1024 (![0, 1] : Fin 2 → Fin S2048x1024.rank)
  reducesTo_S2048x1024_S2048_d1 : S2048x1024.ReducesTo [1] S2048
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x1024_0_1 : S2048x1.BroadcastsInDim S2048x1024 (![0, 1] : Fin 2 → Fin S2048x1024.rank)
  dot_S2048x1024_S1024x64_S2048x64_1_0_0_1_n_n_wf : DotDims.WF S2048x1024 S1024x64 S2048x64 [1] [0] [0] [1] [] []
  dot_S16x64x64_S2048x64_S16x64x2048_2_1_01_0_n_n_wf : DotDims.WF S16x64x64 S2048x64 S16x64x2048 [2] [1] [0, 1] [0] [] []
  dot_S16x2048x64_S16x2048x64_S16x2048x2048_2_2_1_1_0_0_wf : DotDims.WF S16x2048x64 S16x2048x64 S16x2048x2048 [2] [2] [1] [1] [0] [0]
  dot_S16x2048x2048_S16x2048x64_S16x2048x64_2_1_1_2_0_0_wf : DotDims.WF S16x2048x2048 S16x2048x64 S16x2048x64 [2] [1] [1] [2] [0] [0]
  dot_S2048x1024_S1024x1024_S2048x1024_1_0_0_1_n_n_wf : DotDims.WF S2048x1024 S1024x1024 S2048x1024 [1] [0] [0] [1] [] []

variable [Facts₀]

def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf
def dot_S16x64x64_S2048x64_S16x64x2048_2_1_01_0_n_n : DotDims S16x64x64 S2048x64 S16x64x2048 where
  lhsContracting := [2]
  rhsContracting := [1]
  lhsNonContracting := [0, 1]
  rhsNonContracting := [0]
  lhsBatch := []
  rhsBatch := []
  wf := dot_S16x64x64_S2048x64_S16x64x2048_2_1_01_0_n_n_wf
def dot_S16x2048x64_S16x2048x64_S16x2048x2048_2_2_1_1_0_0 : DotDims S16x2048x64 S16x2048x64 S16x2048x2048 where
  lhsContracting := [2]
  rhsContracting := [2]
  lhsNonContracting := [1]
  rhsNonContracting := [1]
  lhsBatch := [0]
  rhsBatch := [0]
  wf := dot_S16x2048x64_S16x2048x64_S16x2048x2048_2_2_1_1_0_0_wf
def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf
def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf

class Facts : Prop extends Facts₀ where

variable [Facts]
-- ==== Proof.Reference.lean ====
/-
  The reference program has no kernel launch: it is a straight line of host operations, so its run is a
  composition of pure array functions of the fourteen argument arrays. That every weakly fair execution ends,
  faults nowhere and leaves the arguments as they were is that run with the statement about the result dropped.
-/
import proofs.«114948_j41841571398363_2_alg».proof.Defs
import proofs.«114948_j41841571398363_2_alg».proof.Proof.Gen.ReferenceIdeal
import proofs.«114948_j41841571398363_2_alg».proof.Proof.Gen.Pre_finite_inputs
import proofs.«114948_j41841571398363_2_alg».proof.Proof.Gen.ReferenceIdeal.Run
import proofs.«114948_j41841571398363_2_alg».proof.Proof.Gen.ReferenceIdeal.Read

noncomputable section

open Idealize.ShloMosaic Idealize.ShloMosaic.TcCoe Idealize.SL.Sem

namespace Cert.Proof.Reference

/-- The reference terminates without a fault and its fourteen arguments end unchanged. -/
theorem frame_ri
    [hR : Cert.ReferenceIdeal.Facts] [hP : Cert.Pre_finite_inputs.Facts] : Cert.frame_ReferenceIdeal := fun m ρ _ =>
  (θ_run Cert.ReferenceIdeal.defs _ _).mono (fun _ h c => (h c).2) (Cert.ReferenceIdeal.Value.run (F := Ideal) m ρ)

end Cert.Proof.Reference

end
-- ==== Proof.K.Proj.lean ====
/-
  The first launch: the shared projections. Its grid has eight points; point t stages rows 256·t … 256·t + 255 of
  the sequence (a [256, 1024] block) beside the three [64, 1024] weight matrices, which are staged once and stay,
  and writes three [256, 64] blocks: the block of rows times each weight matrix transposed, one whole contraction
  over the 1024 columns each.

  Stated here at ANY contents V of the core's buffers when the launch is entered: what the body leaves in each
  output block as a function of the four input blocks, that the body does so from whole staging buffers, and the
  bookkeeping the pipeline needs at every point (each input block is where the body looks for it whether it was
  fetched at this point or earlier).
-/
import proofs.«114948_j41841571398363_2_alg».proof.Proof.Gen.Kernel.Launch
import proofs.«114948_j41841571398363_2_alg».proof.Proof.Gen.Kernel.Skeleton
import proofs.«114948_j41841571398363_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Proj

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the launch finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data over these arrays whose body leaves the block where it found it (the window is never cut and never idle). -/
theorem before_in0_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1's current staging buffer holds its block at every point, fetched there or not, for any proof
    data over these arrays whose body leaves the block where it found it (the window is never cut and never idle). -/
theorem before_in1_of {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2's current staging buffer holds its block at every point, fetched there or not, for any proof
    data over these arrays whose body leaves the block where it found it (the window is never cut and never idle). -/
theorem before_in2_of {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- Input window 3's current staging buffer holds its block at every point, fetched there or not, for any proof
    data over these arrays whose body leaves the block where it found it (the window is never cut and never idle). -/
theorem before_in3_of {c : Dev nD} (dat : Dat τ (Elt F) Unit ℕ (UR sig nD τ) ℕ cfg0 c) (hA : dat.A 3 = V c (Pipeline.arrRef spec0 3))
    (hafter : ∀ t, dat.after 3 t = blk V c 3 t) (t : Fin cfg0.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-! ## The body's accesses: every load and store is of a whole block -/

abbrev rX : Rect S256x1024 := Rect.unit (s := S256x1024) ![0, 0] S256x1024.size inb_S256x1024_S256x1024_0_0
abbrev rW : Rect S64x1024 := Rect.unit (s := S64x1024) ![0, 0] S64x1024.size inb_S64x1024_S64x1024_0_0
abbrev rO : Rect S256x64 := Rect.unit (s := S256x64) ![0, 0] S256x64.size inb_S256x64_S256x64_0_0

/-- What the body leaves in the query block: rows times the query weights transposed. -/
def outQ (x : Vec F S256x1024 .f32) (wq : Vec F S64x1024 .f32) : Vec F S256x64 .f32 :=
  View.canon [⟨rO, k0_pay2 (View.ld x rX) (View.ld wq rW)⟩]
/-- What the body leaves in the key block. -/
def outK (x : Vec F S256x1024 .f32) (wk : Vec F S64x1024 .f32) : Vec F S256x64 .f32 :=
  View.canon [⟨rO, k0_pay3 (View.ld x rX) (View.ld wk rW)⟩]
/-- What the body leaves in the value block. -/
def outV (x : Vec F S256x1024 .f32) (wv : Vec F S64x1024 .f32) : Vec F S256x64 .f32 :=
  View.canon [⟨rO, k0_pay4 (View.ld x rX) (View.ld wv rW)⟩]

/-- One whole-block store covers the block. -/
theorem coverO (p : Vec F S256x64 .f32) (y : S256x64.Idx) :
    ∃ pc ∈ ([⟨rO, p⟩] : List (View.Piece (Elt F) S256x64 .f32)), y ∈ pc.1.set :=
  View.cover_of_tiled [⟨rO, p⟩] S256x64.size (by rfl) y

set_option maxHeartbeats 4000000 in
/-- The body, on whole staging buffers holding the four input blocks and anything in the three output buffers,
    runs to its return with the inputs as they were and the outputs at the three products. -/
theorem sound_kernel (c : Dev nD) (E : Set ℕ) (i : grid0.Coords)
    (a1 : Memref sig .tc .vmem S256x1024 .f32) (h1 : a1.IsWhole) (a2 : Memref sig .tc .vmem S64x1024 .f32) (h2 : a2.IsWhole)
    (a3 : Memref sig .tc .vmem S64x1024 .f32) (h3 : a3.IsWhole) (a4 : Memref sig .tc .vmem S64x1024 .f32) (h4 : a4.IsWhole)
    (a5 : Memref sig .tc .vmem S256x64 .f32) (h5 : a5.IsWhole) (a6 : Memref sig .tc .vmem S256x64 .f32) (h6 : a6.IsWhole)
    (a7 : Memref sig .tc .vmem S256x64 .f32) (h7 : a7.IsWhole)
    (x : Vec F S256x1024 .f32) (wq wk wv : Vec F S64x1024 .f32) (K : PUnit → sProp 𝕄) :
    iprop(owns (c : Thread nD τ) a1 fullShare x ∗ owns (c : Thread nD τ) a2 fullShare wq
        ∗ owns (c : Thread nD τ) a3 fullShare wk ∗ owns (c : Thread nD τ) a4 fullShare wv
        ∗ (∃ d, owns (c : Thread nD τ) a5 fullShare d) ∗ (∃ d, owns (c : Thread nD τ) a6 fullShare d)
        ∗ (∃ d, owns (c : Thread nD τ) a7 fullShare d)
        ∗ (iprop(owns (c : Thread nD τ) a1 fullShare x ∗ owns (c : Thread nD τ) a2 fullShare wq
            ∗ owns (c : Thread nD τ) a3 fullShare wk ∗ owns (c : Thread nD τ) a4 fullShare wv
            ∗ owns (c : Thread nD τ) a5 fullShare (outQ x wq) ∗ owns (c : Thread nD τ) a6 fullShare (outK x wk)
            ∗ owns (c : Thread nD τ) a7 fullShare (outV x wv)) -∗ K ⟨⟩))
      ⊢ wp frame (wpE (defs₀ (F := F)) Variants.none c none) E (cc0__proj_kernel i a1 h1 a2 h2 a3 h3 a4 h4 a5 h5 a6 h6 a7 h7) K := by
  simp only [cc0__proj_kernel_eq_skeleton]; unfold cc0__proj_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf1 hf2 hf3 hf4
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    exact View.read_writes_eq_canon _ _ _ (coverO _)
  isplitl [H6]
  · iexists _; isplitr
    swap; · iexact H6
    ipureintro
    exact View.read_writes_eq_canon _ _ _ (coverO _)
  iexists _; isplitr
  swap; · iexact H7
  ipureintro
  exact View.read_writes_eq_canon _ _ _ (coverO _)

/-! ## The proof data and the obligation at every point -/

/-- The pipeline's proof data for this launch on core c: the seven arrays as the launch finds them; after the body at
    point t every input buffer still at its block and the three output buffers at the three products of the input
    blocks; between points only what the kernel never names (the scoped rest and the generator register); nothing
    owed to any other core; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => outQ (blk V c 0 t) (blk V c 1 t)
    | ⟨5, _⟩ => outK (blk V c 0 t) (blk V c 2 t)
    | ⟨6, _⟩ => outV (blk V c 0 t) (blk V c 3 t)
  Φ _ := Pipeline.ΦA spec0 c
  q _ := fullShare
  owed _ := 0

theorem A_eq (c : Dev nD) (w : Fin cfg0.W) : (dat V c).A w = V c (Pipeline.arrRef spec0 w) := by
  dsimp only [dat]

theorem after0 (c : Dev nD) (t : Fin cfg0.N) : (dat V c).after 0 t = blk V c 0 t := by dsimp only [dat]
theorem after1 (c : Dev nD) (t : Fin cfg0.N) : (dat V c).after 1 t = blk V c 1 t := by dsimp only [dat]
theorem after2 (c : Dev nD) (t : Fin cfg0.N) : (dat V c).after 2 t = blk V c 2 t := by dsimp only [dat]
theorem after3 (c : Dev nD) (t : Fin cfg0.N) : (dat V c).after 3 t = blk V c 3 t := by dsimp only [dat]
theorem after4 (c : Dev nD) (t : Fin cfg0.N) : (dat V c).after 4 t = outQ (blk V c 0 t) (blk V c 1 t) := by dsimp only [dat]
theorem after5 (c : Dev nD) (t : Fin cfg0.N) : (dat V c).after 5 t = outK (blk V c 0 t) (blk V c 2 t) := by dsimp only [dat]
theorem after6 (c : Dev nD) (t : Fin cfg0.N) : (dat V c).after 6 t = outV (blk V c 0 t) (blk V c 3 t) := by dsimp only [dat]

theorem before0 (c : Dev nD) (t : Fin cfg0.N) (d) : (dat V c).before 0 t d = blk V c 0 t :=
  before_in0_of V (dat V c) (A_eq V c 0) (after0 V c) t d
theorem before1 (c : Dev nD) (t : Fin cfg0.N) (d) : (dat V c).before 1 t d = blk V c 1 t :=
  before_in1_of V (dat V c) (A_eq V c 1) (after1 V c) t d
theorem before2 (c : Dev nD) (t : Fin cfg0.N) (d) : (dat V c).before 2 t d = blk V c 2 t :=
  before_in2_of V (dat V c) (A_eq V c 2) (after2 V c) t d
theorem before3 (c : Dev nD) (t : Fin cfg0.N) (d) : (dat V c).before 3 t d = blk V c 3 t :=
  before_in3_of V (dat V c) (A_eq V c 3) (after3 V c) t d

/-- What the body is called with at point t: the invariant, the core's debts, and the seven current staging buffers. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d)))

/-- and what it hands back. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t))

/-- The body at any point: the four input buffers hold their blocks, so the body's triple applies; the invariant
    and the debts pass through untouched. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3]
  rw [show (dat V c).Φ t.succ = (dat V c).Φ t.castSucc from rfl,
    show (dat V c).owesAt () t.succ = (dat V c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (blk V c 0 t) (blk V c 1 t) (blk V c 2 t) (blk V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation (c : Dev nD) : BodyObligation (dat (F := F) V c) (defs₀ (F := F)) Variants.none () Set.univ := fun t => by
  rw [bigSep_W0, bigSep_W0]
  exact sound_body V c t

end Cert.Kernel.Proj

end
-- ==== Proof.K.AttnRun.lean ====
/-
  The second launch: attention for one pair of heads at one tile of 256 queries. Its grid is 8 × 8: the outer
  coordinate is the pair of heads, the inner one the query tile, so point t has query tile t mod 8. At the first
  query tile of a pair the body computes that pair's per-head keys and values from the shared projections — for
  each of the two heads the [2048, 64] block times the head's [64, 64] weight transposed plus the head's bias —
  and keeps them in two [2, 2048, 64] buffers of its own; at every tile it reads them back from there. So what the
  body computes at a later tile depends on what an earlier point left in those two buffers.

  Here: the branch condition in closed form over the grid, and the body run in each of its two cases on whole
  buffers — the case that fills the two buffers (from anything) and the case that only reads them (at given
  contents) — with what the stores leave in the output block and in the two buffers found as the run goes.
-/
import proofs.«114948_j41841571398363_2_alg».proof.Proof.Gen.Kernel.Launch
import proofs.«114948_j41841571398363_2_alg».proof.Proof.Gen.Kernel.Skeleton
import proofs.«114948_j41841571398363_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch: "this is the first query tile of the pair of heads", as the body computes it from the
    inner grid coordinate. -/
abbrev firstTile (i : grid1.Coords) : Prop :=
  (Scalar.cmpi .ne (Scalar.extui (Scalar.cmpi .eq (BitVec.ofNat 32 (i 1).val) 0#32)) 0#32) = 1#1

/-- It holds exactly at the points that are multiples of 8. -/
theorem firstTile_iff : ∀ t : Fin cfg1.N, firstTile (grid1.coords t) ↔ t.val % 8 = 0 :=
  (by decide +kernel : ∀ t : Fin grid1.N, firstTile (grid1.coords t) ↔ t.val % 8 = 0)

set_option maxHeartbeats 4000000 in
/-- The body at a first query tile: from the nine input blocks, and ANYTHING in the output block and the two kept
    buffers, it runs to its return with the inputs as they were and the output block and both kept buffers at what
    its stores leave (the three lists of stored pieces, last first, are what the run finds). -/
noncomputable def runFill (c : Dev nD) (i : grid1.Coords) (a2 : Memref sig .tc .vmem S2048x64 .f32) (ha2 : a2.IsWhole) (a3 : Memref sig .tc .vmem S2048x64 .f32) (ha3 : a3.IsWhole) (a4 : Memref sig .tc .vmem S2048x64 .f32) (ha4 : a4.IsWhole) (a5 : Memref sig .tc .vmem S2x64x64 .f32) (ha5 : a5.IsWhole) (a6 : Memref sig .tc .vmem S2x64x64 .f32) (ha6 : a6.IsWhole) (a7 : Memref sig .tc .vmem S2x64x64 .f32) (ha7 : a7.IsWhole) (a8 : Memref sig .tc .vmem S2x1x64 .f32) (ha8 : a8.IsWhole) (a9 : Memref sig .tc .vmem S2x1x64 .f32) (ha9 : a9.IsWhole) (a10 : Memref sig .tc .vmem S2x1x64 .f32) (ha10 : a10.IsWhole) (a11 : Memref sig .tc .vmem S256x128 .f32) (ha11 : a11.IsWhole) (a12 : Memref sig .tc .vmem S2x2048x64 .bf16) (ha12 : a12.IsWhole) (a13 : Memref sig .tc .vmem S2x2048x64 .bf16) (ha13 : a13.IsWhole) (hc : firstTile i)
    (q : Vec F S2048x64 .f32) (k : Vec F S2048x64 .f32) (v : Vec F S2048x64 .f32) (wq : Vec F S2x64x64 .f32) (wk : Vec F S2x64x64 .f32) (wv : Vec F S2x64x64 .f32) (bq : Vec F S2x1x64 .f32) (bk : Vec F S2x1x64 .f32) (bv : Vec F S2x1x64 .f32) :
    Σ' (LO : List (View.Piece (Elt F) S256x128 .f32)) (LK : List (View.Piece (Elt F) S2x2048x64 .bf16)), { LV : List (View.Piece (Elt F) S2x2048x64 .bf16) //
      ∀ (E : Set ℕ) (K : PUnit → sProp 𝕄),
        iprop(owns (c : Thread nD τ) a2 fullShare q ∗ owns (c : Thread nD τ) a3 fullShare k ∗ owns (c : Thread nD τ) a4 fullShare v ∗ owns (c : Thread nD τ) a5 fullShare wq ∗ owns (c : Thread nD τ) a6 fullShare wk ∗ owns (c : Thread nD τ) a7 fullShare wv ∗ owns (c : Thread nD τ) a8 fullShare bq ∗ owns (c : Thread nD τ) a9 fullShare bk ∗ owns (c : Thread nD τ) a10 fullShare bv
            ∗ (∃ d, owns (c : Thread nD τ) a11 fullShare d) ∗ (∃ d, owns (c : Thread nD τ) a12 fullShare d) ∗ (∃ d, owns (c : Thread nD τ) a13 fullShare d)
            ∗ (iprop(owns (c : Thread nD τ) a2 fullShare q ∗ owns (c : Thread nD τ) a3 fullShare k ∗ owns (c : Thread nD τ) a4 fullShare v ∗ owns (c : Thread nD τ) a5 fullShare wq ∗ owns (c : Thread nD τ) a6 fullShare wk ∗ owns (c : Thread nD τ) a7 fullShare wv ∗ owns (c : Thread nD τ) a8 fullShare bq ∗ owns (c : Thread nD τ) a9 fullShare bk ∗ owns (c : Thread nD τ) a10 fullShare bv
                ∗ (∃ f, a11.view.loc (c : Thread nD τ) ↦[a11.view.set]{fullShare} a11.view.writes (Elt F) f LO) ∗ (∃ f, a12.view.loc (c : Thread nD τ) ↦[a12.view.set]{fullShare} a12.view.writes (Elt F) f LK) ∗ (∃ f, a13.view.loc (c : Thread nD τ) ↦[a13.view.set]{fullShare} a13.view.writes (Elt F) f LV)) -∗ K ⟨⟩))
          ⊢ wp frame (wpE (defs₀ (F := F)) Variants.none c none) E (cc1__attn_kernel i a2 ha2 a3 ha3 a4 ha4 a5 ha5 a6 ha6 a7 ha7 a8 ha8 a9 ha9 a10 ha10 a11 ha11 a12 ha12 a13 ha13) K } := by
  refine ⟨?_, ?_, ?_, fun E K => ?run⟩
  case run =>
    simp only [cc1__attn_kernel_eq_skeleton]; unfold cc1__attn_kernel_skel
    simp only [k1_part2_eq_skeleton, k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
    obtain rfl := ha2.eq_unread hf0; obtain rfl := ha3.eq_unread hf1; obtain rfl := ha4.eq_unread hf2; obtain rfl := ha5.eq_unread hf3; obtain rfl := ha6.eq_unread hf4; obtain rfl := ha7.eq_unread hf5; obtain rfl := ha8.eq_unread hf6; obtain rfl := ha9.eq_unread hf7; obtain rfl := ha10.eq_unread hf8
    sl_exec (disch := first | exact hc)
    sl_step
    iapply Hk
    isplitl [H0]
    · iexists _; isplitr; · ipureintro; exact ha2.read_unread _
      iexact H0
    isplitl [H1]
    · iexists _; isplitr; · ipureintro; exact ha3.read_unread _
      iexact H1
    isplitl [H2]
    · iexists _; isplitr; · ipureintro; exact ha4.read_unread _
      iexact H2
    isplitl [H3]
    · iexists _; isplitr; · ipureintro; exact ha5.read_unread _
      iexact H3
    isplitl [H4]
    · iexists _; isplitr; · ipureintro; exact ha6.read_unread _
      iexact H4
    isplitl [H5]
    · iexists _; isplitr; · ipureintro; exact ha7.read_unread _
      iexact H5
    isplitl [H6]
    · iexists _; isplitr; · ipureintro; exact ha8.read_unread _
      iexact H6
    isplitl [H7]
    · iexists _; isplitr; · ipureintro; exact ha9.read_unread _
      iexact H7
    isplitl [H8]
    · iexists _; isplitr; · ipureintro; exact ha10.read_unread _
      iexact H8
    isplitl [H9]; · iexists _; iexact H9
    isplitl [H10]; · iexists _; iexact H10
    iexists _; iexact H11

set_option maxHeartbeats 4000000 in
/-- The body at a later query tile: from the nine input blocks, anything in the output block, and the two kept
    buffers at GIVEN contents, it runs to its return with the inputs and both kept buffers as they were and the
    output block at what its one store leaves. -/
noncomputable def runRead (c : Dev nD) (i : grid1.Coords) (a2 : Memref sig .tc .vmem S2048x64 .f32) (ha2 : a2.IsWhole) (a3 : Memref sig .tc .vmem S2048x64 .f32) (ha3 : a3.IsWhole) (a4 : Memref sig .tc .vmem S2048x64 .f32) (ha4 : a4.IsWhole) (a5 : Memref sig .tc .vmem S2x64x64 .f32) (ha5 : a5.IsWhole) (a6 : Memref sig .tc .vmem S2x64x64 .f32) (ha6 : a6.IsWhole) (a7 : Memref sig .tc .vmem S2x64x64 .f32) (ha7 : a7.IsWhole) (a8 : Memref sig .tc .vmem S2x1x64 .f32) (ha8 : a8.IsWhole) (a9 : Memref sig .tc .vmem S2x1x64 .f32) (ha9 : a9.IsWhole) (a10 : Memref sig .tc .vmem S2x1x64 .f32) (ha10 : a10.IsWhole) (a11 : Memref sig .tc .vmem S256x128 .f32) (ha11 : a11.IsWhole) (a12 : Memref sig .tc .vmem S2x2048x64 .bf16) (ha12 : a12.IsWhole) (a13 : Memref sig .tc .vmem S2x2048x64 .bf16) (ha13 : a13.IsWhole) (hc : ¬firstTile i)
    (q : Vec F S2048x64 .f32) (k : Vec F S2048x64 .f32) (v : Vec F S2048x64 .f32) (wq : Vec F S2x64x64 .f32) (wk : Vec F S2x64x64 .f32) (wv : Vec F S2x64x64 .f32) (bq : Vec F S2x1x64 .f32) (bk : Vec F S2x1x64 .f32) (bv : Vec F S2x1x64 .f32) (kh vh : Vec F S2x2048x64 .bf16) :
    { LO : List (View.Piece (Elt F) S256x128 .f32) //
      ∀ (E : Set ℕ) (K : PUnit → sProp 𝕄),
        iprop(owns (c : Thread nD τ) a2 fullShare q ∗ owns (c : Thread nD τ) a3 fullShare k ∗ owns (c : Thread nD τ) a4 fullShare v ∗ owns (c : Thread nD τ) a5 fullShare wq ∗ owns (c : Thread nD τ) a6 fullShare wk ∗ owns (c : Thread nD τ) a7 fullShare wv ∗ owns (c : Thread nD τ) a8 fullShare bq ∗ owns (c : Thread nD τ) a9 fullShare bk ∗ owns (c : Thread nD τ) a10 fullShare bv
            ∗ (∃ d, owns (c : Thread nD τ) a11 fullShare d) ∗ owns (c : Thread nD τ) a12 fullShare kh ∗ owns (c : Thread nD τ) a13 fullShare vh
            ∗ (iprop(owns (c : Thread nD τ) a2 fullShare q ∗ owns (c : Thread nD τ) a3 fullShare k ∗ owns (c : Thread nD τ) a4 fullShare v ∗ owns (c : Thread nD τ) a5 fullShare wq ∗ owns (c : Thread nD τ) a6 fullShare wk ∗ owns (c : Thread nD τ) a7 fullShare wv ∗ owns (c : Thread nD τ) a8 fullShare bq ∗ owns (c : Thread nD τ) a9 fullShare bk ∗ owns (c : Thread nD τ) a10 fullShare bv
                ∗ (∃ f, a11.view.loc (c : Thread nD τ) ↦[a11.view.set]{fullShare} a11.view.writes (Elt F) f LO) ∗ owns (c : Thread nD τ) a12 fullShare kh ∗ owns (c : Thread nD τ) a13 fullShare vh) -∗ K ⟨⟩))
          ⊢ wp frame (wpE (defs₀ (F := F)) Variants.none c none) E (cc1__attn_kernel i a2 ha2 a3 ha3 a4 ha4 a5 ha5 a6 ha6 a7 ha7 a8 ha8 a9 ha9 a10 ha10 a11 ha11 a12 ha12 a13 ha13) K } := by
  refine ⟨?_, fun E K => ?run⟩
  case run =>
    simp only [cc1__attn_kernel_eq_skeleton]; unfold cc1__attn_kernel_skel
    simp only [k1_part2_eq_skeleton, k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, Hk⟩
    obtain rfl := ha2.eq_unread hf0; obtain rfl := ha3.eq_unread hf1; obtain rfl := ha4.eq_unread hf2; obtain rfl := ha5.eq_unread hf3; obtain rfl := ha6.eq_unread hf4; obtain rfl := ha7.eq_unread hf5; obtain rfl := ha8.eq_unread hf6; obtain rfl := ha9.eq_unread hf7; obtain rfl := ha10.eq_unread hf8; obtain rfl := ha12.eq_unread hf10; obtain rfl := ha13.eq_unread hf11
    sl_exec (disch := first | exact hc)
    sl_step
    iapply Hk
    isplitl [H0]
    · iexists _; isplitr; · ipureintro; exact ha2.read_unread _
      iexact H0
    isplitl [H1]
    · iexists _; isplitr; · ipureintro; exact ha3.read_unread _
      iexact H1
    isplitl [H2]
    · iexists _; isplitr; · ipureintro; exact ha4.read_unread _
      iexact H2
    isplitl [H3]
    · iexists _; isplitr; · ipureintro; exact ha5.read_unread _
      iexact H3
    isplitl [H4]
    · iexists _; isplitr; · ipureintro; exact ha6.read_unread _
      iexact H4
    isplitl [H5]
    · iexists _; isplitr; · ipureintro; exact ha7.read_unread _
      iexact H5
    isplitl [H6]
    · iexists _; isplitr; · ipureintro; exact ha8.read_unread _
      iexact H6
    isplitl [H7]
    · iexists _; isplitr; · ipureintro; exact ha9.read_unread _
      iexact H7
    isplitl [H8]
    · iexists _; isplitr; · ipureintro; exact ha10.read_unread _
      iexact H8
    isplitl [H9]; · iexists _; iexact H9
    isplitl [H10]
    · iexists _; isplitr; · ipureintro; exact ha12.read_unread _
      iexact H10
    iexists _; isplitr; · ipureintro; exact ha13.read_unread _
    iexact H11

end Cert.Kernel.Attn

end
-- ==== Proof.K.Attn.lean ====
/-
  The second launch, continued: what its output block and its two kept buffers hold after every grid point, and the
  bookkeeping the pipeline needs there.

  After point t the two kept buffers hold the per-head keys and values of the pair of heads t / 8: a point with
  t mod 8 = 0 writes them (from the shared projections and that pair's weights and biases), every other point leaves
  them as the point before did. The output block after point t is what the body stores from the nine input blocks and
  — at a point with t mod 8 ≠ 0 — from what the point before left in the two kept buffers. Between points the
  launch's invariant therefore names the two kept buffers' contents; before the first point and after the last they
  hold anything.
-/
import proofs.«114948_j41841571398363_2_alg».proof.Proof.K.AttnRun

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the launch finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before_in0_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1's current staging buffer holds its block at every point, fetched there or not. -/
theorem before_in1_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2's current staging buffer holds its block at every point, fetched there or not. -/
theorem before_in2_of {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- Input window 3's current staging buffer holds its block at every point, fetched there or not. -/
theorem before_in3_of {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-- Input window 4's current staging buffer holds its block at every point, fetched there or not. -/
theorem before_in4_of {c : Dev nD} (dat : Dat τ (Elt F) Unit ℕ (UR sig nD τ) ℕ cfg1 c) (hA : dat.A 4 = V c (Pipeline.arrRef spec1 4))
    (hafter : ∀ t, dat.after 4 t = blk V c 4 t) (t : Fin cfg1.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-- Input window 5's current staging buffer holds its block at every point, fetched there or not. -/
theorem before_in5_of {c : Dev nD} (dat : Dat τ (Elt F) Unit ℕ (UR sig nD τ) ℕ cfg1 c) (hA : dat.A 5 = V c (Pipeline.arrRef spec1 5))
    (hafter : ∀ t, dat.after 5 t = blk V c 5 t) (t : Fin cfg1.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

/-- Input window 6's current staging buffer holds its block at every point, fetched there or not. -/
theorem before_in6_of {c : Dev nD} (dat : Dat τ (Elt F) Unit ℕ (UR sig nD τ) ℕ cfg1 c) (hA : dat.A 6 = V c (Pipeline.arrRef spec1 6))
    (hafter : ∀ t, dat.after 6 t = blk V c 6 t) (t : Fin cfg1.N) (d) : dat.before 6 t d = blk V c 6 t :=
  (dat.before_in_eq_fetched 6 rfl (fun _ => rfl) (fun _ _ _ => rfl) (fun t => by rw [hafter]; unfold Dat.blockOf blk; rw [hA]; try rfl) t d).trans
    (by unfold Dat.fetched Dat.blockOf blk; rw [hA]; try rfl)

/-- Input window 7's current staging buffer holds its block at every point, fetched there or not. -/
theorem before_in7_of {c : Dev nD} (dat : Dat τ (Elt F) Unit ℕ (UR sig nD τ) ℕ cfg1 c) (hA : dat.A 7 = V c (Pipeline.arrRef spec1 7))
    (hafter : ∀ t, dat.after 7 t = blk V c 7 t) (t : Fin cfg1.N) (d) : dat.before 7 t d = blk V c 7 t :=
  (dat.before_in_eq_fetched 7 rfl (fun _ => rfl) (fun _ _ _ => rfl) (fun t => by rw [hafter]; unfold Dat.blockOf blk; rw [hA]; try rfl) t d).trans
    (by unfold Dat.fetched Dat.blockOf blk; rw [hA]; try rfl)

/-- Input window 8's current staging buffer holds its block at every point, fetched there or not. -/
theorem before_in8_of {c : Dev nD} (dat : Dat τ (Elt F) Unit ℕ (UR sig nD τ) ℕ cfg1 c) (hA : dat.A 8 = V c (Pipeline.arrRef spec1 8))
    (hafter : ∀ t, dat.after 8 t = blk V c 8 t) (t : Fin cfg1.N) (d) : dat.before 8 t d = blk V c 8 t :=
  (dat.before_in_eq_fetched 8 rfl (fun _ => rfl) (fun _ _ _ => rfl) (fun t => by rw [hafter]; unfold Dat.blockOf blk; rw [hA]; try rfl) t d).trans
    (by unfold Dat.fetched Dat.blockOf blk; rw [hA]; try rfl)

/-! ## The buffers the body is handed at a point -/

abbrev ms0 (t : Fin cfg1.N) := win1_0.stage (cfg1.slots t 0)
abbrev hs0 (t : Fin cfg1.N) : (ms0 t).IsWhole := hstage1_0 ((cfg1.slots t 0).cast nbuf1_0)
abbrev ms1 (t : Fin cfg1.N) := win1_1.stage (cfg1.slots t 1)
abbrev hs1 (t : Fin cfg1.N) : (ms1 t).IsWhole := hstage1_1 ((cfg1.slots t 1).cast nbuf1_1)
abbrev ms2 (t : Fin cfg1.N) := win1_2.stage (cfg1.slots t 2)
abbrev hs2 (t : Fin cfg1.N) : (ms2 t).IsWhole := hstage1_2 ((cfg1.slots t 2).cast nbuf1_2)
abbrev ms3 (t : Fin cfg1.N) := win1_3.stage (cfg1.slots t 3)
abbrev hs3 (t : Fin cfg1.N) : (ms3 t).IsWhole := hstage1_3 ((cfg1.slots t 3).cast nbuf1_3)
abbrev ms4 (t : Fin cfg1.N) := win1_4.stage (cfg1.slots t 4)
abbrev hs4 (t : Fin cfg1.N) : (ms4 t).IsWhole := hstage1_4 ((cfg1.slots t 4).cast nbuf1_4)
abbrev ms5 (t : Fin cfg1.N) := win1_5.stage (cfg1.slots t 5)
abbrev hs5 (t : Fin cfg1.N) : (ms5 t).IsWhole := hstage1_5 ((cfg1.slots t 5).cast nbuf1_5)
abbrev ms6 (t : Fin cfg1.N) := win1_6.stage (cfg1.slots t 6)
abbrev hs6 (t : Fin cfg1.N) : (ms6 t).IsWhole := hstage1_6 ((cfg1.slots t 6).cast nbuf1_6)
abbrev ms7 (t : Fin cfg1.N) := win1_7.stage (cfg1.slots t 7)
abbrev hs7 (t : Fin cfg1.N) : (ms7 t).IsWhole := hstage1_7 ((cfg1.slots t 7).cast nbuf1_7)
abbrev ms8 (t : Fin cfg1.N) := win1_8.stage (cfg1.slots t 8)
abbrev hs8 (t : Fin cfg1.N) : (ms8 t).IsWhole := hstage1_8 ((cfg1.slots t 8).cast nbuf1_8)
abbrev ms9 (t : Fin cfg1.N) := win1_9.stage (cfg1.slots t 9)
abbrev hs9 (t : Fin cfg1.N) : (ms9 t).IsWhole := hstage1_9 ((cfg1.slots t 9).cast nbuf1_9)
/-- The two buffers the kernel keeps between points: per-head keys, per-head values. -/
abbrev scK : Memref sig .tc .vmem S2x2048x64 .bf16 := Memref.whole cc1_scratch0
abbrev scV : Memref sig .tc .vmem S2x2048x64 .bf16 := Memref.whole cc1_scratch1
/-- Views through which the contents below are stated (which buffer of the shape is used does not matter). -/
abbrev VO : View sig .tc .vmem S256x128 .f32 := (Memref.whole cc1_stg9_0 : Memref sig .tc .vmem S256x128 .f32).view
abbrev VK : View sig .tc .vmem S2x2048x64 .bf16 := scK.view
abbrev VV : View sig .tc .vmem S2x2048x64 .bf16 := scV.view

/-! ## What each case leaves, as contents -/

section Cases
variable (c : Dev nD) (i : grid1.Coords) (a2 : Memref sig .tc .vmem S2048x64 .f32) (ha2 : a2.IsWhole) (a3 : Memref sig .tc .vmem S2048x64 .f32) (ha3 : a3.IsWhole) (a4 : Memref sig .tc .vmem S2048x64 .f32) (ha4 : a4.IsWhole) (a5 : Memref sig .tc .vmem S2x64x64 .f32) (ha5 : a5.IsWhole) (a6 : Memref sig .tc .vmem S2x64x64 .f32) (ha6 : a6.IsWhole) (a7 : Memref sig .tc .vmem S2x64x64 .f32) (ha7 : a7.IsWhole) (a8 : Memref sig .tc .vmem S2x1x64 .f32) (ha8 : a8.IsWhole) (a9 : Memref sig .tc .vmem S2x1x64 .f32) (ha9 : a9.IsWhole) (a10 : Memref sig .tc .vmem S2x1x64 .f32) (ha10 : a10.IsWhole) (a11 : Memref sig .tc .vmem S256x128 .f32) (ha11 : a11.IsWhole) (a12 : Memref sig .tc .vmem S2x2048x64 .bf16) (ha12 : a12.IsWhole) (a13 : Memref sig .tc .vmem S2x2048x64 .bf16) (ha13 : a13.IsWhole)
  (q : Vec F S2048x64 .f32) (k : Vec F S2048x64 .f32) (v : Vec F S2048x64 .f32) (wq : Vec F S2x64x64 .f32) (wk : Vec F S2x64x64 .f32) (wv : Vec F S2x64x64 .f32) (bq : Vec F S2x1x64 .f32) (bk : Vec F S2x1x64 .f32) (bv : Vec F S2x1x64 .f32)

/-- The output block after a first query tile. -/
def outFill (hc : firstTile i) : Vec F S256x128 .f32 :=
  VO.read (Elt F) (VO.writes (Elt F) VO.junk (runFill c i a2 ha2 a3 ha3 a4 ha4 a5 ha5 a6 ha6 a7 ha7 a8 ha8 a9 ha9 a10 ha10 a11 ha11 a12 ha12 a13 ha13 hc q k v wq wk wv bq bk bv).1)
/-- The kept keys after a first query tile. -/
def khFill (hc : firstTile i) : Vec F S2x2048x64 .bf16 :=
  VK.read (Elt F) (VK.writes (Elt F) VK.junk (runFill c i a2 ha2 a3 ha3 a4 ha4 a5 ha5 a6 ha6 a7 ha7 a8 ha8 a9 ha9 a10 ha10 a11 ha11 a12 ha12 a13 ha13 hc q k v wq wk wv bq bk bv).2.1)
/-- The kept values after a first query tile. -/
def vhFill (hc : firstTile i) : Vec F S2x2048x64 .bf16 :=
  VV.read (Elt F) (VV.writes (Elt F) VV.junk (runFill c i a2 ha2 a3 ha3 a4 ha4 a5 ha5 a6 ha6 a7 ha7 a8 ha8 a9 ha9 a10 ha10 a11 ha11 a12 ha12 a13 ha13 hc q k v wq wk wv bq bk bv).2.2.1)
/-- The output block after a later query tile, from the kept keys and values it finds. -/
def outRead (hc : ¬firstTile i) (kh vh : Vec F S2x2048x64 .bf16) : Vec F S256x128 .f32 :=
  VO.read (Elt F) (VO.writes (Elt F) VO.junk (runRead c i a2 ha2 a3 ha3 a4 ha4 a5 ha5 a6 ha6 a7 ha7 a8 ha8 a9 ha9 a10 ha10 a11 ha11 a12 ha12 a13 ha13 hc q k v wq wk wv bq bk bv kh vh).1)

/-- The stores of each case tile the buffer they go to — the output block by one whole store, each kept buffer by the
    two heads' [1, 2048, 64] slabs — so they cover it. -/
theorem coverO_fill (hc : firstTile i) (y : S256x128.Idx) :
    ∃ pc ∈ (runFill c i a2 ha2 a3 ha3 a4 ha4 a5 ha5 a6 ha6 a7 ha7 a8 ha8 a9 ha9 a10 ha10 a11 ha11 a12 ha12 a13 ha13 hc q k v wq wk wv bq bk bv).1, y ∈ pc.1.set :=
  View.cover_of_tiledL _ S256x128.size (by sl_kernel_rfl) y
theorem coverK_fill (hc : firstTile i) (y : S2x2048x64.Idx) :
    ∃ pc ∈ (runFill c i a2 ha2 a3 ha3 a4 ha4 a5 ha5 a6 ha6 a7 ha7 a8 ha8 a9 ha9 a10 ha10 a11 ha11 a12 ha12 a13 ha13 hc q k v wq wk wv bq bk bv).2.1, y ∈ pc.1.set :=
  View.cover_of_tiledL (runFill c i a2 ha2 a3 ha3 a4 ha4 a5 ha5 a6 ha6 a7 ha7 a8 ha8 a9 ha9 a10 ha10 a11 ha11 a12 ha12 a13 ha13 hc q k v wq wk wv bq bk bv).2.1 S1x2048x64.size (by sl_kernel_rfl) y
theorem coverV_fill (hc : firstTile i) (y : S2x2048x64.Idx) :
    ∃ pc ∈ (runFill c i a2 ha2 a3 ha3 a4 ha4 a5 ha5 a6 ha6 a7 ha7 a8 ha8 a9 ha9 a10 ha10 a11 ha11 a12 ha12 a13 ha13 hc q k v wq wk wv bq bk bv).2.2.1, y ∈ pc.1.set :=
  View.cover_of_tiledL (runFill c i a2 ha2 a3 ha3 a4 ha4 a5 ha5 a6 ha6 a7 ha7 a8 ha8 a9 ha9 a10 ha10 a11 ha11 a12 ha12 a13 ha13 hc q k v wq wk wv bq bk bv).2.2.1 S1x2048x64.size (by sl_kernel_rfl) y
theorem coverO_read (hc : ¬firstTile i) (kh vh : Vec F S2x2048x64 .bf16) (y : S256x128.Idx) :
    ∃ pc ∈ (runRead c i a2 ha2 a3 ha3 a4 ha4 a5 ha5 a6 ha6 a7 ha7 a8 ha8 a9 ha9 a10 ha10 a11 ha11 a12 ha12 a13 ha13 hc q k v wq wk wv bq bk bv kh vh).1, y ∈ pc.1.set :=
  View.cover_of_tiledL _ S256x128.size (by sl_kernel_rfl) y
end Cases

/-! ## After each point -/

/-- What the output block and the two kept buffers hold after the body at point n: a point with n mod 8 = 0 fills
    the kept buffers from its input blocks; any other point reads what the point before left and leaves it. -/
def outsAt (c : Dev nD) : (n : ℕ) → n < cfg1.N → Vec F S256x128 .f32 × Vec F S2x2048x64 .bf16 × Vec F S2x2048x64 .bf16
  | 0, hn =>
    have hc := (firstTile_iff ⟨0, hn⟩).mpr (Nat.zero_mod _)
    (outFill c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) (ms9 ⟨0, hn⟩) (hs9 ⟨0, hn⟩) scK (Memref.isWhole_whole _) scV (Memref.isWhole_whole _) (blk V c 0 ⟨0, hn⟩) (blk V c 1 ⟨0, hn⟩) (blk V c 2 ⟨0, hn⟩) (blk V c 3 ⟨0, hn⟩) (blk V c 4 ⟨0, hn⟩) (blk V c 5 ⟨0, hn⟩) (blk V c 6 ⟨0, hn⟩) (blk V c 7 ⟨0, hn⟩) (blk V c 8 ⟨0, hn⟩) hc,
     khFill c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) (ms9 ⟨0, hn⟩) (hs9 ⟨0, hn⟩) scK (Memref.isWhole_whole _) scV (Memref.isWhole_whole _) (blk V c 0 ⟨0, hn⟩) (blk V c 1 ⟨0, hn⟩) (blk V c 2 ⟨0, hn⟩) (blk V c 3 ⟨0, hn⟩) (blk V c 4 ⟨0, hn⟩) (blk V c 5 ⟨0, hn⟩) (blk V c 6 ⟨0, hn⟩) (blk V c 7 ⟨0, hn⟩) (blk V c 8 ⟨0, hn⟩) hc,
     vhFill c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) (ms9 ⟨0, hn⟩) (hs9 ⟨0, hn⟩) scK (Memref.isWhole_whole _) scV (Memref.isWhole_whole _) (blk V c 0 ⟨0, hn⟩) (blk V c 1 ⟨0, hn⟩) (blk V c 2 ⟨0, hn⟩) (blk V c 3 ⟨0, hn⟩) (blk V c 4 ⟨0, hn⟩) (blk V c 5 ⟨0, hn⟩) (blk V c 6 ⟨0, hn⟩) (blk V c 7 ⟨0, hn⟩) (blk V c 8 ⟨0, hn⟩) hc)
  | n + 1, hn =>
    if h0 : (n + 1) % 8 = 0 then
      have hc := (firstTile_iff ⟨n + 1, hn⟩).mpr h0
      (outFill c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) scK (Memref.isWhole_whole _) scV (Memref.isWhole_whole _) (blk V c 0 ⟨n + 1, hn⟩) (blk V c 1 ⟨n + 1, hn⟩) (blk V c 2 ⟨n + 1, hn⟩) (blk V c 3 ⟨n + 1, hn⟩) (blk V c 4 ⟨n + 1, hn⟩) (blk V c 5 ⟨n + 1, hn⟩) (blk V c 6 ⟨n + 1, hn⟩) (blk V c 7 ⟨n + 1, hn⟩) (blk V c 8 ⟨n + 1, hn⟩) hc,
       khFill c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) scK (Memref.isWhole_whole _) scV (Memref.isWhole_whole _) (blk V c 0 ⟨n + 1, hn⟩) (blk V c 1 ⟨n + 1, hn⟩) (blk V c 2 ⟨n + 1, hn⟩) (blk V c 3 ⟨n + 1, hn⟩) (blk V c 4 ⟨n + 1, hn⟩) (blk V c 5 ⟨n + 1, hn⟩) (blk V c 6 ⟨n + 1, hn⟩) (blk V c 7 ⟨n + 1, hn⟩) (blk V c 8 ⟨n + 1, hn⟩) hc,
       vhFill c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) scK (Memref.isWhole_whole _) scV (Memref.isWhole_whole _) (blk V c 0 ⟨n + 1, hn⟩) (blk V c 1 ⟨n + 1, hn⟩) (blk V c 2 ⟨n + 1, hn⟩) (blk V c 3 ⟨n + 1, hn⟩) (blk V c 4 ⟨n + 1, hn⟩) (blk V c 5 ⟨n + 1, hn⟩) (blk V c 6 ⟨n + 1, hn⟩) (blk V c 7 ⟨n + 1, hn⟩) (blk V c 8 ⟨n + 1, hn⟩) hc)
    else
      have hc : ¬firstTile (grid1.coords ⟨n + 1, hn⟩) := fun h => h0 ((firstTile_iff ⟨n + 1, hn⟩).mp h)
      (outRead c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) scK (Memref.isWhole_whole _) scV (Memref.isWhole_whole _) (blk V c 0 ⟨n + 1, hn⟩) (blk V c 1 ⟨n + 1, hn⟩) (blk V c 2 ⟨n + 1, hn⟩) (blk V c 3 ⟨n + 1, hn⟩) (blk V c 4 ⟨n + 1, hn⟩) (blk V c 5 ⟨n + 1, hn⟩) (blk V c 6 ⟨n + 1, hn⟩) (blk V c 7 ⟨n + 1, hn⟩) (blk V c 8 ⟨n + 1, hn⟩) hc
          (outsAt c n (Nat.lt_of_succ_lt hn)).2.1 (outsAt c n (Nat.lt_of_succ_lt hn)).2.2,
       (outsAt c n (Nat.lt_of_succ_lt hn)).2.1, (outsAt c n (Nat.lt_of_succ_lt hn)).2.2)

/-- At a first query tile: the filling case's contents. -/
theorem outsAt_fill (c : Dev nD) (t : Fin cfg1.N) (h0 : t.val % 8 = 0) :
    outsAt V c t.val t.isLt =
      (outFill c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scK (Memref.isWhole_whole _) scV (Memref.isWhole_whole _) (blk V c 0 t) (blk V c 1 t) (blk V c 2 t) (blk V c 3 t) (blk V c 4 t) (blk V c 5 t) (blk V c 6 t) (blk V c 7 t) (blk V c 8 t) ((firstTile_iff t).mpr h0),
       khFill c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scK (Memref.isWhole_whole _) scV (Memref.isWhole_whole _) (blk V c 0 t) (blk V c 1 t) (blk V c 2 t) (blk V c 3 t) (blk V c 4 t) (blk V c 5 t) (blk V c 6 t) (blk V c 7 t) (blk V c 8 t) ((firstTile_iff t).mpr h0),
       vhFill c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scK (Memref.isWhole_whole _) scV (Memref.isWhole_whole _) (blk V c 0 t) (blk V c 1 t) (blk V c 2 t) (blk V c 3 t) (blk V c 4 t) (blk V c 5 t) (blk V c 6 t) (blk V c 7 t) (blk V c 8 t) ((firstTile_iff t).mpr h0)) := by
  obtain ⟨n, hn⟩ := t
  cases n with
  | zero => exact rfl
  | succ n => exact (dif_pos h0).trans rfl

/-- At a later query tile: the reading case's output over what the point before left, which it leaves. -/
theorem outsAt_read (c : Dev nD) (t : Fin cfg1.N) (h0 : ¬t.val % 8 = 0) :
    outsAt V c t.val t.isLt =
      (outRead c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scK (Memref.isWhole_whole _) scV (Memref.isWhole_whole _) (blk V c 0 t) (blk V c 1 t) (blk V c 2 t) (blk V c 3 t) (blk V c 4 t) (blk V c 5 t) (blk V c 6 t) (blk V c 7 t) (blk V c 8 t) (fun h => h0 ((firstTile_iff t).mp h))
          (outsAt V c (t.val - 1) (Nat.lt_of_le_of_lt (Nat.sub_le _ _) t.isLt)).2.1 (outsAt V c (t.val - 1) (Nat.lt_of_le_of_lt (Nat.sub_le _ _) t.isLt)).2.2,
       (outsAt V c (t.val - 1) (Nat.lt_of_le_of_lt (Nat.sub_le _ _) t.isLt)).2.1, (outsAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The invariant between points -/

/-- The core's other scoped buffers (the first and third launches' staging buffers), each whole at something:
    the second launch never names them. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg6_1), ((c : Thread nD τ).loc cc0_stg6_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg4_0), ((c : Thread nD τ).loc cc2_stg4_0) ↦{fullShare} f)
    ∗ (∃ f : Buf (Elt F) ((c : Thread nD τ).loc cc2_stg5_0), ((c : Thread nD τ).loc cc2_stg5_0) ↦{fullShare} f)
    ∗ (∃ f : Buf (Elt F) ((c : Thread nD τ).loc cc2_stg5_1), ((c : Thread nD τ).loc cc2_stg5_1) ↦{fullShare} f)
    ∗ (∃ f : Buf (Elt F) ((c : Thread nD τ).loc cc2_stg6_0), ((c : Thread nD τ).loc cc2_stg6_0) ↦{fullShare} f)
    ∗ (∃ f : Buf (Elt F) ((c : Thread nD τ).loc cc2_stg6_1), ((c : Thread nD τ).loc cc2_stg6_1) ↦{fullShare} f))

/-- What the launch hands the kernel besides its windows, taken apart: the two kept buffers at something, the other
    scoped buffers, the generator register. -/
theorem PhiA_split (c : Dev nD) :
    (Pipeline.ΦA spec1 c : sProp 𝕄)
      ⊢ iprop((∃ d, owns (c : Thread nD τ) scK fullShare d) ∗ (∃ d, owns (c : Thread nD τ) scV fullShare d) ∗ others c ∗ (∃ r, prngReg c r)) := by
  unfold Pipeline.ΦA; rw [scopedRest1_eq]; unfold others; simp only [scK, scV, owns_whole]
  iintro ⟨⟨G0, G1, G2, G3, G4, G5, G6, G7, G8, G9, G10, G11, G12, G13, G14, G15, G16, G17, G18, G19, G20, G21, G22⟩, Hr⟩
  isplitl [G11]; · iexact G11
  isplitl [G12]; · iexact G12
  isplitr [Hr]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G13]; · iexact G13
    isplitl [G14]; · iexact G14
    isplitl [G15]; · iexact G15
    isplitl [G16]; · iexact G16
    isplitl [G17]; · iexact G17
    isplitl [G18]; · iexact G18
    isplitl [G19]; · iexact G19
    isplitl [G20]; · iexact G20
    isplitl [G21]; · iexact G21
    iexact G22
  iexact Hr

/-- And put back together, the kept buffers' contents forgotten. -/
theorem PhiA_join (c : Dev nD) :
    (iprop((∃ d, owns (c : Thread nD τ) scK fullShare d) ∗ (∃ d, owns (c : Thread nD τ) scV fullShare d) ∗ others c ∗ (∃ r, prngReg c r)) : sProp 𝕄)
      ⊢ Pipeline.ΦA spec1 c := by
  unfold Pipeline.ΦA; rw [scopedRest1_eq]; unfold others; simp only [scK, scV, owns_whole]
  iintro ⟨G11, G12, ⟨G0, G1, G2, G3, G4, G5, G6, G7, G8, G9, G10, G13, G14, G15, G16, G17, G18, G19, G20, G21, G22⟩, Hr⟩
  isplitr [Hr]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    isplitl [G12]; · iexact G12
    isplitl [G13]; · iexact G13
    isplitl [G14]; · iexact G14
    isplitl [G15]; · iexact G15
    isplitl [G16]; · iexact G16
    isplitl [G17]; · iexact G17
    isplitl [G18]; · iexact G18
    isplitl [G19]; · iexact G19
    isplitl [G20]; · iexact G20
    isplitl [G21]; · iexact G21
    iexact G22
  iexact Hr

/-- The invariant before position n: before the first point what the launch hands over; afterwards the two kept
    buffers at what the point before left, the other scoped buffers, the generator register. -/
def PhiS (c : Dev nD) : (n : ℕ) → n ≤ cfg1.N → sProp 𝕄
  | 0, _ => Pipeline.ΦA spec1 c
  | n + 1, hn => iprop(owns (c : Thread nD τ) scK fullShare (outsAt V c n hn).2.1 ∗ owns (c : Thread nD τ) scV fullShare (outsAt V c n hn).2.2
      ∗ others c ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(owns (c : Thread nD τ) scK fullShare (outsAt V c n hn).2.1 ∗ owns (c : Thread nD τ) scV fullShare (outsAt V c n hn).2.2
      ∗ others c ∗ (∃ r, prngReg c r)) := rfl
theorem PhiS_pos (c : Dev nD) (n : ℕ) (h : n ≤ cfg1.N) (hz : n ≠ 0) :
    PhiS V c n h = iprop(owns (c : Thread nD τ) scK fullShare (outsAt V c (n - 1) (by omega)).2.1 ∗ owns (c : Thread nD τ) scV fullShare (outsAt V c (n - 1) (by omega)).2.2
      ∗ others c ∗ (∃ r, prngReg c r)) := by
  cases n with
  | zero => exact absurd rfl hz
  | succ n => rfl

/-! ## The proof data -/

/-- The pipeline's proof data for this launch on core c: the ten arrays as the launch finds them; after the body at
    point t every input buffer still at its block and the output buffer at that point's output; between points the
    invariant above; nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => blk V c 7 t
    | ⟨8, _⟩ => blk V c 8 t
    | ⟨9, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem PhiS_castSucc (c : Dev nD) (t : Fin cfg1.N) :
    (dat V c).Φ t.castSucc = PhiS V c t.val (Nat.le_of_lt t.isLt) := by
  dsimp only [dat]; simp only [Fin.coe_castSucc]
theorem after0 (c : Dev nD) (t : Fin cfg1.N) : (dat V c).after 0 t = blk V c 0 t := by dsimp only [dat]
theorem after1 (c : Dev nD) (t : Fin cfg1.N) : (dat V c).after 1 t = blk V c 1 t := by dsimp only [dat]
theorem after2 (c : Dev nD) (t : Fin cfg1.N) : (dat V c).after 2 t = blk V c 2 t := by dsimp only [dat]
theorem after3 (c : Dev nD) (t : Fin cfg1.N) : (dat V c).after 3 t = blk V c 3 t := by dsimp only [dat]
theorem after4 (c : Dev nD) (t : Fin cfg1.N) : (dat V c).after 4 t = blk V c 4 t := by dsimp only [dat]
theorem after5 (c : Dev nD) (t : Fin cfg1.N) : (dat V c).after 5 t = blk V c 5 t := by dsimp only [dat]
theorem after6 (c : Dev nD) (t : Fin cfg1.N) : (dat V c).after 6 t = blk V c 6 t := by dsimp only [dat]
theorem after7 (c : Dev nD) (t : Fin cfg1.N) : (dat V c).after 7 t = blk V c 7 t := by dsimp only [dat]
theorem after8 (c : Dev nD) (t : Fin cfg1.N) : (dat V c).after 8 t = blk V c 8 t := by dsimp only [dat]
theorem after9 (c : Dev nD) (t : Fin cfg1.N) : (dat V c).after 9 t = (outsAt V c t.val t.isLt).1 := by dsimp only [dat]
theorem before0 (c : Dev nD) (t : Fin cfg1.N) (d) : (dat V c).before 0 t d = blk V c 0 t :=
  before_in0_of V (dat V c) (A_eq V c 0) (after0 V c) t d
theorem before1 (c : Dev nD) (t : Fin cfg1.N) (d) : (dat V c).before 1 t d = blk V c 1 t :=
  before_in1_of V (dat V c) (A_eq V c 1) (after1 V c) t d
theorem before2 (c : Dev nD) (t : Fin cfg1.N) (d) : (dat V c).before 2 t d = blk V c 2 t :=
  before_in2_of V (dat V c) (A_eq V c 2) (after2 V c) t d
theorem before3 (c : Dev nD) (t : Fin cfg1.N) (d) : (dat V c).before 3 t d = blk V c 3 t :=
  before_in3_of V (dat V c) (A_eq V c 3) (after3 V c) t d
theorem before4 (c : Dev nD) (t : Fin cfg1.N) (d) : (dat V c).before 4 t d = blk V c 4 t :=
  before_in4_of V (dat V c) (A_eq V c 4) (after4 V c) t d
theorem before5 (c : Dev nD) (t : Fin cfg1.N) (d) : (dat V c).before 5 t d = blk V c 5 t :=
  before_in5_of V (dat V c) (A_eq V c 5) (after5 V c) t d
theorem before6 (c : Dev nD) (t : Fin cfg1.N) (d) : (dat V c).before 6 t d = blk V c 6 t :=
  before_in6_of V (dat V c) (A_eq V c 6) (after6 V c) t d
theorem before7 (c : Dev nD) (t : Fin cfg1.N) (d) : (dat V c).before 7 t d = blk V c 7 t :=
  before_in7_of V (dat V c) (A_eq V c 7) (after7 V c) t d
theorem before8 (c : Dev nD) (t : Fin cfg1.N) (d) : (dat V c).before 8 t d = blk V c 8 t :=
  before_in8_of V (dat V c) (A_eq V c 8) (after8 V c) t d

/-! ## The obligation at every point -/

/-- What the body is called with at point t: the invariant, the core's debts, and the ten current staging buffers. -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d))
    ∗ (∃ d, owns (c : Thread nD τ) (ms8 t) fullShare ((dat V c).before 8 t d))
    ∗ (∃ d, owns (c : Thread nD τ) (ms9 t) fullShare ((dat V c).before 9 t d)))

/-- and what it hands back. -/
def bodyPost (c : Dev nD) (t : Fin cfg1.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t)
    ∗ owns (c : Thread nD τ) (ms5 t) fullShare ((dat V c).after 5 t)
    ∗ owns (c : Thread nD τ) (ms6 t) fullShare ((dat V c).after 6 t)
    ∗ owns (c : Thread nD τ) (ms7 t) fullShare ((dat V c).after 7 t)
    ∗ owns (c : Thread nD τ) (ms8 t) fullShare ((dat V c).after 8 t)
    ∗ owns (c : Thread nD τ) (ms9 t) fullShare ((dat V c).after 9 t))

set_option maxHeartbeats 8000000 in
/-- The body at any point. The nine input buffers hold their blocks. At a first query tile the two kept buffers may
    hold anything (what the launch handed over, at the very first point; what the pair of heads before left, later) and
    the filling case applies; at any other tile they hold what the point before left and the reading case applies. Either
    way the invariant takes the two kept buffers back at this point's contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4, before5, before6, before7, before8]
  rw [show (dat V c).owesAt () t.succ = (dat V c).owesAt () t.castSucc from rfl]
  rw [show (dat V c).Φ t.succ = PhiS V c (t.val + 1) t.isLt from rfl, PhiS_succ]
  rw [after0, after1, after2, after3, after4, after5, after6, after7, after8, after9]
  by_cases h0 : t.val % 8 = 0
  · rw [outsAt_fill V c t h0]
    unfold outFill khFill vhFill; (try dsimp only)
    by_cases hz : t.val = 0
    · rw [PhiS_castSucc V c t, PhiS_zero V c _ _ hz]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      ihave HΦ' := (PhiA_split c) $$ HΦ
      icases HΦ' with ⟨HK, HV, Hoth, Hg⟩
      iapply ((runFill c (grid1.coords t) _ _ _ _ _ _ _ _ _ _ _ _ _ _ _ _ _ _ _ _ _ _ _ _ ((firstTile_iff t).mpr h0) (blk V c 0 t) (blk V c 1 t) (blk V c 2 t) (blk V c 3 t) (blk V c 4 t) (blk V c 5 t) (blk V c 6 t) (blk V c 7 t) (blk V c 8 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HK]; · iexact HK
      isplitl [HV]; · iexact HV
      iintro ⟨H0, H1, H2, H3, H4, H5, H6, H7, H8, ⟨%e9, H9⟩, ⟨%ek, HK⟩, ⟨%ev, HV⟩⟩
      isplitl [HK HV Hoth Hg]
      · isplitl [HK]
        · unfold owns; iexists _; isplitr
          swap; · iexact HK
          ipureintro; exact View.read_writes_of_cover _ _ _ _ _ (coverK_fill c _ _ _ _ _ _ _ _ _ _ _ _ _ _ _ _ _ _ _ _ _ _ _ _ _ _ _ _ _ _ _ _ _ _ _)
        isplitl [HV]
        · unfold owns; iexists _; isplitr
          swap; · iexact HV
          ipureintro; exact View.read_writes_of_cover _ _ _ _ _ (coverV_fill c _ _ _ _ _ _ _ _ _ _ _ _ _ _ _ _ _ _ _ _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      unfold owns; iexists _; isplitr
      swap; · iexact H9
      ipureintro; exact View.read_writes_of_cover _ _ _ _ _ (coverO_fill c _ _ _ _ _ _ _ _ _ _ _ _ _ _ _ _ _ _ _ _ _ _ _ _ _ _ _ _ _ _ _ _ _ _ _)
    · rw [PhiS_castSucc V c t, PhiS_pos V c _ _ hz]
      iintro ⟨⟨HK, HV, Hoth, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runFill c (grid1.coords t) _ _ _ _ _ _ _ _ _ _ _ _ _ _ _ _ _ _ _ _ _ _ _ _ ((firstTile_iff t).mpr h0) (blk V c 0 t) (blk V c 1 t) (blk V c 2 t) (blk V c 3 t) (blk V c 4 t) (blk V c 5 t) (blk V c 6 t) (blk V c 7 t) (blk V c 8 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HK]; · iexists _; iexact HK
      isplitl [HV]; · iexists _; iexact HV
      iintro ⟨H0, H1, H2, H3, H4, H5, H6, H7, H8, ⟨%e9, H9⟩, ⟨%ek, HK⟩, ⟨%ev, HV⟩⟩
      isplitl [HK HV Hoth Hg]
      · isplitl [HK]
        · unfold owns; iexists _; isplitr
          swap; · iexact HK
          ipureintro; exact View.read_writes_of_cover _ _ _ _ _ (coverK_fill c _ _ _ _ _ _ _ _ _ _ _ _ _ _ _ _ _ _ _ _ _ _ _ _ _ _ _ _ _ _ _ _ _ _ _)
        isplitl [HV]
        · unfold owns; iexists _; isplitr
          swap; · iexact HV
          ipureintro; exact View.read_writes_of_cover _ _ _ _ _ (coverV_fill c _ _ _ _ _ _ _ _ _ _ _ _ _ _ _ _ _ _ _ _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      unfold owns; iexists _; isplitr
      swap; · iexact H9
      ipureintro; exact View.read_writes_of_cover _ _ _ _ _ (coverO_fill c _ _ _ _ _ _ _ _ _ _ _ _ _ _ _ _ _ _ _ _ _ _ _ _ _ _ _ _ _ _ _ _ _ _ _)
  · have hz : t.val ≠ 0 := fun e => h0 (by rw [e])
    rw [outsAt_read V c t h0]
    unfold outRead; (try dsimp only)
    rw [PhiS_castSucc V c t, PhiS_pos V c _ _ hz]
    iintro ⟨⟨HK, HV, Hoth, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runRead c (grid1.coords t) _ _ _ _ _ _ _ _ _ _ _ _ _ _ _ _ _ _ _ _ _ _ _ _ (fun h => h0 ((firstTile_iff t).mp h)) (blk V c 0 t) (blk V c 1 t) (blk V c 2 t) (blk V c 3 t) (blk V c 4 t) (blk V c 5 t) (blk V c 6 t) (blk V c 7 t) (blk V c 8 t) (outsAt V c (t.val - 1) (Nat.lt_of_le_of_lt (Nat.sub_le _ _) t.isLt)).2.1 (outsAt V c (t.val - 1) (Nat.lt_of_le_of_lt (Nat.sub_le _ _) t.isLt)).2.2).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HK]; · iexact HK
    isplitl [HV]; · iexact HV
    iintro ⟨H0, H1, H2, H3, H4, H5, H6, H7, H8, ⟨%e9, H9⟩, HK, HV⟩
    isplitl [HK HV Hoth Hg]
    · isplitl [HK]; · iexact HK
      isplitl [HV]; · iexact HV
      isplitl [Hoth]; · iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    unfold owns; iexists _; isplitr
    swap; · iexact H9
    ipureintro; exact View.read_writes_of_cover _ _ _ _ _ (coverO_read c _ _ _ _ _ _ _ _ _ _ _ _ _ _ _ _ _ _ _ _ _ _ _ _ _ _ _ _ _ _ _ _ _ _ _ _ _)

/-- The pipeline's body obligation, at every point. -/
theorem body_obligation (c : Dev nD) : BodyObligation (dat (F := F) V c) (defs₀ (F := F)) Variants.none () Set.univ := fun t => by
  rw [bigSep_W1, bigSep_W1]
  exact sound_body V c t

/-- What the launch hands over is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point the invariant gives that back, the kept buffers' contents forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht]
  iintro ⟨HK, HV, Hoth, Hg⟩
  iapply (PhiA_join c)
  isplitl [HK]; · iexists _; iexact HK
  isplitl [HV]; · iexists _; iexact HV
  isplitl [Hoth]; · iexact Hoth
  iexact Hg

theorem hout (c : Dev nD) : (dat V c).Φ (Fin.last cfg1.N) ⊢ Pipeline.ΦA spec1 c :=
  Phi_out V c _ (by rw [Fin.val_last]; have : cfg1.N = 64 := N_1; omega)

end Cert.Kernel.Attn

end
-- ==== Proof.K.OutProj.lean ====
/-
  The third launch: the output projection, the residual and the row normalisation. Its grid has eight points;
  point t stages rows 256·t … 256·t + 255 of the attention result and of the layer's input (two [256, 1024]
  blocks) beside the [1024, 1024] projection weights and the three length-1024 vectors (bias, scale, shift), which
  are staged once and stay, and writes one [256, 1024] block: each row of the attention block times the weights
  transposed, plus the bias, plus the same row of the input, then centred and scaled by its own mean and variance
  over the 1024 columns, times the scale, plus the shift.

  Stated here at ANY contents V of the core's buffers when the launch is entered: what the body leaves in the
  output block as a function of the six input blocks, that the body does so from whole staging buffers, and the
  bookkeeping the pipeline needs at every point (each input block is where the body looks for it whether it was
  fetched at this point or earlier).
-/
import proofs.«114948_j41841571398363_2_alg».proof.Proof.Gen.Kernel.Launch
import proofs.«114948_j41841571398363_2_alg».proof.Proof.Gen.Kernel.Skeleton
import proofs.«114948_j41841571398363_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.OutProj

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the launch finds it. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data over these arrays whose body leaves the block where it found it (the window is never cut and never idle). -/
theorem before_in0_of {c : Dev nD} (dat : Dat τ (Elt F) Unit ℕ (UR sig nD τ) ℕ cfg2 c) (hA : dat.A 0 = V c (Pipeline.arrRef spec2 0))
    (hafter : ∀ t, dat.after 0 t = blk V c 0 t) (t : Fin cfg2.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1's current staging buffer holds its block at every point, fetched there or not, for any proof
    data over these arrays whose body leaves the block where it found it (the window is never cut and never idle). -/
theorem before_in1_of {c : Dev nD} (dat : Dat τ (Elt F) Unit ℕ (UR sig nD τ) ℕ cfg2 c) (hA : dat.A 1 = V c (Pipeline.arrRef spec2 1))
    (hafter : ∀ t, dat.after 1 t = blk V c 1 t) (t : Fin cfg2.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2's current staging buffer holds its block at every point, fetched there or not, for any proof
    data over these arrays whose body leaves the block where it found it (the window is never cut and never idle). -/
theorem before_in2_of {c : Dev nD} (dat : Dat τ (Elt F) Unit ℕ (UR sig nD τ) ℕ cfg2 c) (hA : dat.A 2 = V c (Pipeline.arrRef spec2 2))
    (hafter : ∀ t, dat.after 2 t = blk V c 2 t) (t : Fin cfg2.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- Input window 3's current staging buffer holds its block at every point, fetched there or not, for any proof
    data over these arrays whose body leaves the block where it found it (the window is never cut and never idle). -/
theorem before_in3_of {c : Dev nD} (dat : Dat τ (Elt F) Unit ℕ (UR sig nD τ) ℕ cfg2 c) (hA : dat.A 3 = V c (Pipeline.arrRef spec2 3))
    (hafter : ∀ t, dat.after 3 t = blk V c 3 t) (t : Fin cfg2.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-- Input window 4's current staging buffer holds its block at every point, fetched there or not, for any proof
    data over these arrays whose body leaves the block where it found it (the window is never cut and never idle). -/
theorem before_in4_of {c : Dev nD} (dat : Dat τ (Elt F) Unit ℕ (UR sig nD τ) ℕ cfg2 c) (hA : dat.A 4 = V c (Pipeline.arrRef spec2 4))
    (hafter : ∀ t, dat.after 4 t = blk V c 4 t) (t : Fin cfg2.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-- Input window 5's current staging buffer holds its block at every point, fetched there or not, for any proof
    data over these arrays whose body leaves the block where it found it (the window is never cut and never idle). -/
theorem before_in5_of {c : Dev nD} (dat : Dat τ (Elt F) Unit ℕ (UR sig nD τ) ℕ cfg2 c) (hA : dat.A 5 = V c (Pipeline.arrRef spec2 5))
    (hafter : ∀ t, dat.after 5 t = blk V c 5 t) (t : Fin cfg2.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

/-! ## The body's accesses: every load and store is of a whole block -/

abbrev rX : Rect S256x1024 := Rect.unit (s := S256x1024) ![0, 0] S256x1024.size inb_S256x1024_S256x1024_0_0
abbrev rW : Rect S1024x1024 := Rect.unit (s := S1024x1024) ![0, 0] S1024x1024.size inb_S1024x1024_S1024x1024_0_0
abbrev rB : Rect S1024 := Rect.unit (s := S1024) ![0] S1024.size inb_S1024_S1024_0

/-- What the body leaves in the output block, from the attention block o, the projection weights wo, the bias bo,
    the scale g, the shift be and the input block x: the normalised rows of o · woᵀ + bo + x, scaled and shifted. -/
def outY (o : Vec F S256x1024 .f32) (wo : Vec F S1024x1024 .f32) (bo g be : Vec F S1024 .f32) (x : Vec F S256x1024 .f32) :
    Vec F S256x1024 .f32 :=
  View.canon [⟨rX, k2_pay1 (View.ld o rX) (View.ld wo rW) (View.ld bo rB) (View.ld x rX) (View.ld g rB) (View.ld be rB)⟩]

/-- One whole-block store covers the block. -/
theorem coverY (p : Vec F S256x1024 .f32) (y : S256x1024.Idx) :
    ∃ pc ∈ ([⟨rX, p⟩] : List (View.Piece (Elt F) S256x1024 .f32)), y ∈ pc.1.set :=
  View.cover_of_tiled [⟨rX, p⟩] S256x1024.size (by rfl) y

set_option maxHeartbeats 4000000 in
/-- The body, on whole staging buffers holding the six input blocks and anything in the output buffer, runs to its
    return with the inputs as they were and the output at the normalised projection. -/
theorem sound_kernel (c : Dev nD) (E : Set ℕ) (i : grid2.Coords)
    (a1 : Memref sig .tc .vmem S256x1024 .f32) (h1 : a1.IsWhole) (a2 : Memref sig .tc .vmem S1024x1024 .f32) (h2 : a2.IsWhole)
    (a3 : Memref sig .tc .vmem S1024 .f32) (h3 : a3.IsWhole) (a4 : Memref sig .tc .vmem S1024 .f32) (h4 : a4.IsWhole)
    (a5 : Memref sig .tc .vmem S1024 .f32) (h5 : a5.IsWhole) (a6 : Memref sig .tc .vmem S256x1024 .f32) (h6 : a6.IsWhole)
    (a7 : Memref sig .tc .vmem S256x1024 .f32) (h7 : a7.IsWhole)
    (o : Vec F S256x1024 .f32) (wo : Vec F S1024x1024 .f32) (bo g be : Vec F S1024 .f32) (x : Vec F S256x1024 .f32)
    (K : PUnit → sProp 𝕄) :
    iprop(owns (c : Thread nD τ) a1 fullShare o ∗ owns (c : Thread nD τ) a2 fullShare wo
        ∗ owns (c : Thread nD τ) a3 fullShare bo ∗ owns (c : Thread nD τ) a4 fullShare g
        ∗ owns (c : Thread nD τ) a5 fullShare be ∗ owns (c : Thread nD τ) a6 fullShare x
        ∗ (∃ d, owns (c : Thread nD τ) a7 fullShare d)
        ∗ (iprop(owns (c : Thread nD τ) a1 fullShare o ∗ owns (c : Thread nD τ) a2 fullShare wo
            ∗ owns (c : Thread nD τ) a3 fullShare bo ∗ owns (c : Thread nD τ) a4 fullShare g
            ∗ owns (c : Thread nD τ) a5 fullShare be ∗ owns (c : Thread nD τ) a6 fullShare x
            ∗ owns (c : Thread nD τ) a7 fullShare (outY o wo bo g be x)) -∗ K ⟨⟩))
      ⊢ wp frame (wpE (defs₀ (F := F)) Variants.none c none) E (cc2__outproj_kernel i a1 h1 a2 h2 a3 h3 a4 h4 a5 h5 a6 h6 a7 h7) K := by
  simp only [cc2__outproj_kernel_eq_skeleton]; unfold cc2__outproj_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  iexists _; isplitr
  swap; · iexact H7
  ipureintro
  exact View.read_writes_eq_canon _ _ _ (coverY _)

/-! ## The proof data and the obligation at every point -/

/-- The pipeline's proof data for this launch on core c: the seven arrays as the launch finds them; after the body at
    point t every input buffer still at its block and the output buffer at the normalised projection of the input
    blocks; between points only what the kernel never names (the scoped rest and the generator register); nothing
    owed to any other core; full shares. -/
def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => outY (blk V c 0 t) (blk V c 1 t) (blk V c 2 t) (blk V c 3 t) (blk V c 4 t) (blk V c 5 t)
  Φ _ := Pipeline.ΦA spec2 c
  q _ := fullShare
  owed _ := 0

theorem A_eq (c : Dev nD) (w : Fin cfg2.W) : (dat V c).A w = V c (Pipeline.arrRef spec2 w) := by
  dsimp only [dat]

theorem after0 (c : Dev nD) (t : Fin cfg2.N) : (dat V c).after 0 t = blk V c 0 t := by dsimp only [dat]
theorem after1 (c : Dev nD) (t : Fin cfg2.N) : (dat V c).after 1 t = blk V c 1 t := by dsimp only [dat]
theorem after2 (c : Dev nD) (t : Fin cfg2.N) : (dat V c).after 2 t = blk V c 2 t := by dsimp only [dat]
theorem after3 (c : Dev nD) (t : Fin cfg2.N) : (dat V c).after 3 t = blk V c 3 t := by dsimp only [dat]
theorem after4 (c : Dev nD) (t : Fin cfg2.N) : (dat V c).after 4 t = blk V c 4 t := by dsimp only [dat]
theorem after5 (c : Dev nD) (t : Fin cfg2.N) : (dat V c).after 5 t = blk V c 5 t := by dsimp only [dat]
theorem after6 (c : Dev nD) (t : Fin cfg2.N) :
    (dat V c).after 6 t = outY (blk V c 0 t) (blk V c 1 t) (blk V c 2 t) (blk V c 3 t) (blk V c 4 t) (blk V c 5 t) := by dsimp only [dat]

theorem before0 (c : Dev nD) (t : Fin cfg2.N) (d) : (dat V c).before 0 t d = blk V c 0 t :=
  before_in0_of V (dat V c) (A_eq V c 0) (after0 V c) t d
theorem before1 (c : Dev nD) (t : Fin cfg2.N) (d) : (dat V c).before 1 t d = blk V c 1 t :=
  before_in1_of V (dat V c) (A_eq V c 1) (after1 V c) t d
theorem before2 (c : Dev nD) (t : Fin cfg2.N) (d) : (dat V c).before 2 t d = blk V c 2 t :=
  before_in2_of V (dat V c) (A_eq V c 2) (after2 V c) t d
theorem before3 (c : Dev nD) (t : Fin cfg2.N) (d) : (dat V c).before 3 t d = blk V c 3 t :=
  before_in3_of V (dat V c) (A_eq V c 3) (after3 V c) t d
theorem before4 (c : Dev nD) (t : Fin cfg2.N) (d) : (dat V c).before 4 t d = blk V c 4 t :=
  before_in4_of V (dat V c) (A_eq V c 4) (after4 V c) t d
theorem before5 (c : Dev nD) (t : Fin cfg2.N) (d) : (dat V c).before 5 t d = blk V c 5 t :=
  before_in5_of V (dat V c) (A_eq V c 5) (after5 V c) t d

/-- What the body is called with at point t: the invariant, the core's debts, and the seven current staging buffers. -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d)))

/-- and what it hands back. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ owns (c : Thread nD τ) (st2_6 t) fullShare ((dat V c).after 6 t))

/-- The body at any point: the six input buffers hold their blocks, so the body's triple applies; the invariant
    and the debts pass through untouched. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0, before1, before2, before3, before4, before5]
  rw [show (dat V c).Φ t.succ = (dat V c).Φ t.castSucc from rfl,
    show (dat V c).owesAt () t.succ = (dat V c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (blk V c 0 t) (blk V c 1 t) (blk V c 2 t) (blk V c 3 t) (blk V c 4 t) (blk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation (c : Dev nD) : BodyObligation (dat (F := F) V c) (defs₀ (F := F)) Variants.none () Set.univ := fun t => by
  rw [bigSep_W2, bigSep_W2]
  exact sound_body V c t

end Cert.Kernel.OutProj

end
-- ==== Proof.K.Run.lean ====
/-
  The whole program as one run. Its top level is a short stretch of host operations (the three per-head bias arrays
  re-laid as [16, 1, 64]) followed by the three launches, with nothing between them. The contents of the core's
  buffers at each of the five boundaries are named: the launch memory; after the host stretch; after each launch,
  where the launch's arrays hold what its write-backs leave and every other buffer is as it was. Each launch is entered
  from the boundary before it and left at the one after it, so every weakly fair execution ends with EVERY unscoped
  buffer at the last boundary's contents — in particular the fourteen arguments as launched (no operation and no
  launch writes one) and the result at what the third launch leaves.
-/
import proofs.«114948_j41841571398363_2_alg».proof.Proof.K.Proj
import proofs.«114948_j41841571398363_2_alg».proof.Proof.K.Attn
import proofs.«114948_j41841571398363_2_alg».proof.Proof.K.OutProj

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the host stretch (the first launch's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first launch's exit: its arrays at what the pipeline leaves, every other buffer as entered. -/
def W2 (c : Dev nD) : Valuation τ sig (Elt F) :=
  Pipeline.withArrays spec0 c (W1 m ρ c) fun w => (Proj.dat (V1 m ρ) c).arrAt w cfg0.N
theorem W2_arr (c : Dev nD) (w : Fin cfg0.W) :
    W2 m ρ c (Proc.devRef .tc (Pipeline.arrRef spec0 w)) = (Proj.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Proj.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second launch's exit: its arrays at what the pipeline leaves, every other buffer as entered. -/
def W3 (c : Dev nD) : Valuation τ sig (Elt F) :=
  Pipeline.withArrays spec1 c (W2 m ρ c) fun w => (Attn.dat (V2 m ρ) c).arrAt w cfg1.N
theorem W3_arr (c : Dev nD) (w : Fin cfg1.W) :
    W3 m ρ c (Proc.devRef .tc (Pipeline.arrRef spec1 w)) = (Attn.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (Attn.dat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At the third launch's exit: its arrays at what the pipeline leaves, every other buffer as entered. -/
def W4 (c : Dev nD) : Valuation τ sig (Elt F) :=
  Pipeline.withArrays spec2 c (W3 m ρ c) fun w => (OutProj.dat (V3 m ρ) c).arrAt w cfg2.N
theorem W4_arr (c : Dev nD) (w : Fin cfg2.W) :
    W4 m ρ c (Proc.devRef .tc (Pipeline.arrRef spec2 w)) = (OutProj.dat (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (OutProj.dat (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 5).trans (((OutProj.dat (V3 m ρ) c).arrAt_in 5 rfl _).trans (OutProj.A_eq (V3 m ρ) c 5))
    _ = W2 m ρ c (Proc.devRef .tc main_arg0) := W3_of_ne m ρ c main_arg0 (by decide)
    _ = W1 m ρ c (Proc.devRef .tc main_arg0) := (W2_arr m ρ c 0).trans (((Proj.dat (V1 m ρ) c).arrAt_in 0 rfl _).trans (Proj.A_eq (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := (W2_arr m ρ c 2).trans (((Proj.dat (V1 m ρ) c).arrAt_in 2 rfl _).trans (Proj.A_eq (V1 m ρ) c 2))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := (W2_arr m ρ c 1).trans (((Proj.dat (V1 m ρ) c).arrAt_in 1 rfl _).trans (Proj.A_eq (V1 m ρ) c 1))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := (W2_arr m ρ c 3).trans (((Proj.dat (V1 m ρ) c).arrAt_in 3 rfl _).trans (Proj.A_eq (V1 m ρ) c 3))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := (W3_arr m ρ c 4).trans (((Attn.dat (V2 m ρ) c).arrAt_in 4 rfl _).trans (Attn.A_eq (V2 m ρ) c 4))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := (W3_arr m ρ c 5).trans (((Attn.dat (V2 m ρ) c).arrAt_in 5 rfl _).trans (Attn.A_eq (V2 m ρ) c 5))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := (W3_arr m ρ c 3).trans (((Attn.dat (V2 m ρ) c).arrAt_in 3 rfl _).trans (Attn.A_eq (V2 m ρ) c 3))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := (W4_arr m ρ c 1).trans (((OutProj.dat (V3 m ρ) c).arrAt_in 1 rfl _).trans (OutProj.A_eq (V3 m ρ) c 1))
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := (W4_arr m ρ c 2).trans (((OutProj.dat (V3 m ρ) c).arrAt_in 2 rfl _).trans (OutProj.A_eq (V3 m ρ) c 2))
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

theorem W4_main_arg12 (c : Dev nD) : W4 m ρ c (Proc.devRef .tc main_arg12) = m ((c : Thread nD τ).loc main_arg12) :=
  calc W4 m ρ c (Proc.devRef .tc main_arg12)
    _ = W3 m ρ c (Proc.devRef .tc main_arg12) := (W4_arr m ρ c 3).trans (((OutProj.dat (V3 m ρ) c).arrAt_in 3 rfl _).trans (OutProj.A_eq (V3 m ρ) c 3))
    _ = W2 m ρ c (Proc.devRef .tc main_arg12) := W3_of_ne m ρ c main_arg12 (by decide)
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

theorem W4_main_arg13 (c : Dev nD) : W4 m ρ c (Proc.devRef .tc main_arg13) = m ((c : Thread nD τ).loc main_arg13) :=
  calc W4 m ρ c (Proc.devRef .tc main_arg13)
    _ = W3 m ρ c (Proc.devRef .tc main_arg13) := (W4_arr m ρ c 4).trans (((OutProj.dat (V3 m ρ) c).arrAt_in 4 rfl _).trans (OutProj.A_eq (V3 m ρ) c 4))
    _ = W2 m ρ c (Proc.devRef .tc main_arg13) := W3_of_ne m ρ c main_arg13 (by decide)
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl

/-! ## The proof data family and what rides along -/

abbrev adm : (p : Fin 3) → (pcfgs (F := F) p).Adm := fun p => (cfgs p).toPCfg_adm
/-- Every launch's proof data, each at its entry contents. -/
def pdats : (p : Fin 3) → (c : Dev nD) → Dat τ (Elt F) Unit ℕ (UR sig nD τ) ℕ (Pipeline.pin (pcfgs (F := F)) adm p) c
  | ⟨0, _⟩ => fun c => Proj.dat (V1 m ρ) c
  | ⟨1, _⟩ => fun c => Attn.dat (V2 m ρ) c
  | ⟨2, _⟩ => fun c => OutProj.dat (V3 m ρ) c
abbrev 𝒱₀ : Variants := Variants.none
/-- No core owes another anything. -/
abbrev L : GSem nD τ sig → Finset Unit := fun _ => ∅
abbrev lv : GSem nD τ sig → Unit → ℕ := fun _ _ => 0
/-- Beside the buffers through every segment: the generator register at some state, and the core's debts, none. -/
abbrev R (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W4 m ρ c) ∗ ∃ r, prngReg c r)

/-! ## The launches as segments -/

set_option backward.isDefEq.respectTransparency.types false in
/-- The first launch over the thread state: entered with every unscoped buffer at the contents after the host stretch, left with its three result arrays at what its write-backs leave. Its arrays are split out of the unscoped buffers and put back; the generator register goes into its invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Proj.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second launch, likewise; its invariant additionally names the two kept buffers between points, is entered from what the launch hands over and gives that back at the end. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Attn.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Attn.hin (V2 m ρ) c)
    unfold Pipeline.ΦA
    iintro ⟨Hp, -, Hr⟩
    isplitl [Hr]; · iexact Hr
    iexact Hp
  hout c := by
    rw [Pipeline.ownSems0_none]
    refine (Attn.hout (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third launch, likewise. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (OutProj.body_obligation (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ) ]

theorem main_run (c : Dev nD) : main (F := F) c = Pipeline.Seg.run (segs m ρ) := (main_chain c).trans (by chain_rfl)

set_option backward.isDefEq.respectTransparency.types false in
/-- The run: from any memory with zero counters every weakly fair execution terminates, nothing faulting, and every
    unscoped buffer of every core ends at the last boundary's contents. -/
theorem run : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = W4 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c b hb => h c _ (mem_uc b hb))

/-- The frame: every weakly fair execution terminates, nothing faulting, with the fourteen arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c main_arg0 (by decide)).trans (W4_main_arg0 m ρ c),
    (h c main_arg1 (by decide)).trans (W4_main_arg1 m ρ c),
    (h c main_arg2 (by decide)).trans (W4_main_arg2 m ρ c),
    (h c main_arg3 (by decide)).trans (W4_main_arg3 m ρ c),
    (h c main_arg4 (by decide)).trans (W4_main_arg4 m ρ c),
    (h c main_arg5 (by decide)).trans (W4_main_arg5 m ρ c),
    (h c main_arg6 (by decide)).trans (W4_main_arg6 m ρ c),
    (h c main_arg7 (by decide)).trans (W4_main_arg7 m ρ c),
    (h c main_arg8 (by decide)).trans (W4_main_arg8 m ρ c),
    (h c main_arg9 (by decide)).trans (W4_main_arg9 m ρ c),
    (h c main_arg10 (by decide)).trans (W4_main_arg10 m ρ c),
    (h c main_arg11 (by decide)).trans (W4_main_arg11 m ρ c),
    (h c main_arg12 (by decide)).trans (W4_main_arg12 m ρ c),
    (h c main_arg13 (by decide)).trans (W4_main_arg13 m ρ c)⟩) (run m ρ)

end Cert.Kernel.Run

end
-- ==== Proof.KI.Proj.lean ====
/-
  The first launch: the shared projections. Its grid has eight points; point t stages rows 256·t … 256·t + 255 of
  the sequence (a [256, 1024] block) beside the three [64, 1024] weight matrices, which are staged once and stay,
  and writes three [256, 64] blocks: the block of rows times each weight matrix transposed, one whole contraction
  over the 1024 columns each.

  Stated here at ANY contents V of the core's buffers when the launch is entered: what the body leaves in each
  output block as a function of the four input blocks, that the body does so from whole staging buffers, and the
  bookkeeping the pipeline needs at every point (each input block is where the body looks for it whether it was
  fetched at this point or earlier).
-/
import proofs.«114948_j41841571398363_2_alg».proof.Proof.Gen.KernelIdeal.Launch
import proofs.«114948_j41841571398363_2_alg».proof.Proof.Gen.KernelIdeal.Skeleton
import proofs.«114948_j41841571398363_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the launch finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data over these arrays whose body leaves the block where it found it (the window is never cut and never idle). -/
theorem before_in0_of {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1's current staging buffer holds its block at every point, fetched there or not, for any proof
    data over these arrays whose body leaves the block where it found it (the window is never cut and never idle). -/
theorem before_in1_of {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2's current staging buffer holds its block at every point, fetched there or not, for any proof
    data over these arrays whose body leaves the block where it found it (the window is never cut and never idle). -/
theorem before_in2_of {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- Input window 3's current staging buffer holds its block at every point, fetched there or not, for any proof
    data over these arrays whose body leaves the block where it found it (the window is never cut and never idle). -/
theorem before_in3_of {c : Dev nD} (dat : Dat τ (Elt F) Unit ℕ (UR sig nD τ) ℕ cfg0 c) (hA : dat.A 3 = V c (Pipeline.arrRef spec0 3))
    (hafter : ∀ t, dat.after 3 t = blk V c 3 t) (t : Fin cfg0.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-! ## The body's accesses: every load and store is of a whole block -/

abbrev rX : Rect S256x1024 := Rect.unit (s := S256x1024) ![0, 0] S256x1024.size inb_S256x1024_S256x1024_0_0
abbrev rW : Rect S64x1024 := Rect.unit (s := S64x1024) ![0, 0] S64x1024.size inb_S64x1024_S64x1024_0_0
abbrev rO : Rect S256x64 := Rect.unit (s := S256x64) ![0, 0] S256x64.size inb_S256x64_S256x64_0_0

/-- What the body leaves in the query block: rows times the query weights transposed. -/
def outQ (x : Vec F S256x1024 .f32) (wq : Vec F S64x1024 .f32) : Vec F S256x64 .f32 :=
  View.canon [⟨rO, k0_pay2 (View.ld x rX) (View.ld wq rW)⟩]
/-- What the body leaves in the key block. -/
def outK (x : Vec F S256x1024 .f32) (wk : Vec F S64x1024 .f32) : Vec F S256x64 .f32 :=
  View.canon [⟨rO, k0_pay3 (View.ld x rX) (View.ld wk rW)⟩]
/-- What the body leaves in the value block. -/
def outV (x : Vec F S256x1024 .f32) (wv : Vec F S64x1024 .f32) : Vec F S256x64 .f32 :=
  View.canon [⟨rO, k0_pay4 (View.ld x rX) (View.ld wv rW)⟩]

/-- One whole-block store covers the block. -/
theorem coverO (p : Vec F S256x64 .f32) (y : S256x64.Idx) :
    ∃ pc ∈ ([⟨rO, p⟩] : List (View.Piece (Elt F) S256x64 .f32)), y ∈ pc.1.set :=
  View.cover_of_tiled [⟨rO, p⟩] S256x64.size (by rfl) y

set_option maxHeartbeats 4000000 in
/-- The body, on whole staging buffers holding the four input blocks and anything in the three output buffers,
    runs to its return with the inputs as they were and the outputs at the three products. -/
theorem sound_kernel (c : Dev nD) (E : Set ℕ) (i : grid0.Coords)
    (a1 : Memref sig .tc .vmem S256x1024 .f32) (h1 : a1.IsWhole) (a2 : Memref sig .tc .vmem S64x1024 .f32) (h2 : a2.IsWhole)
    (a3 : Memref sig .tc .vmem S64x1024 .f32) (h3 : a3.IsWhole) (a4 : Memref sig .tc .vmem S64x1024 .f32) (h4 : a4.IsWhole)
    (a5 : Memref sig .tc .vmem S256x64 .f32) (h5 : a5.IsWhole) (a6 : Memref sig .tc .vmem S256x64 .f32) (h6 : a6.IsWhole)
    (a7 : Memref sig .tc .vmem S256x64 .f32) (h7 : a7.IsWhole)
    (x : Vec F S256x1024 .f32) (wq wk wv : Vec F S64x1024 .f32) (K : PUnit → sProp 𝕄) :
    iprop(owns (c : Thread nD τ) a1 fullShare x ∗ owns (c : Thread nD τ) a2 fullShare wq
        ∗ owns (c : Thread nD τ) a3 fullShare wk ∗ owns (c : Thread nD τ) a4 fullShare wv
        ∗ (∃ d, owns (c : Thread nD τ) a5 fullShare d) ∗ (∃ d, owns (c : Thread nD τ) a6 fullShare d)
        ∗ (∃ d, owns (c : Thread nD τ) a7 fullShare d)
        ∗ (iprop(owns (c : Thread nD τ) a1 fullShare x ∗ owns (c : Thread nD τ) a2 fullShare wq
            ∗ owns (c : Thread nD τ) a3 fullShare wk ∗ owns (c : Thread nD τ) a4 fullShare wv
            ∗ owns (c : Thread nD τ) a5 fullShare (outQ x wq) ∗ owns (c : Thread nD τ) a6 fullShare (outK x wk)
            ∗ owns (c : Thread nD τ) a7 fullShare (outV x wv)) -∗ K ⟨⟩))
      ⊢ wp frame (wpE (defs₀ (F := F)) Variants.none c none) E (cc0__proj_kernel i a1 h1 a2 h2 a3 h3 a4 h4 a5 h5 a6 h6 a7 h7) K := by
  simp only [cc0__proj_kernel_eq_skeleton]; unfold cc0__proj_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
  subst hf1 hf2 hf3 hf4
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists _; isplitr
    swap; · iexact H5
    ipureintro
    exact View.read_writes_eq_canon _ _ _ (coverO _)
  isplitl [H6]
  · iexists _; isplitr
    swap; · iexact H6
    ipureintro
    exact View.read_writes_eq_canon _ _ _ (coverO _)
  iexists _; isplitr
  swap; · iexact H7
  ipureintro
  exact View.read_writes_eq_canon _ _ _ (coverO _)

/-! ## The proof data and the obligation at every point -/

/-- The pipeline's proof data for this launch on core c: the seven arrays as the launch finds them; after the body at
    point t every input buffer still at its block and the three output buffers at the three products of the input
    blocks; between points only what the kernel never names (the scoped rest and the generator register); nothing
    owed to any other core; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => blk V c 3 t
    | ⟨4, _⟩ => outQ (blk V c 0 t) (blk V c 1 t)
    | ⟨5, _⟩ => outK (blk V c 0 t) (blk V c 2 t)
    | ⟨6, _⟩ => outV (blk V c 0 t) (blk V c 3 t)
  Φ _ := Pipeline.ΦA spec0 c
  q _ := fullShare
  owed _ := 0

theorem A_eq (c : Dev nD) (w : Fin cfg0.W) : (dat V c).A w = V c (Pipeline.arrRef spec0 w) := by
  dsimp only [dat]

theorem after0 (c : Dev nD) (t : Fin cfg0.N) : (dat V c).after 0 t = blk V c 0 t := by dsimp only [dat]
theorem after1 (c : Dev nD) (t : Fin cfg0.N) : (dat V c).after 1 t = blk V c 1 t := by dsimp only [dat]
theorem after2 (c : Dev nD) (t : Fin cfg0.N) : (dat V c).after 2 t = blk V c 2 t := by dsimp only [dat]
theorem after3 (c : Dev nD) (t : Fin cfg0.N) : (dat V c).after 3 t = blk V c 3 t := by dsimp only [dat]
theorem after4 (c : Dev nD) (t : Fin cfg0.N) : (dat V c).after 4 t = outQ (blk V c 0 t) (blk V c 1 t) := by dsimp only [dat]
theorem after5 (c : Dev nD) (t : Fin cfg0.N) : (dat V c).after 5 t = outK (blk V c 0 t) (blk V c 2 t) := by dsimp only [dat]
theorem after6 (c : Dev nD) (t : Fin cfg0.N) : (dat V c).after 6 t = outV (blk V c 0 t) (blk V c 3 t) := by dsimp only [dat]

theorem before0 (c : Dev nD) (t : Fin cfg0.N) (d) : (dat V c).before 0 t d = blk V c 0 t :=
  before_in0_of V (dat V c) (A_eq V c 0) (after0 V c) t d
theorem before1 (c : Dev nD) (t : Fin cfg0.N) (d) : (dat V c).before 1 t d = blk V c 1 t :=
  before_in1_of V (dat V c) (A_eq V c 1) (after1 V c) t d
theorem before2 (c : Dev nD) (t : Fin cfg0.N) (d) : (dat V c).before 2 t d = blk V c 2 t :=
  before_in2_of V (dat V c) (A_eq V c 2) (after2 V c) t d
theorem before3 (c : Dev nD) (t : Fin cfg0.N) (d) : (dat V c).before 3 t d = blk V c 3 t :=
  before_in3_of V (dat V c) (A_eq V c 3) (after3 V c) t d

/-- What the body is called with at point t: the invariant, the core's debts, and the seven current staging buffers. -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d))
    ∗ (∃ d, owns (c : Thread nD τ) (st0_4 t) fullShare ((dat V c).before 4 t d))
    ∗ (∃ d, owns (c : Thread nD τ) (st0_5 t) fullShare ((dat V c).before 5 t d))
    ∗ (∃ d, owns (c : Thread nD τ) (st0_6 t) fullShare ((dat V c).before 6 t d)))

/-- and what it hands back. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t)
    ∗ owns (c : Thread nD τ) (st0_4 t) fullShare ((dat V c).after 4 t)
    ∗ owns (c : Thread nD τ) (st0_5 t) fullShare ((dat V c).after 5 t)
    ∗ owns (c : Thread nD τ) (st0_6 t) fullShare ((dat V c).after 6 t))

/-- The body at any point: the four input buffers hold their blocks, so the body's triple applies; the invariant
    and the debts pass through untouched. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2, before3]
  rw [show (dat V c).Φ t.succ = (dat V c).Φ t.castSucc from rfl,
    show (dat V c).owesAt () t.succ = (dat V c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (blk V c 0 t) (blk V c 1 t) (blk V c 2 t) (blk V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation (c : Dev nD) : BodyObligation (dat (F := F) V c) (defs₀ (F := F)) Variants.none () Set.univ := fun t => by
  rw [bigSep_W0, bigSep_W0]
  exact sound_body V c t

end Cert.KernelIdeal.Proj

end
-- ==== Proof.KI.AttnRun.lean ====
/-
  The second launch: attention for one pair of heads at one tile of 256 queries. Its grid is 8 × 8: the outer
  coordinate is the pair of heads, the inner one the query tile, so point t has query tile t mod 8. At the first
  query tile of a pair the body computes that pair's per-head keys and values from the shared projections — for
  each of the two heads the [2048, 64] block times the head's [64, 64] weight transposed plus the head's bias —
  and keeps them in two [2, 2048, 64] buffers of its own; at every tile it reads them back from there. So what the
  body computes at a later tile depends on what an earlier point left in those two buffers.

  Here: the branch condition in closed form over the grid, and the body run in each of its two cases on whole
  buffers — the case that fills the two buffers (from anything) and the case that only reads them (at given
  contents) — with what the stores leave in the output block and in the two buffers found as the run goes.
-/
import proofs.«114948_j41841571398363_2_alg».proof.Proof.Gen.KernelIdeal.Launch
import proofs.«114948_j41841571398363_2_alg».proof.Proof.Gen.KernelIdeal.Skeleton
import proofs.«114948_j41841571398363_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch: "this is the first query tile of the pair of heads", as the body computes it from the
    inner grid coordinate. -/
abbrev firstTile (i : grid1.Coords) : Prop :=
  (Scalar.cmpi .ne (Scalar.extui (Scalar.cmpi .eq (BitVec.ofNat 32 (i 1).val) 0#32)) 0#32) = 1#1

/-- It holds exactly at the points that are multiples of 8. -/
theorem firstTile_iff : ∀ t : Fin cfg1.N, firstTile (grid1.coords t) ↔ t.val % 8 = 0 :=
  (by decide +kernel : ∀ t : Fin grid1.N, firstTile (grid1.coords t) ↔ t.val % 8 = 0)

set_option maxHeartbeats 4000000 in
/-- The body at a first query tile: from the nine input blocks, and ANYTHING in the output block and the two kept
    buffers, it runs to its return with the inputs as they were and the output block and both kept buffers at what
    its stores leave (the three lists of stored pieces, last first, are what the run finds). -/
noncomputable def runFill (c : Dev nD) (i : grid1.Coords) (a2 : Memref sig .tc .vmem S2048x64 .f32) (ha2 : a2.IsWhole) (a3 : Memref sig .tc .vmem S2048x64 .f32) (ha3 : a3.IsWhole) (a4 : Memref sig .tc .vmem S2048x64 .f32) (ha4 : a4.IsWhole) (a5 : Memref sig .tc .vmem S2x64x64 .f32) (ha5 : a5.IsWhole) (a6 : Memref sig .tc .vmem S2x64x64 .f32) (ha6 : a6.IsWhole) (a7 : Memref sig .tc .vmem S2x64x64 .f32) (ha7 : a7.IsWhole) (a8 : Memref sig .tc .vmem S2x1x64 .f32) (ha8 : a8.IsWhole) (a9 : Memref sig .tc .vmem S2x1x64 .f32) (ha9 : a9.IsWhole) (a10 : Memref sig .tc .vmem S2x1x64 .f32) (ha10 : a10.IsWhole) (a11 : Memref sig .tc .vmem S256x128 .f32) (ha11 : a11.IsWhole) (a12 : Memref sig .tc .vmem S2x2048x64 .bf16) (ha12 : a12.IsWhole) (a13 : Memref sig .tc .vmem S2x2048x64 .bf16) (ha13 : a13.IsWhole) (hc : firstTile i)
    (q : Vec F S2048x64 .f32) (k : Vec F S2048x64 .f32) (v : Vec F S2048x64 .f32) (wq : Vec F S2x64x64 .f32) (wk : Vec F S2x64x64 .f32) (wv : Vec F S2x64x64 .f32) (bq : Vec F S2x1x64 .f32) (bk : Vec F S2x1x64 .f32) (bv : Vec F S2x1x64 .f32) :
    Σ' (LO : List (View.Piece (Elt F) S256x128 .f32)) (LK : List (View.Piece (Elt F) S2x2048x64 .bf16)), { LV : List (View.Piece (Elt F) S2x2048x64 .bf16) //
      ∀ (E : Set ℕ) (K : PUnit → sProp 𝕄),
        iprop(owns (c : Thread nD τ) a2 fullShare q ∗ owns (c : Thread nD τ) a3 fullShare k ∗ owns (c : Thread nD τ) a4 fullShare v ∗ owns (c : Thread nD τ) a5 fullShare wq ∗ owns (c : Thread nD τ) a6 fullShare wk ∗ owns (c : Thread nD τ) a7 fullShare wv ∗ owns (c : Thread nD τ) a8 fullShare bq ∗ owns (c : Thread nD τ) a9 fullShare bk ∗ owns (c : Thread nD τ) a10 fullShare bv
            ∗ (∃ d, owns (c : Thread nD τ) a11 fullShare d) ∗ (∃ d, owns (c : Thread nD τ) a12 fullShare d) ∗ (∃ d, owns (c : Thread nD τ) a13 fullShare d)
            ∗ (iprop(owns (c : Thread nD τ) a2 fullShare q ∗ owns (c : Thread nD τ) a3 fullShare k ∗ owns (c : Thread nD τ) a4 fullShare v ∗ owns (c : Thread nD τ) a5 fullShare wq ∗ owns (c : Thread nD τ) a6 fullShare wk ∗ owns (c : Thread nD τ) a7 fullShare wv ∗ owns (c : Thread nD τ) a8 fullShare bq ∗ owns (c : Thread nD τ) a9 fullShare bk ∗ owns (c : Thread nD τ) a10 fullShare bv
                ∗ (∃ f, a11.view.loc (c : Thread nD τ) ↦[a11.view.set]{fullShare} a11.view.writes (Elt F) f LO) ∗ (∃ f, a12.view.loc (c : Thread nD τ) ↦[a12.view.set]{fullShare} a12.view.writes (Elt F) f LK) ∗ (∃ f, a13.view.loc (c : Thread nD τ) ↦[a13.view.set]{fullShare} a13.view.writes (Elt F) f LV)) -∗ K ⟨⟩))
          ⊢ wp frame (wpE (defs₀ (F := F)) Variants.none c none) E (cc1__attn_kernel i a2 ha2 a3 ha3 a4 ha4 a5 ha5 a6 ha6 a7 ha7 a8 ha8 a9 ha9 a10 ha10 a11 ha11 a12 ha12 a13 ha13) K } := by
  refine ⟨?_, ?_, ?_, fun E K => ?run⟩
  case run =>
    simp only [cc1__attn_kernel_eq_skeleton]; unfold cc1__attn_kernel_skel
    simp only [k1_part2_eq_skeleton, k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, Hk⟩
    obtain rfl := ha2.eq_unread hf0; obtain rfl := ha3.eq_unread hf1; obtain rfl := ha4.eq_unread hf2; obtain rfl := ha5.eq_unread hf3; obtain rfl := ha6.eq_unread hf4; obtain rfl := ha7.eq_unread hf5; obtain rfl := ha8.eq_unread hf6; obtain rfl := ha9.eq_unread hf7; obtain rfl := ha10.eq_unread hf8
    sl_exec (disch := first | exact hc)
    sl_step
    iapply Hk
    isplitl [H0]
    · iexists _; isplitr; · ipureintro; exact ha2.read_unread _
      iexact H0
    isplitl [H1]
    · iexists _; isplitr; · ipureintro; exact ha3.read_unread _
      iexact H1
    isplitl [H2]
    · iexists _; isplitr; · ipureintro; exact ha4.read_unread _
      iexact H2
    isplitl [H3]
    · iexists _; isplitr; · ipureintro; exact ha5.read_unread _
      iexact H3
    isplitl [H4]
    · iexists _; isplitr; · ipureintro; exact ha6.read_unread _
      iexact H4
    isplitl [H5]
    · iexists _; isplitr; · ipureintro; exact ha7.read_unread _
      iexact H5
    isplitl [H6]
    · iexists _; isplitr; · ipureintro; exact ha8.read_unread _
      iexact H6
    isplitl [H7]
    · iexists _; isplitr; · ipureintro; exact ha9.read_unread _
      iexact H7
    isplitl [H8]
    · iexists _; isplitr; · ipureintro; exact ha10.read_unread _
      iexact H8
    isplitl [H9]; · iexists _; iexact H9
    isplitl [H10]; · iexists _; iexact H10
    iexists _; iexact H11

set_option maxHeartbeats 4000000 in
/-- The body at a later query tile: from the nine input blocks, anything in the output block, and the two kept
    buffers at GIVEN contents, it runs to its return with the inputs and both kept buffers as they were and the
    output block at what its one store leaves. -/
noncomputable def runRead (c : Dev nD) (i : grid1.Coords) (a2 : Memref sig .tc .vmem S2048x64 .f32) (ha2 : a2.IsWhole) (a3 : Memref sig .tc .vmem S2048x64 .f32) (ha3 : a3.IsWhole) (a4 : Memref sig .tc .vmem S2048x64 .f32) (ha4 : a4.IsWhole) (a5 : Memref sig .tc .vmem S2x64x64 .f32) (ha5 : a5.IsWhole) (a6 : Memref sig .tc .vmem S2x64x64 .f32) (ha6 : a6.IsWhole) (a7 : Memref sig .tc .vmem S2x64x64 .f32) (ha7 : a7.IsWhole) (a8 : Memref sig .tc .vmem S2x1x64 .f32) (ha8 : a8.IsWhole) (a9 : Memref sig .tc .vmem S2x1x64 .f32) (ha9 : a9.IsWhole) (a10 : Memref sig .tc .vmem S2x1x64 .f32) (ha10 : a10.IsWhole) (a11 : Memref sig .tc .vmem S256x128 .f32) (ha11 : a11.IsWhole) (a12 : Memref sig .tc .vmem S2x2048x64 .bf16) (ha12 : a12.IsWhole) (a13 : Memref sig .tc .vmem S2x2048x64 .bf16) (ha13 : a13.IsWhole) (hc : ¬firstTile i)
    (q : Vec F S2048x64 .f32) (k : Vec F S2048x64 .f32) (v : Vec F S2048x64 .f32) (wq : Vec F S2x64x64 .f32) (wk : Vec F S2x64x64 .f32) (wv : Vec F S2x64x64 .f32) (bq : Vec F S2x1x64 .f32) (bk : Vec F S2x1x64 .f32) (bv : Vec F S2x1x64 .f32) (kh vh : Vec F S2x2048x64 .bf16) :
    { LO : List (View.Piece (Elt F) S256x128 .f32) //
      ∀ (E : Set ℕ) (K : PUnit → sProp 𝕄),
        iprop(owns (c : Thread nD τ) a2 fullShare q ∗ owns (c : Thread nD τ) a3 fullShare k ∗ owns (c : Thread nD τ) a4 fullShare v ∗ owns (c : Thread nD τ) a5 fullShare wq ∗ owns (c : Thread nD τ) a6 fullShare wk ∗ owns (c : Thread nD τ) a7 fullShare wv ∗ owns (c : Thread nD τ) a8 fullShare bq ∗ owns (c : Thread nD τ) a9 fullShare bk ∗ owns (c : Thread nD τ) a10 fullShare bv
            ∗ (∃ d, owns (c : Thread nD τ) a11 fullShare d) ∗ owns (c : Thread nD τ) a12 fullShare kh ∗ owns (c : Thread nD τ) a13 fullShare vh
            ∗ (iprop(owns (c : Thread nD τ) a2 fullShare q ∗ owns (c : Thread nD τ) a3 fullShare k ∗ owns (c : Thread nD τ) a4 fullShare v ∗ owns (c : Thread nD τ) a5 fullShare wq ∗ owns (c : Thread nD τ) a6 fullShare wk ∗ owns (c : Thread nD τ) a7 fullShare wv ∗ owns (c : Thread nD τ) a8 fullShare bq ∗ owns (c : Thread nD τ) a9 fullShare bk ∗ owns (c : Thread nD τ) a10 fullShare bv
                ∗ (∃ f, a11.view.loc (c : Thread nD τ) ↦[a11.view.set]{fullShare} a11.view.writes (Elt F) f LO) ∗ owns (c : Thread nD τ) a12 fullShare kh ∗ owns (c : Thread nD τ) a13 fullShare vh) -∗ K ⟨⟩))
          ⊢ wp frame (wpE (defs₀ (F := F)) Variants.none c none) E (cc1__attn_kernel i a2 ha2 a3 ha3 a4 ha4 a5 ha5 a6 ha6 a7 ha7 a8 ha8 a9 ha9 a10 ha10 a11 ha11 a12 ha12 a13 ha13) K } := by
  refine ⟨?_, fun E K => ?run⟩
  case run =>
    simp only [cc1__attn_kernel_eq_skeleton]; unfold cc1__attn_kernel_skel
    simp only [k1_part2_eq_skeleton, k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, Hk⟩
    obtain rfl := ha2.eq_unread hf0; obtain rfl := ha3.eq_unread hf1; obtain rfl := ha4.eq_unread hf2; obtain rfl := ha5.eq_unread hf3; obtain rfl := ha6.eq_unread hf4; obtain rfl := ha7.eq_unread hf5; obtain rfl := ha8.eq_unread hf6; obtain rfl := ha9.eq_unread hf7; obtain rfl := ha10.eq_unread hf8; obtain rfl := ha12.eq_unread hf10; obtain rfl := ha13.eq_unread hf11
    sl_exec (disch := first | exact hc)
    sl_step
    iapply Hk
    isplitl [H0]
    · iexists _; isplitr; · ipureintro; exact ha2.read_unread _
      iexact H0
    isplitl [H1]
    · iexists _; isplitr; · ipureintro; exact ha3.read_unread _
      iexact H1
    isplitl [H2]
    · iexists _; isplitr; · ipureintro; exact ha4.read_unread _
      iexact H2
    isplitl [H3]
    · iexists _; isplitr; · ipureintro; exact ha5.read_unread _
      iexact H3
    isplitl [H4]
    · iexists _; isplitr; · ipureintro; exact ha6.read_unread _
      iexact H4
    isplitl [H5]
    · iexists _; isplitr; · ipureintro; exact ha7.read_unread _
      iexact H5
    isplitl [H6]
    · iexists _; isplitr; · ipureintro; exact ha8.read_unread _
      iexact H6
    isplitl [H7]
    · iexists _; isplitr; · ipureintro; exact ha9.read_unread _
      iexact H7
    isplitl [H8]
    · iexists _; isplitr; · ipureintro; exact ha10.read_unread _
      iexact H8
    isplitl [H9]; · iexists _; iexact H9
    isplitl [H10]
    · iexists _; isplitr; · ipureintro; exact ha12.read_unread _
      iexact H10
    iexists _; isplitr; · ipureintro; exact ha13.read_unread _
    iexact H11

end Cert.KernelIdeal.Attn

end
-- ==== Proof.KI.Attn.lean ====
/-
  The second launch, continued: what its output block and its two kept buffers hold after every grid point, and the
  bookkeeping the pipeline needs there.

  After point t the two kept buffers hold the per-head keys and values of the pair of heads t / 8: a point with
  t mod 8 = 0 writes them (from the shared projections and that pair's weights and biases), every other point leaves
  them as the point before did. The output block after point t is what the body stores from the nine input blocks and
  — at a point with t mod 8 ≠ 0 — from what the point before left in the two kept buffers. Between points the
  launch's invariant therefore names the two kept buffers' contents; before the first point and after the last they
  hold anything.
-/
import proofs.«114948_j41841571398363_2_alg».proof.Proof.KI.AttnRun

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the launch finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before_in0_of {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1's current staging buffer holds its block at every point, fetched there or not. -/
theorem before_in1_of {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2's current staging buffer holds its block at every point, fetched there or not. -/
theorem before_in2_of {c : Dev nD} (dat : Dat τ (Elt F) Unit ℕ (UR sig nD τ) ℕ cfg1 c) (hA : dat.A 2 = V c (Pipeline.arrRef spec1 2))
    (hafter : ∀ t, dat.after 2 t = blk V c 2 t) (t : Fin cfg1.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- Input window 3's current staging buffer holds its block at every point, fetched there or not. -/
theorem before_in3_of {c : Dev nD} (dat : Dat τ (Elt F) Unit ℕ (UR sig nD τ) ℕ cfg1 c) (hA : dat.A 3 = V c (Pipeline.arrRef spec1 3))
    (hafter : ∀ t, dat.after 3 t = blk V c 3 t) (t : Fin cfg1.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-- Input window 4's current staging buffer holds its block at every point, fetched there or not. -/
theorem before_in4_of {c : Dev nD} (dat : Dat τ (Elt F) Unit ℕ (UR sig nD τ) ℕ cfg1 c) (hA : dat.A 4 = V c (Pipeline.arrRef spec1 4))
    (hafter : ∀ t, dat.after 4 t = blk V c 4 t) (t : Fin cfg1.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-- Input window 5's current staging buffer holds its block at every point, fetched there or not. -/
theorem before_in5_of {c : Dev nD} (dat : Dat τ (Elt F) Unit ℕ (UR sig nD τ) ℕ cfg1 c) (hA : dat.A 5 = V c (Pipeline.arrRef spec1 5))
    (hafter : ∀ t, dat.after 5 t = blk V c 5 t) (t : Fin cfg1.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

/-- Input window 6's current staging buffer holds its block at every point, fetched there or not. -/
theorem before_in6_of {c : Dev nD} (dat : Dat τ (Elt F) Unit ℕ (UR sig nD τ) ℕ cfg1 c) (hA : dat.A 6 = V c (Pipeline.arrRef spec1 6))
    (hafter : ∀ t, dat.after 6 t = blk V c 6 t) (t : Fin cfg1.N) (d) : dat.before 6 t d = blk V c 6 t :=
  (dat.before_in_eq_fetched 6 rfl (fun _ => rfl) (fun _ _ _ => rfl) (fun t => by rw [hafter]; unfold Dat.blockOf blk; rw [hA]; try rfl) t d).trans
    (by unfold Dat.fetched Dat.blockOf blk; rw [hA]; try rfl)

/-- Input window 7's current staging buffer holds its block at every point, fetched there or not. -/
theorem before_in7_of {c : Dev nD} (dat : Dat τ (Elt F) Unit ℕ (UR sig nD τ) ℕ cfg1 c) (hA : dat.A 7 = V c (Pipeline.arrRef spec1 7))
    (hafter : ∀ t, dat.after 7 t = blk V c 7 t) (t : Fin cfg1.N) (d) : dat.before 7 t d = blk V c 7 t :=
  (dat.before_in_eq_fetched 7 rfl (fun _ => rfl) (fun _ _ _ => rfl) (fun t => by rw [hafter]; unfold Dat.blockOf blk; rw [hA]; try rfl) t d).trans
    (by unfold Dat.fetched Dat.blockOf blk; rw [hA]; try rfl)

/-- Input window 8's current staging buffer holds its block at every point, fetched there or not. -/
theorem before_in8_of {c : Dev nD} (dat : Dat τ (Elt F) Unit ℕ (UR sig nD τ) ℕ cfg1 c) (hA : dat.A 8 = V c (Pipeline.arrRef spec1 8))
    (hafter : ∀ t, dat.after 8 t = blk V c 8 t) (t : Fin cfg1.N) (d) : dat.before 8 t d = blk V c 8 t :=
  (dat.before_in_eq_fetched 8 rfl (fun _ => rfl) (fun _ _ _ => rfl) (fun t => by rw [hafter]; unfold Dat.blockOf blk; rw [hA]; try rfl) t d).trans
    (by unfold Dat.fetched Dat.blockOf blk; rw [hA]; try rfl)

/-! ## The buffers the body is handed at a point -/

abbrev ms0 (t : Fin cfg1.N) := win1_0.stage (cfg1.slots t 0)
abbrev hs0 (t : Fin cfg1.N) : (ms0 t).IsWhole := hstage1_0 ((cfg1.slots t 0).cast nbuf1_0)
abbrev ms1 (t : Fin cfg1.N) := win1_1.stage (cfg1.slots t 1)
abbrev hs1 (t : Fin cfg1.N) : (ms1 t).IsWhole := hstage1_1 ((cfg1.slots t 1).cast nbuf1_1)
abbrev ms2 (t : Fin cfg1.N) := win1_2.stage (cfg1.slots t 2)
abbrev hs2 (t : Fin cfg1.N) : (ms2 t).IsWhole := hstage1_2 ((cfg1.slots t 2).cast nbuf1_2)
abbrev ms3 (t : Fin cfg1.N) := win1_3.stage (cfg1.slots t 3)
abbrev hs3 (t : Fin cfg1.N) : (ms3 t).IsWhole := hstage1_3 ((cfg1.slots t 3).cast nbuf1_3)
abbrev ms4 (t : Fin cfg1.N) := win1_4.stage (cfg1.slots t 4)
abbrev hs4 (t : Fin cfg1.N) : (ms4 t).IsWhole := hstage1_4 ((cfg1.slots t 4).cast nbuf1_4)
abbrev ms5 (t : Fin cfg1.N) := win1_5.stage (cfg1.slots t 5)
abbrev hs5 (t : Fin cfg1.N) : (ms5 t).IsWhole := hstage1_5 ((cfg1.slots t 5).cast nbuf1_5)
abbrev ms6 (t : Fin cfg1.N) := win1_6.stage (cfg1.slots t 6)
abbrev hs6 (t : Fin cfg1.N) : (ms6 t).IsWhole := hstage1_6 ((cfg1.slots t 6).cast nbuf1_6)
abbrev ms7 (t : Fin cfg1.N) := win1_7.stage (cfg1.slots t 7)
abbrev hs7 (t : Fin cfg1.N) : (ms7 t).IsWhole := hstage1_7 ((cfg1.slots t 7).cast nbuf1_7)
abbrev ms8 (t : Fin cfg1.N) := win1_8.stage (cfg1.slots t 8)
abbrev hs8 (t : Fin cfg1.N) : (ms8 t).IsWhole := hstage1_8 ((cfg1.slots t 8).cast nbuf1_8)
abbrev ms9 (t : Fin cfg1.N) := win1_9.stage (cfg1.slots t 9)
abbrev hs9 (t : Fin cfg1.N) : (ms9 t).IsWhole := hstage1_9 ((cfg1.slots t 9).cast nbuf1_9)
/-- The two buffers the kernel keeps between points: per-head keys, per-head values. -/
abbrev scK : Memref sig .tc .vmem S2x2048x64 .bf16 := Memref.whole cc1_scratch0
abbrev scV : Memref sig .tc .vmem S2x2048x64 .bf16 := Memref.whole cc1_scratch1
/-- Views through which the contents below are stated (which buffer of the shape is used does not matter). -/
abbrev VO : View sig .tc .vmem S256x128 .f32 := (Memref.whole cc1_stg9_0 : Memref sig .tc .vmem S256x128 .f32).view
abbrev VK : View sig .tc .vmem S2x2048x64 .bf16 := scK.view
abbrev VV : View sig .tc .vmem S2x2048x64 .bf16 := scV.view

/-! ## What each case leaves, as contents -/

section Cases
variable (c : Dev nD) (i : grid1.Coords) (a2 : Memref sig .tc .vmem S2048x64 .f32) (ha2 : a2.IsWhole) (a3 : Memref sig .tc .vmem S2048x64 .f32) (ha3 : a3.IsWhole) (a4 : Memref sig .tc .vmem S2048x64 .f32) (ha4 : a4.IsWhole) (a5 : Memref sig .tc .vmem S2x64x64 .f32) (ha5 : a5.IsWhole) (a6 : Memref sig .tc .vmem S2x64x64 .f32) (ha6 : a6.IsWhole) (a7 : Memref sig .tc .vmem S2x64x64 .f32) (ha7 : a7.IsWhole) (a8 : Memref sig .tc .vmem S2x1x64 .f32) (ha8 : a8.IsWhole) (a9 : Memref sig .tc .vmem S2x1x64 .f32) (ha9 : a9.IsWhole) (a10 : Memref sig .tc .vmem S2x1x64 .f32) (ha10 : a10.IsWhole) (a11 : Memref sig .tc .vmem S256x128 .f32) (ha11 : a11.IsWhole) (a12 : Memref sig .tc .vmem S2x2048x64 .bf16) (ha12 : a12.IsWhole) (a13 : Memref sig .tc .vmem S2x2048x64 .bf16) (ha13 : a13.IsWhole)
  (q : Vec F S2048x64 .f32) (k : Vec F S2048x64 .f32) (v : Vec F S2048x64 .f32) (wq : Vec F S2x64x64 .f32) (wk : Vec F S2x64x64 .f32) (wv : Vec F S2x64x64 .f32) (bq : Vec F S2x1x64 .f32) (bk : Vec F S2x1x64 .f32) (bv : Vec F S2x1x64 .f32)

/-- The output block after a first query tile. -/
def outFill (hc : firstTile i) : Vec F S256x128 .f32 :=
  VO.read (Elt F) (VO.writes (Elt F) VO.junk (runFill c i a2 ha2 a3 ha3 a4 ha4 a5 ha5 a6 ha6 a7 ha7 a8 ha8 a9 ha9 a10 ha10 a11 ha11 a12 ha12 a13 ha13 hc q k v wq wk wv bq bk bv).1)
/-- The kept keys after a first query tile. -/
def khFill (hc : firstTile i) : Vec F S2x2048x64 .bf16 :=
  VK.read (Elt F) (VK.writes (Elt F) VK.junk (runFill c i a2 ha2 a3 ha3 a4 ha4 a5 ha5 a6 ha6 a7 ha7 a8 ha8 a9 ha9 a10 ha10 a11 ha11 a12 ha12 a13 ha13 hc q k v wq wk wv bq bk bv).2.1)
/-- The kept values after a first query tile. -/
def vhFill (hc : firstTile i) : Vec F S2x2048x64 .bf16 :=
  VV.read (Elt F) (VV.writes (Elt F) VV.junk (runFill c i a2 ha2 a3 ha3 a4 ha4 a5 ha5 a6 ha6 a7 ha7 a8 ha8 a9 ha9 a10 ha10 a11 ha11 a12 ha12 a13 ha13 hc q k v wq wk wv bq bk bv).2.2.1)
/-- The output block after a later query tile, from the kept keys and values it finds. -/
def outRead (hc : ¬firstTile i) (kh vh : Vec F S2x2048x64 .bf16) : Vec F S256x128 .f32 :=
  VO.read (Elt F) (VO.writes (Elt F) VO.junk (runRead c i a2 ha2 a3 ha3 a4 ha4 a5 ha5 a6 ha6 a7 ha7 a8 ha8 a9 ha9 a10 ha10 a11 ha11 a12 ha12 a13 ha13 hc q k v wq wk wv bq bk bv kh vh).1)

/-- The stores of each case tile the buffer they go to — the output block by one whole store, each kept buffer by the
    two heads' [1, 2048, 64] slabs — so they cover it. -/
theorem coverO_fill (hc : firstTile i) (y : S256x128.Idx) :
    ∃ pc ∈ (runFill c i a2 ha2 a3 ha3 a4 ha4 a5 ha5 a6 ha6 a7 ha7 a8 ha8 a9 ha9 a10 ha10 a11 ha11 a12 ha12 a13 ha13 hc q k v wq wk wv bq bk bv).1, y ∈ pc.1.set :=
  View.cover_of_tiledL _ S256x128.size (by sl_kernel_rfl) y
theorem coverK_fill (hc : firstTile i) (y : S2x2048x64.Idx) :
    ∃ pc ∈ (runFill c i a2 ha2 a3 ha3 a4 ha4 a5 ha5 a6 ha6 a7 ha7 a8 ha8 a9 ha9 a10 ha10 a11 ha11 a12 ha12 a13 ha13 hc q k v wq wk wv bq bk bv).2.1, y ∈ pc.1.set :=
  View.cover_of_tiledL (runFill c i a2 ha2 a3 ha3 a4 ha4 a5 ha5 a6 ha6 a7 ha7 a8 ha8 a9 ha9 a10 ha10 a11 ha11 a12 ha12 a13 ha13 hc q k v wq wk wv bq bk bv).2.1 S1x2048x64.size (by sl_kernel_rfl) y
theorem coverV_fill (hc : firstTile i) (y : S2x2048x64.Idx) :
    ∃ pc ∈ (runFill c i a2 ha2 a3 ha3 a4 ha4 a5 ha5 a6 ha6 a7 ha7 a8 ha8 a9 ha9 a10 ha10 a11 ha11 a12 ha12 a13 ha13 hc q k v wq wk wv bq bk bv).2.2.1, y ∈ pc.1.set :=
  View.cover_of_tiledL (runFill c i a2 ha2 a3 ha3 a4 ha4 a5 ha5 a6 ha6 a7 ha7 a8 ha8 a9 ha9 a10 ha10 a11 ha11 a12 ha12 a13 ha13 hc q k v wq wk wv bq bk bv).2.2.1 S1x2048x64.size (by sl_kernel_rfl) y
theorem coverO_read (hc : ¬firstTile i) (kh vh : Vec F S2x2048x64 .bf16) (y : S256x128.Idx) :
    ∃ pc ∈ (runRead c i a2 ha2 a3 ha3 a4 ha4 a5 ha5 a6 ha6 a7 ha7 a8 ha8 a9 ha9 a10 ha10 a11 ha11 a12 ha12 a13 ha13 hc q k v wq wk wv bq bk bv kh vh).1, y ∈ pc.1.set :=
  View.cover_of_tiledL _ S256x128.size (by sl_kernel_rfl) y
end Cases

/-! ## After each point -/

/-- What the output block and the two kept buffers hold after the body at point n: a point with n mod 8 = 0 fills
    the kept buffers from its input blocks; any other point reads what the point before left and leaves it. -/
def outsAt (c : Dev nD) : (n : ℕ) → n < cfg1.N → Vec F S256x128 .f32 × Vec F S2x2048x64 .bf16 × Vec F S2x2048x64 .bf16
  | 0, hn =>
    have hc := (firstTile_iff ⟨0, hn⟩).mpr (Nat.zero_mod _)
    (outFill c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) (ms9 ⟨0, hn⟩) (hs9 ⟨0, hn⟩) scK (Memref.isWhole_whole _) scV (Memref.isWhole_whole _) (blk V c 0 ⟨0, hn⟩) (blk V c 1 ⟨0, hn⟩) (blk V c 2 ⟨0, hn⟩) (blk V c 3 ⟨0, hn⟩) (blk V c 4 ⟨0, hn⟩) (blk V c 5 ⟨0, hn⟩) (blk V c 6 ⟨0, hn⟩) (blk V c 7 ⟨0, hn⟩) (blk V c 8 ⟨0, hn⟩) hc,
     khFill c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) (ms9 ⟨0, hn⟩) (hs9 ⟨0, hn⟩) scK (Memref.isWhole_whole _) scV (Memref.isWhole_whole _) (blk V c 0 ⟨0, hn⟩) (blk V c 1 ⟨0, hn⟩) (blk V c 2 ⟨0, hn⟩) (blk V c 3 ⟨0, hn⟩) (blk V c 4 ⟨0, hn⟩) (blk V c 5 ⟨0, hn⟩) (blk V c 6 ⟨0, hn⟩) (blk V c 7 ⟨0, hn⟩) (blk V c 8 ⟨0, hn⟩) hc,
     vhFill c (grid1.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩) (ms9 ⟨0, hn⟩) (hs9 ⟨0, hn⟩) scK (Memref.isWhole_whole _) scV (Memref.isWhole_whole _) (blk V c 0 ⟨0, hn⟩) (blk V c 1 ⟨0, hn⟩) (blk V c 2 ⟨0, hn⟩) (blk V c 3 ⟨0, hn⟩) (blk V c 4 ⟨0, hn⟩) (blk V c 5 ⟨0, hn⟩) (blk V c 6 ⟨0, hn⟩) (blk V c 7 ⟨0, hn⟩) (blk V c 8 ⟨0, hn⟩) hc)
  | n + 1, hn =>
    if h0 : (n + 1) % 8 = 0 then
      have hc := (firstTile_iff ⟨n + 1, hn⟩).mpr h0
      (outFill c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) scK (Memref.isWhole_whole _) scV (Memref.isWhole_whole _) (blk V c 0 ⟨n + 1, hn⟩) (blk V c 1 ⟨n + 1, hn⟩) (blk V c 2 ⟨n + 1, hn⟩) (blk V c 3 ⟨n + 1, hn⟩) (blk V c 4 ⟨n + 1, hn⟩) (blk V c 5 ⟨n + 1, hn⟩) (blk V c 6 ⟨n + 1, hn⟩) (blk V c 7 ⟨n + 1, hn⟩) (blk V c 8 ⟨n + 1, hn⟩) hc,
       khFill c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) scK (Memref.isWhole_whole _) scV (Memref.isWhole_whole _) (blk V c 0 ⟨n + 1, hn⟩) (blk V c 1 ⟨n + 1, hn⟩) (blk V c 2 ⟨n + 1, hn⟩) (blk V c 3 ⟨n + 1, hn⟩) (blk V c 4 ⟨n + 1, hn⟩) (blk V c 5 ⟨n + 1, hn⟩) (blk V c 6 ⟨n + 1, hn⟩) (blk V c 7 ⟨n + 1, hn⟩) (blk V c 8 ⟨n + 1, hn⟩) hc,
       vhFill c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) scK (Memref.isWhole_whole _) scV (Memref.isWhole_whole _) (blk V c 0 ⟨n + 1, hn⟩) (blk V c 1 ⟨n + 1, hn⟩) (blk V c 2 ⟨n + 1, hn⟩) (blk V c 3 ⟨n + 1, hn⟩) (blk V c 4 ⟨n + 1, hn⟩) (blk V c 5 ⟨n + 1, hn⟩) (blk V c 6 ⟨n + 1, hn⟩) (blk V c 7 ⟨n + 1, hn⟩) (blk V c 8 ⟨n + 1, hn⟩) hc)
    else
      have hc : ¬firstTile (grid1.coords ⟨n + 1, hn⟩) := fun h => h0 ((firstTile_iff ⟨n + 1, hn⟩).mp h)
      (outRead c (grid1.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩) (ms9 ⟨n + 1, hn⟩) (hs9 ⟨n + 1, hn⟩) scK (Memref.isWhole_whole _) scV (Memref.isWhole_whole _) (blk V c 0 ⟨n + 1, hn⟩) (blk V c 1 ⟨n + 1, hn⟩) (blk V c 2 ⟨n + 1, hn⟩) (blk V c 3 ⟨n + 1, hn⟩) (blk V c 4 ⟨n + 1, hn⟩) (blk V c 5 ⟨n + 1, hn⟩) (blk V c 6 ⟨n + 1, hn⟩) (blk V c 7 ⟨n + 1, hn⟩) (blk V c 8 ⟨n + 1, hn⟩) hc
          (outsAt c n (Nat.lt_of_succ_lt hn)).2.1 (outsAt c n (Nat.lt_of_succ_lt hn)).2.2,
       (outsAt c n (Nat.lt_of_succ_lt hn)).2.1, (outsAt c n (Nat.lt_of_succ_lt hn)).2.2)

/-- At a first query tile: the filling case's contents. -/
theorem outsAt_fill (c : Dev nD) (t : Fin cfg1.N) (h0 : t.val % 8 = 0) :
    outsAt V c t.val t.isLt =
      (outFill c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scK (Memref.isWhole_whole _) scV (Memref.isWhole_whole _) (blk V c 0 t) (blk V c 1 t) (blk V c 2 t) (blk V c 3 t) (blk V c 4 t) (blk V c 5 t) (blk V c 6 t) (blk V c 7 t) (blk V c 8 t) ((firstTile_iff t).mpr h0),
       khFill c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scK (Memref.isWhole_whole _) scV (Memref.isWhole_whole _) (blk V c 0 t) (blk V c 1 t) (blk V c 2 t) (blk V c 3 t) (blk V c 4 t) (blk V c 5 t) (blk V c 6 t) (blk V c 7 t) (blk V c 8 t) ((firstTile_iff t).mpr h0),
       vhFill c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scK (Memref.isWhole_whole _) scV (Memref.isWhole_whole _) (blk V c 0 t) (blk V c 1 t) (blk V c 2 t) (blk V c 3 t) (blk V c 4 t) (blk V c 5 t) (blk V c 6 t) (blk V c 7 t) (blk V c 8 t) ((firstTile_iff t).mpr h0)) := by
  obtain ⟨n, hn⟩ := t
  cases n with
  | zero => exact rfl
  | succ n => exact (dif_pos h0).trans rfl

/-- At a later query tile: the reading case's output over what the point before left, which it leaves. -/
theorem outsAt_read (c : Dev nD) (t : Fin cfg1.N) (h0 : ¬t.val % 8 = 0) :
    outsAt V c t.val t.isLt =
      (outRead c (grid1.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (ms9 t) (hs9 t) scK (Memref.isWhole_whole _) scV (Memref.isWhole_whole _) (blk V c 0 t) (blk V c 1 t) (blk V c 2 t) (blk V c 3 t) (blk V c 4 t) (blk V c 5 t) (blk V c 6 t) (blk V c 7 t) (blk V c 8 t) (fun h => h0 ((firstTile_iff t).mp h))
          (outsAt V c (t.val - 1) (Nat.lt_of_le_of_lt (Nat.sub_le _ _) t.isLt)).2.1 (outsAt V c (t.val - 1) (Nat.lt_of_le_of_lt (Nat.sub_le _ _) t.isLt)).2.2,
       (outsAt V c (t.val - 1) (Nat.lt_of_le_of_lt (Nat.sub_le _ _) t.isLt)).2.1, (outsAt V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The invariant between points -/

/-- The core's other scoped buffers (the first and third launches' staging buffers), each whole at something:
    the second launch never names them. -/
def others (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f)
    ∗ (∃ f : Buf (Elt F) ((c : Thread nD τ).loc cc0_stg5_0), ((c : Thread nD τ).loc cc0_stg5_0) ↦{fullShare} f)
    ∗ (∃ f : Buf (Elt F) ((c : Thread nD τ).loc cc0_stg5_1), ((c : Thread nD τ).loc cc0_stg5_1) ↦{fullShare} f)
    ∗ (∃ f : Buf (Elt F) ((c : Thread nD τ).loc cc0_stg6_0), ((c : Thread nD τ).loc cc0_stg6_0) ↦{fullShare} f)
    ∗ (∃ f : Buf (Elt F) ((c : Thread nD τ).loc cc0_stg6_1), ((c : Thread nD τ).loc cc0_stg6_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f)
    ∗ (∃ f : Buf (Elt F) ((c : Thread nD τ).loc cc2_stg4_0), ((c : Thread nD τ).loc cc2_stg4_0) ↦{fullShare} f)
    ∗ (∃ f : Buf (Elt F) ((c : Thread nD τ).loc cc2_stg5_0), ((c : Thread nD τ).loc cc2_stg5_0) ↦{fullShare} f)
    ∗ (∃ f : Buf (Elt F) ((c : Thread nD τ).loc cc2_stg5_1), ((c : Thread nD τ).loc cc2_stg5_1) ↦{fullShare} f)
    ∗ (∃ f : Buf (Elt F) ((c : Thread nD τ).loc cc2_stg6_0), ((c : Thread nD τ).loc cc2_stg6_0) ↦{fullShare} f)
    ∗ (∃ f : Buf (Elt F) ((c : Thread nD τ).loc cc2_stg6_1), ((c : Thread nD τ).loc cc2_stg6_1) ↦{fullShare} f))

/-- What the launch hands the kernel besides its windows, taken apart: the two kept buffers at something, the other
    scoped buffers, the generator register. -/
theorem PhiA_split (c : Dev nD) :
    (Pipeline.ΦA spec1 c : sProp 𝕄)
      ⊢ iprop((∃ d, owns (c : Thread nD τ) scK fullShare d) ∗ (∃ d, owns (c : Thread nD τ) scV fullShare d) ∗ others c ∗ (∃ r, prngReg c r)) := by
  unfold Pipeline.ΦA; rw [scopedRest1_eq]; unfold others; simp only [scK, scV, owns_whole]
  iintro ⟨⟨G0, G1, G2, G3, G4, G5, G6, G7, G8, G9, G10, G11, G12, G13, G14, G15, G16, G17, G18, G19, G20, G21, G22⟩, Hr⟩
  isplitl [G11]; · iexact G11
  isplitl [G12]; · iexact G12
  isplitr [Hr]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G13]; · iexact G13
    isplitl [G14]; · iexact G14
    isplitl [G15]; · iexact G15
    isplitl [G16]; · iexact G16
    isplitl [G17]; · iexact G17
    isplitl [G18]; · iexact G18
    isplitl [G19]; · iexact G19
    isplitl [G20]; · iexact G20
    isplitl [G21]; · iexact G21
    iexact G22
  iexact Hr

/-- And put back together, the kept buffers' contents forgotten. -/
theorem PhiA_join (c : Dev nD) :
    (iprop((∃ d, owns (c : Thread nD τ) scK fullShare d) ∗ (∃ d, owns (c : Thread nD τ) scV fullShare d) ∗ others c ∗ (∃ r, prngReg c r)) : sProp 𝕄)
      ⊢ Pipeline.ΦA spec1 c := by
  unfold Pipeline.ΦA; rw [scopedRest1_eq]; unfold others; simp only [scK, scV, owns_whole]
  iintro ⟨G11, G12, ⟨G0, G1, G2, G3, G4, G5, G6, G7, G8, G9, G10, G13, G14, G15, G16, G17, G18, G19, G20, G21, G22⟩, Hr⟩
  isplitr [Hr]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    isplitl [G12]; · iexact G12
    isplitl [G13]; · iexact G13
    isplitl [G14]; · iexact G14
    isplitl [G15]; · iexact G15
    isplitl [G16]; · iexact G16
    isplitl [G17]; · iexact G17
    isplitl [G18]; · iexact G18
    isplitl [G19]; · iexact G19
    isplitl [G20]; · iexact G20
    isplitl [G21]; · iexact G21
    iexact G22
  iexact Hr

/-- The invariant before position n: before the first point what the launch hands over; afterwards the two kept
    buffers at what the point before left, the other scoped buffers, the generator register. -/
def PhiS (c : Dev nD) : (n : ℕ) → n ≤ cfg1.N → sProp 𝕄
  | 0, _ => Pipeline.ΦA spec1 c
  | n + 1, hn => iprop(owns (c : Thread nD τ) scK fullShare (outsAt V c n hn).2.1 ∗ owns (c : Thread nD τ) scV fullShare (outsAt V c n hn).2.2
      ∗ others c ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(owns (c : Thread nD τ) scK fullShare (outsAt V c n hn).2.1 ∗ owns (c : Thread nD τ) scV fullShare (outsAt V c n hn).2.2
      ∗ others c ∗ (∃ r, prngReg c r)) := rfl
theorem PhiS_pos (c : Dev nD) (n : ℕ) (h : n ≤ cfg1.N) (hz : n ≠ 0) :
    PhiS V c n h = iprop(owns (c : Thread nD τ) scK fullShare (outsAt V c (n - 1) (by omega)).2.1 ∗ owns (c : Thread nD τ) scV fullShare (outsAt V c (n - 1) (by omega)).2.2
      ∗ others c ∗ (∃ r, prngReg c r)) := by
  cases n with
  | zero => exact absurd rfl hz
  | succ n => rfl

/-! ## The proof data -/

/-- The pipeline's proof data for this launch on core c: the ten arrays as the launch finds them; after the body at
    point t every input buffer still at its block and the output buffer at that point's output; between points the
    invariant above; nothing owed; full shares. -/
def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => blk V c 6 t
    | ⟨7, _⟩ => blk V c 7 t
    | ⟨8, _⟩ => blk V c 8 t
    | ⟨9, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem PhiS_castSucc (c : Dev nD) (t : Fin cfg1.N) :
    (dat V c).Φ t.castSucc = PhiS V c t.val (Nat.le_of_lt t.isLt) := by
  dsimp only [dat]; simp only [Fin.coe_castSucc]
theorem after0 (c : Dev nD) (t : Fin cfg1.N) : (dat V c).after 0 t = blk V c 0 t := by dsimp only [dat]
theorem after1 (c : Dev nD) (t : Fin cfg1.N) : (dat V c).after 1 t = blk V c 1 t := by dsimp only [dat]
theorem after2 (c : Dev nD) (t : Fin cfg1.N) : (dat V c).after 2 t = blk V c 2 t := by dsimp only [dat]
theorem after3 (c : Dev nD) (t : Fin cfg1.N) : (dat V c).after 3 t = blk V c 3 t := by dsimp only [dat]
theorem after4 (c : Dev nD) (t : Fin cfg1.N) : (dat V c).after 4 t = blk V c 4 t := by dsimp only [dat]
theorem after5 (c : Dev nD) (t : Fin cfg1.N) : (dat V c).after 5 t = blk V c 5 t := by dsimp only [dat]
theorem after6 (c : Dev nD) (t : Fin cfg1.N) : (dat V c).after 6 t = blk V c 6 t := by dsimp only [dat]
theorem after7 (c : Dev nD) (t : Fin cfg1.N) : (dat V c).after 7 t = blk V c 7 t := by dsimp only [dat]
theorem after8 (c : Dev nD) (t : Fin cfg1.N) : (dat V c).after 8 t = blk V c 8 t := by dsimp only [dat]
theorem after9 (c : Dev nD) (t : Fin cfg1.N) : (dat V c).after 9 t = (outsAt V c t.val t.isLt).1 := by dsimp only [dat]
theorem before0 (c : Dev nD) (t : Fin cfg1.N) (d) : (dat V c).before 0 t d = blk V c 0 t :=
  before_in0_of V (dat V c) (A_eq V c 0) (after0 V c) t d
theorem before1 (c : Dev nD) (t : Fin cfg1.N) (d) : (dat V c).before 1 t d = blk V c 1 t :=
  before_in1_of V (dat V c) (A_eq V c 1) (after1 V c) t d
theorem before2 (c : Dev nD) (t : Fin cfg1.N) (d) : (dat V c).before 2 t d = blk V c 2 t :=
  before_in2_of V (dat V c) (A_eq V c 2) (after2 V c) t d
theorem before3 (c : Dev nD) (t : Fin cfg1.N) (d) : (dat V c).before 3 t d = blk V c 3 t :=
  before_in3_of V (dat V c) (A_eq V c 3) (after3 V c) t d
theorem before4 (c : Dev nD) (t : Fin cfg1.N) (d) : (dat V c).before 4 t d = blk V c 4 t :=
  before_in4_of V (dat V c) (A_eq V c 4) (after4 V c) t d
theorem before5 (c : Dev nD) (t : Fin cfg1.N) (d) : (dat V c).before 5 t d = blk V c 5 t :=
  before_in5_of V (dat V c) (A_eq V c 5) (after5 V c) t d
theorem before6 (c : Dev nD) (t : Fin cfg1.N) (d) : (dat V c).before 6 t d = blk V c 6 t :=
  before_in6_of V (dat V c) (A_eq V c 6) (after6 V c) t d
theorem before7 (c : Dev nD) (t : Fin cfg1.N) (d) : (dat V c).before 7 t d = blk V c 7 t :=
  before_in7_of V (dat V c) (A_eq V c 7) (after7 V c) t d
theorem before8 (c : Dev nD) (t : Fin cfg1.N) (d) : (dat V c).before 8 t d = blk V c 8 t :=
  before_in8_of V (dat V c) (A_eq V c 8) (after8 V c) t d

/-! ## The obligation at every point -/

/-- What the body is called with at point t: the invariant, the core's debts, and the ten current staging buffers. -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d))
    ∗ (∃ d, owns (c : Thread nD τ) (ms6 t) fullShare ((dat V c).before 6 t d))
    ∗ (∃ d, owns (c : Thread nD τ) (ms7 t) fullShare ((dat V c).before 7 t d))
    ∗ (∃ d, owns (c : Thread nD τ) (ms8 t) fullShare ((dat V c).before 8 t d))
    ∗ (∃ d, owns (c : Thread nD τ) (ms9 t) fullShare ((dat V c).before 9 t d)))

/-- and what it hands back. -/
def bodyPost (c : Dev nD) (t : Fin cfg1.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ owns (c : Thread nD τ) (ms4 t) fullShare ((dat V c).after 4 t)
    ∗ owns (c : Thread nD τ) (ms5 t) fullShare ((dat V c).after 5 t)
    ∗ owns (c : Thread nD τ) (ms6 t) fullShare ((dat V c).after 6 t)
    ∗ owns (c : Thread nD τ) (ms7 t) fullShare ((dat V c).after 7 t)
    ∗ owns (c : Thread nD τ) (ms8 t) fullShare ((dat V c).after 8 t)
    ∗ owns (c : Thread nD τ) (ms9 t) fullShare ((dat V c).after 9 t))

set_option maxHeartbeats 8000000 in
/-- The body at any point. The nine input buffers hold their blocks. At a first query tile the two kept buffers may
    hold anything (what the launch handed over, at the very first point; what the pair of heads before left, later) and
    the filling case applies; at any other tile they hold what the point before left and the reading case applies. Either
    way the invariant takes the two kept buffers back at this point's contents. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4, before5, before6, before7, before8]
  rw [show (dat V c).owesAt () t.succ = (dat V c).owesAt () t.castSucc from rfl]
  rw [show (dat V c).Φ t.succ = PhiS V c (t.val + 1) t.isLt from rfl, PhiS_succ]
  rw [after0, after1, after2, after3, after4, after5, after6, after7, after8, after9]
  by_cases h0 : t.val % 8 = 0
  · rw [outsAt_fill V c t h0]
    unfold outFill khFill vhFill; (try dsimp only)
    by_cases hz : t.val = 0
    · rw [PhiS_castSucc V c t, PhiS_zero V c _ _ hz]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      ihave HΦ' := (PhiA_split c) $$ HΦ
      icases HΦ' with ⟨HK, HV, Hoth, Hg⟩
      iapply ((runFill c (grid1.coords t) _ _ _ _ _ _ _ _ _ _ _ _ _ _ _ _ _ _ _ _ _ _ _ _ ((firstTile_iff t).mpr h0) (blk V c 0 t) (blk V c 1 t) (blk V c 2 t) (blk V c 3 t) (blk V c 4 t) (blk V c 5 t) (blk V c 6 t) (blk V c 7 t) (blk V c 8 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HK]; · iexact HK
      isplitl [HV]; · iexact HV
      iintro ⟨H0, H1, H2, H3, H4, H5, H6, H7, H8, ⟨%e9, H9⟩, ⟨%ek, HK⟩, ⟨%ev, HV⟩⟩
      isplitl [HK HV Hoth Hg]
      · isplitl [HK]
        · unfold owns; iexists _; isplitr
          swap; · iexact HK
          ipureintro; exact View.read_writes_of_cover _ _ _ _ _ (coverK_fill c _ _ _ _ _ _ _ _ _ _ _ _ _ _ _ _ _ _ _ _ _ _ _ _ _ _ _ _ _ _ _ _ _ _ _)
        isplitl [HV]
        · unfold owns; iexists _; isplitr
          swap; · iexact HV
          ipureintro; exact View.read_writes_of_cover _ _ _ _ _ (coverV_fill c _ _ _ _ _ _ _ _ _ _ _ _ _ _ _ _ _ _ _ _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      unfold owns; iexists _; isplitr
      swap; · iexact H9
      ipureintro; exact View.read_writes_of_cover _ _ _ _ _ (coverO_fill c _ _ _ _ _ _ _ _ _ _ _ _ _ _ _ _ _ _ _ _ _ _ _ _ _ _ _ _ _ _ _ _ _ _ _)
    · rw [PhiS_castSucc V c t, PhiS_pos V c _ _ hz]
      iintro ⟨⟨HK, HV, Hoth, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runFill c (grid1.coords t) _ _ _ _ _ _ _ _ _ _ _ _ _ _ _ _ _ _ _ _ _ _ _ _ ((firstTile_iff t).mpr h0) (blk V c 0 t) (blk V c 1 t) (blk V c 2 t) (blk V c 3 t) (blk V c 4 t) (blk V c 5 t) (blk V c 6 t) (blk V c 7 t) (blk V c 8 t)).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [HK]; · iexists _; iexact HK
      isplitl [HV]; · iexists _; iexact HV
      iintro ⟨H0, H1, H2, H3, H4, H5, H6, H7, H8, ⟨%e9, H9⟩, ⟨%ek, HK⟩, ⟨%ev, HV⟩⟩
      isplitl [HK HV Hoth Hg]
      · isplitl [HK]
        · unfold owns; iexists _; isplitr
          swap; · iexact HK
          ipureintro; exact View.read_writes_of_cover _ _ _ _ _ (coverK_fill c _ _ _ _ _ _ _ _ _ _ _ _ _ _ _ _ _ _ _ _ _ _ _ _ _ _ _ _ _ _ _ _ _ _ _)
        isplitl [HV]
        · unfold owns; iexists _; isplitr
          swap; · iexact HV
          ipureintro; exact View.read_writes_of_cover _ _ _ _ _ (coverV_fill c _ _ _ _ _ _ _ _ _ _ _ _ _ _ _ _ _ _ _ _ _ _ _ _ _ _ _ _ _ _ _ _ _ _ _)
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      unfold owns; iexists _; isplitr
      swap; · iexact H9
      ipureintro; exact View.read_writes_of_cover _ _ _ _ _ (coverO_fill c _ _ _ _ _ _ _ _ _ _ _ _ _ _ _ _ _ _ _ _ _ _ _ _ _ _ _ _ _ _ _ _ _ _ _)
  · have hz : t.val ≠ 0 := fun e => h0 (by rw [e])
    rw [outsAt_read V c t h0]
    unfold outRead; (try dsimp only)
    rw [PhiS_castSucc V c t, PhiS_pos V c _ _ hz]
    iintro ⟨⟨HK, HV, Hoth, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runRead c (grid1.coords t) _ _ _ _ _ _ _ _ _ _ _ _ _ _ _ _ _ _ _ _ _ _ _ _ (fun h => h0 ((firstTile_iff t).mp h)) (blk V c 0 t) (blk V c 1 t) (blk V c 2 t) (blk V c 3 t) (blk V c 4 t) (blk V c 5 t) (blk V c 6 t) (blk V c 7 t) (blk V c 8 t) (outsAt V c (t.val - 1) (Nat.lt_of_le_of_lt (Nat.sub_le _ _) t.isLt)).2.1 (outsAt V c (t.val - 1) (Nat.lt_of_le_of_lt (Nat.sub_le _ _) t.isLt)).2.2).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [HK]; · iexact HK
    isplitl [HV]; · iexact HV
    iintro ⟨H0, H1, H2, H3, H4, H5, H6, H7, H8, ⟨%e9, H9⟩, HK, HV⟩
    isplitl [HK HV Hoth Hg]
    · isplitl [HK]; · iexact HK
      isplitl [HV]; · iexact HV
      isplitl [Hoth]; · iexact Hoth
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    unfold owns; iexists _; isplitr
    swap; · iexact H9
    ipureintro; exact View.read_writes_of_cover _ _ _ _ _ (coverO_read c _ _ _ _ _ _ _ _ _ _ _ _ _ _ _ _ _ _ _ _ _ _ _ _ _ _ _ _ _ _ _ _ _ _ _ _ _)

/-- The pipeline's body obligation, at every point. -/
theorem body_obligation (c : Dev nD) : BodyObligation (dat (F := F) V c) (defs₀ (F := F)) Variants.none () Set.univ := fun t => by
  rw [bigSep_W1, bigSep_W1]
  exact sound_body V c t

/-- What the launch hands over is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point the invariant gives that back, the kept buffers' contents forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht]
  iintro ⟨HK, HV, Hoth, Hg⟩
  iapply (PhiA_join c)
  isplitl [HK]; · iexists _; iexact HK
  isplitl [HV]; · iexists _; iexact HV
  isplitl [Hoth]; · iexact Hoth
  iexact Hg

theorem hout (c : Dev nD) : (dat V c).Φ (Fin.last cfg1.N) ⊢ Pipeline.ΦA spec1 c :=
  Phi_out V c _ (by rw [Fin.val_last]; have : cfg1.N = 64 := N_1; omega)

end Cert.KernelIdeal.Attn

end
-- ==== Proof.KI.OutProj.lean ====
/-
  The third launch: the output projection, the residual and the row normalisation. Its grid has eight points;
  point t stages rows 256·t … 256·t + 255 of the attention result and of the layer's input (two [256, 1024]
  blocks) beside the [1024, 1024] projection weights and the three length-1024 vectors (bias, scale, shift), which
  are staged once and stay, and writes one [256, 1024] block: each row of the attention block times the weights
  transposed, plus the bias, plus the same row of the input, then centred and scaled by its own mean and variance
  over the 1024 columns, times the scale, plus the shift.

  Stated here at ANY contents V of the core's buffers when the launch is entered: what the body leaves in the
  output block as a function of the six input blocks, that the body does so from whole staging buffers, and the
  bookkeeping the pipeline needs at every point (each input block is where the body looks for it whether it was
  fetched at this point or earlier).
-/
import proofs.«114948_j41841571398363_2_alg».proof.Proof.Gen.KernelIdeal.Launch
import proofs.«114948_j41841571398363_2_alg».proof.Proof.Gen.KernelIdeal.Skeleton
import proofs.«114948_j41841571398363_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.OutProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window w's block at grid point t, read off its array as the launch finds it. -/
def blk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data over these arrays whose body leaves the block where it found it (the window is never cut and never idle). -/
theorem before_in0_of {c : Dev nD} (dat : Dat τ (Elt F) Unit ℕ (UR sig nD τ) ℕ cfg2 c) (hA : dat.A 0 = V c (Pipeline.arrRef spec2 0))
    (hafter : ∀ t, dat.after 0 t = blk V c 0 t) (t : Fin cfg2.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)

/-- Input window 1's current staging buffer holds its block at every point, fetched there or not, for any proof
    data over these arrays whose body leaves the block where it found it (the window is never cut and never idle). -/
theorem before_in1_of {c : Dev nD} (dat : Dat τ (Elt F) Unit ℕ (UR sig nD τ) ℕ cfg2 c) (hA : dat.A 1 = V c (Pipeline.arrRef spec2 1))
    (hafter : ∀ t, dat.after 1 t = blk V c 1 t) (t : Fin cfg2.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-- Input window 2's current staging buffer holds its block at every point, fetched there or not, for any proof
    data over these arrays whose body leaves the block where it found it (the window is never cut and never idle). -/
theorem before_in2_of {c : Dev nD} (dat : Dat τ (Elt F) Unit ℕ (UR sig nD τ) ℕ cfg2 c) (hA : dat.A 2 = V c (Pipeline.arrRef spec2 2))
    (hafter : ∀ t, dat.after 2 t = blk V c 2 t) (t : Fin cfg2.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-- Input window 3's current staging buffer holds its block at every point, fetched there or not, for any proof
    data over these arrays whose body leaves the block where it found it (the window is never cut and never idle). -/
theorem before_in3_of {c : Dev nD} (dat : Dat τ (Elt F) Unit ℕ (UR sig nD τ) ℕ cfg2 c) (hA : dat.A 3 = V c (Pipeline.arrRef spec2 3))
    (hafter : ∀ t, dat.after 3 t = blk V c 3 t) (t : Fin cfg2.N) (d) : dat.before 3 t d = blk V c 3 t :=
  (dat.before_in_eq_fetched 3 rfl (fun _ => rfl) (fun _ _ _ => rfl) (fun t => by rw [hafter]; unfold Dat.blockOf blk; rw [hA]; try rfl) t d).trans
    (by unfold Dat.fetched Dat.blockOf blk; rw [hA]; try rfl)

/-- Input window 4's current staging buffer holds its block at every point, fetched there or not, for any proof
    data over these arrays whose body leaves the block where it found it (the window is never cut and never idle). -/
theorem before_in4_of {c : Dev nD} (dat : Dat τ (Elt F) Unit ℕ (UR sig nD τ) ℕ cfg2 c) (hA : dat.A 4 = V c (Pipeline.arrRef spec2 4))
    (hafter : ∀ t, dat.after 4 t = blk V c 4 t) (t : Fin cfg2.N) (d) : dat.before 4 t d = blk V c 4 t :=
  (dat.before_in_eq_fetched 4 rfl (fun _ => rfl) (fun _ _ _ => rfl) (fun t => by rw [hafter]; unfold Dat.blockOf blk; rw [hA]; try rfl) t d).trans
    (by unfold Dat.fetched Dat.blockOf blk; rw [hA]; try rfl)

/-- Input window 5's current staging buffer holds its block at every point, fetched there or not, for any proof
    data over these arrays whose body leaves the block where it found it (the window is never cut and never idle). -/
theorem before_in5_of {c : Dev nD} (dat : Dat τ (Elt F) Unit ℕ (UR sig nD τ) ℕ cfg2 c) (hA : dat.A 5 = V c (Pipeline.arrRef spec2 5))
    (hafter : ∀ t, dat.after 5 t = blk V c 5 t) (t : Fin cfg2.N) (d) : dat.before 5 t d = blk V c 5 t :=
  (dat.before_in_eq_fetched 5 rfl (fun _ => rfl) (fun _ _ _ => rfl) (fun t => by rw [hafter]; unfold Dat.blockOf blk; rw [hA]; try rfl) t d).trans
    (by unfold Dat.fetched Dat.blockOf blk; rw [hA]; try rfl)

/-! ## The body's accesses: every load and store is of a whole block -/

abbrev rX : Rect S256x1024 := Rect.unit (s := S256x1024) ![0, 0] S256x1024.size inb_S256x1024_S256x1024_0_0
abbrev rW : Rect S1024x1024 := Rect.unit (s := S1024x1024) ![0, 0] S1024x1024.size inb_S1024x1024_S1024x1024_0_0
abbrev rB : Rect S1024 := Rect.unit (s := S1024) ![0] S1024.size inb_S1024_S1024_0

/-- What the body leaves in the output block, from the attention block o, the projection weights wo, the bias bo,
    the scale g, the shift be and the input block x: the normalised rows of o · woᵀ + bo + x, scaled and shifted. -/
def outY (o : Vec F S256x1024 .f32) (wo : Vec F S1024x1024 .f32) (bo g be : Vec F S1024 .f32) (x : Vec F S256x1024 .f32) :
    Vec F S256x1024 .f32 :=
  View.canon [⟨rX, k2_pay1 (View.ld o rX) (View.ld wo rW) (View.ld bo rB) (View.ld x rX) (View.ld g rB) (View.ld be rB)⟩]

/-- One whole-block store covers the block. -/
theorem coverY (p : Vec F S256x1024 .f32) (y : S256x1024.Idx) :
    ∃ pc ∈ ([⟨rX, p⟩] : List (View.Piece (Elt F) S256x1024 .f32)), y ∈ pc.1.set :=
  View.cover_of_tiled [⟨rX, p⟩] S256x1024.size (by rfl) y

set_option maxHeartbeats 4000000 in
/-- The body, on whole staging buffers holding the six input blocks and anything in the output buffer, runs to its
    return with the inputs as they were and the output at the normalised projection. -/
theorem sound_kernel (c : Dev nD) (E : Set ℕ) (i : grid2.Coords)
    (a1 : Memref sig .tc .vmem S256x1024 .f32) (h1 : a1.IsWhole) (a2 : Memref sig .tc .vmem S1024x1024 .f32) (h2 : a2.IsWhole)
    (a3 : Memref sig .tc .vmem S1024 .f32) (h3 : a3.IsWhole) (a4 : Memref sig .tc .vmem S1024 .f32) (h4 : a4.IsWhole)
    (a5 : Memref sig .tc .vmem S1024 .f32) (h5 : a5.IsWhole) (a6 : Memref sig .tc .vmem S256x1024 .f32) (h6 : a6.IsWhole)
    (a7 : Memref sig .tc .vmem S256x1024 .f32) (h7 : a7.IsWhole)
    (o : Vec F S256x1024 .f32) (wo : Vec F S1024x1024 .f32) (bo g be : Vec F S1024 .f32) (x : Vec F S256x1024 .f32)
    (K : PUnit → sProp 𝕄) :
    iprop(owns (c : Thread nD τ) a1 fullShare o ∗ owns (c : Thread nD τ) a2 fullShare wo
        ∗ owns (c : Thread nD τ) a3 fullShare bo ∗ owns (c : Thread nD τ) a4 fullShare g
        ∗ owns (c : Thread nD τ) a5 fullShare be ∗ owns (c : Thread nD τ) a6 fullShare x
        ∗ (∃ d, owns (c : Thread nD τ) a7 fullShare d)
        ∗ (iprop(owns (c : Thread nD τ) a1 fullShare o ∗ owns (c : Thread nD τ) a2 fullShare wo
            ∗ owns (c : Thread nD τ) a3 fullShare bo ∗ owns (c : Thread nD τ) a4 fullShare g
            ∗ owns (c : Thread nD τ) a5 fullShare be ∗ owns (c : Thread nD τ) a6 fullShare x
            ∗ owns (c : Thread nD τ) a7 fullShare (outY o wo bo g be x)) -∗ K ⟨⟩))
      ⊢ wp frame (wpE (defs₀ (F := F)) Variants.none c none) E (cc2__outproj_kernel i a1 h1 a2 h2 a3 h3 a4 h4 a5 h5 a6 h6 a7 h7) K := by
  simp only [cc2__outproj_kernel_eq_skeleton]; unfold cc2__outproj_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  iexists _; isplitr
  swap; · iexact H7
  ipureintro
  exact View.read_writes_eq_canon _ _ _ (coverY _)

/-! ## The proof data and the obligation at every point -/

/-- The pipeline's proof data for this launch on core c: the seven arrays as the launch finds them; after the body at
    point t every input buffer still at its block and the output buffer at the normalised projection of the input
    blocks; between points only what the kernel never names (the scoped rest and the generator register); nothing
    owed to any other core; full shares. -/
def dat (c : Dev nD) : Dat τ (Elt F) Unit ℕ (UR sig nD τ) ℕ cfg2 c where
  A w := V c (Pipeline.arrRef spec2 w)
  after w t := match w with
    | ⟨0, _⟩ => blk V c 0 t
    | ⟨1, _⟩ => blk V c 1 t
    | ⟨2, _⟩ => blk V c 2 t
    | ⟨3, _⟩ => blk V c 3 t
    | ⟨4, _⟩ => blk V c 4 t
    | ⟨5, _⟩ => blk V c 5 t
    | ⟨6, _⟩ => outY (blk V c 0 t) (blk V c 1 t) (blk V c 2 t) (blk V c 3 t) (blk V c 4 t) (blk V c 5 t)
  Φ _ := Pipeline.ΦA spec2 c
  q _ := fullShare
  owed _ := 0

theorem A_eq (c : Dev nD) (w : Fin cfg2.W) : (dat V c).A w = V c (Pipeline.arrRef spec2 w) := by
  dsimp only [dat]

theorem after0 (c : Dev nD) (t : Fin cfg2.N) : (dat V c).after 0 t = blk V c 0 t := by dsimp only [dat]
theorem after1 (c : Dev nD) (t : Fin cfg2.N) : (dat V c).after 1 t = blk V c 1 t := by dsimp only [dat]
theorem after2 (c : Dev nD) (t : Fin cfg2.N) : (dat V c).after 2 t = blk V c 2 t := by dsimp only [dat]
theorem after3 (c : Dev nD) (t : Fin cfg2.N) : (dat V c).after 3 t = blk V c 3 t := by dsimp only [dat]
theorem after4 (c : Dev nD) (t : Fin cfg2.N) : (dat V c).after 4 t = blk V c 4 t := by dsimp only [dat]
theorem after5 (c : Dev nD) (t : Fin cfg2.N) : (dat V c).after 5 t = blk V c 5 t := by dsimp only [dat]
theorem after6 (c : Dev nD) (t : Fin cfg2.N) :
    (dat V c).after 6 t = outY (blk V c 0 t) (blk V c 1 t) (blk V c 2 t) (blk V c 3 t) (blk V c 4 t) (blk V c 5 t) := by dsimp only [dat]

theorem before0 (c : Dev nD) (t : Fin cfg2.N) (d) : (dat V c).before 0 t d = blk V c 0 t :=
  before_in0_of V (dat V c) (A_eq V c 0) (after0 V c) t d
theorem before1 (c : Dev nD) (t : Fin cfg2.N) (d) : (dat V c).before 1 t d = blk V c 1 t :=
  before_in1_of V (dat V c) (A_eq V c 1) (after1 V c) t d
theorem before2 (c : Dev nD) (t : Fin cfg2.N) (d) : (dat V c).before 2 t d = blk V c 2 t :=
  before_in2_of V (dat V c) (A_eq V c 2) (after2 V c) t d
theorem before3 (c : Dev nD) (t : Fin cfg2.N) (d) : (dat V c).before 3 t d = blk V c 3 t :=
  before_in3_of V (dat V c) (A_eq V c 3) (after3 V c) t d
theorem before4 (c : Dev nD) (t : Fin cfg2.N) (d) : (dat V c).before 4 t d = blk V c 4 t :=
  before_in4_of V (dat V c) (A_eq V c 4) (after4 V c) t d
theorem before5 (c : Dev nD) (t : Fin cfg2.N) (d) : (dat V c).before 5 t d = blk V c 5 t :=
  before_in5_of V (dat V c) (A_eq V c 5) (after5 V c) t d

/-- What the body is called with at point t: the invariant, the core's debts, and the seven current staging buffers. -/
def bodyPre (c : Dev nD) (t : Fin cfg2.N) : sProp 𝕄 :=
  iprop((dat V c).Φ t.castSucc ∗ (dat V c).owesAt () t.castSucc
    ∗ (∃ d, owns (c : Thread nD τ) (st2_0 t) fullShare ((dat V c).before 0 t d))
    ∗ (∃ d, owns (c : Thread nD τ) (st2_1 t) fullShare ((dat V c).before 1 t d))
    ∗ (∃ d, owns (c : Thread nD τ) (st2_2 t) fullShare ((dat V c).before 2 t d))
    ∗ (∃ d, owns (c : Thread nD τ) (st2_3 t) fullShare ((dat V c).before 3 t d))
    ∗ (∃ d, owns (c : Thread nD τ) (st2_4 t) fullShare ((dat V c).before 4 t d))
    ∗ (∃ d, owns (c : Thread nD τ) (st2_5 t) fullShare ((dat V c).before 5 t d))
    ∗ (∃ d, owns (c : Thread nD τ) (st2_6 t) fullShare ((dat V c).before 6 t d)))

/-- and what it hands back. -/
def bodyPost (c : Dev nD) (t : Fin cfg2.N) : sProp 𝕄 :=
  iprop((dat V c).Φ t.succ ∗ (dat V c).owesAt () t.succ
    ∗ owns (c : Thread nD τ) (st2_0 t) fullShare ((dat V c).after 0 t)
    ∗ owns (c : Thread nD τ) (st2_1 t) fullShare ((dat V c).after 1 t)
    ∗ owns (c : Thread nD τ) (st2_2 t) fullShare ((dat V c).after 2 t)
    ∗ owns (c : Thread nD τ) (st2_3 t) fullShare ((dat V c).after 3 t)
    ∗ owns (c : Thread nD τ) (st2_4 t) fullShare ((dat V c).after 4 t)
    ∗ owns (c : Thread nD τ) (st2_5 t) fullShare ((dat V c).after 5 t)
    ∗ owns (c : Thread nD τ) (st2_6 t) fullShare ((dat V c).after 6 t))

/-- The body at any point: the six input buffers hold their blocks, so the body's triple applies; the invariant
    and the debts pass through untouched. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before0, before1, before2, before3, before4, before5]
  rw [show (dat V c).Φ t.succ = (dat V c).Φ t.castSucc from rfl,
    show (dat V c).owesAt () t.succ = (dat V c).owesAt () t.castSucc from rfl,
    after0, after1, after2, after3, after4, after5, after6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (blk V c 0 t) (blk V c 1 t) (blk V c 2 t) (blk V c 3 t) (blk V c 4 t) (blk V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's body obligation, at every point. -/
theorem body_obligation (c : Dev nD) : BodyObligation (dat (F := F) V c) (defs₀ (F := F)) Variants.none () Set.univ := fun t => by
  rw [bigSep_W2, bigSep_W2]
  exact sound_body V c t

end Cert.KernelIdeal.OutProj

end
-- ==== Proof.KI.Run.lean ====
/-
  The whole program as one run. Its top level is a short stretch of host operations (the three per-head bias arrays
  re-laid as [16, 1, 64]) followed by the three launches, with nothing between them. The contents of the core's
  buffers at each of the five boundaries are named: the launch memory; after the host stretch; after each launch,
  where the launch's arrays hold what its write-backs leave and every other buffer is as it was. Each launch is entered
  from the boundary before it and left at the one after it, so every weakly fair execution ends with EVERY unscoped
  buffer at the last boundary's contents — in particular the fourteen arguments as launched (no operation and no
  launch writes one) and the result at what the third launch leaves.
-/
import proofs.«114948_j41841571398363_2_alg».proof.Proof.KI.Proj
import proofs.«114948_j41841571398363_2_alg».proof.Proof.KI.Attn
import proofs.«114948_j41841571398363_2_alg».proof.Proof.KI.OutProj

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the host stretch (the first launch's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first launch's exit: its arrays at what the pipeline leaves, every other buffer as entered. -/
def W2 (c : Dev nD) : Valuation τ sig (Elt F) :=
  Pipeline.withArrays spec0 c (W1 m ρ c) fun w => (Proj.dat (V1 m ρ) c).arrAt w cfg0.N
theorem W2_arr (c : Dev nD) (w : Fin cfg0.W) :
    W2 m ρ c (Proc.devRef .tc (Pipeline.arrRef spec0 w)) = (Proj.dat (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (Proj.dat (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second launch's exit: its arrays at what the pipeline leaves, every other buffer as entered. -/
def W3 (c : Dev nD) : Valuation τ sig (Elt F) :=
  Pipeline.withArrays spec1 c (W2 m ρ c) fun w => (Attn.dat (V2 m ρ) c).arrAt w cfg1.N
theorem W3_arr (c : Dev nD) (w : Fin cfg1.W) :
    W3 m ρ c (Proc.devRef .tc (Pipeline.arrRef spec1 w)) = (Attn.dat (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (Attn.dat (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At the third launch's exit: its arrays at what the pipeline leaves, every other buffer as entered. -/
def W4 (c : Dev nD) : Valuation τ sig (Elt F) :=
  Pipeline.withArrays spec2 c (W3 m ρ c) fun w => (OutProj.dat (V3 m ρ) c).arrAt w cfg2.N
theorem W4_arr (c : Dev nD) (w : Fin cfg2.W) :
    W4 m ρ c (Proc.devRef .tc (Pipeline.arrRef spec2 w)) = (OutProj.dat (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
abbrev V4 : (c : Dev nD) → (b : Ref sig .tc) → Buf (Elt F) ((c : Thread nD τ).loc b) := fun c b => W4 m ρ c b
theorem hF2 (c : Dev nD) (w : Fin cfg2.W) : (OutProj.dat (V3 m ρ) c).arrAt w cfg2.N = V4 m ρ c (Pipeline.arrRef spec2 w) :=
  (W4_arr m ρ c w).symm
theorem hrest2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := (W4_arr m ρ c 5).trans (((OutProj.dat (V3 m ρ) c).arrAt_in 5 rfl _).trans (OutProj.A_eq (V3 m ρ) c 5))
    _ = W2 m ρ c (Proc.devRef .tc main_arg0) := W3_of_ne m ρ c main_arg0 (by decide)
    _ = W1 m ρ c (Proc.devRef .tc main_arg0) := (W2_arr m ρ c 0).trans (((Proj.dat (V1 m ρ) c).arrAt_in 0 rfl _).trans (Proj.A_eq (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := W3_of_ne m ρ c main_arg1 (by decide)
    _ = W1 m ρ c (Proc.devRef .tc main_arg1) := (W2_arr m ρ c 2).trans (((Proj.dat (V1 m ρ) c).arrAt_in 2 rfl _).trans (Proj.A_eq (V1 m ρ) c 2))
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := (W2_arr m ρ c 1).trans (((Proj.dat (V1 m ρ) c).arrAt_in 1 rfl _).trans (Proj.A_eq (V1 m ρ) c 1))
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := (W2_arr m ρ c 3).trans (((Proj.dat (V1 m ρ) c).arrAt_in 3 rfl _).trans (Proj.A_eq (V1 m ρ) c 3))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W4_main_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := (W3_arr m ρ c 4).trans (((Attn.dat (V2 m ρ) c).arrAt_in 4 rfl _).trans (Attn.A_eq (V2 m ρ) c 4))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W4_main_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W4_main_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := (W3_arr m ρ c 5).trans (((Attn.dat (V2 m ρ) c).arrAt_in 5 rfl _).trans (Attn.A_eq (V2 m ρ) c 5))
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W4_main_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := W3_of_ne m ρ c main_arg7 (by decide)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W4_main_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := (W3_arr m ρ c 3).trans (((Attn.dat (V2 m ρ) c).arrAt_in 3 rfl _).trans (Attn.A_eq (V2 m ρ) c 3))
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem W4_main_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := W3_of_ne m ρ c main_arg9 (by decide)
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem W4_main_arg10 (c : Dev nD) : W4 m ρ c (Proc.devRef .tc main_arg10) = m ((c : Thread nD τ).loc main_arg10) :=
  calc W4 m ρ c (Proc.devRef .tc main_arg10)
    _ = W3 m ρ c (Proc.devRef .tc main_arg10) := (W4_arr m ρ c 1).trans (((OutProj.dat (V3 m ρ) c).arrAt_in 1 rfl _).trans (OutProj.A_eq (V3 m ρ) c 1))
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

theorem W4_main_arg11 (c : Dev nD) : W4 m ρ c (Proc.devRef .tc main_arg11) = m ((c : Thread nD τ).loc main_arg11) :=
  calc W4 m ρ c (Proc.devRef .tc main_arg11)
    _ = W3 m ρ c (Proc.devRef .tc main_arg11) := (W4_arr m ρ c 2).trans (((OutProj.dat (V3 m ρ) c).arrAt_in 2 rfl _).trans (OutProj.A_eq (V3 m ρ) c 2))
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

theorem W4_main_arg12 (c : Dev nD) : W4 m ρ c (Proc.devRef .tc main_arg12) = m ((c : Thread nD τ).loc main_arg12) :=
  calc W4 m ρ c (Proc.devRef .tc main_arg12)
    _ = W3 m ρ c (Proc.devRef .tc main_arg12) := (W4_arr m ρ c 3).trans (((OutProj.dat (V3 m ρ) c).arrAt_in 3 rfl _).trans (OutProj.A_eq (V3 m ρ) c 3))
    _ = W2 m ρ c (Proc.devRef .tc main_arg12) := W3_of_ne m ρ c main_arg12 (by decide)
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

theorem W4_main_arg13 (c : Dev nD) : W4 m ρ c (Proc.devRef .tc main_arg13) = m ((c : Thread nD τ).loc main_arg13) :=
  calc W4 m ρ c (Proc.devRef .tc main_arg13)
    _ = W3 m ρ c (Proc.devRef .tc main_arg13) := (W4_arr m ρ c 4).trans (((OutProj.dat (V3 m ρ) c).arrAt_in 4 rfl _).trans (OutProj.A_eq (V3 m ρ) c 4))
    _ = W2 m ρ c (Proc.devRef .tc main_arg13) := W3_of_ne m ρ c main_arg13 (by decide)
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl

/-! ## The proof data family and what rides along -/

abbrev adm : (p : Fin 3) → (pcfgs (F := F) p).Adm := fun p => (cfgs p).toPCfg_adm
/-- Every launch's proof data, each at its entry contents. -/
def pdats : (p : Fin 3) → (c : Dev nD) → Dat τ (Elt F) Unit ℕ (UR sig nD τ) ℕ (Pipeline.pin (pcfgs (F := F)) adm p) c
  | ⟨0, _⟩ => fun c => Proj.dat (V1 m ρ) c
  | ⟨1, _⟩ => fun c => Attn.dat (V2 m ρ) c
  | ⟨2, _⟩ => fun c => OutProj.dat (V3 m ρ) c
abbrev 𝒱₀ : Variants := Variants.none
/-- No core owes another anything. -/
abbrev L : GSem nD τ sig → Finset Unit := fun _ => ∅
abbrev lv : GSem nD τ sig → Unit → ℕ := fun _ _ => 0
/-- Beside the buffers through every segment: the generator register at some state, and the core's debts, none. -/
abbrev R (c : Dev nD) : sProp 𝕄 := iprop((∃ r, prngReg c r) ∗ ∃ W, owes (c : Thread nD τ) (0 : CellTallies nD τ sig Unit) W)

theorem hostOps0_fresh : (hostOps0 : List (HloOp τ sig (Elt F))).Forall fun op => op.fresh = ∅ := by
  simp only [List.Forall]; repeat' constructor

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W4 m ρ c) ∗ ∃ r, prngReg c r)

/-! ## The launches as segments -/

set_option backward.isDefEq.respectTransparency.types false in
/-- The first launch over the thread state: entered with every unscoped buffer at the contents after the host stretch, left with its three result arrays at what its write-backs leave. Its arrays are split out of the unscoped buffers and put back; the generator register goes into its invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (Proj.body_obligation (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second launch, likewise; its invariant additionally names the two kept buffers between points, is entered from what the launch hands over and gives that back at the end. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (Attn.body_obligation (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (Attn.hin (V2 m ρ) c)
    unfold Pipeline.ΦA
    iintro ⟨Hp, -, Hr⟩
    isplitl [Hr]; · iexact Hr
    iexact Hp
  hout c := by
    rw [Pipeline.ownSems0_none]
    refine (Attn.hout (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The third launch, likewise. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (OutProj.body_obligation (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .region (reg2 m ρ) ]

theorem main_run (c : Dev nD) : main (F := F) c = Pipeline.Seg.run (segs m ρ) := (main_chain c).trans (by chain_rfl)

set_option backward.isDefEq.respectTransparency.types false in
/-- The run: from any memory with zero counters every weakly fair execution terminates, nothing faulting, and every
    unscoped buffer of every core ends at the last boundary's contents. -/
theorem run : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = W4 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c b hb => h c _ (mem_uc b hb))

/-- The frame: every weakly fair execution terminates, nothing faulting, with the fourteen arguments as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun r h c => ⟨(h c main_arg0 (by decide)).trans (W4_main_arg0 m ρ c),
    (h c main_arg1 (by decide)).trans (W4_main_arg1 m ρ c),
    (h c main_arg2 (by decide)).trans (W4_main_arg2 m ρ c),
    (h c main_arg3 (by decide)).trans (W4_main_arg3 m ρ c),
    (h c main_arg4 (by decide)).trans (W4_main_arg4 m ρ c),
    (h c main_arg5 (by decide)).trans (W4_main_arg5 m ρ c),
    (h c main_arg6 (by decide)).trans (W4_main_arg6 m ρ c),
    (h c main_arg7 (by decide)).trans (W4_main_arg7 m ρ c),
    (h c main_arg8 (by decide)).trans (W4_main_arg8 m ρ c),
    (h c main_arg9 (by decide)).trans (W4_main_arg9 m ρ c),
    (h c main_arg10 (by decide)).trans (W4_main_arg10 m ρ c),
    (h c main_arg11 (by decide)).trans (W4_main_arg11 m ρ c),
    (h c main_arg12 (by decide)).trans (W4_main_arg12 m ρ c),
    (h c main_arg13 (by decide)).trans (W4_main_arg13 m ρ c)⟩) (run m ρ)

end Cert.KernelIdeal.Run

end
-- ==== Proof.KI.Bounds.lean ====
/-
  Facts about the boundaries between the launches: an argument array holds its launch contents at every boundary (no
  host operation and no launch writes one); and the three arrays the host stretch writes hold, from the first boundary
  on, the three per-head bias arrays re-laid from [16, 64] to [16, 1, 64] — entry (h, 0, e) is the bias's entry (h, e).
-/
import proofs.«114948_j41841571398363_2_alg».proof.Proof.KI.Run
import Idealize.ShloMosaic.Lib.StableHlo.Run
import Idealize.ShloMosaic.Lib.ValueIdx
import Idealize.ShloMosaic.Lib.Pipeline.Value

set_option maxRecDepth 16384

noncomputable section

namespace Cert.KernelIdeal.Run

open Cert.KernelIdeal Cert.KernelIdeal.Gen
open Idealize.ShloMosaic Idealize.ShloMosaic.TcCoe Idealize.ShloMosaic.Tactic Idealize.ShloMosaic.ValueIdx
open Idealize.SL Idealize.SL.Sem

variable {F : FTy → Type} [FloatOps F]
variable (m : (ℓ : Loc nD τ sig) → Buf (Elt F) ℓ) (ρ : Dev nD → PrngReg)

/-- An [a, b] array re-laid as [a, 1, b] reads, at (i, 0, j), the operand at (i, j). -/
theorem relaid_apply {α : Type} {a b : ℕ} (x : (⟨2, ![a, b]⟩ : Shape).Idx → α)
    (h : (⟨2, ![a, b]⟩ : Shape).ShapeCasts ⟨3, ![a, 1, b]⟩) (i : Fin a) (j : Fin b) :
    shapeCast ⟨3, ![a, 1, b]⟩ x h (ix3 i (0 : Fin 1) j) = x (ix2 i j) :=
  shapeCast_apply x h _ _ (by
    rw [Shape.rowMajor_val_three, Shape.rowMajor_val_two]
    show i.val * b + j.val = (i.val * 1 + 0) * b + j.val
    rw [Nat.mul_one, Nat.add_zero])

/-! ## The arguments at the inner boundaries -/

theorem W1_main_arg0 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W1_main_arg1 (c : Dev nD) : W1 m ρ c (Proc.devRef .tc main_arg1) = m ((c : Thread nD τ).loc main_arg1) :=
  calc W1 m ρ c (Proc.devRef .tc main_arg1)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem W1_main_arg2 (c : Dev nD) : W1 m ρ c (Proc.devRef .tc main_arg2) = m ((c : Thread nD τ).loc main_arg2) :=
  calc W1 m ρ c (Proc.devRef .tc main_arg2)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem W1_main_arg3 (c : Dev nD) : W1 m ρ c (Proc.devRef .tc main_arg3) = m ((c : Thread nD τ).loc main_arg3) :=
  calc W1 m ρ c (Proc.devRef .tc main_arg3)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W2_main_arg4 (c : Dev nD) : W2 m ρ c (Proc.devRef .tc main_arg4) = m ((c : Thread nD τ).loc main_arg4) :=
  calc W2 m ρ c (Proc.devRef .tc main_arg4)
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem W2_main_arg6 (c : Dev nD) : W2 m ρ c (Proc.devRef .tc main_arg6) = m ((c : Thread nD τ).loc main_arg6) :=
  calc W2 m ρ c (Proc.devRef .tc main_arg6)
    _ = W1 m ρ c (Proc.devRef .tc main_arg6) := W2_of_ne m ρ c main_arg6 (by decide)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem W2_main_arg8 (c : Dev nD) : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((Proj.dat (V1 m ρ) c).arrAt_in 0 rfl _).trans (Proj.A_eq (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W3_main_arg10 (c : Dev nD) : W3 m ρ c (Proc.devRef .tc main_arg10) = m ((c : Thread nD τ).loc main_arg10) :=
  calc W3 m ρ c (Proc.devRef .tc main_arg10)
    _ = W2 m ρ c (Proc.devRef .tc main_arg10) := W3_of_ne m ρ c main_arg10 (by decide)
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

theorem W3_main_arg11 (c : Dev nD) : W3 m ρ c (Proc.devRef .tc main_arg11) = m ((c : Thread nD τ).loc main_arg11) :=
  calc W3 m ρ c (Proc.devRef .tc main_arg11)
    _ = W2 m ρ c (Proc.devRef .tc main_arg11) := W3_of_ne m ρ c main_arg11 (by decide)
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

theorem W3_main_arg12 (c : Dev nD) : W3 m ρ c (Proc.devRef .tc main_arg12) = m ((c : Thread nD τ).loc main_arg12) :=
  calc W3 m ρ c (Proc.devRef .tc main_arg12)
    _ = W2 m ρ c (Proc.devRef .tc main_arg12) := W3_of_ne m ρ c main_arg12 (by decide)
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

theorem W3_main_arg13 (c : Dev nD) : W3 m ρ c (Proc.devRef .tc main_arg13) = m ((c : Thread nD τ).loc main_arg13) :=
  calc W3 m ρ c (Proc.devRef .tc main_arg13)
    _ = W2 m ρ c (Proc.devRef .tc main_arg13) := W3_of_ne m ρ c main_arg13 (by decide)
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl

/-! ## The re-laid biases -/

theorem W1_main_v0 (c : Dev nD) :
    (W1 m ρ c (Proc.devRef .tc main_v0) : S16x1x64.Idx → Elt F .f32)
      = shapeCast S16x1x64 (m ((c : Thread nD τ).loc main_arg5)) shapeCasts_S16x64_S16x1x64 := by
  show StableHlo.after hostOps0 _ (Proc.devRef .tc main_v0) = _
  after_results
  rfl
theorem W1_main_v1 (c : Dev nD) :
    (W1 m ρ c (Proc.devRef .tc main_v1) : S16x1x64.Idx → Elt F .f32)
      = shapeCast S16x1x64 (m ((c : Thread nD τ).loc main_arg9)) shapeCasts_S16x64_S16x1x64 := by
  show StableHlo.after hostOps0 _ (Proc.devRef .tc main_v1) = _
  after_results
  rfl
theorem W1_main_v2 (c : Dev nD) :
    (W1 m ρ c (Proc.devRef .tc main_v2) : S16x1x64.Idx → Elt F .f32)
      = shapeCast S16x1x64 (m ((c : Thread nD τ).loc main_arg7)) shapeCasts_S16x64_S16x1x64 := by
  show StableHlo.after hostOps0 _ (Proc.devRef .tc main_v2) = _
  after_results
  rfl

/-- The first launch does not touch them. -/
theorem W2_main_v0 (c : Dev nD) : W2 m ρ c (Proc.devRef .tc main_v0) = W1 m ρ c (Proc.devRef .tc main_v0) := W2_of_ne m ρ c main_v0 (by decide)
theorem W2_main_v1 (c : Dev nD) : W2 m ρ c (Proc.devRef .tc main_v1) = W1 m ρ c (Proc.devRef .tc main_v1) := W2_of_ne m ρ c main_v1 (by decide)
theorem W2_main_v2 (c : Dev nD) : W2 m ρ c (Proc.devRef .tc main_v2) = W1 m ρ c (Proc.devRef .tc main_v2) := W2_of_ne m ρ c main_v2 (by decide)

end Cert.KernelIdeal.Run

end
-- ==== Proof.LibKeepdims.lean ====
/-
  Two layout facts for a row-wise reduction kept as a column: a vector of length a read as an a × 1 column, and an a × 1
  column repeated along b columns. Both are stated at an explicit index (row p, column c), over any element type.
-/
import Idealize.ShloMosaic.Lib.Pipeline.Value
import Idealize.ShloMosaic.Lib.ValueIdx

namespace Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KI.OutProjValue.lean ====
/-
  The value the third launch's body stores, read at one entry. At the ideal values the body's arithmetic is exact:
  row r of the stored block is row r of  y = o · woᵀ + bo + x  (a sum of 1024 products per entry, the bias added
  along the columns, the input block added entrywise), centred by the row's mean, scaled by the reciprocal square
  root of the row's variance plus a small constant, then scaled by g and shifted by be along the columns. The two
  format changes in front of the product are the identity on extended reals.

  The proof names the five layout-and-reduction shapes the body uses (a length-1024 vector repeated down the rows,
  a 256 × 1 column repeated along the columns, a row sum kept as a column, that sum divided by 1024, the product of
  a block with a transposed square matrix), reads each at an entry once, and then walks the body's chain of
  pointwise operations with those readings.
-/
import proofs.«114948_j41841571398363_2_alg».proof.Proof.Gen.KernelIdeal.Skeleton
import proofs.«114948_j41841571398363_2_alg».proof.Proof.LibKeepdims
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.OutProjValue

open Cert.KernelIdeal Cert.KernelIdeal.Gen
open Idealize.ShloMosaic Idealize.ShloMosaic.ValueIdx
open scoped BigOperators

/-! ## A product with a transposed right operand, at an entry -/

/-- The index facts of a product  [n, K] × [w, K]ᵀ → [n, w]: one contracted axis of extent K, axis 1 of each operand;
    the result's axes are the left operand's axis 0 and the right operand's axis 0. -/
structure Transposed {n K w : ℕ} (d : DotDims ⟨2, ![n, K]⟩ ⟨2, ![w, K]⟩ ⟨2, ![n, w]⟩) : Prop where
  rank : d.contr.rank = 1
  size : d.contr.size ⟨0, by rw [rank]; exact Nat.one_pos⟩ = K
  l0 : ∀ (i : (⟨2, ![n, w]⟩ : Shape).Idx) (q : d.contr.Idx), (d.lhsIdx i q 0).val = (i 0).val
  l1 : ∀ (i : (⟨2, ![n, w]⟩ : Shape).Idx) (q : d.contr.Idx), (d.lhsIdx i q 1).val = (q ⟨0, by rw [rank]; exact Nat.one_pos⟩).val
  r0 : ∀ (i : (⟨2, ![n, w]⟩ : Shape).Idx) (q : d.contr.Idx), (d.rhsIdx i q 0).val = (i 1).val
  r1 : ∀ (i : (⟨2, ![n, w]⟩ : Shape).Idx) (q : d.contr.Idx), (d.rhsIdx i q 1).val = (q ⟨0, by rw [rank]; exact Nat.one_pos⟩).val

/-- The contraction sum at entry (p, q), re-indexed by k < K: left(p, k) · right(q, k). -/
theorem Transposed.sum_eq {n K w : ℕ} {d : DotDims ⟨2, ![n, K]⟩ ⟨2, ![w, K]⟩ ⟨2, ![n, w]⟩} (hd : Transposed d)
    (l : (⟨2, ![n, K]⟩ : Shape).Idx → EReal) (r : (⟨2, ![w, K]⟩ : Shape).Idx → EReal) (p : Fin n) (q : Fin w) :
    (∑ k : d.contr.Idx, l (d.lhsIdx (ix2 p q) k) * r (d.rhsIdx (ix2 p q) k)) = ∑ k : Fin K, l (ix2 p k) * r (ix2 q k) := by
  rw [← Equiv.sum_comp (contrEquiv1 d K hd.rank hd.size).symm]
  refine Finset.sum_congr rfl fun k _ => ?_
  have hk := contrEquiv1_symm_val d K hd.rank hd.size k
  have el : d.lhsIdx (ix2 p q) ((contrEquiv1 d K hd.rank hd.size).symm k) = ix2 p k := funext fun a => Fin.ext (by
    match a with
    | ⟨0, _⟩ => exact hd.l0 _ _
    | ⟨1, _⟩ => exact (hd.l1 _ _).trans hk)
  have er : d.rhsIdx (ix2 p q) ((contrEquiv1 d K hd.rank hd.size).symm k) = ix2 q k := funext fun a => Fin.ext (by
    match a with
    | ⟨0, _⟩ => exact hd.r0 _ _
    | ⟨1, _⟩ => exact (hd.r1 _ _).trans hk)
  rw [el, er]

/-- A matrix-unit product with a transposed right operand into the zero accumulator, at entry (p, q). -/
theorem Transposed.matmul_zero_at {n K w : ℕ} {d : DotDims ⟨2, ![n, K]⟩ ⟨2, ![w, K]⟩ ⟨2, ![n, w]⟩} (hd : Transposed d) {φ₁ φ₂ : FTy}
    (prec : Option ContractPrecision) (l : FVec Ideal ⟨2, ![n, K]⟩ φ₁) (r : FVec Ideal ⟨2, ![w, K]⟩ φ₂) (p : Fin n) (q : Fin w) :
    FloatOps.matmul d prec l r (constant ⟨2, ![n, w]⟩ .f32 0x00000000#32) (ix2 p q) = ∑ k : Fin K, l (ix2 p k) * r (ix2 q k) :=
  (Ideal.matmul_constant_zero_apply d prec l r (ix2 p q)).trans (hd.sum_eq l r p q)

/-- The body's product is of that kind, with contraction length 1024. -/
theorem outDims_transposed : Transposed dot_S256x1024_S1024x1024_S256x1024_1_1_0_0_n_n where
  rank := rfl
  size := rfl
  l0 i q := by
    unfold DotDims.lhsIdx
    rw [dif_neg (show ¬(0 : Fin S256x1024.rank) ∈ dot_S256x1024_S1024x1024_S256x1024_1_1_0_0_n_n.lhsBatch by decide),
      dif_pos (show (0 : Fin S256x1024.rank) ∈ dot_S256x1024_S1024x1024_S256x1024_1_1_0_0_n_n.lhsNonContracting by decide)]
    rfl
  l1 i q := dot_S256x1024_S1024x1024_S256x1024_1_1_0_0_n_n.lhsIdx_val_of_single rfl i q
  r0 i q := by
    unfold DotDims.rhsIdx
    rw [dif_neg (show ¬(0 : Fin S1024x1024.rank) ∈ dot_S256x1024_S1024x1024_S256x1024_1_1_0_0_n_n.rhsBatch by decide),
      dif_pos (show (0 : Fin S1024x1024.rank) ∈ dot_S256x1024_S1024x1024_S256x1024_1_1_0_0_n_n.rhsNonContracting by decide)]
    rfl
  r1 i q := dot_S256x1024_S1024x1024_S256x1024_1_1_0_0_n_n.rhsIdx_val_of_single rfl i q

/-! ## The body's five shapes, each read at an entry -/

/-- The block o times the square matrix wo transposed, both through the narrowing format change, into zero. -/
def proj (o : FVec Ideal S256x1024 .f32) (wo : FVec Ideal S1024x1024 .f32) : FVec Ideal S256x1024 .f32 :=
  matmul dot_S256x1024_S1024x1024_S256x1024_1_1_0_0_n_n none
    (truncf .bf16 (shapeCast S256x1024 o shapeCasts_S256x1024_S256x1024) bitsLt_bf16_f32) (truncf .bf16 wo bitsLt_bf16_f32)
    (constant S256x1024 .f32 0x00000000#32)

theorem proj_apply (o : FVec Ideal S256x1024 .f32) (wo : FVec Ideal S1024x1024 .f32) (p : Fin 256) (q : Fin 1024) :
    proj o wo (ix2 p q) = ∑ k : Fin 1024, o (ix2 p k) * wo (ix2 q k) := by
  unfold proj
  rw [shapeCast_self]
  exact outDims_transposed.matmul_zero_at none _ _ p q

/-- A length-1024 vector laid along the columns and repeated down the 256 rows. -/
def rowBcast (v : FVec Ideal S1024 .f32) : FVec Ideal S256x1024 .f32 :=
  broadcastTo S256x1024 (shapeCast S1x1024 v shapeCasts_S1024_S1x1024) broadcasts_S1x1024_S256x1024

theorem rowBcast_apply (v : FVec Ideal S1024 .f32) (p : Fin 256) (q : Fin 1024) : rowBcast v (ix2 p q) = v (ix1 q) := by
  unfold rowBcast
  rw [broadcastTo_1b_ab_apply, shapeCast_a_1a_apply]

/-- A 256 × 1 column repeated along the 1024 columns. -/
def colBcast (c : FVec Ideal S256x1 .f32) : FVec Ideal S256x1024 .f32 :=
  broadcastTo S256x1024 c broadcasts_S256x1_S256x1024

theorem colBcast_apply (c : FVec Ideal S256x1 .f32) (p : Fin 256) (q : Fin 1024) : colBcast c (ix2 p q) = c (ix2 p (0 : Fin 1)) := by
  unfold colBcast
  rw [broadcastTo_a1_ab_apply]

/-- The entry the row reduction's inserted index names: row p, column k. -/
theorem lift_eq (p : Fin 256) (k : Fin (S256x1024.size 1)) :
    reduces_S256x1024_S256.lift (ix1 p) k = ix2 p (k : Fin 1024) := by
  funext a
  match a with
  | ⟨0, _⟩ => rfl
  | ⟨1, _⟩ => rfl

/-- A sum along each row, read at its row as the sum of the row's 1024 entries. -/
theorem rowSum_apply (v : FVec Ideal S256x1024 .f32) (hφ : FKind.Formats .f32) (hacc : (0x00000000#32 : BitVec 32) = 0x00000000#32)
    (p : Fin 256) :
    multiReduction .add [1] S256 v 0x00000000#32 reduces_S256x1024_S256 hφ hacc (ix1 p) = ∑ k : Fin 1024, v (ix2 p k) := by
  refine (Ideal.multiReduction_add_single v 0x00000000#32 reduces_S256x1024_S256 hφ hacc (ix1 p)).trans ?_
  exact Finset.sum_congr rfl fun k _ => congrArg v (lift_eq p k)

/-- The row sums kept as a 256 × 1 column. -/
def rowSumCol (v : FVec Ideal S256x1024 .f32) : FVec Ideal S256x1 .f32 :=
  shapeCast S256x1 (multiReduction .add [1] S256 v 0x00000000#32 reduces_S256x1024_S256 (.inl rfl) rfl) shapeCasts_S256_S256x1

theorem rowSumCol_apply (v : FVec Ideal S256x1024 .f32) (p : Fin 256) :
    rowSumCol v (ix2 p (0 : Fin 1)) = ∑ k : Fin 1024, v (ix2 p k) := by
  unfold rowSumCol
  rw [shapeCast_a_a1_apply]
  exact rowSum_apply v _ _ p

/-- The row sums divided by the word for 1024, as a column. -/
def rowMeanCol (v : FVec Ideal S256x1024 .f32) : FVec Ideal S256x1 .f32 :=
  divf (rowSumCol v) (broadcast S256x1 (Scalar.ofBits .f32 0x44800000#32))

theorem rowMeanCol_apply (v : FVec Ideal S256x1024 .f32) (p : Fin 256) :
    rowMeanCol v (ix2 p (0 : Fin 1)) = Ideal.div (∑ k : Fin 1024, v (ix2 p k)) (Ideal.ofBits .f32 0x44800000#32) := by
  show Ideal.div (rowSumCol v (ix2 p (0 : Fin 1))) (Ideal.ofBits .f32 0x44800000#32) = _
  rw [rowSumCol_apply]

/-! ## The body's chain over those shapes -/

/-- The stored block as the chain of pointwise operations over the five shapes. -/
def chain (o : FVec Ideal S256x1024 .f32) (wo : FVec Ideal S1024x1024 .f32) (bo : FVec Ideal S1024 .f32)
    (x : FVec Ideal S256x1024 .f32) (g be : FVec Ideal S1024 .f32) : FVec Ideal S256x1024 .f32 :=
  addf (mulf (mulf
      (subf (addf (addf (proj o wo) (rowBcast bo)) x) (colBcast (rowMeanCol (addf (addf (proj o wo) (rowBcast bo)) x))))
      (colBcast (rsqrt (addf
        (rowMeanCol (mulf
          (subf (addf (addf (proj o wo) (rowBcast bo)) x) (colBcast (rowMeanCol (addf (addf (proj o wo) (rowBcast bo)) x))))
          (subf (addf (addf (proj o wo) (rowBcast bo)) x) (colBcast (rowMeanCol (addf (addf (proj o wo) (rowBcast bo)) x))))))
        (broadcast S256x1 (Scalar.ofBits .f32 0x3727C5AC#32))))))
    (rowBcast g)) (rowBcast be)

/-- The stored payload is that chain: the same operations in the same order, by unfolding. -/
theorem k2_pay1_eq_chain (o : Vec Ideal S256x1024 .f32) (wo : Vec Ideal S1024x1024 .f32) (bo : Vec Ideal S1024 .f32)
    (x : Vec Ideal S256x1024 .f32) (g be : Vec Ideal S1024 .f32) :
    k2_pay1 (F := Ideal) o wo bo x g be = chain o wo bo x g be := rfl

/-! ## The closed form -/

/-- Entry (r, j) of  o · woᵀ + bo + x. -/
def lin (o : S256x1024.Idx → EReal) (wo : S1024x1024.Idx → EReal) (bo : S1024.Idx → EReal) (x : S256x1024.Idx → EReal)
    (r : Fin 256) (j : Fin 1024) : EReal :=
  (∑ k : Fin 1024, o (ix2 r k) * wo (ix2 j k)) + bo (ix1 j) + x (ix2 r j)

/-- Row r's mean: the row's sum divided by the word for 1024. -/
def rowMean (o : S256x1024.Idx → EReal) (wo : S1024x1024.Idx → EReal) (bo : S1024.Idx → EReal) (x : S256x1024.Idx → EReal)
    (r : Fin 256) : EReal :=
  Ideal.div (∑ j : Fin 1024, lin o wo bo x r j) (Ideal.ofBits .f32 0x44800000#32)

/-- Row r's variance: the sum of the squared centred entries divided by the word for 1024. -/
def rowVar (o : S256x1024.Idx → EReal) (wo : S1024x1024.Idx → EReal) (bo : S1024.Idx → EReal) (x : S256x1024.Idx → EReal)
    (r : Fin 256) : EReal :=
  Ideal.div (∑ j : Fin 1024, (lin o wo bo x r j - rowMean o wo bo x r) * (lin o wo bo x r j - rowMean o wo bo x r))
    (Ideal.ofBits .f32 0x44800000#32)

/-- The stored value at row r, column j. -/
theorem k2_pay1_apply (o : Vec Ideal S256x1024 .f32) (wo : Vec Ideal S1024x1024 .f32) (bo g be : Vec Ideal S1024 .f32)
    (x : Vec Ideal S256x1024 .f32) (r : Fin 256) (j : Fin 1024) :
    k2_pay1 (F := Ideal) o wo bo x g be (ix2 r j)
      = ((lin o wo bo x r j - rowMean o wo bo x r) * Ideal.rsqrt (rowVar o wo bo x r + Ideal.ofBits .f32 0x3727C5AC#32)) * g (ix1 j)
          + be (ix1 j) := by
  rw [k2_pay1_eq_chain]
  unfold chain
  have hy : ∀ (p : Fin 256) (q : Fin 1024), (addf (addf (proj o wo) (rowBcast bo)) x) (ix2 p q) = lin o wo bo x p q := fun p q => by
    show proj o wo (ix2 p q) + rowBcast bo (ix2 p q) + x (ix2 p q) = _
    rw [proj_apply, rowBcast_apply]
    rfl
  generalize addf (addf (proj o wo) (rowBcast bo)) x = y at hy ⊢
  have hm : ∀ p : Fin 256, rowMeanCol y (ix2 p (0 : Fin 1)) = rowMean o wo bo x p := fun p => by
    rw [rowMeanCol_apply]
    exact congrArg (fun s => Ideal.div s (Ideal.ofBits .f32 0x44800000#32)) (Finset.sum_congr rfl fun k _ => hy p k)
  have hd : ∀ (p : Fin 256) (q : Fin 1024), (subf y (colBcast (rowMeanCol y))) (ix2 p q) = lin o wo bo x p q - rowMean o wo bo x p :=
    fun p q => by
      show y (ix2 p q) - colBcast (rowMeanCol y) (ix2 p q) = _
      rw [colBcast_apply, hm, hy]
  generalize subf y (colBcast (rowMeanCol y)) = d at hd ⊢
  have hv : ∀ p : Fin 256, rowMeanCol (mulf d d) (ix2 p (0 : Fin 1)) = rowVar o wo bo x p := fun p => by
    rw [rowMeanCol_apply]
    refine congrArg (fun s => Ideal.div s (Ideal.ofBits .f32 0x44800000#32)) (Finset.sum_congr rfl fun k _ => ?_)
    show d (ix2 p k) * d (ix2 p k) = _
    rw [hd]
  have hs : ∀ p : Fin 256, (rsqrt (addf (rowMeanCol (mulf d d)) (broadcast S256x1 (Scalar.ofBits .f32 0x3727C5AC#32)))) (ix2 p (0 : Fin 1))
      = Ideal.rsqrt (rowVar o wo bo x p + Ideal.ofBits .f32 0x3727C5AC#32) := fun p => by
    show Ideal.rsqrt (rowMeanCol (mulf d d) (ix2 p (0 : Fin 1)) + Ideal.ofBits .f32 0x3727C5AC#32) = _
    rw [hv]
  generalize rsqrt (addf (rowMeanCol (mulf d d)) (broadcast S256x1 (Scalar.ofBits .f32 0x3727C5AC#32))) = s at hs ⊢
  show d (ix2 r j) * colBcast s (ix2 r j) * rowBcast g (ix2 r j) + rowBcast be (ix2 r j) = _
  rw [colBcast_apply, rowBcast_apply, rowBcast_apply, hd, hs]

end Cert.KernelIdeal.OutProjValue

end
-- ==== Proof.Spec.lean ====
/-
  The function both programs compute, index by index, over the extended reals.

  The input x is a sequence of 2048 rows of 1024 features. Three shared weight matrices project each row onto 64
  coordinates (queries, keys, values). Each of the 16 heads applies its own affine map of the 64 coordinates to each
  of the three projections. Within a head, the score of query row q against key row k is the inner product of the
  two 64-vectors divided by 8; a row of scores is turned into weights by subtracting the row's maximum, taking
  exponentials and dividing by their sum; the head's output at row q is the weighted sum of the value rows. The
  sixteen 64-wide outputs are laid side by side in head order into 1024 features, mapped by the output matrix with
  its bias, added to x, and each row is normalised: subtract the row mean, multiply by the reciprocal square root of
  the row's mean squared deviation plus a small constant, scale by gamma and shift by beta.

  Every stage is a plain function of coordinates. Sums run over a whole axis at once; no order of summation is
  part of the definition. Numeric literals are kept as the single-precision words they were written as.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-! ## Shapes and literals -/

abbrev S2048x1024 : Shape := ⟨2, ![2048, 1024]⟩
abbrev S64x1024 : Shape := ⟨2, ![64, 1024]⟩
abbrev S16x64x64 : Shape := ⟨3, ![16, 64, 64]⟩
abbrev S16x64 : Shape := ⟨2, ![16, 64]⟩
abbrev S1024x1024 : Shape := ⟨2, ![1024, 1024]⟩
abbrev S1024 : Shape := ⟨1, ![1024]⟩

/-- The score scale 8 (the square root of the head width 64). -/
abbrev eight : EReal := Ideal.ofBits .f32 0x41000000#32
/-- Minus infinity, the value a row maximum starts from. -/
abbrev negInf : EReal := Ideal.ofBits .f32 0xFF800000#32
/-- The row length 1024, the divisor of the mean and of the variance. -/
abbrev rowLen : EReal := Ideal.ofBits .f32 0x44800000#32
/-- The constant added to the variance before the reciprocal square root (the single-precision word nearest 1e-5). -/
abbrev eps : EReal := Ideal.ofBits .f32 0x3727C5AC#32

/-! ## Projections and per-head maps -/

/-- Shared projection: coordinate d of row s is the inner product of row s of x with row d of the weight. -/
def proj (x : S2048x1024.Idx → EReal) (w : S64x1024.Idx → EReal) (s : Fin 2048) (d : Fin 64) : EReal :=
  ∑ k : Fin 1024, x (ix2 s k) * w (ix2 d k)

/-- A head's affine map: output coordinate e of row s is the inner product of row e of the head's matrix with the
    row's 64 projected coordinates, plus the head's bias at e. -/
def head (a : Fin 2048 → Fin 64 → EReal) (hw : S16x64x64.Idx → EReal) (hb : S16x64.Idx → EReal)
    (h : Fin 16) (s : Fin 2048) (e : Fin 64) : EReal :=
  (∑ d : Fin 64, hw (ix3 h e d) * a s d) + hb (ix2 h e)

section Stages

variable (x : S2048x1024.Idx → EReal) (wk wq wv : S64x1024.Idx → EReal)
  (hwk : S16x64x64.Idx → EReal) (hbk : S16x64.Idx → EReal)
  (hwv : S16x64x64.Idx → EReal) (hbv : S16x64.Idx → EReal)
  (hwq : S16x64x64.Idx → EReal) (hbq : S16x64.Idx → EReal)
  (wo : S1024x1024.Idx → EReal) (bo gamma beta : S1024.Idx → EReal)

/-- Keys per head. -/
def Kh : Fin 16 → Fin 2048 → Fin 64 → EReal := head (proj x wk) hwk hbk
/-- Values per head. -/
def Vh : Fin 16 → Fin 2048 → Fin 64 → EReal := head (proj x wv) hwv hbv
/-- Queries per head. -/
def Qh : Fin 16 → Fin 2048 → Fin 64 → EReal := head (proj x wq) hwq hbq

/-! ## Attention within a head -/

/-- Score of query row q against key row k in head h: their inner product over the 64 coordinates, divided by 8. -/
def score (h : Fin 16) (q k : Fin 2048) : EReal :=
  Ideal.div (∑ d : Fin 64, Qh x wq hwq hbq h q d * Kh x wk hwk hbk h k d) eight

/-- The largest score in row q of head h, folded from minus infinity over the 2048 keys. -/
def rowmax0 (h : Fin 16) (q : Fin 2048) : EReal :=
  (Finset.univ : Finset (Fin 2048)).fold max negInf (fun k => score x wk wq hwk hbk hwq hbq h q k)

/-- The row maximum as it is subtracted: the larger of minus infinity and the fold (equal to the fold). -/
def rowmax (h : Fin 16) (q : Fin 2048) : EReal :=
  max negInf (rowmax0 x wk wq hwk hbk hwq hbq h q)

/-- Exponential of a score less its row's maximum. -/
def p (h : Fin 16) (q k : Fin 2048) : EReal :=
  Ideal.exp (score x wk wq hwk hbk hwq hbq h q k - rowmax x wk wq hwk hbk hwq hbq h q)

/-- The sum of a row's exponentials. -/
def rowsum (h : Fin 16) (q : Fin 2048) : EReal :=
  ∑ k : Fin 2048, p x wk wq hwk hbk hwq hbq h q k

/-- Attention weight: an exponential divided by its row's sum. -/
def attn (h : Fin 16) (q k : Fin 2048) : EReal :=
  Ideal.div (p x wk wq hwk hbk hwq hbq h q k) (rowsum x wk wq hwk hbk hwq hbq h q)

/-- Head output: coordinate d of row q is the weighted sum over key rows of the head's values. -/
def ohead (h : Fin 16) (q : Fin 2048) (d : Fin 64) : EReal :=
  ∑ k : Fin 2048, attn x wk wq hwk hbk hwq hbq h q k * Vh x wv hwv hbv h k d

/-! ## Heads side by side, output map, residual -/

/-- Feature j of row s of the concatenation is coordinate j mod 64 of head j div 64. -/
def cat (s : Fin 2048) (j : Fin 1024) : EReal :=
  ohead x wk wq wv hwk hbk hwv hbv hwq hbq
    ⟨j.val / 64, by have := j.isLt; omega⟩ s ⟨j.val % 64, by have := j.isLt; omega⟩

/-- At feature 64 h + d the concatenation reads coordinate d of head h. -/
theorem cat_apply (s : Fin 2048) (h : Fin 16) (d : Fin 64) :
    cat x wk wq wv hwk hbk hwv hbv hwq hbq s ⟨64 * h.val + d.val, by have := h.isLt; have := d.isLt; omega⟩
      = ohead x wk wq wv hwk hbk hwv hbv hwq hbq h s d := by
  unfold cat
  have hh : (⟨(64 * h.val + d.val) / 64, by have := h.isLt; have := d.isLt; omega⟩ : Fin 16) = h :=
    Fin.ext (by have := d.isLt; show (64 * h.val + d.val) / 64 = h.val; omega)
  have hd : (⟨(64 * h.val + d.val) % 64, by have := d.isLt; omega⟩ : Fin 64) = d :=
    Fin.ext (by have := d.isLt; show (64 * h.val + d.val) % 64 = d.val; omega)
  rw [hh, hd]

/-- Output map with bias, plus the input: feature j of row s. -/
def y (s : Fin 2048) (j : Fin 1024) : EReal :=
  (∑ k : Fin 1024, cat x wk wq wv hwk hbk hwv hbv hwq hbq s k * wo (ix2 j k)) + bo (ix1 j) + x (ix2 s j)

/-! ## Row normalisation -/

/-- Row mean: the sum of the row's 1024 features divided by 1024. -/
def mu (s : Fin 2048) : EReal :=
  Ideal.div (∑ j : Fin 1024, y x wk wq wv hwk hbk hwv hbv hwq hbq wo bo s j) rowLen

/-- Row variance: the sum of squared deviations from the mean divided by 1024. -/
def var (s : Fin 2048) : EReal :=
  Ideal.div (∑ j : Fin 1024,
      (y x wk wq wv hwk hbk hwv hbv hwq hbq wo bo s j - mu x wk wq wv hwk hbk hwv hbv hwq hbq wo bo s)
        * (y x wk wq wv hwk hbk hwv hbv hwq hbq wo bo s j - mu x wk wq wv hwk hbk hwv hbv hwq hbq wo bo s)) rowLen

/-- Normalised, scaled and shifted feature j of row s. -/
def out (s : Fin 2048) (j : Fin 1024) : EReal :=
  ((y x wk wq wv hwk hbk hwv hbv hwq hbq wo bo s j - mu x wk wq wv hwk hbk hwv hbv hwq hbq wo bo s)
      * Ideal.rsqrt (var x wk wq wv hwk hbk hwv hbv hwq hbq wo bo s + eps))
    * gamma (ix1 j) + beta (ix1 j)

/-- The whole result as an array over [2048, 1024]. -/
def G : S2048x1024.Idx → EReal := fun i =>
  out x wk wq wv hwk hbk hwv hbv hwq hbq wo bo gamma beta
    ⟨(i 0).val, (i 0).isLt⟩ ⟨(i 1).val, (i 1).isLt⟩

/-- The result at row s, feature j. -/
theorem G_apply (s : Fin 2048) (j : Fin 1024) :
    G x wk wq wv hwk hbk hwv hbv hwq hbq wo bo gamma beta (ix2 s j)
      = out x wk wq wv hwk hbk hwv hbv hwq hbq wo bo gamma beta s j := rfl

end Stages

end Cert.Spec

end
-- ==== Proof.KI.ProjValue.lean ====
/-
  What the first launch leaves in its three output arrays. The launch's grid has eight points; point t multiplies
  rows 256 t … 256 t + 255 of the sequence by each of the three weight matrices transposed and writes the three
  [256, 64] results back as rows 256 t … 256 t + 255 of the three [2048, 64] output arrays. Each entry is one whole
  sum over the 1024 columns, so entry (s, d) of an output array is the inner product of row s of the sequence with
  row d of the weight matrix, whichever point computed it; the eight row blocks tile the 2048 rows, so after the
  last point each array holds that function at every entry.
-/
import proofs.«114948_j41841571398363_2_alg».proof.Proof.KI.Proj
import proofs.«114948_j41841571398363_2_alg».proof.Proof.KI.OutProjValue
import proofs.«114948_j41841571398363_2_alg».proof.Proof.Spec
import Idealize.ShloMosaic.PureOps.Ideal.Laws
import Idealize.ShloMosaic.Lib.Pipeline.Value
import Idealize.ShloMosaic.Lib.ValueIdx

noncomputable section

namespace Cert.KernelIdeal.ProjValue

open Cert.KernelIdeal Cert.KernelIdeal.Gen
open Idealize.ShloMosaic Idealize.ShloMosaic.TcCoe Idealize.ShloMosaic.ValueIdx Idealize.SL.Sem
open Idealize.ShloMosaic.Pipeline (Dat)
open Cert.KernelIdeal.OutProjValue (Transposed)
open scoped BigOperators

/-! ## The body's products at an entry -/

/-- The launch's three products are of one kind: a [256, 1024] block times a [64, 1024] matrix transposed, one
    contracted axis of length 1024. -/
theorem projDims_transposed : Transposed dot_S256x1024_S64x1024_S256x64_1_1_0_0_n_n where
  rank := rfl
  size := rfl
  l0 i q := by
    unfold DotDims.lhsIdx
    rw [dif_neg (show ¬(0 : Fin S256x1024.rank) ∈ dot_S256x1024_S64x1024_S256x64_1_1_0_0_n_n.lhsBatch by decide),
      dif_pos (show (0 : Fin S256x1024.rank) ∈ dot_S256x1024_S64x1024_S256x64_1_1_0_0_n_n.lhsNonContracting by decide)]
    rfl
  l1 i q := dot_S256x1024_S64x1024_S256x64_1_1_0_0_n_n.lhsIdx_val_of_single rfl i q
  r0 i q := by
    unfold DotDims.rhsIdx
    rw [dif_neg (show ¬(0 : Fin S64x1024.rank) ∈ dot_S256x1024_S64x1024_S256x64_1_1_0_0_n_n.rhsBatch by decide),
      dif_pos (show (0 : Fin S64x1024.rank) ∈ dot_S256x1024_S64x1024_S256x64_1_1_0_0_n_n.rhsNonContracting by decide)]
    rfl
  r1 i q := dot_S256x1024_S64x1024_S256x64_1_1_0_0_n_n.rhsIdx_val_of_single rfl i q

/-- The query block's entry (r, d): row r of the staged rows against row d of the weight. The two narrowing format
    changes are the identity on extended reals. -/
theorem pay2_at (x : Vec Ideal S256x1024 .f32) (w : Vec Ideal S64x1024 .f32) (r : Fin 256) (d : Fin 64) :
    k0_pay2 (F := Ideal) x w (ix2 r d) = ∑ k : Fin 1024, x (ix2 r k) * w (ix2 d k) := by
  unfold k0_pay2 k0_pay1
  exact projDims_transposed.matmul_zero_at none _ _ r d

/-- The key block's entry (r, d). -/
theorem pay3_at (x : Vec Ideal S256x1024 .f32) (w : Vec Ideal S64x1024 .f32) (r : Fin 256) (d : Fin 64) :
    k0_pay3 (F := Ideal) x w (ix2 r d) = ∑ k : Fin 1024, x (ix2 r k) * w (ix2 d k) := by
  unfold k0_pay3 k0_pay1
  exact projDims_transposed.matmul_zero_at none _ _ r d

/-- The value block's entry (r, d). -/
theorem pay4_at (x : Vec Ideal S256x1024 .f32) (w : Vec Ideal S64x1024 .f32) (r : Fin 256) (d : Fin 64) :
    k0_pay4 (F := Ideal) x w (ix2 r d) = ∑ k : Fin 1024, x (ix2 r k) * w (ix2 d k) := by
  unfold k0_pay4 k0_pay1
  exact projDims_transposed.matmul_zero_at none _ _ r d

/-! ## From blocks to arrays -/

theorem hz : (![0, 0] : Fin 2 → Nat) = fun _ => 0 := funext fun a => by fin_cases a <;> rfl

/-- The printed index maps over the eight points: the row block of the sequence and of each output moves with the
    point; the three weight matrices are one block each. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

variable (V : (c : Dev nD) → (b : Ref sig .tc) → Buf (Elt Ideal) ((c : Thread nD τ).loc b))

/-- Row r of the sequence block staged at point t is row 256 t + r of the sequence. -/
theorem blk0_at (c : Dev nD) (t : Fin cfg0.N) (r : Fin 256) (k : Fin 1024) (s : Fin 2048)
    (hs : s.val = t.val * 256 + r.val) :
    Proj.blk V c 0 t (ix2 r k) = (V c main_arg0 : Spec.S2048x1024.Idx → EReal) (ix2 s k) := by
  obtain ⟨e0, e1, -⟩ := idx_facts t
  unfold Proj.blk
  rw [View.read_apply]
  show V c main_arg0 _ = V c main_arg0 _
  congr 1
  funext a
  apply Fin.ext
  match a with
  | ⟨0, _⟩ => show win0_0.index t (0 : Fin 2) * 256 + 1 * r.val = s.val; rw [e0, hs]; omega
  | ⟨1, _⟩ => show win0_0.index t (1 : Fin 2) * 1024 + 1 * k.val = k.val; rw [e1]; omega

/-- The staged query weights are the whole matrix. -/
theorem blk1_at (c : Dev nD) (t : Fin cfg0.N) (d : Fin 64) (k : Fin 1024) :
    Proj.blk V c 1 t (ix2 d k) = (V c main_arg2 : Spec.S64x1024.Idx → EReal) (ix2 d k) := by
  obtain ⟨-, -, e0, e1, -⟩ := idx_facts t
  unfold Proj.blk
  rw [View.read_apply]
  show V c main_arg2 _ = V c main_arg2 _
  congr 1
  funext a
  apply Fin.ext
  match a with
  | ⟨0, _⟩ => show win0_1.index t (0 : Fin 2) * 64 + 1 * d.val = d.val; rw [e0]; omega
  | ⟨1, _⟩ => show win0_1.index t (1 : Fin 2) * 1024 + 1 * k.val = k.val; rw [e1]; omega

/-- The staged key weights are the whole matrix. -/
theorem blk2_at (c : Dev nD) (t : Fin cfg0.N) (d : Fin 64) (k : Fin 1024) :
    Proj.blk V c 2 t (ix2 d k) = (V c main_arg1 : Spec.S64x1024.Idx → EReal) (ix2 d k) := by
  obtain ⟨-, -, -, -, e0, e1, -⟩ := idx_facts t
  unfold Proj.blk
  rw [View.read_apply]
  show V c main_arg1 _ = V c main_arg1 _
  congr 1
  funext a
  apply Fin.ext
  match a with
  | ⟨0, _⟩ => show win0_2.index t (0 : Fin 2) * 64 + 1 * d.val = d.val; rw [e0]; omega
  | ⟨1, _⟩ => show win0_2.index t (1 : Fin 2) * 1024 + 1 * k.val = k.val; rw [e1]; omega

/-- The staged value weights are the whole matrix. -/
theorem blk3_at (c : Dev nD) (t : Fin cfg0.N) (d : Fin 64) (k : Fin 1024) :
    Proj.blk V c 3 t (ix2 d k) = (V c main_arg3 : Spec.S64x1024.Idx → EReal) (ix2 d k) := by
  obtain ⟨-, -, -, -, -, -, e0, e1, -⟩ := idx_facts t
  unfold Proj.blk
  rw [View.read_apply]
  show V c main_arg3 _ = V c main_arg3 _
  congr 1
  funext a
  apply Fin.ext
  match a with
  | ⟨0, _⟩ => show win0_3.index t (0 : Fin 2) * 64 + 1 * d.val = d.val; rw [e0]; omega
  | ⟨1, _⟩ => show win0_3.index t (1 : Fin 2) * 1024 + 1 * k.val = k.val; rw [e1]; omega

/-- A projection as an array over [2048, 64]. -/
def projArr (x : Spec.S2048x1024.Idx → EReal) (w : Spec.S64x1024.Idx → EReal) : S2048x64.Idx → EReal :=
  fun i => Spec.proj x w ⟨(i 0).val, (i 0).isLt⟩ ⟨(i 1).val, (i 1).isLt⟩

/-- The array at row s, coordinate d. -/
theorem projArr_apply (x : Spec.S2048x1024.Idx → EReal) (w : Spec.S64x1024.Idx → EReal) (s : Fin 2048) (d : Fin 64) :
    projArr x w (ix2 s d) = Spec.proj x w s d := rfl

/-- What point t writes back to the query array is rows 256 t … 256 t + 255 of the query projection. -/
theorem flushed4_eq (c : Dev nD) (t : Fin cfg0.N) :
    (Proj.dat (F := Ideal) V c).flushed 4 t
      = ((cfg0.win 4).blk t).view.read (Elt Ideal) (projArr (V c main_arg0) (V c main_arg2)) := by
  show (cfg0.win 4).cut (grid0.coords t) ((Proj.dat V c).after 4 t) = _
  rw [Proj.after4]
  unfold Proj.outQ
  rw [View.canon_unit_zero hz]
  simp only [View.ld_unit_zero (S := S256x1024) hz, View.ld_unit_zero (S := S64x1024) hz]
  funext j
  obtain ⟨r, d, rfl⟩ : ∃ (r : Fin 256) (d : Fin 64), j = ix2 r d := ⟨j 0, j 1, eq_ix2 j⟩
  obtain ⟨-, -, -, -, -, -, -, -, e0, e1, -⟩ := idx_facts t
  have hN : cfg0.N = 8 := N_0
  have ht : t.val < 8 := hN ▸ t.isLt
  have hs : t.val * 256 + r.val < 2048 := by have := r.isLt; omega
  have hemb : ((cfg0.win 4).blk t).view.emb (ix2 r d) = ix2 (⟨t.val * 256 + r.val, hs⟩ : Fin 2048) d := by
    funext a
    apply Fin.ext
    match a with
    | ⟨0, _⟩ => show win0_4.index t (0 : Fin 2) * 256 + 1 * r.val = t.val * 256 + r.val; rw [e0]; omega
    | ⟨1, _⟩ => show win0_4.index t (1 : Fin 2) * 64 + 1 * d.val = d.val; rw [e1]; omega
  show k0_pay2 (Proj.blk V c 0 t) (Proj.blk V c 1 t) (ix2 r d)
    = projArr (V c main_arg0) (V c main_arg2) (((cfg0.win 4).blk t).view.emb (ix2 r d))
  rw [hemb, projArr_apply]
  refine (pay2_at (Proj.blk V c 0 t) (Proj.blk V c 1 t) r d).trans ?_
  unfold Spec.proj
  refine Finset.sum_congr rfl fun k _ => ?_
  rw [blk0_at V c t r k ⟨t.val * 256 + r.val, hs⟩ rfl, blk1_at V c t d k]

/-- What point t writes back to the key array is rows 256 t … 256 t + 255 of the key projection. -/
theorem flushed5_eq (c : Dev nD) (t : Fin cfg0.N) :
    (Proj.dat (F := Ideal) V c).flushed 5 t
      = ((cfg0.win 5).blk t).view.read (Elt Ideal) (projArr (V c main_arg0) (V c main_arg1)) := by
  show (cfg0.win 5).cut (grid0.coords t) ((Proj.dat V c).after 5 t) = _
  rw [Proj.after5]
  unfold Proj.outK
  rw [View.canon_unit_zero hz]
  simp only [View.ld_unit_zero (S := S256x1024) hz, View.ld_unit_zero (S := S64x1024) hz]
  funext j
  obtain ⟨r, d, rfl⟩ : ∃ (r : Fin 256) (d : Fin 64), j = ix2 r d := ⟨j 0, j 1, eq_ix2 j⟩
  obtain ⟨-, -, -, -, -, -, -, -, -, -, e0, e1, -⟩ := idx_facts t
  have hN : cfg0.N = 8 := N_0
  have ht : t.val < 8 := hN ▸ t.isLt
  have hs : t.val * 256 + r.val < 2048 := by have := r.isLt; omega
  have hemb : ((cfg0.win 5).blk t).view.emb (ix2 r d) = ix2 (⟨t.val * 256 + r.val, hs⟩ : Fin 2048) d := by
    funext a
    apply Fin.ext
    match a with
    | ⟨0, _⟩ => show win0_5.index t (0 : Fin 2) * 256 + 1 * r.val = t.val * 256 + r.val; rw [e0]; omega
    | ⟨1, _⟩ => show win0_5.index t (1 : Fin 2) * 64 + 1 * d.val = d.val; rw [e1]; omega
  show k0_pay3 (Proj.blk V c 0 t) (Proj.blk V c 2 t) (ix2 r d)
    = projArr (V c main_arg0) (V c main_arg1) (((cfg0.win 5).blk t).view.emb (ix2 r d))
  rw [hemb, projArr_apply]
  refine (pay3_at (Proj.blk V c 0 t) (Proj.blk V c 2 t) r d).trans ?_
  unfold Spec.proj
  refine Finset.sum_congr rfl fun k _ => ?_
  rw [blk0_at V c t r k ⟨t.val * 256 + r.val, hs⟩ rfl, blk2_at V c t d k]

/-- What point t writes back to the value array is rows 256 t … 256 t + 255 of the value projection. -/
theorem flushed6_eq (c : Dev nD) (t : Fin cfg0.N) :
    (Proj.dat (F := Ideal) V c).flushed 6 t
      = ((cfg0.win 6).blk t).view.read (Elt Ideal) (projArr (V c main_arg0) (V c main_arg3)) := by
  show (cfg0.win 6).cut (grid0.coords t) ((Proj.dat V c).after 6 t) = _
  rw [Proj.after6]
  unfold Proj.outV
  rw [View.canon_unit_zero hz]
  simp only [View.ld_unit_zero (S := S256x1024) hz, View.ld_unit_zero (S := S64x1024) hz]
  funext j
  obtain ⟨r, d, rfl⟩ : ∃ (r : Fin 256) (d : Fin 64), j = ix2 r d := ⟨j 0, j 1, eq_ix2 j⟩
  obtain ⟨-, -, -, -, -, -, -, -, -, -, -, -, e0, e1⟩ := idx_facts t
  have hN : cfg0.N = 8 := N_0
  have ht : t.val < 8 := hN ▸ t.isLt
  have hs : t.val * 256 + r.val < 2048 := by have := r.isLt; omega
  have hemb : ((cfg0.win 6).blk t).view.emb (ix2 r d) = ix2 (⟨t.val * 256 + r.val, hs⟩ : Fin 2048) d := by
    funext a
    apply Fin.ext
    match a with
    | ⟨0, _⟩ => show win0_6.index t (0 : Fin 2) * 256 + 1 * r.val = t.val * 256 + r.val; rw [e0]; omega
    | ⟨1, _⟩ => show win0_6.index t (1 : Fin 2) * 64 + 1 * d.val = d.val; rw [e1]; omega
  show k0_pay4 (Proj.blk V c 0 t) (Proj.blk V c 3 t) (ix2 r d)
    = projArr (V c main_arg0) (V c main_arg3) (((cfg0.win 6).blk t).view.emb (ix2 r d))
  rw [hemb, projArr_apply]
  refine (pay4_at (Proj.blk V c 0 t) (Proj.blk V c 3 t) r d).trans ?_
  unfold Spec.proj
  refine Finset.sum_congr rfl fun k _ => ?_
  rw [blk0_at V c t r k ⟨t.val * 256 + r.val, hs⟩ rfl, blk3_at V c t d k]

/-! ## The eight row blocks tile each output array -/

/-- An index of the query array lies in point t's block iff each coordinate lies in the block's range. -/
theorem mem_blk4 (t : Fin cfg0.N) (i : S2048x64.Idx) :
    i ∈ ((cfg0.win 4).blk t).view.set
      ↔ ∀ a : Fin 2, win0_4.index t a * S256x64.size a ≤ (i a).val
          ∧ (i a).val < win0_4.index t a * S256x64.size a + S256x64.size a := by
  show i ∈ ((View.whole main_v3_0).slice (win0_4.rect t)).set ↔ _
  rw [View.set_slice_whole, Rect.mem_set_unit]
  exact Iff.rfl

/-- Row s of the query array is written back by point s / 256. -/
theorem cover4 (i : S2048x64.Idx) :
    ∃ t : Fin cfg0.N, (cfg0.win 4).flush t = true ∧ i ∈ ((cfg0.win 4).blk t).view.set := by
  have hN : cfg0.N = 8 := N_0
  have hi0 : (i 0).val < 2048 := (i 0).isLt
  have hi1 : (i 1).val < 64 := (i 1).isLt
  have hq : (i 0).val / 256 < cfg0.N := by rw [hN]; omega
  refine ⟨⟨(i 0).val / 256, hq⟩, flush0_4 _, ?_⟩
  rw [mem_blk4]
  obtain ⟨-, -, -, -, -, -, -, -, e0, e1, -⟩ := idx_facts ⟨(i 0).val / 256, hq⟩
  intro a
  match a with
  | ⟨0, _⟩ =>
    show win0_4.index ⟨(i 0).val / 256, hq⟩ (0 : Fin 2) * 256 ≤ (i 0).val
      ∧ (i 0).val < win0_4.index ⟨(i 0).val / 256, hq⟩ (0 : Fin 2) * 256 + 256
    rw [e0]
    show (i 0).val / 256 * 256 ≤ (i 0).val ∧ (i 0).val < (i 0).val / 256 * 256 + 256
    omega
  | ⟨1, _⟩ =>
    show win0_4.index ⟨(i 0).val / 256, hq⟩ (1 : Fin 2) * 64 ≤ (i 1).val
      ∧ (i 1).val < win0_4.index ⟨(i 0).val / 256, hq⟩ (1 : Fin 2) * 64 + 64
    rw [e1]
    omega

/-- After the launch the query array holds the query projection at every entry. -/
theorem arrQ (c : Dev nD) :
    (Proj.dat (F := Ideal) V c).arrAt 4 cfg0.N = projArr (V c main_arg0) (V c main_arg2) :=
  (Proj.dat (F := Ideal) V c).arrAt_eq_of_cover 4 (projArr (V c main_arg0) (V c main_arg2))
    (fun t _ => flushed4_eq V c t) cover4

/-- An index of the key array lies in point t's block iff each coordinate lies in the block's range. -/
theorem mem_blk5 (t : Fin cfg0.N) (i : S2048x64.Idx) :
    i ∈ ((cfg0.win 5).blk t).view.set
      ↔ ∀ a : Fin 2, win0_5.index t a * S256x64.size a ≤ (i a).val
          ∧ (i a).val < win0_5.index t a * S256x64.size a + S256x64.size a := by
  show i ∈ ((View.whole main_v3_1).slice (win0_5.rect t)).set ↔ _
  rw [View.set_slice_whole, Rect.mem_set_unit]
  exact Iff.rfl

/-- Row s of the key array is written back by point s / 256. -/
theorem cover5 (i : S2048x64.Idx) :
    ∃ t : Fin cfg0.N, (cfg0.win 5).flush t = true ∧ i ∈ ((cfg0.win 5).blk t).view.set := by
  have hN : cfg0.N = 8 := N_0
  have hi0 : (i 0).val < 2048 := (i 0).isLt
  have hi1 : (i 1).val < 64 := (i 1).isLt
  have hq : (i 0).val / 256 < cfg0.N := by rw [hN]; omega
  refine ⟨⟨(i 0).val / 256, hq⟩, flush0_5 _, ?_⟩
  rw [mem_blk5]
  obtain ⟨-, -, -, -, -, -, -, -, -, -, e0, e1, -⟩ := idx_facts ⟨(i 0).val / 256, hq⟩
  intro a
  match a with
  | ⟨0, _⟩ =>
    show win0_5.index ⟨(i 0).val / 256, hq⟩ (0 : Fin 2) * 256 ≤ (i 0).val
      ∧ (i 0).val < win0_5.index ⟨(i 0).val / 256, hq⟩ (0 : Fin 2) * 256 + 256
    rw [e0]
    show (i 0).val / 256 * 256 ≤ (i 0).val ∧ (i 0).val < (i 0).val / 256 * 256 + 256
    omega
  | ⟨1, _⟩ =>
    show win0_5.index ⟨(i 0).val / 256, hq⟩ (1 : Fin 2) * 64 ≤ (i 1).val
      ∧ (i 1).val < win0_5.index ⟨(i 0).val / 256, hq⟩ (1 : Fin 2) * 64 + 64
    rw [e1]
    omega

/-- After the launch the key array holds the key projection at every entry. -/
theorem arrK (c : Dev nD) :
    (Proj.dat (F := Ideal) V c).arrAt 5 cfg0.N = projArr (V c main_arg0) (V c main_arg1) :=
  (Proj.dat (F := Ideal) V c).arrAt_eq_of_cover 5 (projArr (V c main_arg0) (V c main_arg1))
    (fun t _ => flushed5_eq V c t) cover5

/-- An index of the value array lies in point t's block iff each coordinate lies in the block's range. -/
theorem mem_blk6 (t : Fin cfg0.N) (i : S2048x64.Idx) :
    i ∈ ((cfg0.win 6).blk t).view.set
      ↔ ∀ a : Fin 2, win0_6.index t a * S256x64.size a ≤ (i a).val
          ∧ (i a).val < win0_6.index t a * S256x64.size a + S256x64.size a := by
  show i ∈ ((View.whole main_v3_2).slice (win0_6.rect t)).set ↔ _
  rw [View.set_slice_whole, Rect.mem_set_unit]
  exact Iff.rfl

/-- Row s of the value array is written back by point s / 256. -/
theorem cover6 (i : S2048x64.Idx) :
    ∃ t : Fin cfg0.N, (cfg0.win 6).flush t = true ∧ i ∈ ((cfg0.win 6).blk t).view.set := by
  have hN : cfg0.N = 8 := N_0
  have hi0 : (i 0).val < 2048 := (i 0).isLt
  have hi1 : (i 1).val < 64 := (i 1).isLt
  have hq : (i 0).val / 256 < cfg0.N := by rw [hN]; omega
  refine ⟨⟨(i 0).val / 256, hq⟩, flush0_6 _, ?_⟩
  rw [mem_blk6]
  obtain ⟨-, -, -, -, -, -, -, -, -, -, -, -, e0, e1⟩ := idx_facts ⟨(i 0).val / 256, hq⟩
  intro a
  match a with
  | ⟨0, _⟩ =>
    show win0_6.index ⟨(i 0).val / 256, hq⟩ (0 : Fin 2) * 256 ≤ (i 0).val
      ∧ (i 0).val < win0_6.index ⟨(i 0).val / 256, hq⟩ (0 : Fin 2) * 256 + 256
    rw [e0]
    show (i 0).val / 256 * 256 ≤ (i 0).val ∧ (i 0).val < (i 0).val / 256 * 256 + 256
    omega
  | ⟨1, _⟩ =>
    show win0_6.index ⟨(i 0).val / 256, hq⟩ (1 : Fin 2) * 64 ≤ (i 1).val
      ∧ (i 1).val < win0_6.index ⟨(i 0).val / 256, hq⟩ (1 : Fin 2) * 64 + 64
    rw [e1]
    omega

/-- After the launch the value array holds the value projection at every entry. -/
theorem arrV (c : Dev nD) :
    (Proj.dat (F := Ideal) V c).arrAt 6 cfg0.N = projArr (V c main_arg0) (V c main_arg3) :=
  (Proj.dat (F := Ideal) V c).arrAt_eq_of_cover 6 (projArr (V c main_arg0) (V c main_arg3))
    (fun t _ => flushed6_eq V c t) cover6

end Cert.KernelIdeal.ProjValue

end
-- ==== Proof.KI.AttnTile.lean ====
/-
  The second launch's arithmetic, named. At one grid point the body reads a [256, 64] tile of query projections, the
  pair of heads' query weights [2, 64, 64] and biases [2, 1, 64], and the two kept buffers [2, 2048, 64] (per-head keys,
  per-head values), and writes one [256, 128] block: for each of the two heads the tile's per-head queries, their scaled
  scores against the head's keys, a row softmax, and the weighted sum of the head's values, the two heads side by side.
  At the first query tile of a pair it first writes the kept buffers: for each head a [1, 2048, 64] slab, the shared
  projection times the head's weights transposed plus the head's bias.
-/
import proofs.«114948_j41841571398363_2_alg».proof.Proof.Gen.KernelIdeal.Skeleton
import Idealize.ShloMosaic.Lib.Pipeline.FrameBody

noncomputable section

namespace Cert.KernelIdeal.Attn

open Cert.KernelIdeal Cert.KernelIdeal.Gen
open Idealize.ShloMosaic Idealize.ShloMosaic.TcCoe

variable {F : FTy → Type} [FloatOps F]

/-! ## The rectangles the body reads and writes through -/

abbrev rWhole2048 : Rect S2048x64 := Rect.unit (s := S2048x64) ![0, 0] S2048x64.size inb_S2048x64_S2048x64_0_0
abbrev rW : Rect S2x64x64 := Rect.unit (s := S2x64x64) ![0, 0, 0] S2x64x64.size inb_S2x64x64_S2x64x64_0_0_0
abbrev rB0 : Rect S2x1x64 := Rect.unit (s := S2x1x64) ![0, 0, 0] S1x1x64.size inb_S2x1x64_S1x1x64_0_0_0
abbrev rB1 : Rect S2x1x64 := Rect.unit (s := S2x1x64) ![1, 0, 0] S1x1x64.size inb_S2x1x64_S1x1x64_1_0_0
abbrev rS0 : Rect S2x2048x64 := Rect.unit (s := S2x2048x64) ![0, 0, 0] S1x2048x64.size inb_S2x2048x64_S1x2048x64_0_0_0
abbrev rS1 : Rect S2x2048x64 := Rect.unit (s := S2x2048x64) ![1, 0, 0] S1x2048x64.size inb_S2x2048x64_S1x2048x64_1_0_0
abbrev rOut : Rect S256x128 := Rect.unit (s := S256x128) ![0, 0] S256x128.size inb_S256x128_S256x128_0_0
/-- The 256 rows of the query tile the inner grid coordinate selects. -/
abbrev rTile (i : grid1.Coords) : Rect S2048x64 := Rect.unit (s := S2048x64) (k1_off1 i) S256x64.size (k1_off1_inb i)

/-! ## What a point computes -/

/-- The [256, 128] block a point writes, from the query tile, the pair's query weights and biases, and the two kept
    buffers: head 0 in columns 0 … 63, head 1 in columns 64 … 127. -/
def tile (qt : Vec F S256x64 .f32) (wq : Vec F S2x64x64 .f32) (bq : Vec F S2x1x64 .f32) (kh vh : Vec F S2x2048x64 .bf16) :
    Vec F S256x128 .f32 :=
  k1_pay1 (k1_pay11 qt) (k1_pay12 (View.ld wq rW)) (k1_pay13 (View.ld vh rS0))
    (k1_pay14 qt (View.ld wq rW) (View.ld bq rB0) (View.ld kh rS0))
    (View.ld bq rB1) (View.ld kh rS1) (View.ld vh rS1)

/-- A kept buffer written as two slabs: slab 0 then slab 1. -/
def slabs (s0 s1 : Vec F S1x2048x64 .bf16) : Vec F S2x2048x64 .bf16 :=
  View.canon [⟨rS1, s1⟩, ⟨rS0, s0⟩]

/-- The kept keys a first query tile writes, from the key projections [2048, 64], the pair's key weights and biases. -/
def keptK (k : Vec F S2048x64 .f32) (wk : Vec F S2x64x64 .f32) (bk : Vec F S2x1x64 .f32) : Vec F S2x2048x64 .bf16 :=
  slabs (k1_pay6 (View.ld k rWhole2048) (View.ld wk rW) (View.ld bk rB0))
        (k1_pay9 (k1_pay2 (View.ld k rWhole2048)) (k1_pay8 (View.ld wk rW)) (View.ld bk rB1))

/-- The kept values, likewise. -/
def keptV (v : Vec F S2048x64 .f32) (wv : Vec F S2x64x64 .f32) (bv : Vec F S2x1x64 .f32) : Vec F S2x2048x64 .bf16 :=
  slabs (k1_pay7 (View.ld v rWhole2048) (View.ld wv rW) (View.ld bv rB0))
        (k1_pay10 (k1_pay3 (View.ld v rWhole2048)) (k1_pay5 (View.ld wv rW)) (View.ld bv rB1))

end Cert.KernelIdeal.Attn

end
-- ==== Proof.KI.AttnPieces.lean ====
/-
  The second launch: what the run found in each case IS the named arithmetic. At a later query tile the output block
  is the tile computed from the 256 query rows the inner coordinate selects, the pair's query weights and biases, and
  the two kept buffers as found. At a first query tile the kept buffers end at the per-head keys and values of the
  pair's blocks, and the output block is the tile computed from those.
-/
import proofs.«114948_j41841571398363_2_alg».proof.Proof.KI.Attn
import proofs.«114948_j41841571398363_2_alg».proof.Proof.KI.AttnTile
import Idealize.ShloMosaic.Lib.Pipeline.Value

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.Sem

variable {F : FTy → Type} [FloatOps F]

theorem zero2 : (![0, 0] : Fin 2 → Nat) = fun _ => 0 := funext fun a => by fin_cases a <;> rfl

/-- The two slabs cover a kept buffer. -/
theorem slabs_cover (s0 s1 : Vec F S1x2048x64 .bf16) (y : S2x2048x64.Idx) :
    ∃ pc ∈ ([⟨rS1, s1⟩, ⟨rS0, s0⟩] : List (View.Piece (Elt F) S2x2048x64 .bf16)), y ∈ pc.1.set :=
  View.cover_of_tiledL ([⟨rS1, s1⟩, ⟨rS0, s0⟩] : List (View.Piece (Elt F) S2x2048x64 .bf16)) S1x2048x64.size (by sl_kernel_rfl) y

section Cases
variable (c : Dev nD) (i : grid1.Coords) (a2 : Memref sig .tc .vmem S2048x64 .f32) (ha2 : a2.IsWhole) (a3 : Memref sig .tc .vmem S2048x64 .f32) (ha3 : a3.IsWhole) (a4 : Memref sig .tc .vmem S2048x64 .f32) (ha4 : a4.IsWhole) (a5 : Memref sig .tc .vmem S2x64x64 .f32) (ha5 : a5.IsWhole) (a6 : Memref sig .tc .vmem S2x64x64 .f32) (ha6 : a6.IsWhole) (a7 : Memref sig .tc .vmem S2x64x64 .f32) (ha7 : a7.IsWhole) (a8 : Memref sig .tc .vmem S2x1x64 .f32) (ha8 : a8.IsWhole) (a9 : Memref sig .tc .vmem S2x1x64 .f32) (ha9 : a9.IsWhole) (a10 : Memref sig .tc .vmem S2x1x64 .f32) (ha10 : a10.IsWhole) (a11 : Memref sig .tc .vmem S256x128 .f32) (ha11 : a11.IsWhole) (a12 : Memref sig .tc .vmem S2x2048x64 .bf16) (ha12 : a12.IsWhole) (a13 : Memref sig .tc .vmem S2x2048x64 .bf16) (ha13 : a13.IsWhole)
  (q : Vec F S2048x64 .f32) (k : Vec F S2048x64 .f32) (v : Vec F S2048x64 .f32) (wq : Vec F S2x64x64 .f32) (wk : Vec F S2x64x64 .f32) (wv : Vec F S2x64x64 .f32) (bq : Vec F S2x1x64 .f32) (bk : Vec F S2x1x64 .f32) (bv : Vec F S2x1x64 .f32)

set_option maxHeartbeats 2000000 in
/-- At a later query tile the output block is the tile of the selected query rows and the kept buffers as found. -/
theorem outRead_eq (hc : ¬firstTile i) (kh vh : Vec F S2x2048x64 .bf16) :
    outRead c i a2 ha2 a3 ha3 a4 ha4 a5 ha5 a6 ha6 a7 ha7 a8 ha8 a9 ha9 a10 ha10 a11 ha11 a12 ha12 a13 ha13 q k v wq wk wv bq bk bv hc kh vh = tile (View.ld q (rTile i)) wq bq kh vh := by
  unfold outRead
  rw [View.read_writes_eq_canon _ _ _ (coverO_read c i a2 ha2 a3 ha3 a4 ha4 a5 ha5 a6 ha6 a7 ha7 a8 ha8 a9 ha9 a10 ha10 a11 ha11 a12 ha12 a13 ha13 q k v wq wk wv bq bk bv hc kh vh)]
  unfold runRead; dsimp only; sl_unfold_words
  rw [View.canon_unit_zero zero2]
  simp only [View.readAt_eq_ld, Memref.IsWhole.read_unread]
  rfl

set_option maxHeartbeats 2000000 in
/-- At a first query tile the kept keys end at the pair's per-head keys. -/
theorem khFill_eq (hc : firstTile i) :
    khFill c i a2 ha2 a3 ha3 a4 ha4 a5 ha5 a6 ha6 a7 ha7 a8 ha8 a9 ha9 a10 ha10 a11 ha11 a12 ha12 a13 ha13 q k v wq wk wv bq bk bv hc = keptK k wk bk := by
  unfold khFill
  rw [View.read_writes_eq_canon _ _ _ (coverK_fill c i a2 ha2 a3 ha3 a4 ha4 a5 ha5 a6 ha6 a7 ha7 a8 ha8 a9 ha9 a10 ha10 a11 ha11 a12 ha12 a13 ha13 q k v wq wk wv bq bk bv hc)]
  unfold runFill; dsimp only; sl_unfold_words
  simp only [View.readAt_eq_ld, Memref.IsWhole.read_unread]
  rfl

set_option maxHeartbeats 2000000 in
/-- and the kept values at the pair's per-head values. -/
theorem vhFill_eq (hc : firstTile i) :
    vhFill c i a2 ha2 a3 ha3 a4 ha4 a5 ha5 a6 ha6 a7 ha7 a8 ha8 a9 ha9 a10 ha10 a11 ha11 a12 ha12 a13 ha13 q k v wq wk wv bq bk bv hc = keptV v wv bv := by
  unfold vhFill
  rw [View.read_writes_eq_canon _ _ _ (coverV_fill c i a2 ha2 a3 ha3 a4 ha4 a5 ha5 a6 ha6 a7 ha7 a8 ha8 a9 ha9 a10 ha10 a11 ha11 a12 ha12 a13 ha13 q k v wq wk wv bq bk bv hc)]
  unfold runFill; dsimp only; sl_unfold_words
  simp only [View.readAt_eq_ld, Memref.IsWhole.read_unread]
  rfl

set_option maxHeartbeats 4000000 in
/-- At a first query tile the output block is the tile computed from the kept buffers just written. -/
theorem outFill_eq (hc : firstTile i) :
    outFill c i a2 ha2 a3 ha3 a4 ha4 a5 ha5 a6 ha6 a7 ha7 a8 ha8 a9 ha9 a10 ha10 a11 ha11 a12 ha12 a13 ha13 q k v wq wk wv bq bk bv hc = tile (View.ld q (rTile i)) wq bq (keptK k wk bk) (keptV v wv bv) := by
  unfold outFill
  rw [View.read_writes_eq_canon _ _ _ (coverO_fill c i a2 ha2 a3 ha3 a4 ha4 a5 ha5 a6 ha6 a7 ha7 a8 ha8 a9 ha9 a10 ha10 a11 ha11 a12 ha12 a13 ha13 q k v wq wk wv bq bk bv hc)]
  unfold runFill; dsimp only; sl_unfold_words
  rw [View.canon_unit_zero zero2]
  simp only [View.readAt_eq_ld, Memref.IsWhole.read_unread,
    View.readCov_eq_canon_ld _ _ _ (slabs_cover _ _)]
  rfl

end Cases

end Cert.KernelIdeal.Attn

end
-- ==== Proof.KI.AttnKept.lean ====
/-
  The second launch: after every grid point, uniformly.

  The output block after point t is the tile computed from the 256 query rows the point selects, the pair's query
  weights and biases, and the two kept buffers AS THEY STAND AFTER the point (a first query tile has just written them;
  a later one found them so and left them). And after point n the kept buffers hold the per-head keys and values
  computed from the blocks of point 8·⌊n/8⌋, the first query tile of n's pair of heads: that point wrote them, and no
  point since has touched them.
-/
import proofs.«114948_j41841571398363_2_alg».proof.Proof.KI.AttnPieces

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.Sem

variable {F : FTy → Type} [FloatOps F]
variable (V : (c : Dev nD) → (b : Ref sig .tc) → Buf (Elt F) ((c : Thread nD τ).loc b))

/-- The output block after point t, in either case. -/
theorem after9_eq_tile (c : Dev nD) (t : Fin cfg1.N) :
    (dat V c).after 9 t = tile (View.ld (blk V c 0 t) (rTile (grid1.coords t))) (blk V c 3 t) (blk V c 6 t)
      (outsAt V c t.val t.isLt).2.1 (outsAt V c t.val t.isLt).2.2 := by
  rw [after9]
  by_cases h0 : t.val % 8 = 0
  · rw [outsAt_fill V c t h0]; dsimp only
    rw [outFill_eq, khFill_eq, vhFill_eq]
    rfl
  · rw [outsAt_read V c t h0]; dsimp only
    rw [outRead_eq]
    rfl

/-- The first query tile of point n's pair of heads. -/
def anchor (n : ℕ) (hn : n < cfg1.N) : Fin cfg1.N := ⟨8 * (n / 8), lt_of_le_of_lt (by omega) hn⟩

/-- After point n the kept keys are the per-head keys of the anchor point's blocks, and the kept values likewise. -/
theorem kept_eq (c : Dev nD) : ∀ (n : ℕ) (hn : n < cfg1.N),
    (outsAt V c n hn).2.1 = keptK (blk V c 1 (anchor n hn)) (blk V c 4 (anchor n hn)) (blk V c 7 (anchor n hn))
    ∧ (outsAt V c n hn).2.2 = keptV (blk V c 2 (anchor n hn)) (blk V c 5 (anchor n hn)) (blk V c 8 (anchor n hn))
  | 0, hn => by
    have h := outsAt_fill V c ⟨0, hn⟩ (Nat.zero_mod _)
    have ha : anchor 0 hn = ⟨0, hn⟩ := Fin.ext (by simp [anchor])
    rw [ha]
    constructor
    · rw [show (outsAt V c 0 hn) = outsAt V c (⟨0, hn⟩ : Fin cfg1.N).val (⟨0, hn⟩ : Fin cfg1.N).isLt from rfl, h]; dsimp only
      exact khFill_eq _ _ _ _ _ _ _ _ _ _ _ _ _ _ _ _ _ _ _ _ _ _ _ _ _ _ _ _ _ _ _ _ _ _ _ _
    · rw [show (outsAt V c 0 hn) = outsAt V c (⟨0, hn⟩ : Fin cfg1.N).val (⟨0, hn⟩ : Fin cfg1.N).isLt from rfl, h]; dsimp only
      exact vhFill_eq _ _ _ _ _ _ _ _ _ _ _ _ _ _ _ _ _ _ _ _ _ _ _ _ _ _ _ _ _ _ _ _ _ _ _ _
  | n + 1, hn => by
    by_cases h0 : (n + 1) % 8 = 0
    · have h := outsAt_fill V c ⟨n + 1, hn⟩ h0
      have ha : anchor (n + 1) hn = ⟨n + 1, hn⟩ := Fin.ext (by simp only [anchor]; omega)
      rw [ha]
      constructor
      · rw [show (outsAt V c (n + 1) hn) = outsAt V c (⟨n + 1, hn⟩ : Fin cfg1.N).val (⟨n + 1, hn⟩ : Fin cfg1.N).isLt from rfl, h]; dsimp only
        exact khFill_eq _ _ _ _ _ _ _ _ _ _ _ _ _ _ _ _ _ _ _ _ _ _ _ _ _ _ _ _ _ _ _ _ _ _ _ _
      · rw [show (outsAt V c (n + 1) hn) = outsAt V c (⟨n + 1, hn⟩ : Fin cfg1.N).val (⟨n + 1, hn⟩ : Fin cfg1.N).isLt from rfl, h]; dsimp only
        exact vhFill_eq _ _ _ _ _ _ _ _ _ _ _ _ _ _ _ _ _ _ _ _ _ _ _ _ _ _ _ _ _ _ _ _ _ _ _ _
    · have h := outsAt_read V c ⟨n + 1, hn⟩ h0
      have ih := kept_eq c n (Nat.lt_of_succ_lt hn)
      have ha : anchor (n + 1) hn = anchor n (Nat.lt_of_succ_lt hn) := Fin.ext (by simp only [anchor]; omega)
      rw [ha]
      constructor
      · rw [show (outsAt V c (n + 1) hn) = outsAt V c (⟨n + 1, hn⟩ : Fin cfg1.N).val (⟨n + 1, hn⟩ : Fin cfg1.N).isLt from rfl, h]; dsimp only
        exact ih.1
      · rw [show (outsAt V c (n + 1) hn) = outsAt V c (⟨n + 1, hn⟩ : Fin cfg1.N).val (⟨n + 1, hn⟩ : Fin cfg1.N).isLt from rfl, h]; dsimp only
        exact ih.2

end Cert.KernelIdeal.Attn

end
-- ==== Proof.KI.AttnMath.lean ====
/-
  Attention for one head over the extended reals, in the order the kernel computes it: a per-head linear map
  (rows times a [64, 64] weight transposed, plus a bias), scores scaled by 1/8, the row maximum as a fold of max from
  −∞, the exponentials of the differences, their row sum, the quotient, and the weighted sum of the head's values.
-/
import Idealize.ShloMosaic.PureOps.Ideal
import Idealize.ShloMosaic.PureOps.Ideal.Laws
import Idealize.ShloMosaic.Lib.ValueIdx

noncomputable section

namespace Cert.KernelIdeal.AttnMath

open Idealize.ShloMosaic

/-- The kernel's scale, the float 0.125. -/
abbrev eighth : EReal := Ideal.ofBits .f32 0x3E000000#32
/-- The float −∞. -/
abbrev negInf : EReal := Ideal.ofBits .f32 0xFF800000#32

variable {R : Type}

/-- Rows times a weight transposed, plus a bias. -/
def headLin (a : R → Fin 64 → EReal) (w : Fin 64 → Fin 64 → EReal) (b : Fin 64 → EReal) (r : R) (e : Fin 64) : EReal :=
  (∑ d : Fin 64, a r d * w e d) + b e

/-- Scaled scores of a row of queries against the 2048 keys. -/
def sc (qh : R → Fin 64 → EReal) (kh : Fin 2048 → Fin 64 → EReal) (r : R) (k : Fin 2048) : EReal :=
  (∑ d : Fin 64, qh r d * kh k d) * eighth

/-- A row's maximum. -/
def mx (s : R → Fin 2048 → EReal) (r : R) : EReal :=
  (Finset.univ : Finset (Fin 2048)).fold max negInf (fun k => s r k)

/-- The exponentials of a row's differences from its maximum. -/
def pr (s : R → Fin 2048 → EReal) (r : R) (k : Fin 2048) : EReal := Ideal.exp (s r k - mx s r)

/-- The row softmax. -/
def sm (s : R → Fin 2048 → EReal) (r : R) (k : Fin 2048) : EReal := Ideal.div (pr s r k) (∑ k' : Fin 2048, pr s r k')

/-- Probabilities times values. -/
def av (a : R → Fin 2048 → EReal) (vh : Fin 2048 → Fin 64 → EReal) (r : R) (e : Fin 64) : EReal :=
  ∑ k : Fin 2048, a r k * vh k e

/-- One head's output for a set of query rows, from the head's queries, keys and values. -/
def headOut (qh : R → Fin 64 → EReal) (kh vh : Fin 2048 → Fin 64 → EReal) (r : R) (e : Fin 64) : EReal :=
  av (sm (sc qh kh)) vh r e

end Cert.KernelIdeal.AttnMath

end
-- ==== Proof.LibMatmulSum.lean ====
/-
  A plain matrix product  [n, K] x [K, w] -> [n, w]  at the ideal values, for any contraction length K and whichever
  record of dimension numbers spells it: the sum over the record's own contraction index, read at entry (p, q), is the
  sum over k < K of left(p, k) * right(k, q).  A kernel's matrix-unit product into a zero accumulator is that sum.
  The record enters only through six facts about its index maps (one contracted axis of extent K; the left operand
  contracted on its axis 1, the right on its axis 0; the result's axes the left's axis 0 and the right's axis 1).
-/
import Idealize.ShloMosaic.PureOps.Ideal.Laws
import Idealize.ShloMosaic.Lib.Pipeline.Value
import Idealize.ShloMosaic.Lib.ValueIdx

noncomputable section

namespace Cert.LibMatmulSum

open Idealize.ShloMosaic Idealize.ShloMosaic.ValueIdx

/-- The index facts of a plain product with contraction length `K`. -/
structure Plain {n K w : ℕ} (d : DotDims ⟨2, ![n, K]⟩ ⟨2, ![K, w]⟩ ⟨2, ![n, w]⟩) : Prop where
  rank : d.contr.rank = 1
  size : d.contr.size ⟨0, by rw [rank]; exact Nat.one_pos⟩ = K
  l0 : ∀ (i : (⟨2, ![n, w]⟩ : Shape).Idx) (q : d.contr.Idx), (d.lhsIdx i q 0).val = (i 0).val
  l1 : ∀ (i : (⟨2, ![n, w]⟩ : Shape).Idx) (q : d.contr.Idx), (d.lhsIdx i q 1).val = (q ⟨0, by rw [rank]; exact Nat.one_pos⟩).val
  r0 : ∀ (i : (⟨2, ![n, w]⟩ : Shape).Idx) (q : d.contr.Idx), (d.rhsIdx i q 0).val = (q ⟨0, by rw [rank]; exact Nat.one_pos⟩).val
  r1 : ∀ (i : (⟨2, ![n, w]⟩ : Shape).Idx) (q : d.contr.Idx), (d.rhsIdx i q 1).val = (i 1).val

/-- The contraction sum at entry (p, q), re-indexed by k < K. -/
theorem sum_eq {n K w : ℕ} {d : DotDims ⟨2, ![n, K]⟩ ⟨2, ![K, w]⟩ ⟨2, ![n, w]⟩} (hd : Plain d)
    (l : (⟨2, ![n, K]⟩ : Shape).Idx → EReal) (r : (⟨2, ![K, w]⟩ : Shape).Idx → EReal) (p : Fin n) (q : Fin w) :
    (∑ k : d.contr.Idx, l (d.lhsIdx (ix2 p q) k) * r (d.rhsIdx (ix2 p q) k)) = ∑ k : Fin K, l (ix2 p k) * r (ix2 k q) := by
  rw [← Equiv.sum_comp (contrEquiv1 d K hd.rank hd.size).symm]
  refine Finset.sum_congr rfl fun k _ => ?_
  have hk := contrEquiv1_symm_val d K hd.rank hd.size k
  have el : d.lhsIdx (ix2 p q) ((contrEquiv1 d K hd.rank hd.size).symm k) = ix2 p k := funext fun a => Fin.ext (by
    match a with
    | ⟨0, _⟩ => exact hd.l0 _ _
    | ⟨1, _⟩ => exact (hd.l1 _ _).trans hk)
  have er : d.rhsIdx (ix2 p q) ((contrEquiv1 d K hd.rank hd.size).symm k) = ix2 k q := funext fun a => Fin.ext (by
    match a with
    | ⟨0, _⟩ => exact (hd.r0 _ _).trans hk
    | ⟨1, _⟩ => exact hd.r1 _ _)
  rw [el, er]

/-- A matrix-unit product into the zero accumulator, at entry (p, q). -/
theorem matmul_zero_at {n K w : ℕ} {d : DotDims ⟨2, ![n, K]⟩ ⟨2, ![K, w]⟩ ⟨2, ![n, w]⟩} (hd : Plain d) {φ₁ φ₂ : FTy}
    (prec : Option ContractPrecision) (l : FVec Ideal ⟨2, ![n, K]⟩ φ₁) (r : FVec Ideal ⟨2, ![K, w]⟩ φ₂) (p : Fin n) (q : Fin w) :
    FloatOps.matmul d prec l r (constant ⟨2, ![n, w]⟩ .f32 0x00000000#32) (ix2 p q) = ∑ k : Fin K, l (ix2 p k) * r (ix2 k q) :=
  (Ideal.matmul_constant_zero_apply d prec l r (ix2 p q)).trans (sum_eq hd l r p q)

end Cert.LibMatmulSum

end
-- ==== Proof.KI.AttnTileAt.lean ====
/-
  The second launch's block at one entry. For each of the pair's two heads the body takes the query tile times the
  head's [64, 64] weights transposed plus the head's bias (the head's queries), their inner products with the head's
  2048 kept keys times 1/8 (the scores), along each row the maximum, the exponentials of the differences, their sum
  and the quotients (the row softmax), and the softmax rows times the head's kept values; head 0 fills columns
  0 … 63 of the block and head 1 columns 64 … 127. At the ideal values every step is exact and the narrowing format
  changes are the identity, so entry (r, 64 j + e) of the block is head j's attention output at row r, coordinate e,
  as a function of the tile and of slab j of the weights, bias, keys and values.

  The proof names the shapes that recur (a head's weights cut out of the pair's, a bias laid along the rows, a row
  maximum and a row sum kept as a column and repeated along the row, the three products), reads each at an entry
  once, states the two payloads as chains over those shapes, and then walks a head's chain.
-/
import proofs.«114948_j41841571398363_2_alg».proof.Proof.KI.AttnTile
import proofs.«114948_j41841571398363_2_alg».proof.Proof.KI.AttnMath
import proofs.«114948_j41841571398363_2_alg».proof.Proof.KI.OutProjValue
import proofs.«114948_j41841571398363_2_alg».proof.Proof.LibKeepdims
import proofs.«114948_j41841571398363_2_alg».proof.Proof.LibMatmulSum
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.AttnTileAt

open Cert.KernelIdeal Cert.KernelIdeal.Gen
open Idealize.ShloMosaic Idealize.ShloMosaic.ValueIdx
open scoped BigOperators

/-! ## The three products' index facts -/

/-- The tile times a head's weights transposed: contraction length 64. -/
theorem dimsQ : OutProjValue.Transposed dot_S256x64_S64x64_S256x64_1_1_0_0_n_n where
  rank := rfl
  size := rfl
  l0 i q := by
    unfold DotDims.lhsIdx
    rw [dif_neg (show ¬(0 : Fin S256x64.rank) ∈ dot_S256x64_S64x64_S256x64_1_1_0_0_n_n.lhsBatch by decide),
      dif_pos (show (0 : Fin S256x64.rank) ∈ dot_S256x64_S64x64_S256x64_1_1_0_0_n_n.lhsNonContracting by decide)]
    rfl
  l1 i q := dot_S256x64_S64x64_S256x64_1_1_0_0_n_n.lhsIdx_val_of_single rfl i q
  r0 i q := by
    unfold DotDims.rhsIdx
    rw [dif_neg (show ¬(0 : Fin S64x64.rank) ∈ dot_S256x64_S64x64_S256x64_1_1_0_0_n_n.rhsBatch by decide),
      dif_pos (show (0 : Fin S64x64.rank) ∈ dot_S256x64_S64x64_S256x64_1_1_0_0_n_n.rhsNonContracting by decide)]
    rfl
  r1 i q := dot_S256x64_S64x64_S256x64_1_1_0_0_n_n.rhsIdx_val_of_single rfl i q

/-- A head's queries times its keys transposed: contraction length 64, 2048 columns. -/
theorem dimsS : OutProjValue.Transposed dot_S256x64_S2048x64_S256x2048_1_1_0_0_n_n where
  rank := rfl
  size := rfl
  l0 i q := by
    unfold DotDims.lhsIdx
    rw [dif_neg (show ¬(0 : Fin S256x64.rank) ∈ dot_S256x64_S2048x64_S256x2048_1_1_0_0_n_n.lhsBatch by decide),
      dif_pos (show (0 : Fin S256x64.rank) ∈ dot_S256x64_S2048x64_S256x2048_1_1_0_0_n_n.lhsNonContracting by decide)]
    rfl
  l1 i q := dot_S256x64_S2048x64_S256x2048_1_1_0_0_n_n.lhsIdx_val_of_single rfl i q
  r0 i q := by
    unfold DotDims.rhsIdx
    rw [dif_neg (show ¬(0 : Fin S2048x64.rank) ∈ dot_S256x64_S2048x64_S256x2048_1_1_0_0_n_n.rhsBatch by decide),
      dif_pos (show (0 : Fin S2048x64.rank) ∈ dot_S256x64_S2048x64_S256x2048_1_1_0_0_n_n.rhsNonContracting by decide)]
    rfl
  r1 i q := dot_S256x64_S2048x64_S256x2048_1_1_0_0_n_n.rhsIdx_val_of_single rfl i q

/-- The softmax rows times a head's values: an ordinary product with contraction length 2048. -/
theorem dimsO : Cert.LibMatmulSum.Plain dot_S256x2048_S2048x64_S256x64_1_0_0_1_n_n where
  rank := rfl
  size := rfl
  l0 i q := by
    unfold DotDims.lhsIdx
    rw [dif_neg (show ¬(0 : Fin S256x2048.rank) ∈ dot_S256x2048_S2048x64_S256x64_1_0_0_1_n_n.lhsBatch by decide),
      dif_pos (show (0 : Fin S256x2048.rank) ∈ dot_S256x2048_S2048x64_S256x64_1_0_0_1_n_n.lhsNonContracting by decide)]
    rfl
  l1 i q := dot_S256x2048_S2048x64_S256x64_1_0_0_1_n_n.lhsIdx_val_of_single rfl i q
  r0 i q := dot_S256x2048_S2048x64_S256x64_1_0_0_1_n_n.rhsIdx_val_of_single rfl i q
  r1 i q := by
    unfold DotDims.rhsIdx
    rw [dif_neg (show ¬(1 : Fin S2048x64.rank) ∈ dot_S256x2048_S2048x64_S256x64_1_0_0_1_n_n.rhsBatch by decide),
      dif_pos (show (1 : Fin S2048x64.rank) ∈ dot_S256x2048_S2048x64_S256x64_1_0_0_1_n_n.rhsNonContracting by decide)]
    rfl

/-! ## Layout shapes at an entry -/

/-- Head 0's weights cut out of the pair's and read as a matrix: entry (e, d) is the pair's entry (0, e, d). -/
theorem headW0_apply {φ : FTy} (w : FVec Ideal S2x64x64 φ) (e d : Fin 64) :
    shapeCast S64x64 (extractStridedSlice S1x64x64 ![0, 0, 0] w slices_S2x64x64_o0_0_0_S1x64x64) shapeCasts_S1x64x64_S64x64 (ix2 e d) = w (ix3 (0 : Fin 2) e d) := by
  refine (shapeCast_1ab_ab_apply _ _ e d).trans ?_
  exact extractStridedSlice_apply _ _ _ _ _ (fun ax => by
    match ax with
    | ⟨0, _⟩ => rfl
    | ⟨1, _⟩ => exact (Nat.zero_add _).symm
    | ⟨2, _⟩ => exact (Nat.zero_add _).symm)

/-- Head 1's weights likewise: entry (e, d) is the pair's entry (1, e, d). -/
theorem headW1_apply {φ : FTy} (w : FVec Ideal S2x64x64 φ) (e d : Fin 64) :
    shapeCast S64x64 (extractStridedSlice S1x64x64 ![1, 0, 0] w slices_S2x64x64_o1_0_0_S1x64x64) shapeCasts_S1x64x64_S64x64 (ix2 e d) = w (ix3 (1 : Fin 2) e d) := by
  refine (shapeCast_1ab_ab_apply _ _ e d).trans ?_
  exact extractStridedSlice_apply _ _ _ _ _ (fun ax => by
    match ax with
    | ⟨0, _⟩ => rfl
    | ⟨1, _⟩ => exact (Nat.zero_add _).symm
    | ⟨2, _⟩ => exact (Nat.zero_add _).symm)

/-- A head's bias [1, 1, 64] laid along the 64 columns and repeated down the 256 rows. -/
def biasRows (b : FVec Ideal S1x1x64 .f32) : FVec Ideal S256x64 .f32 :=
  broadcastTo S256x64 (shapeCast S1x64 b shapeCasts_S1x1x64_S1x64) broadcasts_S1x64_S256x64

theorem biasRows_apply (b : FVec Ideal S1x1x64 .f32) (r : Fin 256) (e : Fin 64) :
    biasRows b (ix2 r e) = b (ix3 (0 : Fin 1) (0 : Fin 1) e) := by
  unfold biasRows
  refine (broadcastTo_1b_ab_apply _ _ r e).trans ?_
  exact shapeCast_1ab_ab_apply b _ (0 : Fin 1) e

/-- A [1, 2048, 64] slab read as a [2048, 64] matrix. -/
theorem slab_apply {φ : FTy} (X : FVec Ideal S1x2048x64 φ) (k : Fin 2048) (d : Fin 64) :
    shapeCast S2048x64 X shapeCasts_S1x2048x64_S2048x64 (ix2 k d) = X (ix3 (0 : Fin 1) k d) :=
  shapeCast_1ab_ab_apply X _ k d

/-! ## Row reductions of a [256, 2048] block, kept as a column and repeated along the row -/

theorem lift_eq (p : Fin 256) (k : Fin (S256x2048.size 1)) :
    reduces_S256x2048_S256.lift (ix1 p) k = ix2 p (k : Fin 2048) := by
  funext a
  match a with
  | ⟨0, _⟩ => rfl
  | ⟨1, _⟩ => rfl

/-- The maximum along each row, read at its row: the fold of max from the accumulator's word over the row. -/
theorem rowMax_apply (v : FVec Ideal S256x2048 .f32) (hφ : FKind.Formats .f32) (hacc : (0xFF800000#32 : BitVec 32) = 0xFF800000#32)
    (p : Fin 256) :
    multiReduction .maximumf [1] S256 v 0xFF800000#32 reduces_S256x2048_S256 hφ hacc (ix1 p)
      = (Finset.univ : Finset (Fin 2048)).fold max (Ideal.ofBits .f32 0xFF800000#32) (fun k => v (ix2 p k)) := by
  refine (Ideal.multiReduction_maximumf_single v 0xFF800000#32 reduces_S256x2048_S256 hφ hacc (ix1 p)).trans ?_
  exact congrArg (fun f => (Finset.univ : Finset (Fin 2048)).fold max (Ideal.ofBits .f32 0xFF800000#32) f)
    (funext fun k => congrArg v (lift_eq p k))

/-- The sum along each row, read at its row. -/
theorem rowSum_apply (v : FVec Ideal S256x2048 .f32) (hφ : FKind.Formats .f32) (hacc : (0x00000000#32 : BitVec 32) = 0x00000000#32)
    (p : Fin 256) :
    multiReduction .add [1] S256 v 0x00000000#32 reduces_S256x2048_S256 hφ hacc (ix1 p) = ∑ k : Fin 2048, v (ix2 p k) := by
  refine (Ideal.multiReduction_add_single v 0x00000000#32 reduces_S256x2048_S256 hφ hacc (ix1 p)).trans ?_
  exact Finset.sum_congr rfl fun k _ => congrArg v (lift_eq p k)

/-- Each row's maximum, repeated along the row. -/
def maxCols (v : FVec Ideal S256x2048 .f32) : FVec Ideal S256x2048 .f32 :=
  broadcastTo S256x2048
    (shapeCast S256x1 (multiReduction .maximumf [1] S256 v 0xFF800000#32 reduces_S256x2048_S256 (.inl rfl) rfl) shapeCasts_S256_S256x1)
    broadcasts_S256x1_S256x2048

theorem maxCols_apply (v : FVec Ideal S256x2048 .f32) (r : Fin 256) (k : Fin 2048) :
    maxCols v (ix2 r k) = (Finset.univ : Finset (Fin 2048)).fold max (Ideal.ofBits .f32 0xFF800000#32) (fun k' => v (ix2 r k')) := by
  unfold maxCols
  refine (broadcastTo_a1_ab_apply _ _ r k).trans ?_
  refine (shapeCast_a_a1_apply _ _ r (0 : Fin 1)).trans ?_
  exact rowMax_apply v _ _ r

/-- Each row's sum, repeated along the row. -/
def sumCols (v : FVec Ideal S256x2048 .f32) : FVec Ideal S256x2048 .f32 :=
  broadcastTo S256x2048
    (shapeCast S256x1 (multiReduction .add [1] S256 v 0x00000000#32 reduces_S256x2048_S256 (.inl rfl) rfl) shapeCasts_S256_S256x1)
    broadcasts_S256x1_S256x2048

theorem sumCols_apply (v : FVec Ideal S256x2048 .f32) (r : Fin 256) (k : Fin 2048) :
    sumCols v (ix2 r k) = ∑ k' : Fin 2048, v (ix2 r k') := by
  unfold sumCols
  refine (broadcastTo_a1_ab_apply _ _ r k).trans ?_
  refine (shapeCast_a_a1_apply _ _ r (0 : Fin 1)).trans ?_
  exact rowSum_apply v _ _ r

/-! ## One head's chain -/

/-- A head's queries: the tile times the head's weights transposed, plus the head's bias. -/
def queries (q8 : FVec Ideal S256x64 .bf16) (W : FVec Ideal S64x64 .bf16) (b : FVec Ideal S1x1x64 .f32) : FVec Ideal S256x64 .bf16 :=
  truncf .bf16 (addf (matmul dot_S256x64_S64x64_S256x64_1_1_0_0_n_n none q8 W (constant S256x64 .f32 0x00000000#32)) (biasRows b)) bitsLt_bf16_f32

/-- The scaled scores of a head's queries against its 2048 keys. -/
def scores (qh : FVec Ideal S256x64 .bf16) (K : FVec Ideal S1x2048x64 .bf16) : FVec Ideal S256x2048 .f32 :=
  mulf (matmul dot_S256x64_S2048x64_S256x2048_1_1_0_0_n_n none qh (shapeCast S2048x64 K shapeCasts_S1x2048x64_S2048x64) (constant S256x2048 .f32 0x00000000#32))
    (broadcast S256x2048 (Scalar.ofBits .f32 0x3E000000#32))

/-- The row softmax of a block of scores. -/
def probs (s : FVec Ideal S256x2048 .f32) : FVec Ideal S256x2048 .bf16 :=
  truncf .bf16 (divf (exp (subf s (maxCols s))) (sumCols (exp (subf s (maxCols s))))) bitsLt_bf16_f32

/-- Softmax rows times a head's values. -/
def weighted (p : FVec Ideal S256x2048 .bf16) (Vs : FVec Ideal S2048x64 .bf16) : FVec Ideal S256x64 .f32 :=
  matmul dot_S256x2048_S2048x64_S256x64_1_0_0_1_n_n none p Vs (constant S256x64 .f32 0x00000000#32)

theorem queries_apply (q8 : FVec Ideal S256x64 .bf16) (W : FVec Ideal S64x64 .bf16) (b : FVec Ideal S1x1x64 .f32)
    (r : Fin 256) (e : Fin 64) :
    queries q8 W b (ix2 r e)
      = AttnMath.headLin (fun r d => q8 (ix2 r d)) (fun e d => W (ix2 e d)) (fun e => b (ix3 (0 : Fin 1) (0 : Fin 1) e)) r e := by
  show matmul dot_S256x64_S64x64_S256x64_1_1_0_0_n_n none q8 W (constant S256x64 .f32 0x00000000#32) (ix2 r e) + biasRows b (ix2 r e)
    = (∑ d : Fin 64, q8 (ix2 r d) * W (ix2 e d)) + b (ix3 (0 : Fin 1) (0 : Fin 1) e)
  rw [biasRows_apply]
  exact congrArg (fun z => z + b (ix3 (0 : Fin 1) (0 : Fin 1) e)) (dimsQ.matmul_zero_at none q8 W r e)

theorem scores_apply (qh : FVec Ideal S256x64 .bf16) (K : FVec Ideal S1x2048x64 .bf16) (r : Fin 256) (k : Fin 2048) :
    scores qh K (ix2 r k) = AttnMath.sc (fun r d => qh (ix2 r d)) (fun k d => K (ix3 (0 : Fin 1) k d)) r k := by
  show matmul dot_S256x64_S2048x64_S256x2048_1_1_0_0_n_n none qh (shapeCast S2048x64 K shapeCasts_S1x2048x64_S2048x64) (constant S256x2048 .f32 0x00000000#32) (ix2 r k)
      * Ideal.ofBits .f32 0x3E000000#32
    = (∑ d : Fin 64, qh (ix2 r d) * K (ix3 (0 : Fin 1) k d)) * AttnMath.eighth
  refine congrArg (fun z => z * Ideal.ofBits .f32 0x3E000000#32) ?_
  refine (dimsS.matmul_zero_at none qh _ r k).trans ?_
  exact Finset.sum_congr rfl fun d _ => congrArg (fun z => qh (ix2 r d) * z) (slab_apply K k d)

theorem probs_apply (s : FVec Ideal S256x2048 .f32) (r : Fin 256) (k : Fin 2048) :
    probs s (ix2 r k) = AttnMath.sm (fun r k => s (ix2 r k)) r k := by
  have hm : ∀ k : Fin 2048, maxCols s (ix2 r k) = AttnMath.mx (fun r k => s (ix2 r k)) r := fun k => maxCols_apply s r k
  have he : ∀ k : Fin 2048, (exp (subf s (maxCols s))) (ix2 r k) = AttnMath.pr (fun r k => s (ix2 r k)) r k := fun k => by
    show Ideal.exp (s (ix2 r k) - maxCols s (ix2 r k)) = _
    rw [hm]
    rfl
  show Ideal.div ((exp (subf s (maxCols s))) (ix2 r k)) (sumCols (exp (subf s (maxCols s))) (ix2 r k)) = _
  generalize exp (subf s (maxCols s)) = ex at he ⊢
  rw [sumCols_apply, he]
  exact congrArg (fun z => Ideal.div (AttnMath.pr (fun r k => s (ix2 r k)) r k) z) (Finset.sum_congr rfl fun k' _ => he k')

theorem weighted_apply (p : FVec Ideal S256x2048 .bf16) (Vs : FVec Ideal S2048x64 .bf16) (r : Fin 256) (e : Fin 64) :
    weighted p Vs (ix2 r e) = ∑ k : Fin 2048, p (ix2 r k) * Vs (ix2 k e) :=
  Cert.LibMatmulSum.matmul_zero_at dimsO none p Vs r e

/-- A head's chain at an entry: the head's attention output. -/
theorem head_at (q8 : FVec Ideal S256x64 .bf16) (W : FVec Ideal S64x64 .bf16) (b : FVec Ideal S1x1x64 .f32)
    (K : FVec Ideal S1x2048x64 .bf16) (Vs : FVec Ideal S2048x64 .bf16) (r : Fin 256) (e : Fin 64) :
    weighted (probs (scores (queries q8 W b) K)) Vs (ix2 r e)
      = AttnMath.headOut
          (AttnMath.headLin (fun r d => q8 (ix2 r d)) (fun e d => W (ix2 e d)) (fun e => b (ix3 (0 : Fin 1) (0 : Fin 1) e)))
          (fun k d => K (ix3 (0 : Fin 1) k d)) (fun k e => Vs (ix2 k e)) r e := by
  have hq : (fun (r : Fin 256) (d : Fin 64) => queries q8 W b (ix2 r d))
      = AttnMath.headLin (fun r d => q8 (ix2 r d)) (fun e d => W (ix2 e d)) (fun e => b (ix3 (0 : Fin 1) (0 : Fin 1) e)) :=
    funext fun r => funext fun d => queries_apply q8 W b r d
  have hs : (fun (r : Fin 256) (k : Fin 2048) => scores (queries q8 W b) K (ix2 r k))
      = AttnMath.sc (AttnMath.headLin (fun r d => q8 (ix2 r d)) (fun e d => W (ix2 e d)) (fun e => b (ix3 (0 : Fin 1) (0 : Fin 1) e)))
          (fun k d => K (ix3 (0 : Fin 1) k d)) :=
    funext fun r => funext fun k => (scores_apply (queries q8 W b) K r k).trans (by rw [hq])
  rw [weighted_apply]
  show (∑ k : Fin 2048, probs (scores (queries q8 W b) K) (ix2 r k) * Vs (ix2 k e))
    = ∑ k : Fin 2048, AttnMath.sm (AttnMath.sc
        (AttnMath.headLin (fun r d => q8 (ix2 r d)) (fun e d => W (ix2 e d)) (fun e => b (ix3 (0 : Fin 1) (0 : Fin 1) e)))
        (fun k d => K (ix3 (0 : Fin 1) k d))) r k * Vs (ix2 k e)
  exact Finset.sum_congr rfl fun k _ => congrArg (fun z => z * Vs (ix2 k e))
    ((probs_apply (scores (queries q8 W b) K) r k).trans (by rw [hs]))

/-! ## The two payloads as chains -/

/-- Head 0's softmax rows, as the body computes them before the store. -/
theorem pay14_eq (v6 : Vec Ideal S256x64 .f32) (v9 : Vec Ideal S2x64x64 .f32) (v14 : Vec Ideal S1x1x64 .f32)
    (v19 : Vec Ideal S1x2048x64 .bf16) :
    k1_pay14 (F := Ideal) v6 v9 v14 v19
      = probs (scores (queries (k1_pay11 (F := Ideal) v6) (shapeCast S64x64 (extractStridedSlice S1x64x64 ![0, 0, 0] (k1_pay12 (F := Ideal) v9) slices_S2x64x64_o0_0_0_S1x64x64) shapeCasts_S1x64x64_S64x64) v14) v19) := rfl

/-- The stored block: head 0's softmax rows times head 0's values beside head 1's whole chain. -/
theorem pay1_eq (v8 : FVec Ideal S256x64 .bf16) (v10 : FVec Ideal S2x64x64 .bf16) (v34 : FVec Ideal S2048x64 .bf16)
    (v35 : FVec Ideal S256x2048 .bf16) (v40 : Vec Ideal S1x1x64 .f32) (v45 v59 : Vec Ideal S1x2048x64 .bf16) :
    k1_pay1 (F := Ideal) v8 v10 v34 v35 v40 v45 v59
      = concatenate S256x128 1
          [⟨S256x64, weighted v35 v34⟩,
           ⟨S256x64, weighted (probs (scores (queries v8 (shapeCast S64x64 (extractStridedSlice S1x64x64 ![1, 0, 0] v10 slices_S2x64x64_o1_0_0_S1x64x64) shapeCasts_S1x64x64_S64x64) v40) v45))
              (shapeCast S2048x64 v59 shapeCasts_S1x2048x64_S2048x64)⟩]
          concatenates_S256x64_S256x64_S256x128_d1 := rfl

/-! ## The loads: each slab through its rectangle -/

theorem zero3 : (![0, 0, 0] : Fin 3 → ℕ) = fun _ => 0 := funext fun a => by
  match a with
  | ⟨0, _⟩ => rfl
  | ⟨1, _⟩ => rfl
  | ⟨2, _⟩ => rfl

theorem ld_rW (w : Vec Ideal S2x64x64 .f32) : View.ld w Attn.rW = w := View.ld_unit_zero zero3 _ w

theorem ld_rB0 (X : Vec Ideal S2x1x64 .f32) (e : Fin 64) :
    View.ld X Attn.rB0 (ix3 (0 : Fin 1) (0 : Fin 1) e) = X (ix3 (0 : Fin 2) (0 : Fin 1) e) :=
  congrArg X (funext fun a => Fin.ext (by
    match a with
    | ⟨0, _⟩ => rfl
    | ⟨1, _⟩ => rfl
    | ⟨2, _⟩ => show 0 + 1 * e.val = e.val; omega))

theorem ld_rB1 (X : Vec Ideal S2x1x64 .f32) (e : Fin 64) :
    View.ld X Attn.rB1 (ix3 (0 : Fin 1) (0 : Fin 1) e) = X (ix3 (1 : Fin 2) (0 : Fin 1) e) :=
  congrArg X (funext fun a => Fin.ext (by
    match a with
    | ⟨0, _⟩ => rfl
    | ⟨1, _⟩ => rfl
    | ⟨2, _⟩ => show 0 + 1 * e.val = e.val; omega))

theorem ld_rS0 (X : Vec Ideal S2x2048x64 .bf16) (k : Fin 2048) (d : Fin 64) :
    View.ld X Attn.rS0 (ix3 (0 : Fin 1) k d) = X (ix3 (0 : Fin 2) k d) :=
  congrArg X (funext fun a => Fin.ext (by
    match a with
    | ⟨0, _⟩ => rfl
    | ⟨1, _⟩ => show 0 + 1 * k.val = k.val; omega
    | ⟨2, _⟩ => show 0 + 1 * d.val = d.val; omega))

theorem ld_rS1 (X : Vec Ideal S2x2048x64 .bf16) (k : Fin 2048) (d : Fin 64) :
    View.ld X Attn.rS1 (ix3 (0 : Fin 1) k d) = X (ix3 (1 : Fin 2) k d) :=
  congrArg X (funext fun a => Fin.ext (by
    match a with
    | ⟨0, _⟩ => rfl
    | ⟨1, _⟩ => show 0 + 1 * k.val = k.val; omega
    | ⟨2, _⟩ => show 0 + 1 * d.val = d.val; omega))

/-- The tile through its two identity steps. -/
theorem pay11_apply (qt : Vec Ideal S256x64 .f32) (r : Fin 256) (d : Fin 64) : k1_pay11 (F := Ideal) qt (ix2 r d) = qt (ix2 r d) :=
  congrFun (shapeCast_self qt shapeCasts_S256x64_S256x64) (ix2 r d)

/-! ## The block at an entry -/

/-- Columns 0 … 63: head 0. -/
theorem tile_head0 (qt : Vec Ideal S256x64 .f32) (wq : Vec Ideal S2x64x64 .f32) (bq : Vec Ideal S2x1x64 .f32)
    (kh vh : Vec Ideal S2x2048x64 .bf16) (r : Fin 256) (e : Fin 64) (c : Fin 128) (hc : c.val = e.val) :
    Attn.tile (F := Ideal) qt wq bq kh vh (ix2 r c)
      = AttnMath.headOut
        (AttnMath.headLin (fun r d => qt (ix2 r d)) (fun e d => wq (ix3 (0 : Fin 2) e d)) (fun e => bq (ix3 (0 : Fin 2) (0 : Fin 1) e)))
        (fun k d => kh (ix3 (0 : Fin 2) k d)) (fun k e => vh (ix3 (0 : Fin 2) k e)) r e := by
  unfold Attn.tile
  rw [pay1_eq]
  refine (concatenate_pair_apply_left (t := S256x128) (s₁ := S256x64) (s₂ := S256x64) (1 : Fin S256x128.rank) _ _ _ (ix2 r c) rfl (ix2 r e) (fun b => by
    match b with
    | ⟨0, _⟩ => rfl
    | ⟨1, _⟩ => exact hc.symm)).trans ?_
  rw [pay14_eq]
  refine (head_at _ _ _ _ _ r e).trans ?_
  have h1 : (fun (r : Fin 256) (d : Fin 64) => k1_pay11 (F := Ideal) qt (ix2 r d)) = fun r d => qt (ix2 r d) :=
    funext fun r => funext fun d => pay11_apply qt r d
  have h2 : (fun (e d : Fin 64) => (shapeCast S64x64 (extractStridedSlice S1x64x64 ![0, 0, 0] (k1_pay12 (F := Ideal) (View.ld wq Attn.rW)) slices_S2x64x64_o0_0_0_S1x64x64) shapeCasts_S1x64x64_S64x64) (ix2 e d))
      = fun e d => wq (ix3 (0 : Fin 2) e d) :=
    funext fun e => funext fun d => (headW0_apply _ e d).trans (congrFun (ld_rW wq) (ix3 (0 : Fin 2) e d))
  have h3 : (fun (e : Fin 64) => View.ld bq Attn.rB0 (ix3 (0 : Fin 1) (0 : Fin 1) e)) = fun e => bq (ix3 (0 : Fin 2) (0 : Fin 1) e) :=
    funext fun e => ld_rB0 bq e
  have h4 : (fun (k : Fin 2048) (d : Fin 64) => View.ld kh Attn.rS0 (ix3 (0 : Fin 1) k d)) = fun k d => kh (ix3 (0 : Fin 2) k d) :=
    funext fun k => funext fun d => ld_rS0 kh k d
  have h5 : (fun (k : Fin 2048) (e : Fin 64) => k1_pay13 (F := Ideal) (View.ld vh Attn.rS0) (ix2 k e)) = fun k e => vh (ix3 (0 : Fin 2) k e) :=
    funext fun k => funext fun e => (slab_apply (φ := .bf16) (View.ld vh Attn.rS0) k e).trans (ld_rS0 vh k e)
  rw [h1, h2, h3, h4, h5]

/-- Columns 64 … 127: head 1. -/
theorem tile_head1 (qt : Vec Ideal S256x64 .f32) (wq : Vec Ideal S2x64x64 .f32) (bq : Vec Ideal S2x1x64 .f32)
    (kh vh : Vec Ideal S2x2048x64 .bf16) (r : Fin 256) (e : Fin 64) (c : Fin 128) (hc : c.val = 64 + e.val) :
    Attn.tile (F := Ideal) qt wq bq kh vh (ix2 r c)
      = AttnMath.headOut
        (AttnMath.headLin (fun r d => qt (ix2 r d)) (fun e d => wq (ix3 (1 : Fin 2) e d)) (fun e => bq (ix3 (1 : Fin 2) (0 : Fin 1) e)))
        (fun k d => kh (ix3 (1 : Fin 2) k d)) (fun k e => vh (ix3 (1 : Fin 2) k e)) r e := by
  unfold Attn.tile
  rw [pay1_eq]
  refine (concatenate_pair_apply_right (t := S256x128) (s₁ := S256x64) (s₂ := S256x64) (1 : Fin S256x128.rank) _ _ _ (ix2 r c) rfl rfl (ix2 r e) (fun b hb => by
    match b with
    | ⟨0, _⟩ => rfl
    | ⟨1, _⟩ => exact absurd rfl hb) (by show e.val + 64 = c.val; omega)).trans ?_
  refine (head_at _ _ _ _ _ r e).trans ?_
  have h1 : (fun (r : Fin 256) (d : Fin 64) => k1_pay11 (F := Ideal) qt (ix2 r d)) = fun r d => qt (ix2 r d) :=
    funext fun r => funext fun d => pay11_apply qt r d
  have h2 : (fun (e d : Fin 64) => (shapeCast S64x64 (extractStridedSlice S1x64x64 ![1, 0, 0] (k1_pay12 (F := Ideal) (View.ld wq Attn.rW)) slices_S2x64x64_o1_0_0_S1x64x64) shapeCasts_S1x64x64_S64x64) (ix2 e d))
      = fun e d => wq (ix3 (1 : Fin 2) e d) :=
    funext fun e => funext fun d => (headW1_apply _ e d).trans (congrFun (ld_rW wq) (ix3 (1 : Fin 2) e d))
  have h3 : (fun (e : Fin 64) => View.ld bq Attn.rB1 (ix3 (0 : Fin 1) (0 : Fin 1) e)) = fun e => bq (ix3 (1 : Fin 2) (0 : Fin 1) e) :=
    funext fun e => ld_rB1 bq e
  have h4 : (fun (k : Fin 2048) (d : Fin 64) => View.ld kh Attn.rS1 (ix3 (0 : Fin 1) k d)) = fun k d => kh (ix3 (1 : Fin 2) k d) :=
    funext fun k => funext fun d => ld_rS1 kh k d
  have h5 : (fun (k : Fin 2048) (e : Fin 64) => shapeCast S2048x64 (View.ld vh Attn.rS1) shapeCasts_S1x2048x64_S2048x64 (ix2 k e))
      = fun k e => vh (ix3 (1 : Fin 2) k e) :=
    funext fun k => funext fun e => (slab_apply (φ := .bf16) (View.ld vh Attn.rS1) k e).trans (ld_rS1 vh k e)
  rw [h1, h2, h3, h4, h5]

/-- Entry (r, 64 j + e) of the block a point writes is head j's attention output at row r, coordinate e. -/
theorem tile_at (qt : Vec Ideal S256x64 .f32) (wq : Vec Ideal S2x64x64 .f32) (bq : Vec Ideal S2x1x64 .f32)
    (kh vh : Vec Ideal S2x2048x64 .bf16) (j : Fin 2) (r : Fin 256) (e : Fin 64) :
    Attn.tile (F := Ideal) qt wq bq kh vh
        (ix2 r (⟨64 * j.val + e.val, by have := j.isLt; have := e.isLt; omega⟩ : Fin 128))
      = AttnMath.headOut
          (AttnMath.headLin (fun r d => qt (ix2 r d)) (fun e d => wq (ix3 j e d)) (fun e => bq (ix3 j (0 : Fin 1) e)))
          (fun k d => kh (ix3 j k d)) (fun k e => vh (ix3 j k e)) r e := by
  match j with
  | ⟨0, _⟩ => exact tile_head0 qt wq bq kh vh r e _ (by show 64 * 0 + e.val = e.val; omega)
  | ⟨1, _⟩ => exact tile_head1 qt wq bq kh vh r e _ (by show 64 * 1 + e.val = 64 + e.val; omega)

end Cert.KernelIdeal.AttnTileAt

end
-- ==== Proof.KI.AttnBridge.lean ====
/-
  The second launch against the specification. Two things are shown. First, what the kept buffers hold: slab j of a
  kept buffer, at row s and coordinate e, is the pair's head j applied to row s of the shared projection. Second,
  that attention for one head computed in the kernel's order (scores multiplied by 1/8; a row maximum folded from
  minus infinity; exponentials; their sum; the quotient; the weighted values) is the specification's head output:
  multiplying by 1/8 is dividing by 8 on every extended real, and taking the larger of minus infinity and a
  maximum changes nothing.
-/
import proofs.«114948_j41841571398363_2_alg».proof.Proof.KI.AttnTile
import proofs.«114948_j41841571398363_2_alg».proof.Proof.KI.AttnMath
import proofs.«114948_j41841571398363_2_alg».proof.Proof.KI.OutProjValue
import proofs.«114948_j41841571398363_2_alg».proof.Proof.Spec
import Idealize.ShloMosaic.PureOps.Ideal.Laws
import Idealize.ShloMosaic.Lib.Pipeline.Value
import Idealize.ShloMosaic.Lib.ValueIdx
import Idealize.ShloMosaic.Lib.ValueLayout

noncomputable section

namespace Cert.KernelIdeal.AttnBridge

open Idealize.ShloMosaic Idealize.ShloMosaic.ValueIdx
open scoped BigOperators

/-! ## Literals -/

/-- The word written for 8 denotes the real 8. -/
theorem eight_eq : Spec.eight = ((8 : ℝ) : EReal) := by
  simp [Ideal.ofBits, Ideal.ieee, -EReal.coe_mul]; norm_num

/-- The word written for 0.125 denotes the real 1/8. -/
theorem eighth_eq : AttnMath.eighth = ((1 / 8 : ℝ) : EReal) := by
  simp [Ideal.ofBits, Ideal.ieee, -EReal.coe_mul]; norm_num

/-- The word written for minus infinity denotes the least extended real. -/
theorem negInf_eq : AttnMath.negInf = ⊥ := by
  simp [Ideal.ofBits, Ideal.ieee]

/-- Dividing by 8 is multiplying by 1/8, at every extended real. -/
theorem div_eight (t : EReal) : Ideal.div t Spec.eight = t * AttnMath.eighth := by
  rw [eight_eq, eighth_eq]
  exact Ideal.div_coe (by norm_num) t

/-- The larger of minus infinity and y is y. -/
theorem max_negInf (y : EReal) : max AttnMath.negInf y = y := by
  rw [negInf_eq]
  exact max_eq_right bot_le

/-! ## The per-head maps against the specification -/

section Heads

variable (x : Spec.S2048x1024.Idx → EReal) (wk wq wv : Spec.S64x1024.Idx → EReal)
  (hwk : Spec.S16x64x64.Idx → EReal) (hbk : Spec.S16x64.Idx → EReal)
  (hwv : Spec.S16x64x64.Idx → EReal) (hbv : Spec.S16x64.Idx → EReal)
  (hwq : Spec.S16x64x64.Idx → EReal) (hbq : Spec.S16x64.Idx → EReal)

/-- Head h's keys: the kernel's order of the two factors is the other one, and a product commutes. -/
theorem headLin_Kh (h : Fin 16) (s : Fin 2048) (e : Fin 64) :
    AttnMath.headLin (fun s d => Spec.proj x wk s d) (fun e d => hwk (ix3 h e d)) (fun e => hbk (ix2 h e)) s e
      = Spec.Kh x wk hwk hbk h s e := by
  unfold AttnMath.headLin Spec.Kh Spec.head
  exact congrArg (· + hbk (ix2 h e)) (Finset.sum_congr rfl fun d _ => mul_comm _ _)

/-- Head h's values. -/
theorem headLin_Vh (h : Fin 16) (s : Fin 2048) (e : Fin 64) :
    AttnMath.headLin (fun s d => Spec.proj x wv s d) (fun e d => hwv (ix3 h e d)) (fun e => hbv (ix2 h e)) s e
      = Spec.Vh x wv hwv hbv h s e := by
  unfold AttnMath.headLin Spec.Vh Spec.head
  exact congrArg (· + hbv (ix2 h e)) (Finset.sum_congr rfl fun d _ => mul_comm _ _)

/-- Head h's queries. -/
theorem headLin_Qh (h : Fin 16) (s : Fin 2048) (e : Fin 64) :
    AttnMath.headLin (fun s d => Spec.proj x wq s d) (fun e d => hwq (ix3 h e d)) (fun e => hbq (ix2 h e)) s e
      = Spec.Qh x wq hwq hbq h s e := by
  unfold AttnMath.headLin Spec.Qh Spec.head
  exact congrArg (· + hbq (ix2 h e)) (Finset.sum_congr rfl fun d _ => mul_comm _ _)

/-! ## One head's attention against the specification -/

variable {R : Type}

/-- A row of scaled scores is the specification's row of scores. -/
theorem sc_eq (h : Fin 16) (qh : R → Fin 64 → EReal) (r : R) (q : Fin 2048)
    (hq : ∀ d, qh r d = Spec.Qh x wq hwq hbq h q d) (k : Fin 2048) :
    AttnMath.sc qh (fun k d => Spec.Kh x wk hwk hbk h k d) r k = Spec.score x wk wq hwk hbk hwq hbq h q k := by
  unfold AttnMath.sc Spec.score
  rw [div_eight]
  exact congrArg (· * AttnMath.eighth) (Finset.sum_congr rfl fun d _ => by rw [hq d])

/-- The row maximum is the specification's, whose extra comparison with minus infinity changes nothing. -/
theorem mx_eq (h : Fin 16) (qh : R → Fin 64 → EReal) (r : R) (q : Fin 2048)
    (hq : ∀ d, qh r d = Spec.Qh x wq hwq hbq h q d) :
    AttnMath.mx (AttnMath.sc qh (fun k d => Spec.Kh x wk hwk hbk h k d)) r
      = Spec.rowmax x wk wq hwk hbk hwq hbq h q := by
  unfold Spec.rowmax Spec.rowmax0 AttnMath.mx
  rw [show Spec.negInf = AttnMath.negInf from rfl, max_negInf]
  exact congrArg (fun f => Finset.fold max AttnMath.negInf f (Finset.univ : Finset (Fin 2048)))
    (funext fun k => sc_eq x wk wq hwk hbk hwq hbq h qh r q hq k)

/-- The exponentials agree. -/
theorem pr_eq (h : Fin 16) (qh : R → Fin 64 → EReal) (r : R) (q : Fin 2048)
    (hq : ∀ d, qh r d = Spec.Qh x wq hwq hbq h q d) (k : Fin 2048) :
    AttnMath.pr (AttnMath.sc qh (fun k d => Spec.Kh x wk hwk hbk h k d)) r k
      = Spec.p x wk wq hwk hbk hwq hbq h q k := by
  unfold AttnMath.pr Spec.p
  rw [mx_eq x wk wq hwk hbk hwq hbq h qh r q hq, sc_eq x wk wq hwk hbk hwq hbq h qh r q hq k]

/-- The attention weights agree. -/
theorem sm_eq (h : Fin 16) (qh : R → Fin 64 → EReal) (r : R) (q : Fin 2048)
    (hq : ∀ d, qh r d = Spec.Qh x wq hwq hbq h q d) (k : Fin 2048) :
    AttnMath.sm (AttnMath.sc qh (fun k d => Spec.Kh x wk hwk hbk h k d)) r k
      = Spec.attn x wk wq hwk hbk hwq hbq h q k := by
  unfold AttnMath.sm Spec.attn Spec.rowsum
  rw [pr_eq x wk wq hwk hbk hwq hbq h qh r q hq k]
  exact congrArg (Ideal.div _) (Finset.sum_congr rfl fun k' _ => pr_eq x wk wq hwk hbk hwq hbq h qh r q hq k')

/-- One head's output, computed in the kernel's order from rows of queries that are the specification's at row q, is
    the specification's head output at row q. -/
theorem headOut_eq (h : Fin 16) (qh : R → Fin 64 → EReal) (r : R) (q : Fin 2048)
    (hq : ∀ d, qh r d = Spec.Qh x wq hwq hbq h q d) (e : Fin 64) :
    AttnMath.headOut qh (fun k d => Spec.Kh x wk hwk hbk h k d) (fun k e => Spec.Vh x wv hwv hbv h k e) r e
      = Spec.ohead x wk wq wv hwk hbk hwv hbv hwq hbq h q e := by
  unfold AttnMath.headOut AttnMath.av Spec.ohead
  exact Finset.sum_congr rfl fun k _ => by rw [sm_eq x wk wq hwk hbk hwq hbq h qh r q hq k]

end Heads

/-! ## The shapes a kept slab is built from, each read at an entry -/

section Slabs

open Cert.KernelIdeal Cert.KernelIdeal.Gen
open Cert.KernelIdeal.OutProjValue (Transposed)

variable {α : Type}

theorem hz2 : (![0, 0] : Fin 2 → Nat) = fun _ => 0 := funext fun a => by fin_cases a <;> rfl
theorem hz3 : (![0, 0, 0] : Fin 3 → Nat) = fun _ => 0 := funext fun a => by fin_cases a <;> rfl

/-- Slab 0 of a pair of [64, 64] matrices, as a matrix: entry (e, d) is entry (0, e, d) of the pair. -/
theorem wslab0_at (w : S2x64x64.Idx → α) (e d : Fin 64) :
    shapeCast S64x64 (extractStridedSlice S1x64x64 ![0, 0, 0] w slices_S2x64x64_o0_0_0_S1x64x64)
        shapeCasts_S1x64x64_S64x64 (ix2 e d)
      = w (ix3 (0 : Fin 2) e d) := by
  refine (shapeCast_1ab_ab_apply _ shapeCasts_S1x64x64_S64x64 e d).trans ?_
  exact extractStridedSlice_apply _ w slices_S2x64x64_o0_0_0_S1x64x64 _ (ix3 (0 : Fin 2) e d) fun a => by
    match a with
    | ⟨0, _⟩ => rfl
    | ⟨1, _⟩ => show e.val = 0 + e.val; omega
    | ⟨2, _⟩ => show d.val = 0 + d.val; omega

/-- Slab 1 of the pair: entry (e, d) is entry (1, e, d). -/
theorem wslab1_at (w : S2x64x64.Idx → α) (e d : Fin 64) :
    shapeCast S64x64 (extractStridedSlice S1x64x64 ![1, 0, 0] w slices_S2x64x64_o1_0_0_S1x64x64)
        shapeCasts_S1x64x64_S64x64 (ix2 e d)
      = w (ix3 (1 : Fin 2) e d) := by
  refine (shapeCast_1ab_ab_apply _ shapeCasts_S1x64x64_S64x64 e d).trans ?_
  exact extractStridedSlice_apply _ w slices_S2x64x64_o1_0_0_S1x64x64 _ (ix3 (1 : Fin 2) e d) fun a => by
    match a with
    | ⟨0, _⟩ => rfl
    | ⟨1, _⟩ => show e.val = 0 + e.val; omega
    | ⟨2, _⟩ => show d.val = 0 + d.val; omega

/-- A [1, 1, 64] bias laid along the columns and repeated down 2048 rows: entry (s, e) is the bias at e. -/
theorem bias2048_at (b : S1x1x64.Idx → α) (s : Fin 2048) (e : Fin 64) :
    broadcastTo S2048x64 (shapeCast S1x64 b shapeCasts_S1x1x64_S1x64) broadcasts_S1x64_S2048x64 (ix2 s e)
      = b (ix3 (0 : Fin 1) (0 : Fin 1) e) := by
  refine (broadcastTo_1b_ab_apply _ broadcasts_S1x64_S2048x64 s e).trans ?_
  exact shapeCast_1ab_ab_apply b shapeCasts_S1x1x64_S1x64 (0 : Fin 1) e

/-- The bias of head 0 of the pair. -/
theorem ld_rB0 (b : Vec Ideal S2x1x64 .f32) (e : Fin 64) :
    View.ld b Attn.rB0 (ix3 (0 : Fin 1) (0 : Fin 1) e) = b (ix3 (0 : Fin 2) (0 : Fin 1) e) :=
  congrArg b (funext fun a => Fin.ext (by
    match a with
    | ⟨0, _⟩ => rfl
    | ⟨1, _⟩ => rfl
    | ⟨2, _⟩ => show 0 + 1 * e.val = e.val; omega))

/-- The bias of head 1 of the pair. -/
theorem ld_rB1 (b : Vec Ideal S2x1x64 .f32) (e : Fin 64) :
    View.ld b Attn.rB1 (ix3 (0 : Fin 1) (0 : Fin 1) e) = b (ix3 (1 : Fin 2) (0 : Fin 1) e) :=
  congrArg b (funext fun a => Fin.ext (by
    match a with
    | ⟨0, _⟩ => rfl
    | ⟨1, _⟩ => rfl
    | ⟨2, _⟩ => show 0 + 1 * e.val = e.val; omega))

/-- A head's product is rows of 64 coordinates against a [64, 64] matrix transposed. -/
theorem headDims_transposed : Transposed dot_S2048x64_S64x64_S2048x64_1_1_0_0_n_n where
  rank := rfl
  size := rfl
  l0 i q := by
    unfold DotDims.lhsIdx
    rw [dif_neg (show ¬(0 : Fin S2048x64.rank) ∈ dot_S2048x64_S64x64_S2048x64_1_1_0_0_n_n.lhsBatch by decide),
      dif_pos (show (0 : Fin S2048x64.rank) ∈ dot_S2048x64_S64x64_S2048x64_1_1_0_0_n_n.lhsNonContracting by decide)]
    rfl
  l1 i q := dot_S2048x64_S64x64_S2048x64_1_1_0_0_n_n.lhsIdx_val_of_single rfl i q
  r0 i q := by
    unfold DotDims.rhsIdx
    rw [dif_neg (show ¬(0 : Fin S64x64.rank) ∈ dot_S2048x64_S64x64_S2048x64_1_1_0_0_n_n.rhsBatch by decide),
      dif_pos (show (0 : Fin S64x64.rank) ∈ dot_S2048x64_S64x64_S2048x64_1_1_0_0_n_n.rhsNonContracting by decide)]
    rfl
  r1 i q := dot_S2048x64_S64x64_S2048x64_1_1_0_0_n_n.rhsIdx_val_of_single rfl i q

end Slabs

/-! ## The kept slabs at an entry -/

section Kept

open Cert.KernelIdeal Cert.KernelIdeal.Gen

/-- Head 0's slab of the kept keys, before it is laid into the buffer: rows of the projection against slab 0 of the
    pair's weights transposed, plus the bias. The format changes and the cast of a shape to itself are the identity. -/
theorem pay6_at (k : Vec Ideal S2048x64 .f32) (w : Vec Ideal S2x64x64 .f32) (b : Vec Ideal S1x1x64 .f32)
    (u : Fin 1) (s : Fin 2048) (e : Fin 64) :
    k1_pay6 (F := Ideal) k w b (ix3 u s e)
      = (∑ d : Fin 64, k (ix2 s d) * w (ix3 (0 : Fin 2) e d)) + b (ix3 (0 : Fin 1) (0 : Fin 1) e) := by
  unfold k1_pay6 k1_pay2 k1_pay4
  refine (shapeCast_ab_1ab_apply _ shapeCasts_S2048x64_S1x2048x64 u s e).trans ?_
  show (_ : EReal) + _ = _
  refine congrArg₂ (· + ·) ?_ (bias2048_at b s e)
  refine (headDims_transposed.matmul_zero_at none _ _ s e).trans ?_
  refine Finset.sum_congr rfl fun d _ => ?_
  refine congrArg₂ (· * ·) ?_ (wslab0_at _ e d)
  show shapeCast S2048x64 k shapeCasts_S2048x64_S2048x64 (ix2 s d) = k (ix2 s d)
  rw [shapeCast_self]

/-- Head 0's slab of the kept values. -/
theorem pay7_at (v : Vec Ideal S2048x64 .f32) (w : Vec Ideal S2x64x64 .f32) (b : Vec Ideal S1x1x64 .f32)
    (u : Fin 1) (s : Fin 2048) (e : Fin 64) :
    k1_pay7 (F := Ideal) v w b (ix3 u s e)
      = (∑ d : Fin 64, v (ix2 s d) * w (ix3 (0 : Fin 2) e d)) + b (ix3 (0 : Fin 1) (0 : Fin 1) e) := by
  unfold k1_pay7 k1_pay3 k1_pay5
  refine (shapeCast_ab_1ab_apply _ shapeCasts_S2048x64_S1x2048x64 u s e).trans ?_
  show (_ : EReal) + _ = _
  refine congrArg₂ (· + ·) ?_ (bias2048_at b s e)
  refine (headDims_transposed.matmul_zero_at none _ _ s e).trans ?_
  refine Finset.sum_congr rfl fun d _ => ?_
  refine congrArg₂ (· * ·) ?_ (wslab0_at _ e d)
  show shapeCast S2048x64 v shapeCasts_S2048x64_S2048x64 (ix2 s d) = v (ix2 s d)
  rw [shapeCast_self]

/-- Head 1's slab of the kept keys, from the projection and slab 1 of the weights as the body hands them on. -/
theorem pay9_at (k : Vec Ideal S2048x64 .f32) (w : Vec Ideal S2x64x64 .f32) (b : Vec Ideal S1x1x64 .f32)
    (u : Fin 1) (s : Fin 2048) (e : Fin 64) :
    k1_pay9 (F := Ideal) (k1_pay2 k) (k1_pay8 w) b (ix3 u s e)
      = (∑ d : Fin 64, k (ix2 s d) * w (ix3 (1 : Fin 2) e d)) + b (ix3 (0 : Fin 1) (0 : Fin 1) e) := by
  unfold k1_pay9 k1_pay2 k1_pay8 k1_pay4
  refine (shapeCast_ab_1ab_apply _ shapeCasts_S2048x64_S1x2048x64 u s e).trans ?_
  show (_ : EReal) + _ = _
  refine congrArg₂ (· + ·) ?_ (bias2048_at b s e)
  refine (headDims_transposed.matmul_zero_at none _ _ s e).trans ?_
  refine Finset.sum_congr rfl fun d _ => ?_
  refine congrArg₂ (· * ·) ?_ (wslab1_at _ e d)
  show shapeCast S2048x64 k shapeCasts_S2048x64_S2048x64 (ix2 s d) = k (ix2 s d)
  rw [shapeCast_self]

/-- Head 1's slab of the kept values. -/
theorem pay10_at (v : Vec Ideal S2048x64 .f32) (w : Vec Ideal S2x64x64 .f32) (b : Vec Ideal S1x1x64 .f32)
    (u : Fin 1) (s : Fin 2048) (e : Fin 64) :
    k1_pay10 (F := Ideal) (k1_pay3 v) (k1_pay5 w) b (ix3 u s e)
      = (∑ d : Fin 64, v (ix2 s d) * w (ix3 (1 : Fin 2) e d)) + b (ix3 (0 : Fin 1) (0 : Fin 1) e) := by
  unfold k1_pay10 k1_pay3 k1_pay5
  refine (shapeCast_ab_1ab_apply _ shapeCasts_S2048x64_S1x2048x64 u s e).trans ?_
  show (_ : EReal) + _ = _
  refine congrArg₂ (· + ·) ?_ (bias2048_at b s e)
  refine (headDims_transposed.matmul_zero_at none _ _ s e).trans ?_
  refine Finset.sum_congr rfl fun d _ => ?_
  refine congrArg₂ (· * ·) ?_ (wslab1_at _ e d)
  show shapeCast S2048x64 v shapeCasts_S2048x64_S2048x64 (ix2 s d) = v (ix2 s d)
  rw [shapeCast_self]

end Kept

section KeptAt

open Cert.KernelIdeal Cert.KernelIdeal.Gen

/-- Slab 0 of a buffer written as two slabs is the first slab: the index lies outside slab 1's rows. -/
theorem slabs_at0 (s0 s1 : Vec Ideal S1x2048x64 .bf16) (s : Fin 2048) (e : Fin 64) :
    Attn.slabs (F := Ideal) s0 s1 (ix3 (0 : Fin 2) s e) = s0 (ix3 (0 : Fin 1) s e) := by
  unfold Attn.slabs
  have hout : ix3 (0 : Fin 2) s e ∉ (Attn.rS1).set := by
    rw [Rect.mem_set_unit]
    intro h
    have h1 : (1 : ℕ) ≤ 0 := (h 0).1
    omega
  have e0 : (Attn.rS0).emb (ix3 (0 : Fin 1) s e) = ix3 (0 : Fin 2) s e := funext fun a => Fin.ext (by
    match a with
    | ⟨0, _⟩ => rfl
    | ⟨1, _⟩ => show 0 + 1 * s.val = s.val; omega
    | ⟨2, _⟩ => show 0 + 1 * e.val = e.val; omega)
  refine (View.canon_cons_of_not_mem (⟨Attn.rS1, s1⟩ : View.Piece (Elt Ideal) S2x2048x64 .bf16) _ hout).trans ?_
  exact (congrArg (View.canon ([⟨Attn.rS0, s0⟩] : List (View.Piece (Elt Ideal) S2x2048x64 .bf16))) e0.symm).trans
    (View.canon_cons_emb Attn.rS0 s0 [] (ix3 (0 : Fin 1) s e))

/-- Slab 1 is the second slab. -/
theorem slabs_at1 (s0 s1 : Vec Ideal S1x2048x64 .bf16) (s : Fin 2048) (e : Fin 64) :
    Attn.slabs (F := Ideal) s0 s1 (ix3 (1 : Fin 2) s e) = s1 (ix3 (0 : Fin 1) s e) := by
  unfold Attn.slabs
  have e1 : (Attn.rS1).emb (ix3 (0 : Fin 1) s e) = ix3 (1 : Fin 2) s e := funext fun a => Fin.ext (by
    match a with
    | ⟨0, _⟩ => rfl
    | ⟨1, _⟩ => show 0 + 1 * s.val = s.val; omega
    | ⟨2, _⟩ => show 0 + 1 * e.val = e.val; omega)
  exact (congrArg (View.canon ([⟨Attn.rS1, s1⟩, ⟨Attn.rS0, s0⟩] : List (View.Piece (Elt Ideal) S2x2048x64 .bf16))) e1.symm).trans
    (View.canon_cons_emb Attn.rS1 s1 [⟨Attn.rS0, s0⟩] (ix3 (0 : Fin 1) s e))

/-- The kept keys: slab j at row s, coordinate e, is head j of the pair applied to row s of the key projection. -/
theorem keptK_at (k : Vec Ideal S2048x64 .f32) (wk : Vec Ideal S2x64x64 .f32) (bk : Vec Ideal S2x1x64 .f32)
    (j : Fin 2) (s : Fin 2048) (e : Fin 64) :
    Attn.keptK (F := Ideal) k wk bk (ix3 j s e)
      = AttnMath.headLin (fun s d => k (ix2 s d)) (fun e d => wk (ix3 j e d)) (fun e => bk (ix3 j (0 : Fin 1) e)) s e := by
  unfold Attn.keptK AttnMath.headLin
  simp only [View.ld_unit_zero (S := S2048x64) hz2, View.ld_unit_zero (S := S2x64x64) hz3]
  match j with
  | ⟨0, _⟩ =>
    refine (slabs_at0 _ _ s e).trans ?_
    refine (pay6_at k wk _ 0 s e).trans ?_
    rw [ld_rB0]
    rfl
  | ⟨1, _⟩ =>
    refine (slabs_at1 _ _ s e).trans ?_
    refine (pay9_at k wk _ 0 s e).trans ?_
    rw [ld_rB1]
    rfl

/-- The kept values, likewise. -/
theorem keptV_at (v : Vec Ideal S2048x64 .f32) (wv : Vec Ideal S2x64x64 .f32) (bv : Vec Ideal S2x1x64 .f32)
    (j : Fin 2) (s : Fin 2048) (e : Fin 64) :
    Attn.keptV (F := Ideal) v wv bv (ix3 j s e)
      = AttnMath.headLin (fun s d => v (ix2 s d)) (fun e d => wv (ix3 j e d)) (fun e => bv (ix3 j (0 : Fin 1) e)) s e := by
  unfold Attn.keptV AttnMath.headLin
  simp only [View.ld_unit_zero (S := S2048x64) hz2, View.ld_unit_zero (S := S2x64x64) hz3]
  match j with
  | ⟨0, _⟩ =>
    refine (slabs_at0 _ _ s e).trans ?_
    refine (pay7_at v wv _ 0 s e).trans ?_
    rw [ld_rB0]
    rfl
  | ⟨1, _⟩ =>
    refine (slabs_at1 _ _ s e).trans ?_
    refine (pay10_at v wv _ 0 s e).trans ?_
    rw [ld_rB1]
    rfl

end KeptAt

end Cert.KernelIdeal.AttnBridge

end
-- ==== Proof.KI.AttnBlocks.lean ====
/-
  The second launch's blocks as parts of their arrays. The grid has 64 points; point t works on the pair of heads
  t / 8 and on query rows 256 (t mod 8) … 256 (t mod 8) + 255. At every point the three projection arrays are staged
  whole; of each of the three [16, 64, 64] weight arrays and the three [16, 1, 64] bias arrays the two slabs of the
  pair of heads are staged, heads 2 (t / 8) and 2 (t / 8) + 1; and the body reads its 256 query rows out of the
  staged query projection at the row offset it computes from the inner grid coordinate.
-/
import proofs.«114948_j41841571398363_2_alg».proof.Proof.KI.Attn
import proofs.«114948_j41841571398363_2_alg».proof.Proof.KI.AttnTile
import Idealize.ShloMosaic.Lib.Pipeline.Value
import Idealize.ShloMosaic.Lib.ValueIdx

noncomputable section

namespace Cert.KernelIdeal.AttnBlocks

open Cert.KernelIdeal Cert.KernelIdeal.Gen
open Idealize.ShloMosaic Idealize.ShloMosaic.TcCoe Idealize.ShloMosaic.ValueIdx Idealize.SL.Sem

variable {F : FTy → Type} [FloatOps F]

/-! ## Which head and which row a point works on -/

/-- The head whose slab j of the staged pair is, at point t: 2 (t / 8) + j. -/
def headAt (t : Fin cfg1.N) (j : Fin 2) : Fin 16 :=
  ⟨2 * (t.val / 8) + j.val, by
    have hN : cfg1.N = 64 := N_1
    have h : t.val < 64 := hN ▸ t.isLt
    have := j.isLt
    omega⟩

theorem headAt_val (t : Fin cfg1.N) (j : Fin 2) : (headAt t j).val = 2 * (t.val / 8) + j.val := rfl

/-- The sequence row that row r of the query tile is, at point t: 256 (t mod 8) + r. -/
def rowAt (t : Fin cfg1.N) (r : Fin 256) : Fin 2048 :=
  ⟨256 * (t.val % 8) + r.val, by have := r.isLt; omega⟩

theorem rowAt_val (t : Fin cfg1.N) (r : Fin 256) : (rowAt t r).val = 256 * (t.val % 8) + r.val := rfl

/-! ## The printed index maps and the row offset, over the 64 points -/

/-- The three projection arrays are one block each; the weight and bias arrays are cut along the heads into pairs
    and the pair moves with t / 8. -/
theorem idx_facts : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = t.val / 8 ∧ win1_3.index t (1 : Fin 3) = 0 ∧ win1_3.index t (2 : Fin 3) = 0
    ∧ win1_4.index t (0 : Fin 3) = t.val / 8 ∧ win1_4.index t (1 : Fin 3) = 0 ∧ win1_4.index t (2 : Fin 3) = 0
    ∧ win1_5.index t (0 : Fin 3) = t.val / 8 ∧ win1_5.index t (1 : Fin 3) = 0 ∧ win1_5.index t (2 : Fin 3) = 0
    ∧ win1_6.index t (0 : Fin 3) = t.val / 8 ∧ win1_6.index t (1 : Fin 3) = 0 ∧ win1_6.index t (2 : Fin 3) = 0
    ∧ win1_7.index t (0 : Fin 3) = t.val / 8 ∧ win1_7.index t (1 : Fin 3) = 0 ∧ win1_7.index t (2 : Fin 3) = 0
    ∧ win1_8.index t (0 : Fin 3) = t.val / 8 ∧ win1_8.index t (1 : Fin 3) = 0 ∧ win1_8.index t (2 : Fin 3) = 0 :=
  (by decide +kernel : ∀ t : Fin grid1.N, _)

/-- The row offset the body computes from the inner grid coordinate is 256 (t mod 8); the column offset is 0. -/
theorem off_facts : ∀ t : Fin cfg1.N,
    k1_off1 (grid1.coords t) (0 : Fin 2) = 256 * (t.val % 8) ∧ k1_off1 (grid1.coords t) (1 : Fin 2) = 0 :=
  (by decide +kernel : ∀ t : Fin grid1.N, _)

/-- The query tile's rows: row r of the 256 the body loads is row 256 (t mod 8) + r of the staged array. -/
theorem tileRows_at (X : Vec F S2048x64 .f32) (t : Fin cfg1.N) (r : Fin 256) (d : Fin 64) :
    View.ld X (Attn.rTile (grid1.coords t)) (ix2 r d) = X (ix2 (rowAt t r) d) := by
  obtain ⟨o0, o1⟩ := off_facts t
  refine congrArg X (funext fun a => Fin.ext ?_)
  match a with
  | ⟨0, _⟩ =>
    show k1_off1 (grid1.coords t) (0 : Fin 2) + 1 * r.val = 256 * (t.val % 8) + r.val
    rw [o0]; omega
  | ⟨1, _⟩ =>
    show k1_off1 (grid1.coords t) (1 : Fin 2) + 1 * d.val = d.val
    rw [o1]; omega

/-! ## Each staged block as part of its array -/

variable (V : (c : Dev nD) → (b : Ref sig .tc) → Buf (Elt F) ((c : Thread nD τ).loc b))

/-- The staged query projection is the whole array. -/
theorem blk0_at (c : Dev nD) (t : Fin cfg1.N) (s : Fin 2048) (d : Fin 64) :
    Attn.blk V c 0 t (ix2 s d) = (V c main_v3_0 : S2048x64.Idx → Elt F .f32) (ix2 s d) := by
  obtain ⟨e0, e1, -⟩ := idx_facts t
  unfold Attn.blk
  rw [View.read_apply]
  show V c main_v3_0 _ = V c main_v3_0 _
  congr 1
  funext a
  apply Fin.ext
  match a with
  | ⟨0, _⟩ => show win1_0.index t (0 : Fin 2) * 2048 + 1 * s.val = s.val; rw [e0]; omega
  | ⟨1, _⟩ => show win1_0.index t (1 : Fin 2) * 64 + 1 * d.val = d.val; rw [e1]; omega

/-- The staged key projection is the whole array. -/
theorem blk1_at (c : Dev nD) (t : Fin cfg1.N) (s : Fin 2048) (d : Fin 64) :
    Attn.blk V c 1 t (ix2 s d) = (V c main_v3_1 : S2048x64.Idx → Elt F .f32) (ix2 s d) := by
  obtain ⟨-, -, e0, e1, -⟩ := idx_facts t
  unfold Attn.blk
  rw [View.read_apply]
  show V c main_v3_1 _ = V c main_v3_1 _
  congr 1
  funext a
  apply Fin.ext
  match a with
  | ⟨0, _⟩ => show win1_1.index t (0 : Fin 2) * 2048 + 1 * s.val = s.val; rw [e0]; omega
  | ⟨1, _⟩ => show win1_1.index t (1 : Fin 2) * 64 + 1 * d.val = d.val; rw [e1]; omega

/-- The staged value projection is the whole array. -/
theorem blk2_at (c : Dev nD) (t : Fin cfg1.N) (s : Fin 2048) (d : Fin 64) :
    Attn.blk V c 2 t (ix2 s d) = (V c main_v3_2 : S2048x64.Idx → Elt F .f32) (ix2 s d) := by
  obtain ⟨-, -, -, -, e0, e1, -⟩ := idx_facts t
  unfold Attn.blk
  rw [View.read_apply]
  show V c main_v3_2 _ = V c main_v3_2 _
  congr 1
  funext a
  apply Fin.ext
  match a with
  | ⟨0, _⟩ => show win1_2.index t (0 : Fin 2) * 2048 + 1 * s.val = s.val; rw [e0]; omega
  | ⟨1, _⟩ => show win1_2.index t (1 : Fin 2) * 64 + 1 * d.val = d.val; rw [e1]; omega

/-- Slab j of the staged query weights is head 2 (t / 8) + j's matrix. -/
theorem blk3_at (c : Dev nD) (t : Fin cfg1.N) (j : Fin 2) (e d : Fin 64) :
    Attn.blk V c 3 t (ix3 j e d) = (V c main_arg8 : S16x64x64.Idx → Elt F .f32) (ix3 (headAt t j) e d) := by
  obtain ⟨-, -, -, -, -, -, e0, e1, e2, -⟩ := idx_facts t
  unfold Attn.blk
  rw [View.read_apply]
  show V c main_arg8 _ = V c main_arg8 _
  congr 1
  funext a
  apply Fin.ext
  match a with
  | ⟨0, _⟩ => show win1_3.index t (0 : Fin 3) * 2 + 1 * j.val = 2 * (t.val / 8) + j.val; rw [e0]; omega
  | ⟨1, _⟩ => show win1_3.index t (1 : Fin 3) * 64 + 1 * e.val = e.val; rw [e1]; omega
  | ⟨2, _⟩ => show win1_3.index t (2 : Fin 3) * 64 + 1 * d.val = d.val; rw [e2]; omega

/-- Slab j of the staged key weights is head 2 (t / 8) + j's matrix. -/
theorem blk4_at (c : Dev nD) (t : Fin cfg1.N) (j : Fin 2) (e d : Fin 64) :
    Attn.blk V c 4 t (ix3 j e d) = (V c main_arg4 : S16x64x64.Idx → Elt F .f32) (ix3 (headAt t j) e d) := by
  obtain ⟨-, -, -, -, -, -, -, -, -, e0, e1, e2, -⟩ := idx_facts t
  unfold Attn.blk
  rw [View.read_apply]
  show V c main_arg4 _ = V c main_arg4 _
  congr 1
  funext a
  apply Fin.ext
  match a with
  | ⟨0, _⟩ => show win1_4.index t (0 : Fin 3) * 2 + 1 * j.val = 2 * (t.val / 8) + j.val; rw [e0]; omega
  | ⟨1, _⟩ => show win1_4.index t (1 : Fin 3) * 64 + 1 * e.val = e.val; rw [e1]; omega
  | ⟨2, _⟩ => show win1_4.index t (2 : Fin 3) * 64 + 1 * d.val = d.val; rw [e2]; omega

/-- Slab j of the staged value weights is head 2 (t / 8) + j's matrix. -/
theorem blk5_at (c : Dev nD) (t : Fin cfg1.N) (j : Fin 2) (e d : Fin 64) :
    Attn.blk V c 5 t (ix3 j e d) = (V c main_arg6 : S16x64x64.Idx → Elt F .f32) (ix3 (headAt t j) e d) := by
  obtain ⟨-, -, -, -, -, -, -, -, -, -, -, -, e0, e1, e2, -⟩ := idx_facts t
  unfold Attn.blk
  rw [View.read_apply]
  show V c main_arg6 _ = V c main_arg6 _
  congr 1
  funext a
  apply Fin.ext
  match a with
  | ⟨0, _⟩ => show win1_5.index t (0 : Fin 3) * 2 + 1 * j.val = 2 * (t.val / 8) + j.val; rw [e0]; omega
  | ⟨1, _⟩ => show win1_5.index t (1 : Fin 3) * 64 + 1 * e.val = e.val; rw [e1]; omega
  | ⟨2, _⟩ => show win1_5.index t (2 : Fin 3) * 64 + 1 * d.val = d.val; rw [e2]; omega

/-- Slab j of the staged query biases is head 2 (t / 8) + j's bias. -/
theorem blk6_at (c : Dev nD) (t : Fin cfg1.N) (j : Fin 2) (e : Fin 64) :
    Attn.blk V c 6 t (ix3 j (0 : Fin 1) e) = (V c main_v1 : S16x1x64.Idx → Elt F .f32) (ix3 (headAt t j) (0 : Fin 1) e) := by
  obtain ⟨-, -, -, -, -, -, -, -, -, -, -, -, -, -, -, e0, e1, e2, -⟩ := idx_facts t
  unfold Attn.blk
  rw [View.read_apply]
  show V c main_v1 _ = V c main_v1 _
  congr 1
  funext a
  apply Fin.ext
  match a with
  | ⟨0, _⟩ => show win1_6.index t (0 : Fin 3) * 2 + 1 * j.val = 2 * (t.val / 8) + j.val; rw [e0]; omega
  | ⟨1, _⟩ => show win1_6.index t (1 : Fin 3) * 1 + 1 * 0 = 0; rw [e1]
  | ⟨2, _⟩ => show win1_6.index t (2 : Fin 3) * 64 + 1 * e.val = e.val; rw [e2]; omega

/-- Slab j of the staged key biases is head 2 (t / 8) + j's bias. -/
theorem blk7_at (c : Dev nD) (t : Fin cfg1.N) (j : Fin 2) (e : Fin 64) :
    Attn.blk V c 7 t (ix3 j (0 : Fin 1) e) = (V c main_v0 : S16x1x64.Idx → Elt F .f32) (ix3 (headAt t j) (0 : Fin 1) e) := by
  obtain ⟨-, -, -, -, -, -, -, -, -, -, -, -, -, -, -, -, -, -, e0, e1, e2, -⟩ := idx_facts t
  unfold Attn.blk
  rw [View.read_apply]
  show V c main_v0 _ = V c main_v0 _
  congr 1
  funext a
  apply Fin.ext
  match a with
  | ⟨0, _⟩ => show win1_7.index t (0 : Fin 3) * 2 + 1 * j.val = 2 * (t.val / 8) + j.val; rw [e0]; omega
  | ⟨1, _⟩ => show win1_7.index t (1 : Fin 3) * 1 + 1 * 0 = 0; rw [e1]
  | ⟨2, _⟩ => show win1_7.index t (2 : Fin 3) * 64 + 1 * e.val = e.val; rw [e2]; omega

/-- Slab j of the staged value biases is head 2 (t / 8) + j's bias. -/
theorem blk8_at (c : Dev nD) (t : Fin cfg1.N) (j : Fin 2) (e : Fin 64) :
    Attn.blk V c 8 t (ix3 j (0 : Fin 1) e) = (V c main_v2 : S16x1x64.Idx → Elt F .f32) (ix3 (headAt t j) (0 : Fin 1) e) := by
  obtain ⟨-, -, -, -, -, -, -, -, -, -, -, -, -, -, -, -, -, -, -, -, -, e0, e1, e2⟩ := idx_facts t
  unfold Attn.blk
  rw [View.read_apply]
  show V c main_v2 _ = V c main_v2 _
  congr 1
  funext a
  apply Fin.ext
  match a with
  | ⟨0, _⟩ => show win1_8.index t (0 : Fin 3) * 2 + 1 * j.val = 2 * (t.val / 8) + j.val; rw [e0]; omega
  | ⟨1, _⟩ => show win1_8.index t (1 : Fin 3) * 1 + 1 * 0 = 0; rw [e1]
  | ⟨2, _⟩ => show win1_8.index t (2 : Fin 3) * 64 + 1 * e.val = e.val; rw [e2]; omega

end Cert.KernelIdeal.AttnBlocks

end
-- ==== Proof.KI.AttnSpec.lean ====
/-
  The second launch's result as one whole-array function of the arrays it finds — the three shared projections
  [2048, 64], the three per-head weight arrays [16, 64, 64] and the three re-laid bias arrays [16, 1, 64] — and that
  this is the specification's concatenation of the sixteen heads' outputs when those arrays are the specification's:
  entry (s, C) belongs to head C / 64 at coordinate C mod 64.
-/
import proofs.«114948_j41841571398363_2_alg».proof.Proof.KI.AttnBridge

noncomputable section

namespace Cert.KernelIdeal.AttnSpec

open Cert.KernelIdeal Cert.KernelIdeal.Gen
open Idealize.ShloMosaic Idealize.ShloMosaic.ValueIdx
open Cert.KernelIdeal.AttnMath

variable (aq ak av : S2048x64.Idx → EReal) (wq wk wv : S16x64x64.Idx → EReal) (bq bk bv : S16x1x64.Idx → EReal)

/-- A head's queries, keys or values for every row of the sequence: the shared projection through the head's linear map. -/
def headArr (a : S2048x64.Idx → EReal) (w : S16x64x64.Idx → EReal) (b : S16x1x64.Idx → EReal) (h : Fin 16) (s : Fin 2048) (e : Fin 64) : EReal :=
  headLin (fun s d => a (ix2 s d)) (fun e d => w (ix3 h e d)) (fun e => b (ix3 h (0 : Fin 1) e)) s e

/-- The launch's result array. -/
def OA : S2048x1024.Idx → EReal := fun i =>
  headOut (headArr aq wq bq ⟨(i 1).val / 64, by have := (i 1).isLt; simp at this; omega⟩)
    (headArr ak wk bk ⟨(i 1).val / 64, by have := (i 1).isLt; simp at this; omega⟩)
    (headArr av wv bv ⟨(i 1).val / 64, by have := (i 1).isLt; simp at this; omega⟩)
    ⟨(i 0).val, by have := (i 0).isLt; simpa using this⟩ ⟨(i 1).val % 64, Nat.mod_lt _ (by decide)⟩

theorem OA_apply (s : Fin 2048) (C : Fin 1024) :
    OA aq ak av wq wk wv bq bk bv (ix2 s C)
      = headOut (headArr aq wq bq ⟨C.val / 64, by have := C.isLt; omega⟩) (headArr ak wk bk ⟨C.val / 64, by have := C.isLt; omega⟩)
          (headArr av wv bv ⟨C.val / 64, by have := C.isLt; omega⟩) s ⟨C.val % 64, Nat.mod_lt _ (by decide)⟩ := rfl

section Spec
variable (x : Cert.Spec.S2048x1024.Idx → EReal) (swk swq swv : Cert.Spec.S64x1024.Idx → EReal)
  (hwk : Cert.Spec.S16x64x64.Idx → EReal) (hbk : Cert.Spec.S16x64.Idx → EReal)
  (hwv : Cert.Spec.S16x64x64.Idx → EReal) (hbv : Cert.Spec.S16x64.Idx → EReal)
  (hwq : Cert.Spec.S16x64x64.Idx → EReal) (hbq : Cert.Spec.S16x64.Idx → EReal)

/-- When the arrays the launch finds are the specification's projections, weights and (re-laid) biases, its result is the
    specification's concatenation of the heads. -/
theorem OA_eq_cat
    (hq : ∀ s d, aq (ix2 s d) = Cert.Spec.proj x swq s d) (hk : ∀ s d, ak (ix2 s d) = Cert.Spec.proj x swk s d)
    (hv : ∀ s d, av (ix2 s d) = Cert.Spec.proj x swv s d)
    (ewq : wq = hwq) (ewk : wk = hwk) (ewv : wv = hwv)
    (ebq : ∀ h e, bq (ix3 h (0 : Fin 1) e) = hbq (ix2 h e)) (ebk : ∀ h e, bk (ix3 h (0 : Fin 1) e) = hbk (ix2 h e))
    (ebv : ∀ h e, bv (ix3 h (0 : Fin 1) e) = hbv (ix2 h e))
    (s : Fin 2048) (C : Fin 1024) :
    OA aq ak av wq wk wv bq bk bv (ix2 s C) = Cert.Spec.cat x swk swq swv hwk hbk hwv hbv hwq hbq s C := by
  subst ewq ewk ewv
  have hQ : ∀ h s e, headArr aq wq bq h s e = Cert.Spec.Qh x swq wq hbq h s e := fun h s e => by
    unfold headArr; simp only [hq, ebq]; exact AttnBridge.headLin_Qh x swq wq hbq h s e
  have hK : ∀ h, (headArr ak wk bk h) = fun k d => Cert.Spec.Kh x swk wk hbk h k d := fun h => by
    funext s e; unfold headArr; simp only [hk, ebk]; exact AttnBridge.headLin_Kh x swk wk hbk h s e
  have hV : ∀ h, (headArr av wv bv h) = fun k e => Cert.Spec.Vh x swv wv hbv h k e := fun h => by
    funext s e; unfold headArr; simp only [hv, ebv]; exact AttnBridge.headLin_Vh x swv wv hbv h s e
  rw [OA_apply, hK, hV]
  exact AttnBridge.headOut_eq x swk swq swv wk hbk wv hbv wq hbq _ _ s s (fun d => hQ _ s d) _

end Spec

end Cert.KernelIdeal.AttnSpec

end
-- ==== Proof.KI.AttnArr.lean ====
/-
  The second launch, from blocks to the whole array. Its grid has 64 points: point t works on the pair of heads
  t / 8 and on query tile t mod 8, and writes back one [256, 128] block of the [2048, 1024] attention array, the one
  at rows 256·(t mod 8) … and columns 128·(t / 8) …. The 64 blocks tile the array (entry (s, col) lies in the block of
  point 8·(col / 128) + s / 256), so if what every point leaves in its output block is that block of one whole-array
  function, the array ends holding that function.
-/
import proofs.«114948_j41841571398363_2_alg».proof.Proof.KI.Attn
import Idealize.ShloMosaic.Lib.Pipeline.Value
import Idealize.ShloMosaic.Lib.ValueIdx

set_option maxRecDepth 16384

noncomputable section

namespace Cert.KernelIdeal.AttnArr

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

example : Pipeline.arrRef spec1 9 = main_v4 := rfl

/-- The output block's index at every grid point: the query tile along the rows, the pair of heads along the columns. -/
theorem idx_facts : ∀ t : Fin cfg1.N,
    win1_9.index t (0 : Fin 2) = t.val % 8 ∧ win1_9.index t (1 : Fin 2) = t.val / 8 :=
  (by decide +kernel : ∀ t : Fin grid1.N, _)

theorem lt64 (t : Fin cfg1.N) : t.val < 64 := by
  have ht : t.val < grid1.N := t.isLt
  rw [N_1] at ht
  exact ht

/-- Row r of point t's block is row 256·(t mod 8) + r of the array. -/
def rowOf (t : Fin cfg1.N) (r : Fin 256) : Fin 2048 :=
  ⟨256 * (t.val % 8) + r.val, by have := r.isLt; omega⟩

/-- Column col of point t's block is column 128·(t / 8) + col of the array. -/
def colOf (t : Fin cfg1.N) (col : Fin 128) : Fin 1024 :=
  ⟨128 * (t.val / 8) + col.val, by have := lt64 t; have := col.isLt; omega⟩

theorem emb9 (t : Fin cfg1.N) (r : Fin 256) (col : Fin 128) :
    ((cfg1.win 9).blk t).view.emb (ix2 r col) = (ix2 (rowOf t r) (colOf t col) : S2048x1024.Idx) := by
  obtain ⟨e0, e1⟩ := idx_facts t
  funext a; apply Fin.ext
  match a with
  | ⟨0, _⟩ => show win1_9.index t (0 : Fin 2) * 256 + 1 * r.val = 256 * (t.val % 8) + r.val; omega
  | ⟨1, _⟩ => show win1_9.index t (1 : Fin 2) * 128 + 1 * col.val = 128 * (t.val / 8) + col.val; omega

/-- An index of the attention array is in point t's block iff each coordinate is in the block's range on its axis. -/
theorem mem_blk (t : Fin cfg1.N) (i : S2048x1024.Idx) :
    i ∈ ((cfg1.win 9).blk t).view.set ↔ ∀ a : Fin 2, win1_9.index t a * S256x128.size a ≤ (i a).val
      ∧ (i a).val < win1_9.index t a * S256x128.size a + S256x128.size a := by
  show i ∈ ((View.whole main_v4).slice (win1_9.rect t)).set ↔ _
  rw [View.set_slice_whole, Rect.mem_set_unit]
  exact Iff.rfl

/-- The 64 blocks tile the array: entry (s, col) lies in the block of point 8·(col / 128) + s / 256. -/
theorem cover (i : S2048x1024.Idx) : ∃ t : Fin cfg1.N, (cfg1.win 9).flush t = true ∧ i ∈ ((cfg1.win 9).blk t).view.set := by
  have hi0 : (i 0).val < 2048 := (i 0).isLt
  have hi1 : (i 1).val < 1024 := (i 1).isLt
  have hN : 8 * ((i 1).val / 128) + (i 0).val / 256 < grid1.N := by rw [N_1]; omega
  refine ⟨⟨8 * ((i 1).val / 128) + (i 0).val / 256, hN⟩, flush1_9 _, ?_⟩
  rw [mem_blk]
  obtain ⟨e0, e1⟩ := idx_facts ⟨8 * ((i 1).val / 128) + (i 0).val / 256, hN⟩
  intro a
  match a with
  | ⟨0, _⟩ =>
    show win1_9.index ⟨8 * ((i 1).val / 128) + (i 0).val / 256, hN⟩ (0 : Fin 2) * 256 ≤ (i 0).val
      ∧ (i 0).val < win1_9.index ⟨8 * ((i 1).val / 128) + (i 0).val / 256, hN⟩ (0 : Fin 2) * 256 + 256
    rw [e0]
    show (8 * ((i 1).val / 128) + (i 0).val / 256) % 8 * 256 ≤ (i 0).val
      ∧ (i 0).val < (8 * ((i 1).val / 128) + (i 0).val / 256) % 8 * 256 + 256
    omega
  | ⟨1, _⟩ =>
    show win1_9.index ⟨8 * ((i 1).val / 128) + (i 0).val / 256, hN⟩ (1 : Fin 2) * 128 ≤ (i 1).val
      ∧ (i 1).val < win1_9.index ⟨8 * ((i 1).val / 128) + (i 0).val / 256, hN⟩ (1 : Fin 2) * 128 + 128
    rw [e1]
    show (8 * ((i 1).val / 128) + (i 0).val / 256) / 8 * 128 ≤ (i 1).val
      ∧ (i 1).val < (8 * ((i 1).val / 128) + (i 0).val / 256) / 8 * 128 + 128
    omega

/-- If what every point leaves in its output block is that block of one whole-array function, the attention array
    after the launch is that function. -/
theorem arr9_of_after (c : Dev nD) (OA : S2048x1024.Idx → EReal)
    (h : ∀ (t : Fin cfg1.N) (r : Fin 256) (col : Fin 128),
      (Attn.dat (F := Ideal) V c).after 9 t (ix2 r col) = OA (ix2 (rowOf t r) (colOf t col))) :
    (Attn.dat (F := Ideal) V c).arrAt 9 cfg1.N = OA :=
  (Attn.dat (F := Ideal) V c).arrAt_eq_of_cover 9 OA (fun t _ => by
    funext y
    obtain ⟨r, q, rfl⟩ : ∃ (r : Fin 256) (q : Fin 128), y = ix2 r q := ⟨y 0, y 1, eq_ix2 y⟩
    show (Attn.dat (F := Ideal) V c).after 9 t (ix2 r q) = OA (((cfg1.win 9).blk t).view.emb (ix2 r q))
    rw [emb9, h]) cover

end Cert.KernelIdeal.AttnArr

end
-- ==== Proof.KI.AttnValue.lean ====
/-
  The second launch at one entry of one point's block, and the whole attention array after the launch.

  Point t works on the pair of heads t / 8 and on query rows 256 (t mod 8) …. Column col of its block is coordinate
  col mod 64 of the pair's head col / 64, that is of head 2 (t / 8) + col / 64 of the sixteen; in the array that
  column is 128 (t / 8) + col, whose quotient by 64 is that head and whose remainder is that coordinate. The kept
  buffers after point t were written at the first query tile of t's pair, point 8 (t / 8), from the same pair's
  weights and biases and from the whole key and value projections. A head's output at a row depends on the queries
  only through that row. So the entry is the head's attention output at row 256 (t mod 8) + r, as a function of the
  nine arrays the launch finds; and since the 64 blocks tile the array, the array ends holding that function.
-/
import proofs.«114948_j41841571398363_2_alg».proof.Proof.KI.AttnKept
import proofs.«114948_j41841571398363_2_alg».proof.Proof.KI.AttnTileAt
import proofs.«114948_j41841571398363_2_alg».proof.Proof.KI.AttnBridge
import proofs.«114948_j41841571398363_2_alg».proof.Proof.KI.AttnBlocks
import proofs.«114948_j41841571398363_2_alg».proof.Proof.KI.AttnSpec
import proofs.«114948_j41841571398363_2_alg».proof.Proof.KI.AttnArr

set_option maxRecDepth 16384

noncomputable section

namespace Cert.KernelIdeal.AttnValue

open Cert.KernelIdeal Cert.KernelIdeal.Gen
open Idealize.ShloMosaic Idealize.ShloMosaic.TcCoe Idealize.ShloMosaic.ValueIdx Idealize.SL.Sem
open scoped BigOperators

/-! ## A head's output at a row depends on the queries through that row only -/

section Rows
variable {R R' : Type}

theorem mx_row (s : R → Fin 2048 → EReal) (s' : R' → Fin 2048 → EReal) (r : R) (r' : R') (h : ∀ k, s r k = s' r' k) :
    AttnMath.mx s r = AttnMath.mx s' r' := by
  unfold AttnMath.mx
  exact congrArg (fun f => (Finset.univ : Finset (Fin 2048)).fold max AttnMath.negInf f) (funext h)

theorem pr_row (s : R → Fin 2048 → EReal) (s' : R' → Fin 2048 → EReal) (r : R) (r' : R') (h : ∀ k, s r k = s' r' k) (k : Fin 2048) :
    AttnMath.pr s r k = AttnMath.pr s' r' k := by
  unfold AttnMath.pr
  rw [h k, mx_row s s' r r' h]

theorem sm_row (s : R → Fin 2048 → EReal) (s' : R' → Fin 2048 → EReal) (r : R) (r' : R') (h : ∀ k, s r k = s' r' k) (k : Fin 2048) :
    AttnMath.sm s r k = AttnMath.sm s' r' k := by
  unfold AttnMath.sm
  rw [pr_row s s' r r' h k]
  exact congrArg (fun z => Ideal.div (AttnMath.pr s' r' k) z) (Finset.sum_congr rfl fun k' _ => pr_row s s' r r' h k')

theorem headOut_row (qh : R → Fin 64 → EReal) (qh' : R' → Fin 64 → EReal) (kh vh : Fin 2048 → Fin 64 → EReal) (r : R) (r' : R')
    (h : ∀ d, qh r d = qh' r' d) (e : Fin 64) :
    AttnMath.headOut qh kh vh r e = AttnMath.headOut qh' kh vh r' e := by
  unfold AttnMath.headOut AttnMath.av
  exact Finset.sum_congr rfl fun k _ => congrArg (fun z => z * vh k e)
    (sm_row (AttnMath.sc qh kh) (AttnMath.sc qh' kh) r r' (fun k => by
      unfold AttnMath.sc
      exact congrArg (fun z => z * AttnMath.eighth) (Finset.sum_congr rfl fun d _ => by rw [h d])) k)

end Rows

/-! ## The block at an entry whose column is given with its head and coordinate -/

theorem tile_at' (qt : Vec Ideal S256x64 .f32) (wq : Vec Ideal S2x64x64 .f32) (bq : Vec Ideal S2x1x64 .f32)
    (kh vh : Vec Ideal S2x2048x64 .bf16) (j : Fin 2) (r : Fin 256) (e : Fin 64) (col : Fin 128) (hc : col.val = 64 * j.val + e.val) :
    Attn.tile (F := Ideal) qt wq bq kh vh (ix2 r col)
      = AttnMath.headOut
          (AttnMath.headLin (fun r d => qt (ix2 r d)) (fun e d => wq (ix3 j e d)) (fun e => bq (ix3 j (0 : Fin 1) e)))
          (fun k d => kh (ix3 j k d)) (fun k e => vh (ix3 j k e)) r e := by
  have hcol : col = (⟨64 * j.val + e.val, by have := j.isLt; have := e.isLt; omega⟩ : Fin 128) := Fin.ext hc
  rw [hcol]
  exact AttnTileAt.tile_at qt wq bq kh vh j r e

/-! ## One point's block at an entry -/

variable (V : (c : Dev nD) → (b : Ref sig .tc) → Buf (Elt Ideal) ((c : Thread nD τ).loc b))

/-- The first query tile of a point's pair of heads works on the same pair. -/
theorem headAt_anchor (t : Fin cfg1.N) (j : Fin 2) :
    AttnBlocks.headAt (Attn.anchor t.val t.isLt) j = AttnBlocks.headAt t j :=
  Fin.ext (by show 2 * ((8 * (t.val / 8)) / 8) + j.val = 2 * (t.val / 8) + j.val; omega)

/-- Entry (r, col) of the block point t writes: the attention output of head 2 (t / 8) + col / 64 at row
    256 (t mod 8) + r, coordinate col mod 64, from the nine arrays the launch finds. -/
theorem after9_at (c : Dev nD) (t : Fin cfg1.N) (r : Fin 256) (col : Fin 128) :
    (Attn.dat (F := Ideal) V c).after 9 t (ix2 r col)
      = AttnSpec.OA (V c main_v3_0) (V c main_v3_1) (V c main_v3_2) (V c main_arg8) (V c main_arg4) (V c main_arg6) (V c main_v1) (V c main_v0) (V c main_v2)
          (ix2 (AttnArr.rowOf t r) (AttnArr.colOf t col)) := by
  have hcl : col.val < 128 := col.isLt
  have ht : t.val < 64 := AttnArr.lt64 t
  obtain ⟨j, e, hc⟩ : ∃ (j : Fin 2) (e : Fin 64), col.val = 64 * j.val + e.val :=
    ⟨⟨col.val / 64, by omega⟩, ⟨col.val % 64, by omega⟩, by show col.val = 64 * (col.val / 64) + col.val % 64; omega⟩
  have hj : j.val < 2 := j.isLt
  have he : e.val < 64 := e.isLt
  -- the array's column: its head and its coordinate
  have hH : ∀ hp, (⟨(AttnArr.colOf t col).val / 64, hp⟩ : Fin 16) = AttnBlocks.headAt t j := fun hp =>
    Fin.ext (by show (128 * (t.val / 8) + col.val) / 64 = 2 * (t.val / 8) + j.val; omega)
  have hE : ∀ hp, (⟨(AttnArr.colOf t col).val % 64, hp⟩ : Fin 64) = e := fun hp =>
    Fin.ext (by show (128 * (t.val / 8) + col.val) % 64 = e.val; omega)
  rw [AttnSpec.OA_apply, hH, hE]
  -- the block: the tile of the point's blocks and of the kept buffers of the pair's first point
  rw [Attn.after9_eq_tile]
  obtain ⟨hK, hV⟩ := Attn.kept_eq V c t.val t.isLt
  rw [hK, hV]
  refine (tile_at' _ _ _ _ _ j r e col hc).trans ?_
  -- the head's keys and values: the pair's first point's slabs are the head's arrays
  have hKf : (fun (k : Fin 2048) (d : Fin 64) =>
        Attn.keptK (F := Ideal) (Attn.blk V c 1 (Attn.anchor t.val t.isLt)) (Attn.blk V c 4 (Attn.anchor t.val t.isLt))
          (Attn.blk V c 7 (Attn.anchor t.val t.isLt)) (ix3 j k d))
      = AttnSpec.headArr (V c main_v3_1) (V c main_arg4) (V c main_v0) (AttnBlocks.headAt t j) :=
    funext fun k => funext fun d => by
      rw [AttnBridge.keptK_at]
      unfold AttnSpec.headArr AttnMath.headLin
      dsimp only
      rw [AttnBlocks.blk7_at, headAt_anchor]
      exact congrArg (fun z => z + (V c main_v0 : S16x1x64.Idx → EReal) (ix3 (AttnBlocks.headAt t j) (0 : Fin 1) d))
        (Finset.sum_congr rfl fun d' _ => by rw [AttnBlocks.blk1_at, AttnBlocks.blk4_at, headAt_anchor])
  have hVf : (fun (k : Fin 2048) (e : Fin 64) =>
        Attn.keptV (F := Ideal) (Attn.blk V c 2 (Attn.anchor t.val t.isLt)) (Attn.blk V c 5 (Attn.anchor t.val t.isLt))
          (Attn.blk V c 8 (Attn.anchor t.val t.isLt)) (ix3 j k e))
      = AttnSpec.headArr (V c main_v3_2) (V c main_arg6) (V c main_v2) (AttnBlocks.headAt t j) :=
    funext fun k => funext fun d => by
      rw [AttnBridge.keptV_at]
      unfold AttnSpec.headArr AttnMath.headLin
      dsimp only
      rw [AttnBlocks.blk8_at, headAt_anchor]
      exact congrArg (fun z => z + (V c main_v2 : S16x1x64.Idx → EReal) (ix3 (AttnBlocks.headAt t j) (0 : Fin 1) d))
        (Finset.sum_congr rfl fun d' _ => by rw [AttnBlocks.blk2_at, AttnBlocks.blk5_at, headAt_anchor])
  rw [hKf, hVf]
  -- the head's queries at the tile's row r: the head's queries at the array's row
  have hT : ∀ d' : Fin 64, View.ld (Attn.blk V c 0 t) (Attn.rTile (grid1.coords t)) (ix2 r d')
      = (V c main_v3_0 : S2048x64.Idx → EReal) (ix2 (AttnArr.rowOf t r) d') := fun d' =>
    (AttnBlocks.tileRows_at (F := Ideal) (Attn.blk V c 0 t) t r d').trans (AttnBlocks.blk0_at V c t (AttnBlocks.rowAt t r) d')
  refine headOut_row _ (AttnSpec.headArr (V c main_v3_0) (V c main_arg8) (V c main_v1) (AttnBlocks.headAt t j)) _ _ r
    (AttnArr.rowOf t r) (fun d => ?_) e
  unfold AttnSpec.headArr AttnMath.headLin
  dsimp only
  rw [AttnBlocks.blk6_at]
  exact congrArg (fun z => z + (V c main_v1 : S16x1x64.Idx → EReal) (ix3 (AttnBlocks.headAt t j) (0 : Fin 1) d))
    (Finset.sum_congr rfl fun d' _ => by rw [hT d', AttnBlocks.blk3_at])

/-- The attention array after the whole launch. -/
theorem arr9 (c : Dev nD) :
    (Attn.dat (F := Ideal) V c).arrAt 9 cfg1.N
      = AttnSpec.OA (V c main_v3_0) (V c main_v3_1) (V c main_v3_2) (V c main_arg8) (V c main_arg4) (V c main_arg6) (V c main_v1) (V c main_v0) (V c main_v2) :=
  AttnArr.arr9_of_after V c _ (after9_at V c)

end Cert.KernelIdeal.AttnValue

end
-- ==== Proof.KI.OutProjArr.lean ====
/-
  The third launch, from blocks to the whole array. Point t of its grid holds rows 256·t … 256·t + 255 of the two
  [2048, 1024] arrays (the attention result and the layer's input) beside the whole weight matrix and the three
  whole vectors, and writes rows 256·t … 256·t + 255 of the result. The value the body stores at (r, j) of its block
  is a function of row r of the two row blocks only; read through the blocks' positions it is the same function of
  row 256·t + r of the whole arrays. The eight blocks tile the 2048 rows (row s lies in block s / 256), so after the
  launch the result array holds, at every (s, j), the normalised row s of  O · woᵀ + bo + X  at column j.

  Last, when the attention array O is the side-by-side concatenation of the heads' outputs, that array is the
  function the whole computation is specified to produce.
-/
import proofs.«114948_j41841571398363_2_alg».proof.Proof.KI.OutProj
import proofs.«114948_j41841571398363_2_alg».proof.Proof.KI.OutProjValue
import proofs.«114948_j41841571398363_2_alg».proof.Proof.Spec
import Idealize.ShloMosaic.Lib.Pipeline.Value

set_option maxRecDepth 16384

noncomputable section

namespace Cert.KernelIdeal.OutProjArr

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-! ## The stored block is the payload of the six input blocks -/

theorem zero2 : (![0, 0] : Fin 2 → ℕ) = fun _ => 0 := funext fun a => by
  match a with
  | ⟨0, _⟩ => rfl
  | ⟨1, _⟩ => rfl

theorem zero1 : (![0] : Fin 1 → ℕ) = fun _ => 0 := funext fun a => by
  match a with
  | ⟨0, _⟩ => rfl

/-- Every access of the body is of a whole block at offset zero, so the block it leaves is the payload of the six
    input blocks themselves. -/
theorem outY_eq_pay (o : Vec Ideal S256x1024 .f32) (wo : Vec Ideal S1024x1024 .f32) (bo g be : Vec Ideal S1024 .f32)
    (x : Vec Ideal S256x1024 .f32) :
    OutProj.outY (F := Ideal) o wo bo g be x = k2_pay1 (F := Ideal) o wo bo x g be := by
  unfold OutProj.outY
  rw [View.canon_unit_zero zero2]
  simp only [View.ld_unit_zero (S := S256x1024) zero2, View.ld_unit_zero (S := S1024x1024) zero2, View.ld_unit_zero (S := S1024) zero1]

/-- The stored block at row r, column j. -/
theorem outY_at (o : Vec Ideal S256x1024 .f32) (wo : Vec Ideal S1024x1024 .f32) (bo g be : Vec Ideal S1024 .f32)
    (x : Vec Ideal S256x1024 .f32) (r : Fin 256) (j : Fin 1024) :
    OutProj.outY (F := Ideal) o wo bo g be x (ix2 r j)
      = ((OutProjValue.lin o wo bo x r j - OutProjValue.rowMean o wo bo x r)
            * Ideal.rsqrt (OutProjValue.rowVar o wo bo x r + Ideal.ofBits .f32 0x3727C5AC#32)) * g (ix1 j)
          + be (ix1 j) := by
  rw [outY_eq_pay]
  exact OutProjValue.k2_pay1_apply o wo bo g be x r j

/-! ## The same row function over whole arrays -/

/-- Entry (s, j) of  O · woᵀ + bo + X  over the whole 2048-row arrays. -/
def linA (O : S2048x1024.Idx → EReal) (wo : S1024x1024.Idx → EReal) (bo : S1024.Idx → EReal) (X : S2048x1024.Idx → EReal)
    (s : Fin 2048) (j : Fin 1024) : EReal :=
  (∑ k : Fin 1024, O (ix2 s k) * wo (ix2 j k)) + bo (ix1 j) + X (ix2 s j)

/-- Row s's mean. -/
def meanA (O : S2048x1024.Idx → EReal) (wo : S1024x1024.Idx → EReal) (bo : S1024.Idx → EReal) (X : S2048x1024.Idx → EReal)
    (s : Fin 2048) : EReal :=
  Ideal.div (∑ j : Fin 1024, linA O wo bo X s j) (Ideal.ofBits .f32 0x44800000#32)

/-- Row s's variance. -/
def varA (O : S2048x1024.Idx → EReal) (wo : S1024x1024.Idx → EReal) (bo : S1024.Idx → EReal) (X : S2048x1024.Idx → EReal)
    (s : Fin 2048) : EReal :=
  Ideal.div (∑ j : Fin 1024, (linA O wo bo X s j - meanA O wo bo X s) * (linA O wo bo X s j - meanA O wo bo X s))
    (Ideal.ofBits .f32 0x44800000#32)

/-- The normalised, scaled and shifted entry (s, j). -/
def outA (O : S2048x1024.Idx → EReal) (wo : S1024x1024.Idx → EReal) (bo g be : S1024.Idx → EReal) (X : S2048x1024.Idx → EReal)
    (s : Fin 2048) (j : Fin 1024) : EReal :=
  ((linA O wo bo X s j - meanA O wo bo X s) * Ideal.rsqrt (varA O wo bo X s + Ideal.ofBits .f32 0x3727C5AC#32)) * g (ix1 j)
    + be (ix1 j)

/-- The whole result array. -/
def GA (O : S2048x1024.Idx → EReal) (wo : S1024x1024.Idx → EReal) (bo g be : S1024.Idx → EReal) (X : S2048x1024.Idx → EReal) :
    S2048x1024.Idx → EReal := fun i =>
  outA O wo bo g be X ⟨(i 0).val, (i 0).isLt⟩ ⟨(i 1).val, (i 1).isLt⟩

theorem GA_apply (O : S2048x1024.Idx → EReal) (wo : S1024x1024.Idx → EReal) (bo g be : S1024.Idx → EReal)
    (X : S2048x1024.Idx → EReal) (s : Fin 2048) (j : Fin 1024) : GA O wo bo g be X (ix2 s j) = outA O wo bo g be X s j := rfl

/-- A block row whose entries of  o · woᵀ + bo + x  are those of row s of the whole arrays, with the same scale and
    shift, is normalised to row s of the whole result. -/
theorem row_congr (o : S256x1024.Idx → EReal) (wo : S1024x1024.Idx → EReal) (bo g be : S1024.Idx → EReal) (x : S256x1024.Idx → EReal)
    (O : S2048x1024.Idx → EReal) (WO : S1024x1024.Idx → EReal) (BO G BE : S1024.Idx → EReal) (X : S2048x1024.Idx → EReal)
    (r : Fin 256) (s : Fin 2048) (hl : ∀ j, OutProjValue.lin o wo bo x r j = linA O WO BO X s j)
    (hg : ∀ j, g (ix1 j) = G (ix1 j)) (hb : ∀ j, be (ix1 j) = BE (ix1 j)) (j : Fin 1024) :
    ((OutProjValue.lin o wo bo x r j - OutProjValue.rowMean o wo bo x r)
          * Ideal.rsqrt (OutProjValue.rowVar o wo bo x r + Ideal.ofBits .f32 0x3727C5AC#32)) * g (ix1 j) + be (ix1 j)
      = outA O WO BO G BE X s j := by
  have hf : OutProjValue.lin o wo bo x r = linA O WO BO X s := funext hl
  unfold OutProjValue.rowVar OutProjValue.rowMean outA varA meanA
  rw [hf, hg j, hb j]

/-! ## Where each block sits in its array -/

variable (V : (c : Dev nD) → (b : Ref sig .tc) → Buf (Elt Ideal) ((c : Thread nD τ).loc b))

/-- The six arrays the launch reads, as the launch finds them. -/
abbrev aO (c : Dev nD) : S2048x1024.Idx → EReal := V c main_v4
abbrev aWo (c : Dev nD) : S1024x1024.Idx → EReal := V c main_arg10
abbrev aBo (c : Dev nD) : S1024.Idx → EReal := V c main_arg11
abbrev aG (c : Dev nD) : S1024.Idx → EReal := V c main_arg12
abbrev aBe (c : Dev nD) : S1024.Idx → EReal := V c main_arg13
abbrev aX (c : Dev nD) : S2048x1024.Idx → EReal := V c main_arg0

example : Pipeline.arrRef spec2 0 = main_v4 := rfl
example : Pipeline.arrRef spec2 1 = main_arg10 := rfl
example : Pipeline.arrRef spec2 2 = main_arg11 := rfl
example : Pipeline.arrRef spec2 3 = main_arg12 := rfl
example : Pipeline.arrRef spec2 4 = main_arg13 := rfl
example : Pipeline.arrRef spec2 5 = main_arg0 := rfl
example : Pipeline.arrRef spec2 6 = main_v5 := rfl

/-- The block indices at every grid point: the two row blocks and the result move with the point along the rows; the
    weights and the three vectors stay at block zero. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 1) = 0 ∧ win2_3.index t (0 : Fin 1) = 0 ∧ win2_4.index t (0 : Fin 1) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-- Row r of the block at point t is row 256·t + r of the array. -/
def row (t : Fin cfg2.N) (r : Fin 256) : Fin 2048 :=
  ⟨256 * t.val + r.val, by
    have ht : t.val < grid2.N := t.isLt
    rw [N_2] at ht
    have := r.isLt
    omega⟩

theorem emb0 (t : Fin cfg2.N) (r : Fin 256) (k : Fin 1024) :
    ((cfg2.win 0).blk t).view.emb (ix2 r k) = (ix2 (row t r) k : S2048x1024.Idx) := by
  obtain ⟨e0, e1, -⟩ := idx_facts t
  funext a; apply Fin.ext
  match a with
  | ⟨0, _⟩ => show win2_0.index t (0 : Fin 2) * 256 + 1 * r.val = 256 * t.val + r.val; omega
  | ⟨1, _⟩ => show win2_0.index t (1 : Fin 2) * 1024 + 1 * k.val = k.val; omega

theorem emb1 (t : Fin cfg2.N) (j : Fin 1024) (k : Fin 1024) :
    ((cfg2.win 1).blk t).view.emb (ix2 j k) = (ix2 j k : S1024x1024.Idx) := by
  obtain ⟨-, -, e0, e1, -⟩ := idx_facts t
  funext a; apply Fin.ext
  match a with
  | ⟨0, _⟩ => show win2_1.index t (0 : Fin 2) * 1024 + 1 * j.val = j.val; omega
  | ⟨1, _⟩ => show win2_1.index t (1 : Fin 2) * 1024 + 1 * k.val = k.val; omega

theorem emb2 (t : Fin cfg2.N) (j : Fin 1024) : ((cfg2.win 2).blk t).view.emb (ix1 j) = (ix1 j : S1024.Idx) := by
  obtain ⟨-, -, -, -, e, -⟩ := idx_facts t
  funext a; apply Fin.ext
  match a with
  | ⟨0, _⟩ => show win2_2.index t (0 : Fin 1) * 1024 + 1 * j.val = j.val; omega

theorem emb3 (t : Fin cfg2.N) (j : Fin 1024) : ((cfg2.win 3).blk t).view.emb (ix1 j) = (ix1 j : S1024.Idx) := by
  obtain ⟨-, -, -, -, -, e, -⟩ := idx_facts t
  funext a; apply Fin.ext
  match a with
  | ⟨0, _⟩ => show win2_3.index t (0 : Fin 1) * 1024 + 1 * j.val = j.val; omega

theorem emb4 (t : Fin cfg2.N) (j : Fin 1024) : ((cfg2.win 4).blk t).view.emb (ix1 j) = (ix1 j : S1024.Idx) := by
  obtain ⟨-, -, -, -, -, -, e, -⟩ := idx_facts t
  funext a; apply Fin.ext
  match a with
  | ⟨0, _⟩ => show win2_4.index t (0 : Fin 1) * 1024 + 1 * j.val = j.val; omega

theorem emb5 (t : Fin cfg2.N) (r : Fin 256) (k : Fin 1024) :
    ((cfg2.win 5).blk t).view.emb (ix2 r k) = (ix2 (row t r) k : S2048x1024.Idx) := by
  obtain ⟨-, -, -, -, -, -, -, e0, e1, -⟩ := idx_facts t
  funext a; apply Fin.ext
  match a with
  | ⟨0, _⟩ => show win2_5.index t (0 : Fin 2) * 256 + 1 * r.val = 256 * t.val + r.val; omega
  | ⟨1, _⟩ => show win2_5.index t (1 : Fin 2) * 1024 + 1 * k.val = k.val; omega

theorem emb6 (t : Fin cfg2.N) (r : Fin 256) (k : Fin 1024) :
    ((cfg2.win 6).blk t).view.emb (ix2 r k) = (ix2 (row t r) k : S2048x1024.Idx) := by
  obtain ⟨-, -, -, -, -, -, -, -, -, e0, e1⟩ := idx_facts t
  funext a; apply Fin.ext
  match a with
  | ⟨0, _⟩ => show win2_6.index t (0 : Fin 2) * 256 + 1 * r.val = 256 * t.val + r.val; omega
  | ⟨1, _⟩ => show win2_6.index t (1 : Fin 2) * 1024 + 1 * k.val = k.val; omega

/-- Each input block read at an entry is its array read where the block sits. -/
theorem blk0_apply (c : Dev nD) (t : Fin cfg2.N) (r : Fin 256) (k : Fin 1024) :
    OutProj.blk V c 0 t (ix2 r k) = aO V c (ix2 (row t r) k) := by
  show aO V c (((cfg2.win 0).blk t).view.emb (ix2 r k)) = _
  rw [emb0]
theorem blk1_apply (c : Dev nD) (t : Fin cfg2.N) (j k : Fin 1024) : OutProj.blk V c 1 t (ix2 j k) = aWo V c (ix2 j k) := by
  show aWo V c (((cfg2.win 1).blk t).view.emb (ix2 j k)) = _
  rw [emb1]
theorem blk2_apply (c : Dev nD) (t : Fin cfg2.N) (j : Fin 1024) : OutProj.blk V c 2 t (ix1 j) = aBo V c (ix1 j) := by
  show aBo V c (((cfg2.win 2).blk t).view.emb (ix1 j)) = _
  rw [emb2]
theorem blk3_apply (c : Dev nD) (t : Fin cfg2.N) (j : Fin 1024) : OutProj.blk V c 3 t (ix1 j) = aG V c (ix1 j) := by
  show aG V c (((cfg2.win 3).blk t).view.emb (ix1 j)) = _
  rw [emb3]
theorem blk4_apply (c : Dev nD) (t : Fin cfg2.N) (j : Fin 1024) : OutProj.blk V c 4 t (ix1 j) = aBe V c (ix1 j) := by
  show aBe V c (((cfg2.win 4).blk t).view.emb (ix1 j)) = _
  rw [emb4]
theorem blk5_apply (c : Dev nD) (t : Fin cfg2.N) (r : Fin 256) (k : Fin 1024) :
    OutProj.blk V c 5 t (ix2 r k) = aX V c (ix2 (row t r) k) := by
  show aX V c (((cfg2.win 5).blk t).view.emb (ix2 r k)) = _
  rw [emb5]

/-- Row r of the blocks' o · woᵀ + bo + x at point t is row 256·t + r of the arrays'. -/
theorem lin_blk (c : Dev nD) (t : Fin cfg2.N) (r : Fin 256) (j : Fin 1024) :
    OutProjValue.lin (OutProj.blk V c 0 t) (OutProj.blk V c 1 t) (OutProj.blk V c 2 t) (OutProj.blk V c 5 t) r j
      = linA (aO V c) (aWo V c) (aBo V c) (aX V c) (row t r) j := by
  unfold OutProjValue.lin linA
  rw [blk2_apply, blk5_apply]
  exact congrArg (fun z => z + aBo V c (ix1 j) + aX V c (ix2 (row t r) j))
    (Finset.sum_congr rfl fun k _ => by rw [blk0_apply, blk1_apply])

/-! ## What each point writes back, and the array after the launch -/

/-- What point t writes back is block t of the whole result. -/
theorem flushed_eq (c : Dev nD) (t : Fin cfg2.N) :
    (OutProj.dat (F := Ideal) V c).flushed 6 t
      = ((cfg2.win 6).blk t).view.read (Elt Ideal) (GA (aO V c) (aWo V c) (aBo V c) (aG V c) (aBe V c) (aX V c)) := by
  show (cfg2.win 6).cut (grid2.coords t) ((OutProj.dat (F := Ideal) V c).after 6 t) = _
  rw [OutProj.after6]
  funext y
  obtain ⟨r, q, rfl⟩ : ∃ (r : Fin 256) (q : Fin 1024), y = ix2 r q := ⟨y 0, y 1, eq_ix2 y⟩
  show OutProj.outY (F := Ideal) (OutProj.blk V c 0 t) (OutProj.blk V c 1 t) (OutProj.blk V c 2 t) (OutProj.blk V c 3 t)
      (OutProj.blk V c 4 t) (OutProj.blk V c 5 t) (ix2 r q)
    = GA (aO V c) (aWo V c) (aBo V c) (aG V c) (aBe V c) (aX V c) (((cfg2.win 6).blk t).view.emb (ix2 r q))
  rw [emb6, outY_at, GA_apply]
  exact row_congr _ _ _ _ _ _ _ _ _ _ _ _ r (row t r) (fun j => lin_blk V c t r j) (fun j => blk3_apply V c t j)
    (fun j => blk4_apply V c t j) q

/-- An index of the result array is in point t's block iff each coordinate is in the block's range on its axis. -/
theorem mem_blk (t : Fin cfg2.N) (i : S2048x1024.Idx) :
    i ∈ ((cfg2.win 6).blk t).view.set ↔ ∀ a : Fin 2, win2_6.index t a * S256x1024.size a ≤ (i a).val
      ∧ (i a).val < win2_6.index t a * S256x1024.size a + S256x1024.size a := by
  show i ∈ ((View.whole main_v5).slice (win2_6.rect t)).set ↔ _
  rw [View.set_slice_whole, Rect.mem_set_unit]
  exact Iff.rfl

/-- The eight row blocks tile the array: row s lies in the block of point s / 256. -/
theorem cover (i : S2048x1024.Idx) : ∃ t : Fin cfg2.N, (cfg2.win 6).flush t = true ∧ i ∈ ((cfg2.win 6).blk t).view.set := by
  have hi0 : (i 0).val < 2048 := (i 0).isLt
  have hi1 : (i 1).val < 1024 := (i 1).isLt
  have hN : (i 0).val / 256 < grid2.N := by rw [N_2]; omega
  refine ⟨⟨(i 0).val / 256, hN⟩, flush2_6 _, ?_⟩
  rw [mem_blk]
  obtain ⟨-, -, -, -, -, -, -, -, -, e0, e1⟩ := idx_facts ⟨(i 0).val / 256, hN⟩
  intro a
  match a with
  | ⟨0, _⟩ =>
    show win2_6.index ⟨(i 0).val / 256, hN⟩ (0 : Fin 2) * 256 ≤ (i 0).val
      ∧ (i 0).val < win2_6.index ⟨(i 0).val / 256, hN⟩ (0 : Fin 2) * 256 + 256
    rw [e0]
    show (i 0).val / 256 * 256 ≤ (i 0).val ∧ (i 0).val < (i 0).val / 256 * 256 + 256
    omega
  | ⟨1, _⟩ =>
    show win2_6.index ⟨(i 0).val / 256, hN⟩ (1 : Fin 2) * 1024 ≤ (i 1).val
      ∧ (i 1).val < win2_6.index ⟨(i 0).val / 256, hN⟩ (1 : Fin 2) * 1024 + 1024
    rw [e1]
    omega

/-- The result array after the whole launch: the normalised rows of  O · woᵀ + bo + X, whatever the entry contents. -/
theorem arrOut (c : Dev nD) :
    (OutProj.dat (F := Ideal) V c).arrAt 6 cfg2.N = GA (aO V c) (aWo V c) (aBo V c) (aG V c) (aBe V c) (aX V c) :=
  (OutProj.dat (F := Ideal) V c).arrAt_eq_of_cover 6 (GA (aO V c) (aWo V c) (aBo V c) (aG V c) (aBe V c) (aX V c)) (fun t _ => flushed_eq V c t) cover

/-! ## Against the specified function -/

/-- With the concatenated heads' outputs for O, the whole-array row function is the specified result. -/
theorem GA_cat (x : Cert.Spec.S2048x1024.Idx → EReal) (wk wq wv : Cert.Spec.S64x1024.Idx → EReal)
    (hwk : Cert.Spec.S16x64x64.Idx → EReal) (hbk : Cert.Spec.S16x64.Idx → EReal)
    (hwv : Cert.Spec.S16x64x64.Idx → EReal) (hbv : Cert.Spec.S16x64.Idx → EReal)
    (hwq : Cert.Spec.S16x64x64.Idx → EReal) (hbq : Cert.Spec.S16x64.Idx → EReal)
    (wo : Cert.Spec.S1024x1024.Idx → EReal) (bo gamma beta : Cert.Spec.S1024.Idx → EReal)
    (O : S2048x1024.Idx → EReal)
    (h : ∀ (s : Fin 2048) (k : Fin 1024), O (ix2 s k) = Cert.Spec.cat x wk wq wv hwk hbk hwv hbv hwq hbq s k) :
    GA O wo bo gamma beta x = Cert.Spec.G x wk wq wv hwk hbk hwv hbv hwq hbq wo bo gamma beta := by
  have hl : ∀ s : Fin 2048, linA O wo bo x s = Cert.Spec.y x wk wq wv hwk hbk hwv hbv hwq hbq wo bo s := fun s =>
    funext fun j => by
      show (∑ k : Fin 1024, O (ix2 s k) * wo (ix2 j k)) + bo (ix1 j) + x (ix2 s j)
        = (∑ k : Fin 1024, Cert.Spec.cat x wk wq wv hwk hbk hwv hbv hwq hbq s k * wo (ix2 j k)) + bo (ix1 j) + x (ix2 s j)
      exact congrArg (fun z => z + bo (ix1 j) + x (ix2 s j)) (Finset.sum_congr rfl fun k _ => by rw [h])
  funext i
  show outA O wo bo gamma beta x ⟨(i 0).val, (i 0).isLt⟩ ⟨(i 1).val, (i 1).isLt⟩
    = Cert.Spec.out x wk wq wv hwk hbk hwv hbv hwq hbq wo bo gamma beta ⟨(i 0).val, (i 0).isLt⟩ ⟨(i 1).val, (i 1).isLt⟩
  unfold outA varA meanA Cert.Spec.out Cert.Spec.var Cert.Spec.mu
  rw [hl]

/-- So, when the attention array the launch finds is the concatenation of the heads' outputs of the layer's input
    array under some per-head maps, the result array after the launch is the specified function of that input, those
    maps, and the weight, bias, scale and shift arrays the launch finds. -/
theorem arrOut_eq_G (c : Dev nD) (wk wq wv : Cert.Spec.S64x1024.Idx → EReal)
    (hwk : Cert.Spec.S16x64x64.Idx → EReal) (hbk : Cert.Spec.S16x64.Idx → EReal)
    (hwv : Cert.Spec.S16x64x64.Idx → EReal) (hbv : Cert.Spec.S16x64.Idx → EReal)
    (hwq : Cert.Spec.S16x64x64.Idx → EReal) (hbq : Cert.Spec.S16x64.Idx → EReal)
    (h : ∀ (s : Fin 2048) (k : Fin 1024),
      aO V c (ix2 s k) = Cert.Spec.cat (aX V c) wk wq wv hwk hbk hwv hbv hwq hbq s k) :
    (OutProj.dat (F := Ideal) V c).arrAt 6 cfg2.N
      = Cert.Spec.G (aX V c) wk wq wv hwk hbk hwv hbv hwq hbq (aWo V c) (aBo V c) (aG V c) (aBe V c) :=
  (arrOut V c).trans (GA_cat (aX V c) wk wq wv hwk hbk hwv hbv hwq hbq (aWo V c) (aBo V c) (aG V c) (aBe V c) (aO V c) h)

end Cert.KernelIdeal.OutProjArr

end
-- ==== Proof.KI.Compose.lean ====
/-
  The kernel computes the specification. Reading the last boundary back through the three launches: the result array
  is what the third launch leaves, which is the specification's layer-normalised output once its first operand is the
  concatenated heads; that operand is what the second launch leaves, which is the concatenated heads once the arrays it
  finds are the shared projections, the per-head weights and the re-laid biases; the shared projections are what the
  first launch leaves; and every argument array is, at every boundary, what the launch memory held.
-/
import proofs.«114948_j41841571398363_2_alg».proof.Proof.KI.Bounds
import proofs.«114948_j41841571398363_2_alg».proof.Proof.KI.ProjValue
import proofs.«114948_j41841571398363_2_alg».proof.Proof.KI.AttnValue
import proofs.«114948_j41841571398363_2_alg».proof.Proof.KI.AttnSpec
import proofs.«114948_j41841571398363_2_alg».proof.Proof.KI.OutProjArr

set_option maxRecDepth 16384

noncomputable section

namespace Cert.KernelIdeal.Run

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- After the first launch the three projection arrays are the specification's projections of the launch memory's
    x by the query, key and value weights. -/
theorem proj_q (c : Dev nD) (s : Fin 2048) (d : Fin 64) :
    V2 (F := Ideal) m ρ c main_v3_0 (ix2 s d) = Cert.Spec.proj (m ((c : Thread nD τ).loc main_arg0)) (m ((c : Thread nD τ).loc main_arg2)) s d := by
  show W2 m ρ c (Proc.devRef .tc main_v3_0) (ix2 s d) = _
  rw [show W2 m ρ c (Proc.devRef .tc main_v3_0) = (Proj.dat (V1 m ρ) c).arrAt 4 cfg0.N from W2_arr m ρ c 4,
    ProjValue.arrQ (V1 m ρ) c, ProjValue.projArr_apply]
  show Cert.Spec.proj (W1 m ρ c (Proc.devRef .tc main_arg0)) (W1 m ρ c (Proc.devRef .tc main_arg2)) s d = _
  rw [W1_main_arg0, W1_main_arg2]
theorem proj_k (c : Dev nD) (s : Fin 2048) (d : Fin 64) :
    V2 (F := Ideal) m ρ c main_v3_1 (ix2 s d) = Cert.Spec.proj (m ((c : Thread nD τ).loc main_arg0)) (m ((c : Thread nD τ).loc main_arg1)) s d := by
  show W2 m ρ c (Proc.devRef .tc main_v3_1) (ix2 s d) = _
  rw [show W2 m ρ c (Proc.devRef .tc main_v3_1) = (Proj.dat (V1 m ρ) c).arrAt 5 cfg0.N from W2_arr m ρ c 5,
    ProjValue.arrK (V1 m ρ) c, ProjValue.projArr_apply]
  show Cert.Spec.proj (W1 m ρ c (Proc.devRef .tc main_arg0)) (W1 m ρ c (Proc.devRef .tc main_arg1)) s d = _
  rw [W1_main_arg0, W1_main_arg1]
theorem proj_v (c : Dev nD) (s : Fin 2048) (d : Fin 64) :
    V2 (F := Ideal) m ρ c main_v3_2 (ix2 s d) = Cert.Spec.proj (m ((c : Thread nD τ).loc main_arg0)) (m ((c : Thread nD τ).loc main_arg3)) s d := by
  show W2 m ρ c (Proc.devRef .tc main_v3_2) (ix2 s d) = _
  rw [show W2 m ρ c (Proc.devRef .tc main_v3_2) = (Proj.dat (V1 m ρ) c).arrAt 6 cfg0.N from W2_arr m ρ c 6,
    ProjValue.arrV (V1 m ρ) c, ProjValue.projArr_apply]
  show Cert.Spec.proj (W1 m ρ c (Proc.devRef .tc main_arg0)) (W1 m ρ c (Proc.devRef .tc main_arg3)) s d = _
  rw [W1_main_arg0, W1_main_arg3]

/-- At the second launch's entry the three re-laid bias arrays read, at (h, 0, e), the bias's entry (h, e). -/
theorem bias_q (c : Dev nD) (h : Fin 16) (e : Fin 64) :
    V2 (F := Ideal) m ρ c main_v1 (ix3 h (0 : Fin 1) e) = (m ((c : Thread nD τ).loc main_arg9)) (ix2 h e) := by
  show W2 m ρ c (Proc.devRef .tc main_v1) (ix3 h (0 : Fin 1) e) = _
  rw [W2_main_v1, W1_main_v1]; exact relaid_apply _ _ h e
theorem bias_k (c : Dev nD) (h : Fin 16) (e : Fin 64) :
    V2 (F := Ideal) m ρ c main_v0 (ix3 h (0 : Fin 1) e) = (m ((c : Thread nD τ).loc main_arg5)) (ix2 h e) := by
  show W2 m ρ c (Proc.devRef .tc main_v0) (ix3 h (0 : Fin 1) e) = _
  rw [W2_main_v0, W1_main_v0]; exact relaid_apply _ _ h e
theorem bias_v (c : Dev nD) (h : Fin 16) (e : Fin 64) :
    V2 (F := Ideal) m ρ c main_v2 (ix3 h (0 : Fin 1) e) = (m ((c : Thread nD τ).loc main_arg7)) (ix2 h e) := by
  show W2 m ρ c (Proc.devRef .tc main_v2) (ix3 h (0 : Fin 1) e) = _
  rw [W2_main_v2, W1_main_v2]; exact relaid_apply _ _ h e

/-- After the second launch its result array is the specification's concatenation of the sixteen heads. -/
theorem heads (c : Dev nD) (s : Fin 2048) (C : Fin 1024) :
    V3 (F := Ideal) m ρ c main_v4 (ix2 s C)
      = Cert.Spec.cat (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) s C := by
  show W3 m ρ c (Proc.devRef .tc main_v4) (ix2 s C) = _
  rw [show W3 m ρ c (Proc.devRef .tc main_v4) = (Attn.dat (V2 m ρ) c).arrAt 9 cfg1.N from W3_arr m ρ c 9,
    AttnValue.arr9 (V2 m ρ) c]
  exact AttnSpec.OA_eq_cat _ _ _ _ _ _ _ _ _ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
    (proj_q m ρ c) (proj_k m ρ c) (proj_v m ρ c)
    (W2_main_arg8 m ρ c) (W2_main_arg4 m ρ c) (W2_main_arg6 m ρ c)
    (bias_q m ρ c) (bias_k m ρ c) (bias_v m ρ c) s C

/-- The result: at the last boundary the result array is the specification of the launch memory's fourteen arguments. -/
theorem result_eq (c : Dev nD) :
    W4 (F := Ideal) m ρ c (Proc.devRef .tc main_v5)
      = Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  rw [show W4 m ρ c (Proc.devRef .tc main_v5) = (OutProj.dat (V3 m ρ) c).arrAt 6 cfg2.N from W4_arr m ρ c 6,
    OutProjArr.arrOut_eq_G (V3 m ρ) c (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      (fun s k => by
        show V3 m ρ c main_v4 (ix2 s k) = Cert.Spec.cat (W3 m ρ c (Proc.devRef .tc main_arg0)) _ _ _ _ _ _ _ _ _ s k
        rw [W3_main_arg0]; exact heads m ρ c s k)]
  show Cert.Spec.G (W3 m ρ c (Proc.devRef .tc main_arg0)) _ _ _ _ _ _ _ _ _ (W3 m ρ c (Proc.devRef .tc main_arg10))
    (W3 m ρ c (Proc.devRef .tc main_arg11)) (W3 m ρ c (Proc.devRef .tc main_arg12)) (W3 m ρ c (Proc.devRef .tc main_arg13)) = _
  rw [W3_main_arg0, W3_main_arg10, W3_main_arg11, W3_main_arg12, W3_main_arg13]

end Cert.KernelIdeal.Run

end
-- ==== Proof.RefSpec.lean ====
/-
  The reference program computes the specification.

  The reference is a straight line of whole-array operations. Reading each operation at one index turns it into
  the corresponding stage of the specification: a contraction becomes a sum over its one contracted axis, a
  transpose, broadcast or reshape becomes a change of index, and an elementwise operation acts on the elements at
  that index. Each lemma below reads one named stage at explicit coordinates; the last one assembles them.
-/
import proofs.«114948_j41841571398363_2_alg».proof.Proof.Gen.ReferenceIdeal.Read
import proofs.«114948_j41841571398363_2_alg».proof.Proof.Spec

noncomputable section

open scoped BigOperators

namespace Cert.RefSpec

open Cert.ReferenceIdeal Cert.ReferenceIdeal.Gen Cert.ReferenceIdeal.Read Idealize.ShloMosaic Idealize.ShloMosaic.ValueIdx

/-- An array of single-precision elements over a shape, read as extended reals. -/
abbrev Arr (S : Shape) : Type := (⟨S, EltTy.f32⟩ : BufTy).Contents (Elt Ideal)

/-! ## The shared projections -/

/-- The key projection at row s, coordinate d. -/
theorem v1_at (a0 : Arr S2048x1024) (a1 : Arr S64x1024) (s : Fin 2048) (d : Fin 64) :
    val_main_v1 (F := Ideal) a0 a1 (ix2 s d) = Spec.proj a0 a1 s d := by
  rw [val_main_v1_apply]
  unfold Spec.proj
  refine Finset.sum_congr rfl fun k _ => ?_
  rw [val_main_v0_apply]
  have e1 : lidx_main_v1 (ix2 s d) k = ix2 s k :=
    funext fun a => by match a with | ⟨0, _⟩ => rfl | ⟨1, _⟩ => rfl
  have e2 : idx_main_v0 (ridx_main_v1 (ix2 s d) k) = ix2 d k :=
    funext fun a => by match a with | ⟨0, _⟩ => rfl | ⟨1, _⟩ => rfl
  rw [e1, e2]

/-- The query projection at row s, coordinate d. -/
theorem v3_at (a0 : Arr S2048x1024) (a2 : Arr S64x1024) (s : Fin 2048) (d : Fin 64) :
    val_main_v3 (F := Ideal) a0 a2 (ix2 s d) = Spec.proj a0 a2 s d := by
  rw [val_main_v3_apply]
  unfold Spec.proj
  refine Finset.sum_congr rfl fun k _ => ?_
  rw [val_main_v2_apply]
  have e1 : lidx_main_v3 (ix2 s d) k = ix2 s k :=
    funext fun a => by match a with | ⟨0, _⟩ => rfl | ⟨1, _⟩ => rfl
  have e2 : idx_main_v2 (ridx_main_v3 (ix2 s d) k) = ix2 d k :=
    funext fun a => by match a with | ⟨0, _⟩ => rfl | ⟨1, _⟩ => rfl
  rw [e1, e2]

/-- The value projection at row s, coordinate d. -/
theorem v5_at (a0 : Arr S2048x1024) (a3 : Arr S64x1024) (s : Fin 2048) (d : Fin 64) :
    val_main_v5 (F := Ideal) a0 a3 (ix2 s d) = Spec.proj a0 a3 s d := by
  rw [val_main_v5_apply]
  unfold Spec.proj
  refine Finset.sum_congr rfl fun k _ => ?_
  rw [val_main_v4_apply]
  have e1 : lidx_main_v5 (ix2 s d) k = ix2 s k :=
    funext fun a => by match a with | ⟨0, _⟩ => rfl | ⟨1, _⟩ => rfl
  have e2 : idx_main_v4 (ridx_main_v5 (ix2 s d) k) = ix2 d k :=
    funext fun a => by match a with | ⟨0, _⟩ => rfl | ⟨1, _⟩ => rfl
  rw [e1, e2]

/-! ## The per-head maps -/

/-- Keys of head h at row s, coordinate e. -/
theorem v10_at (a0 : Arr S2048x1024) (w : Arr S64x1024) (hw : Arr S16x64x64) (hb : Arr S16x64)
    (h : Fin 16) (s : Fin 2048) (e : Fin 64) :
    val_main_v10 (F := Ideal) a0 w hw hb (ix3 h s e) = Spec.Kh a0 w hw hb h s e := by
  rw [val_main_v10_apply, val_main_v7_apply, val_main_v9_apply, val_main_v8_apply, val_main_v6_apply,
    Ideal.addf_def]
  unfold Spec.Kh Spec.head
  have eb : idx_main_v8 (idx_main_v9 (ix3 h s e)) = ix2 h e :=
    funext fun a => by match a with | ⟨0, _⟩ => rfl | ⟨1, _⟩ => rfl
  rw [eb]
  refine congrArg (· + hb (ix2 h e)) (Finset.sum_congr rfl fun d _ => ?_)
  have e1 : lidx_main_v6 (idx_main_v7 (ix3 h s e)) d = ix3 h e d :=
    funext fun a => by match a with | ⟨0, _⟩ => rfl | ⟨1, _⟩ => rfl | ⟨2, _⟩ => rfl
  have e2 : ridx_main_v6 (idx_main_v7 (ix3 h s e)) d = ix2 s d :=
    funext fun a => by match a with | ⟨0, _⟩ => rfl | ⟨1, _⟩ => rfl
  rw [e1, e2, v1_at]

/-- Values of head h at row s, coordinate e. -/
theorem v15_at (a0 : Arr S2048x1024) (w : Arr S64x1024) (hw : Arr S16x64x64) (hb : Arr S16x64)
    (h : Fin 16) (s : Fin 2048) (e : Fin 64) :
    val_main_v15 (F := Ideal) a0 w hw hb (ix3 h s e) = Spec.Vh a0 w hw hb h s e := by
  rw [val_main_v15_apply, val_main_v12_apply, val_main_v14_apply, val_main_v13_apply, val_main_v11_apply,
    Ideal.addf_def]
  unfold Spec.Vh Spec.head
  have eb : idx_main_v13 (idx_main_v14 (ix3 h s e)) = ix2 h e :=
    funext fun a => by match a with | ⟨0, _⟩ => rfl | ⟨1, _⟩ => rfl
  rw [eb]
  refine congrArg (· + hb (ix2 h e)) (Finset.sum_congr rfl fun d _ => ?_)
  have e1 : lidx_main_v11 (idx_main_v12 (ix3 h s e)) d = ix3 h e d :=
    funext fun a => by match a with | ⟨0, _⟩ => rfl | ⟨1, _⟩ => rfl | ⟨2, _⟩ => rfl
  have e2 : ridx_main_v11 (idx_main_v12 (ix3 h s e)) d = ix2 s d :=
    funext fun a => by match a with | ⟨0, _⟩ => rfl | ⟨1, _⟩ => rfl
  rw [e1, e2, v5_at]

/-- Queries of head h at row s, coordinate e. -/
theorem v20_at (a0 : Arr S2048x1024) (w : Arr S64x1024) (hw : Arr S16x64x64) (hb : Arr S16x64)
    (h : Fin 16) (s : Fin 2048) (e : Fin 64) :
    val_main_v20 (F := Ideal) a0 w hw hb (ix3 h s e) = Spec.Qh a0 w hw hb h s e := by
  rw [val_main_v20_apply, val_main_v17_apply, val_main_v19_apply, val_main_v18_apply, val_main_v16_apply,
    Ideal.addf_def]
  unfold Spec.Qh Spec.head
  have eb : idx_main_v18 (idx_main_v19 (ix3 h s e)) = ix2 h e :=
    funext fun a => by match a with | ⟨0, _⟩ => rfl | ⟨1, _⟩ => rfl
  rw [eb]
  refine congrArg (· + hb (ix2 h e)) (Finset.sum_congr rfl fun d _ => ?_)
  have e1 : lidx_main_v16 (idx_main_v17 (ix3 h s e)) d = ix3 h e d :=
    funext fun a => by match a with | ⟨0, _⟩ => rfl | ⟨1, _⟩ => rfl | ⟨2, _⟩ => rfl
  have e2 : ridx_main_v16 (idx_main_v17 (ix3 h s e)) d = ix2 s d :=
    funext fun a => by match a with | ⟨0, _⟩ => rfl | ⟨1, _⟩ => rfl
  rw [e1, e2, v3_at]

/-! ## Scores and the row softmax -/

/-- The score of query row q against key row k in head h. -/
theorem v23_at (a0 : Arr S2048x1024) (a1 a2 : Arr S64x1024) (a4 : Arr S16x64x64) (a5 : Arr S16x64) (a8 : Arr S16x64x64) (a9 : Arr S16x64) (h : Fin 16) (q k : Fin 2048) :
    val_main_v23 (F := Ideal) a0 a1 a2 a4 a5 a8 a9 (ix3 h q k) = Spec.score a0 a1 a2 a4 a5 a8 a9 h q k := by
  rw [val_main_v23_apply, val_main_v21_apply, val_main_v22_apply, val_main_cst_apply, Ideal.hostDivf_def,
    Ideal.ofBits_def]
  unfold Spec.score
  refine congrArg (Ideal.div · Spec.eight) (Finset.sum_congr rfl fun d _ => ?_)
  have e1 : lidx_main_v21 (ix3 h q k) d = ix3 h q d :=
    funext fun a => by match a with | ⟨0, _⟩ => rfl | ⟨1, _⟩ => rfl | ⟨2, _⟩ => rfl
  have e2 : ridx_main_v21 (ix3 h q k) d = ix3 h k d :=
    funext fun a => by match a with | ⟨0, _⟩ => rfl | ⟨1, _⟩ => rfl | ⟨2, _⟩ => rfl
  rw [e1, e2, v20_at, v10_at]

/-- The reduced index (h, q) with key k put back on the last axis is (h, q, k). -/
theorem lift_hq (hr : S16x2048x2048.Reduces [2] S16x2048) (h : Fin 16) (q : Fin 2048)
    (k : Fin (S16x2048x2048.size 2)) :
    hr.lift (ix2 h q) k = ix3 h q (⟨k.val, k.isLt⟩ : Fin 2048) := by
  funext c
  apply Fin.ext
  match c with
  | ⟨0, _⟩ => rfl
  | ⟨1, _⟩ => rfl
  | ⟨2, _⟩ => rfl

/-- The maximum-reduction over keys, at (h, q): the fold of max from minus infinity over the row's scores. -/
theorem v24_at (a0 : Arr S2048x1024) (a1 a2 : Arr S64x1024) (a4 : Arr S16x64x64) (a5 : Arr S16x64) (a8 : Arr S16x64x64) (a9 : Arr S16x64) (h : Fin 16) (q : Fin 2048) :
    val_main_v24 (F := Ideal) a0 a1 a2 a4 a5 a8 a9 (ix2 h q) = Spec.rowmax0 a0 a1 a2 a4 a5 a8 a9 h q := by
  unfold val_main_v24
  have hr : S16x2048x2048.Reduces [2] S16x2048 := by decide
  rw [Host.reduce_eq_fold_single FloatOps.maximumf _ _ reducesTo_S16x2048x2048_S16x2048_d2 hr h_S_]
  unfold Spec.rowmax0
  have hf : (val_main_v23 (F := Ideal) a0 a1 a2 a4 a5 a8 a9 ∘ hr.lift (ix2 h q))
      = fun k : Fin 2048 => Spec.score a0 a1 a2 a4 a5 a8 a9 h q k :=
    funext fun k => (congrArg (val_main_v23 (F := Ideal) a0 a1 a2 a4 a5 a8 a9) (lift_hq hr h q k)).trans
      (v23_at a0 a1 a2 a4 a5 a8 a9 h q ⟨k.val, k.isLt⟩)
  exact congrArg (fun f => Finset.fold max Spec.negInf f (Finset.univ : Finset (Fin 2048))) hf

/-- The row maximum as subtracted: the larger of minus infinity and the reduction. -/
theorem v26_at (a0 : Arr S2048x1024) (a1 a2 : Arr S64x1024) (a4 : Arr S16x64x64) (a5 : Arr S16x64) (a8 : Arr S16x64x64) (a9 : Arr S16x64) (h : Fin 16) (q : Fin 2048) :
    val_main_v26 (F := Ideal) a0 a1 a2 a4 a5 a8 a9 (ix2 h q) = Spec.rowmax a0 a1 a2 a4 a5 a8 a9 h q := by
  rw [val_main_v26_apply, val_main_v25_apply, val_main_cst_1_apply, v24_at, Ideal.maximumf_def, Ideal.ofBits_def]
  rfl

/-- The exponential of a score less its row maximum. -/
theorem v30_at (a0 : Arr S2048x1024) (a1 a2 : Arr S64x1024) (a4 : Arr S16x64x64) (a5 : Arr S16x64) (a8 : Arr S16x64x64) (a9 : Arr S16x64) (h : Fin 16) (q k : Fin 2048) :
    val_main_v30 (F := Ideal) a0 a1 a2 a4 a5 a8 a9 (ix3 h q k) = Spec.p a0 a1 a2 a4 a5 a8 a9 h q k := by
  rw [val_main_v30_apply, val_main_v29_apply, val_main_v28_apply, val_main_v27_apply, v23_at,
    Ideal.hostUnary_exp_def, Ideal.subf_def]
  have e : idx_main_v27 (idx_main_v28 (ix3 h q k)) = ix2 h q :=
    funext fun a => by match a with | ⟨0, _⟩ => rfl | ⟨1, _⟩ => rfl
  rw [e, v26_at]
  rfl

/-- The sum of a row's exponentials. -/
theorem v31_at (a0 : Arr S2048x1024) (a1 a2 : Arr S64x1024) (a4 : Arr S16x64x64) (a5 : Arr S16x64) (a8 : Arr S16x64x64) (a9 : Arr S16x64) (h : Fin 16) (q : Fin 2048) :
    val_main_v31 (F := Ideal) a0 a1 a2 a4 a5 a8 a9 (ix2 h q) = Spec.rowsum a0 a1 a2 a4 a5 a8 a9 h q := by
  rw [val_main_v31_apply, val_main_cst_2_apply, Ideal.ofBits_def, Ideal.ofBits_zero_f32, zero_add]
  unfold Spec.rowsum
  refine Finset.sum_congr rfl fun k _ => ?_
  have e : idx_main_v31 (ix2 h q) k = ix3 h q k :=
    funext fun a => by match a with | ⟨0, _⟩ => rfl | ⟨1, _⟩ => rfl | ⟨2, _⟩ => rfl
  rw [e, v30_at]

/-- The attention weight: an exponential divided by its row's sum. -/
theorem v34_at (a0 : Arr S2048x1024) (a1 a2 : Arr S64x1024) (a4 : Arr S16x64x64) (a5 : Arr S16x64) (a8 : Arr S16x64x64) (a9 : Arr S16x64) (h : Fin 16) (q k : Fin 2048) :
    val_main_v34 (F := Ideal) a0 a1 a2 a4 a5 a8 a9 (ix3 h q k) = Spec.attn a0 a1 a2 a4 a5 a8 a9 h q k := by
  rw [val_main_v34_apply, val_main_v33_apply, val_main_v32_apply, v30_at, Ideal.hostDivf_def]
  have e : idx_main_v32 (idx_main_v33 (ix3 h q k)) = ix2 h q :=
    funext fun a => by match a with | ⟨0, _⟩ => rfl | ⟨1, _⟩ => rfl
  rw [e, v31_at]
  rfl

/-! ## Weighted values, heads side by side, output map and residual -/

/-- The output of head h at row q, coordinate d. -/
theorem v35_at (a0 : Arr S2048x1024) (a1 a2 a3 : Arr S64x1024) (a4 : Arr S16x64x64) (a5 : Arr S16x64) (a6 : Arr S16x64x64) (a7 : Arr S16x64) (a8 : Arr S16x64x64) (a9 : Arr S16x64) (h : Fin 16) (q : Fin 2048) (d : Fin 64) :
    val_main_v35 (F := Ideal) a0 a1 a2 a3 a4 a5 a6 a7 a8 a9 (ix3 h q d) = Spec.ohead a0 a1 a2 a3 a4 a5 a6 a7 a8 a9 h q d := by
  rw [val_main_v35_apply]
  unfold Spec.ohead
  refine Finset.sum_congr rfl fun k _ => ?_
  have e1 : lidx_main_v35 (ix3 h q d) k = ix3 h q k :=
    funext fun a => by match a with | ⟨0, _⟩ => rfl | ⟨1, _⟩ => rfl | ⟨2, _⟩ => rfl
  have e2 : ridx_main_v35 (ix3 h q d) k = ix3 h k d :=
    funext fun a => by match a with | ⟨0, _⟩ => rfl | ⟨1, _⟩ => rfl | ⟨2, _⟩ => rfl
  rw [e1, e2, v34_at, v15_at]

/-- The heads laid side by side: feature j of row s is coordinate j mod 64 of head j div 64. -/
theorem v37_at (a0 : Arr S2048x1024) (a1 a2 a3 : Arr S64x1024) (a4 : Arr S16x64x64) (a5 : Arr S16x64) (a6 : Arr S16x64x64) (a7 : Arr S16x64) (a8 : Arr S16x64x64) (a9 : Arr S16x64) (s : Fin 2048) (j : Fin 1024) :
    val_main_v37 (F := Ideal) a0 a1 a2 a3 a4 a5 a6 a7 a8 a9 (ix2 s j) = Spec.cat a0 a1 a2 a3 a4 a5 a6 a7 a8 a9 s j := by
  rw [val_main_v37_apply, val_main_v36_apply]
  unfold Spec.cat
  have e : idx_main_v36 (idx_main_v37 (ix2 s j))
      = ix3 (⟨j.val / 64, by have := j.isLt; omega⟩ : Fin 16) s (⟨j.val % 64, by have := j.isLt; omega⟩ : Fin 64) :=
    funext fun a => Fin.ext (by
      have hs := s.isLt
      have hj := j.isLt
      match a with
      | ⟨0, _⟩ => show (s.val * 1024 + j.val) / 64 % 16 = j.val / 64; omega
      | ⟨1, _⟩ => show (s.val * 1024 + j.val) / 1024 = s.val; omega
      | ⟨2, _⟩ => show (s.val * 1024 + j.val) % 64 = j.val % 64; omega)
  rw [e, v35_at]

/-- The output map with its bias, plus the input, at row s, feature j. -/
theorem v43_at (a0 : Arr S2048x1024) (a1 a2 a3 : Arr S64x1024) (a4 : Arr S16x64x64) (a5 : Arr S16x64) (a6 : Arr S16x64x64) (a7 : Arr S16x64) (a8 : Arr S16x64x64) (a9 : Arr S16x64) (a10 : Arr S1024x1024) (a11 : Arr S1024) (s : Fin 2048) (j : Fin 1024) :
    val_main_v43 (F := Ideal) a0 a1 a2 a3 a4 a5 a6 a7 a8 a9 a10 a11 (ix2 s j) = Spec.y a0 a1 a2 a3 a4 a5 a6 a7 a8 a9 a10 a11 s j := by
  rw [val_main_v43_apply, val_main_v42_apply, val_main_v41_apply, val_main_v40_apply, val_main_v39_apply]
  simp only [Ideal.addf_def]
  unfold Spec.y
  have eb : idx_main_v40 (idx_main_v41 (ix2 s j)) = ix1 j :=
    funext fun a => by match a with | ⟨0, _⟩ => rfl
  rw [eb]
  refine congrArg (fun t => t + a11 (ix1 j) + a0 (ix2 s j)) (Finset.sum_congr rfl fun k _ => ?_)
  have e1 : lidx_main_v39 (ix2 s j) k = ix2 s k :=
    funext fun a => by match a with | ⟨0, _⟩ => rfl | ⟨1, _⟩ => rfl
  have e2 : idx_main_v38 (ridx_main_v39 (ix2 s j) k) = ix2 j k :=
    funext fun a => by match a with | ⟨0, _⟩ => rfl | ⟨1, _⟩ => rfl
  rw [val_main_v38_apply, e1, e2, v37_at]

/-! ## Row normalisation -/

/-- The row mean, read at the one column of the kept axis. -/
theorem v47_at (a0 : Arr S2048x1024) (a1 a2 a3 : Arr S64x1024) (a4 : Arr S16x64x64) (a5 : Arr S16x64) (a6 : Arr S16x64x64) (a7 : Arr S16x64) (a8 : Arr S16x64x64) (a9 : Arr S16x64) (a10 : Arr S1024x1024) (a11 : Arr S1024) (s : Fin 2048) (u : Fin 1) :
    val_main_v47 (F := Ideal) a0 a1 a2 a3 a4 a5 a6 a7 a8 a9 a10 a11 (ix2 s u) = Spec.mu a0 a1 a2 a3 a4 a5 a6 a7 a8 a9 a10 a11 s := by
  rw [val_main_v47_apply, val_main_v45_apply, val_main_v46_apply, val_main_cst_4_apply, val_main_v44_apply,
    val_main_cst_3_apply, Ideal.hostDivf_def]
  simp only [Ideal.ofBits_def]
  rw [Ideal.ofBits_zero_f32, zero_add]
  unfold Spec.mu
  refine congrArg (Ideal.div · Spec.rowLen) (Finset.sum_congr rfl fun k _ => ?_)
  have e : idx_main_v44 (idx_main_v45 (ix2 s u)) k = ix2 s k :=
    funext fun a => by match a with | ⟨0, _⟩ => rfl | ⟨1, _⟩ => rfl
  rw [e, v43_at]

/-- The row variance, read at the one column of the kept axis. -/
theorem v54_at (a0 : Arr S2048x1024) (a1 a2 a3 : Arr S64x1024) (a4 : Arr S16x64x64) (a5 : Arr S16x64) (a6 : Arr S16x64x64) (a7 : Arr S16x64) (a8 : Arr S16x64x64) (a9 : Arr S16x64) (a10 : Arr S1024x1024) (a11 : Arr S1024) (s : Fin 2048) (u : Fin 1) :
    val_main_v54 (F := Ideal) a0 a1 a2 a3 a4 a5 a6 a7 a8 a9 a10 a11 (ix2 s u) = Spec.var a0 a1 a2 a3 a4 a5 a6 a7 a8 a9 a10 a11 s := by
  rw [val_main_v54_apply, val_main_v52_apply, val_main_v53_apply, val_main_cst_6_apply, val_main_v51_apply,
    val_main_cst_5_apply, Ideal.hostDivf_def]
  simp only [Ideal.ofBits_def]
  rw [Ideal.ofBits_zero_f32, zero_add]
  unfold Spec.var
  refine congrArg (Ideal.div · Spec.rowLen) (Finset.sum_congr rfl fun k _ => ?_)
  have e : idx_main_v51 (idx_main_v52 (ix2 s u)) k = ix2 s k :=
    funext fun a => by match a with | ⟨0, _⟩ => rfl | ⟨1, _⟩ => rfl
  have e' : idx_main_v48 (ix2 s k) = ix2 s (0 : Fin 1) :=
    funext fun a => by match a with | ⟨0, _⟩ => rfl | ⟨1, _⟩ => rfl
  rw [e, val_main_v50_apply, val_main_v49_apply, val_main_v48_apply, e', v43_at, v47_at, Ideal.mulf_def,
    Ideal.subf_def]

/-- The normalised, scaled and shifted result at row s, feature j. -/
theorem v67_at (a0 : Arr S2048x1024) (a1 a2 a3 : Arr S64x1024) (a4 : Arr S16x64x64) (a5 : Arr S16x64) (a6 : Arr S16x64x64) (a7 : Arr S16x64) (a8 : Arr S16x64x64) (a9 : Arr S16x64) (a10 : Arr S1024x1024) (a11 : Arr S1024) (a12 a13 : Arr S1024) (s : Fin 2048) (j : Fin 1024) :
    val_main_v67 (F := Ideal) a0 a1 a2 a3 a4 a5 a6 a7 a8 a9 a10 a11 a12 a13 (ix2 s j) = Spec.out a0 a1 a2 a3 a4 a5 a6 a7 a8 a9 a10 a11 a12 a13 s j := by
  rw [val_main_v67_apply, val_main_v66_apply, val_main_v65_apply, val_main_v64_apply, val_main_v63_apply,
    val_main_v62_apply, val_main_v61_apply, val_main_v60_apply, val_main_v59_apply, val_main_v58_apply,
    val_main_v57_apply, val_main_cst_7_apply, val_main_v56_apply, val_main_v55_apply]
  have eg : idx_main_v62 (idx_main_v63 (ix2 s j)) = ix1 j :=
    funext fun a => by match a with | ⟨0, _⟩ => rfl
  have eb : idx_main_v65 (idx_main_v66 (ix2 s j)) = ix1 j :=
    funext fun a => by match a with | ⟨0, _⟩ => rfl
  have e0 : idx_main_v60 (ix2 s j) = ix2 s (0 : Fin 1) :=
    funext fun a => by match a with | ⟨0, _⟩ => rfl | ⟨1, _⟩ => rfl
  have e1 : idx_main_v55 (ix2 s j) = ix2 s (0 : Fin 1) :=
    funext fun a => by match a with | ⟨0, _⟩ => rfl | ⟨1, _⟩ => rfl
  rw [eg, eb, e0, e1, v54_at, v47_at, v43_at]
  simp only [Ideal.addf_def, Ideal.mulf_def, Ideal.subf_def, Ideal.hostUnary_rsqrt_def, Ideal.ofBits_def]
  rfl

/-! ## The whole result -/

/-- The reference's last stage, as a function of the fourteen arguments, is the specification. -/
theorem ref_is_G (a0 : Arr S2048x1024) (a1 a2 a3 : Arr S64x1024) (a4 : Arr S16x64x64) (a5 : Arr S16x64) (a6 : Arr S16x64x64) (a7 : Arr S16x64) (a8 : Arr S16x64x64) (a9 : Arr S16x64) (a10 : Arr S1024x1024) (a11 : Arr S1024) (a12 a13 : Arr S1024) :
    val_main_v67 (F := Ideal) a0 a1 a2 a3 a4 a5 a6 a7 a8 a9 a10 a11 a12 a13 = Spec.G a0 a1 a2 a3 a4 a5 a6 a7 a8 a9 a10 a11 a12 a13 := by
  funext i
  obtain ⟨s, j, rfl⟩ : ∃ (s : Fin 2048) (j : Fin 1024), i = ix2 s j := ⟨i 0, i 1, eq_ix2 i⟩
  rw [v67_at, Spec.G_apply]

section Run

open Idealize.ShloMosaic.TcCoe Idealize.SL.Sem

/-- On each device the result the reference's run leaves is the specification of the fourteen arguments' launch
    contents. -/
theorem res_is_G (m : (ℓ : Loc nD τ sig) → Buf (Elt Ideal) ℓ) (c : Dev nD) :
    Cert.ReferenceIdeal.Value.res_main_v67 (F := Ideal) m c
      = Spec.G (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9))
          (m ((c.tc : Thread nD τ).loc main_arg10)) (m ((c.tc : Thread nD τ).loc main_arg11))
          (m ((c.tc : Thread nD τ).loc main_arg12)) (m ((c.tc : Thread nD τ).loc main_arg13)) :=
  (val_main_v67_eq (F := Ideal) m c).trans (ref_is_G _ _ _ _ _ _ _ _ _ _ _ _ _ _)

end Run

end Cert.RefSpec

end
-- ==== Proof.Alg.lean ====
/-
  The two idealized programs, run from memories that agree on the fourteen arguments, end with equal results: both
  results are the one specification — sixteen-head attention, output projection, residual and layer normalisation — of
  those arguments, entry by entry on the extended reals.
-/
import proofs.«114948_j41841571398363_2_alg».proof.Defs
import proofs.«114948_j41841571398363_2_alg».proof.Proof.Gen.KernelIdeal
import proofs.«114948_j41841571398363_2_alg».proof.Proof.Gen.ReferenceIdeal
import proofs.«114948_j41841571398363_2_alg».proof.Proof.Gen.Pre_finite_inputs
import proofs.«114948_j41841571398363_2_alg».proof.Proof.KI.Compose
import proofs.«114948_j41841571398363_2_alg».proof.Proof.RefSpec

noncomputable section

open Idealize.ShloMosaic Idealize.ShloMosaic.TcCoe Idealize.SL.Sem

namespace Cert.Proof.Alg

/-- The kernel's run ends with its result at the specification of its arguments and the arguments as launched; the
    reference's run ends with its result at the same specification of ITS arguments, which are the kernel's. -/
theorem algebraic [hK : Cert.KernelIdeal.Facts] [hR : Cert.ReferenceIdeal.Facts] [hP : Cert.Pre_finite_inputs.Facts] :
    Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono (fun r h c =>
      ⟨(h c Cert.KernelIdeal.main_v5 (by decide)).trans (Cert.KernelIdeal.Run.result_eq m ρ c),
       (h c Cert.KernelIdeal.main_arg0 (by decide)).trans (Cert.KernelIdeal.Run.W4_main_arg0 m ρ c),
       (h c Cert.KernelIdeal.main_arg1 (by decide)).trans (Cert.KernelIdeal.Run.W4_main_arg1 m ρ c),
       (h c Cert.KernelIdeal.main_arg2 (by decide)).trans (Cert.KernelIdeal.Run.W4_main_arg2 m ρ c),
       (h c Cert.KernelIdeal.main_arg3 (by decide)).trans (Cert.KernelIdeal.Run.W4_main_arg3 m ρ c),
       (h c Cert.KernelIdeal.main_arg4 (by decide)).trans (Cert.KernelIdeal.Run.W4_main_arg4 m ρ c),
       (h c Cert.KernelIdeal.main_arg5 (by decide)).trans (Cert.KernelIdeal.Run.W4_main_arg5 m ρ c),
       (h c Cert.KernelIdeal.main_arg6 (by decide)).trans (Cert.KernelIdeal.Run.W4_main_arg6 m ρ c),
       (h c Cert.KernelIdeal.main_arg7 (by decide)).trans (Cert.KernelIdeal.Run.W4_main_arg7 m ρ c),
       (h c Cert.KernelIdeal.main_arg8 (by decide)).trans (Cert.KernelIdeal.Run.W4_main_arg8 m ρ c),
       (h c Cert.KernelIdeal.main_arg9 (by decide)).trans (Cert.KernelIdeal.Run.W4_main_arg9 m ρ c),
       (h c Cert.KernelIdeal.main_arg10 (by decide)).trans (Cert.KernelIdeal.Run.W4_main_arg10 m ρ c),
       (h c Cert.KernelIdeal.main_arg11 (by decide)).trans (Cert.KernelIdeal.Run.W4_main_arg11 m ρ c),
       (h c Cert.KernelIdeal.main_arg12 (by decide)).trans (Cert.KernelIdeal.Run.W4_main_arg12 m ρ c),
       (h c Cert.KernelIdeal.main_arg13 (by decide)).trans (Cert.KernelIdeal.Run.W4_main_arg13 m ρ c)⟩)
      (Cert.KernelIdeal.Run.run (F := Ideal) m ρ)
  · refine (θ_run Cert.ReferenceIdeal.defs _ _).mono (fun r h c => ⟨(h c).1.trans ?_, (h c).2⟩)
      (Cert.ReferenceIdeal.Value.run (F := Ideal) m' ρ')
    rw [Cert.RefSpec.res_is_G m' c]
    obtain ⟨e0, e1, e2, e3, e4, e5, e6, e7, e8, e9, e10, e11, e12, e13⟩ := hagree c
    rw [e0, e1, e2, e3, e4, e5, e6, e7, e8, e9, e10, e11, e12, e13]

end Cert.Proof.Alg

end
-- ==== Proof.lean ====
/-
  The five claims of this certificate, assembled.

  The kernel computes sixteen-head attention followed by an output projection, a residual and a layer
  normalisation, in three launches: the shared projections of the sequence onto queries, keys and values; per
  pair of heads the per-head linear maps, the scaled scores, a row softmax and the weighted sum of values,
  written as a 128-wide column block of a [2048, 1024] array; and the output projection with bias, residual and
  layer normalisation of each row. The reference computes the same with whole-array operations. On the extended
  reals the two agree term by term: every matrix product on either side is one whole contraction, the kernel's
  product with 1/8 is the reference's quotient by 8, and the softmax and normalisation are the same operations in
  the same order.
-/
import proofs.«114948_j41841571398363_2_alg».proof.Defs
import proofs.«114948_j41841571398363_2_alg».proof.Proof.Gen.Kernel
import proofs.«114948_j41841571398363_2_alg».proof.Proof.Gen.Kernel.Skeleton
import proofs.«114948_j41841571398363_2_alg».proof.Proof.Gen.Kernel.Launch
import proofs.«114948_j41841571398363_2_alg».proof.Proof.Gen.Kernel.Regions
import proofs.«114948_j41841571398363_2_alg».proof.Proof.Gen.Kernel.Points
import proofs.«114948_j41841571398363_2_alg».proof.Proof.Gen.KernelIdeal
import proofs.«114948_j41841571398363_2_alg».proof.Proof.Gen.KernelIdeal.Skeleton
import proofs.«114948_j41841571398363_2_alg».proof.Proof.Gen.KernelIdeal.Launch
import proofs.«114948_j41841571398363_2_alg».proof.Proof.Gen.KernelIdeal.Regions
import proofs.«114948_j41841571398363_2_alg».proof.Proof.Gen.KernelIdeal.Points
import proofs.«114948_j41841571398363_2_alg».proof.Proof.Gen.ReferenceIdeal
import proofs.«114948_j41841571398363_2_alg».proof.Proof.Gen.Pre_finite_inputs
import proofs.«114948_j41841571398363_2_alg».proof.Proof.Reference
import proofs.«114948_j41841571398363_2_alg».proof.Proof.K.Run
import proofs.«114948_j41841571398363_2_alg».proof.Proof.KI.Run
import proofs.«114948_j41841571398363_2_alg».proof.Proof.Alg
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts, by
  exact ⟨fun m ρ _ => Cert.Kernel.Run.frame m ρ, fun m ρ _ => Cert.KernelIdeal.Run.frame m ρ, Cert.Proof.Reference.frame_ri, trivial,
    Cert.Proof.Alg.algebraic⟩⟩

end Cert.Proof

end
